-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x5000x140 : Shape := ⟨3, ![1, 5000, 140]⟩
abbrev S1x5000 : Shape := ⟨2, ![1, 5000]⟩
abbrev S1x8000x2 : Shape := ⟨3, ![1, 8000, 2]⟩
abbrev S1x32x24 : Shape := ⟨3, ![1, 32, 24]⟩
abbrev S120x8 : Shape := ⟨2, ![120, 8]⟩
abbrev S172x64 : Shape := ⟨2, ![172, 64]⟩
abbrev S64 : Shape := ⟨1, ![64]⟩
abbrev S2x64x64 : Shape := ⟨3, ![2, 64, 64]⟩
abbrev S2x64 : Shape := ⟨2, ![2, 64]⟩
abbrev S3x64x64 : Shape := ⟨3, ![3, 64, 64]⟩
abbrev S3x64 : Shape := ⟨2, ![3, 64]⟩
abbrev S192x128 : Shape := ⟨2, ![192, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S1x5000x140 : S_.BroadcastsInDim S1x5000x140 (![] : Fin 0 → Fin S1x5000x140.rank)
  reducesTo_S1x5000x140_S_d0_1_2 : S1x5000x140.ReducesTo [0, 1, 2] S_
  h_S_ : 0 < S_.numel
  bcast_S_S1x32x24 : S_.BroadcastsInDim S1x32x24 (![] : Fin 0 → Fin S1x32x24.rank)
  reducesTo_S1x32x24_S_d0_1_2 : S1x32x24.ReducesTo [0, 1, 2] S_
  bcast_S_S120x8 : S_.BroadcastsInDim S120x8 (![] : Fin 0 → Fin S120x8.rank)
  reducesTo_S120x8_S_d0_1 : S120x8.ReducesTo [0, 1] S_
  bcast_S_S172x64 : S_.BroadcastsInDim S172x64 (![] : Fin 0 → Fin S172x64.rank)
  reducesTo_S172x64_S_d0_1 : S172x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg17
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S192x128 .f32) (main_arg14 : FVec F S128 .f32) (main_arg15 : FVec F S128x64 .f32) (main_arg16 : FVec F S64 .f32) (main_arg17 : FVec F S64x1 .f32) (main_arg18 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S192x128 .f32 := Host.absf main_arg13
  let main_cst_20 : FVec F S_ .f32 := constant S_ .f32 0x7F800000#32
  let main_v55 : FVec F S192x128 .f32 := broadcastInDim S192x128 ![] bcast_S_S192x128 main_cst_20
  let main_v56 : IVec S192x128 1 := cmpf .olt main_v54 main_v55
  let main_c_21 : IVec S_ 1 := constantI S_ 1 1#1
  let main_v57 : IVec S_ 1 := (fun x v => Host.reduce IntOp.andi x v reducesTo_S192x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_v63 main_v67

def fn_part2 {F : FTy → Type} [FloatOps F] (main_arg9 : FVec F S2x64x64 .f32) (main_arg10 : FVec F S2x64 .f32) (main_arg11 : FVec F S3x64x64 .f32) (main_arg12 : FVec F S3x64 .f32) (main_arg13 : FVec F S192x128 .f32) (main_arg14 : FVec F S128 .f32) (main_arg15 : FVec F S128x64 .f32) (main_arg16 : FVec F S64 .f32) (main_arg17 : FVec F S64x1 .f32) (main_arg18 : FVec F S1 .f32) (main_v33 : IVec S_ 1) : IVec S_ 1 :=
  let main_v34 : FVec F S2x64x64 .f32 := Host.absf main_arg9
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S3x64x64 .f32 := Host.absf main_arg11
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_arg17 main_arg18 main_v48 main_v49 main_v50

def fn_part1 {F : FTy → Type} [FloatOps F] (main_arg6 : FVec F S172x64 .f32) (main_arg7 : FVec F S64 .f32) (main_arg8 : FVec F S2x64x64 .f32) (main_arg9 : FVec F S2x64x64 .f32) (main_arg10 : FVec F S2x64 .f32) (main_arg11 : FVec F S3x64x64 .f32) (main_arg12 : FVec F S3x64 .f32) (main_arg13 : FVec F S192x128 .f32) (main_arg14 : FVec F S128 .f32) (main_arg15 : FVec F S128x64 .f32) (main_arg16 : FVec F S64 .f32) (main_arg17 : FVec F S64x1 .f32) (main_arg18 : FVec F S1 .f32) (main_v13 : IVec S_ 1) (main_v16 : IVec S172x64 1) : IVec S_ 1 :=
  let main_c_5 : IVec S_ 1 := constantI S_ 1 1#1
  let main_v17 : IVec S_ 1 := (fun x v => Host.reduce IntOp.andi x v reducesTo_S172x64_S_d0_1 h_S_) main_v16 main_c_5
  let main_v18 : IVec S_ 1 := andi main_v13 main_v17
  let main_v19 : FVec F S172x64 .f32 := Host.absf main_arg6
  let main_cst_6 : FVec F S_ .f32 := constant S_ .f32 0x7F800000#32
  let main_v20 : FVec F S172x64 .f32 := broadcastInDim S172x64 ![] bcast_S_S172x64 main_cst_6
  let main_v21 : IVec S172x64 1 := cmpf .olt main_v19 main_v20
  let main_c_7 : IVec S_ 1 := constantI S_ 1 1#1
  let main_v22 : IVec S_ 1 := (fun x v => Host.reduce IntOp.andi x v reducesTo_S172x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S1x5000x140 .f32) (main_arg1 : IVec S1x5000 32) (main_arg2 : IVec S1x8000x2 32) (main_arg3 : FVec F S1x32x24 .f32) (main_arg4 : FVec F S120x8 .f32) (main_arg5 : FVec F S172x64 .f32) (main_arg6 : FVec F S172x64 .f32) (main_arg7 : FVec F S64 .f32) (main_arg8 : FVec F S2x64x64 .f32) (main_arg9 : FVec F S2x64x64 .f32) (main_arg10 : FVec F S2x64 .f32) (main_arg11 : FVec F S3x64x64 .f32) (main_arg12 : FVec F S3x64 .f32) (main_arg13 : FVec F S192x128 .f32) (main_arg14 : FVec F S128 .f32) (main_arg15 : FVec F S128x64 .f32) (main_arg16 : FVec F S64 .f32) (main_arg17 : FVec F S64x1 .f32) (main_arg18 : FVec F S1 .f32) : IVec S_ 1 :=
  let main_v0 : FVec F S1x5000x140 .f32 := Host.absf main_arg0
  let main_cst : FVec F S_ .f32 := constant S_ .f32 0x7F800000#32
  let main_v1 : FVec F S1x5000x140 .f32 := broadcastInDim S1x5000x140 ![] bcast_S_S1x5000x140 main_cst
  let main_v2 : IVec S1x5000x140 1 := cmpf .olt main_v0 main_v1
  let main_c : IVec S_ 1 := constantI S_ 1 1#1
  let main_v3 : IVec S_ 1 := (fun x v => Host.reduce IntOp.andi x v reducesTo_S1x5000x140_S_d0_1_2 h_S_) main_v2 main_c
  let main_v4 : FVec F S1x32x24 .f32 := Host.absf main_arg3
  let main_cst_0 : FVec F S_ .f32 := constant S_ .f32 0x7F800000#32
  let main_v5 : FVec F S1x32x24 .f32 := broadcastInDim S1x32x24 ![] bcast_S_S1x32x24 main_cst_0
  let main_v6 : IVec S1x32x24 1 := cmpf .olt main_v4 main_v5
  let main_c_1 : IVec S_ 1 := constantI S_ 1 1#1
  let main_v7 : IVec S_ 1 := (fun x v => Host.reduce IntOp.andi x v reducesTo_S1x32x24_S_d0_1_2 h_S_) main_v6 main_c_1
  let main_v8 : IVec S_ 1 := andi main_v3 main_v7
  let main_v9 : FVec F S120x8 .f32 := Host.absf main_arg4
  let main_cst_2 : FVec F S_ .f32 := constant S_ .f32 0x7F800000#32
  let main_v10 : FVec F S120x8 .f32 := broadcastInDim S120x8 ![] bcast_S_S120x8 main_cst_2
  let main_v11 : IVec S120x8 1 := cmpf .olt main_v9 main_v10
  let main_c_3 : IVec S_ 1 := constantI S_ 1 1#1
  let main_v12 : IVec S_ 1 := (fun x v => Host.reduce IntOp.andi x v reducesTo_S120x8_S_d0_1 h_S_) main_v11 main_c_3
  let main_v13 : IVec S_ 1 := andi main_v8 main_v12
  let main_v14 : FVec F S172x64 .f32 := Host.absf main_arg5
  let main_cst_4 : FVec F S_ .f32 := constant S_ .f32 0x7F800000#32
  let main_v15 : FVec F S172x64 .f32 := broadcastInDim S172x64 ![] bcast_S_S172x64 main_cst_4
  let main_v16 : IVec S172x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S1x5000x140 : Shape := ⟨3, ![1, 5000, 140]⟩
abbrev S1x5000 : Shape := ⟨2, ![1, 5000]⟩
abbrev S1x8000x2 : Shape := ⟨3, ![1, 8000, 2]⟩
abbrev S1x32x24 : Shape := ⟨3, ![1, 32, 24]⟩
abbrev S120x8 : Shape := ⟨2, ![120, 8]⟩
abbrev S172x64 : Shape := ⟨2, ![172, 64]⟩
abbrev S64 : Shape := ⟨1, ![64]⟩
abbrev S2x64x64 : Shape := ⟨3, ![2, 64, 64]⟩
abbrev S2x64 : Shape := ⟨2, ![2, 64]⟩
abbrev S3x64x64 : Shape := ⟨3, ![3, 64, 64]⟩
abbrev S3x64 : Shape := ⟨2, ![3, 64]⟩
abbrev S192x128 : Shape := ⟨2, ![192, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S5000x140 : Shape := ⟨2, ![5000, 140]⟩
abbrev S5000 : Shape := ⟨1, ![5000]⟩
abbrev S8000x2 : Shape := ⟨2, ![8000, 2]⟩
abbrev S32x24 : Shape := ⟨2, ![32, 24]⟩
abbrev S_ : Shape := ⟨0, ![]⟩
abbrev S5000x1 : Shape := ⟨2, ![5000, 1]⟩
abbrev S5000x8 : Shape := ⟨2, ![5000, 8]⟩
abbrev S5000x148 : Shape := ⟨2, ![5000, 148]⟩
abbrev S8000x1 : Shape := ⟨2, ![8000, 1]⟩
abbrev S8000 : Shape := ⟨1, ![8000]⟩
abbrev S16000 : Shape := ⟨1, ![16000]⟩
abbrev S16000x1 : Shape := ⟨2, ![16000, 1]⟩
abbrev S16000x148 : Shape := ⟨2, ![16000, 148]⟩
abbrev S1x64x64 : Shape := ⟨3, ![1, 64, 64]⟩
abbrev S64x64 : Shape := ⟨2, ![64, 64]⟩
abbrev S1x64 : Shape := ⟨2, ![1, 64]⟩
abbrev S148x64 : Shape := ⟨2, ![148, 64]⟩
abbrev S24x64 : Shape := ⟨2, ![24, 64]⟩
abbrev S32x64 : Shape := ⟨2, ![32, 64]⟩
abbrev S5000x2048 : Shape := ⟨2, ![5000, 2048]⟩
abbrev S25x32x64 : Shape := ⟨3, ![25, 32, 64]⟩
abbrev S200x148 : Shape := ⟨2, ![200, 148]⟩
abbrev S200x1 : Shape := ⟨2, ![200, 1]⟩
abbrev S200x2048 : Shape := ⟨2, ![200, 2048]⟩
abbrev S1x32x64 : Shape := ⟨3, ![1, 32, 64]⟩
abbrev S1x1x64 : Shape := ⟨3, ![1, 1, 64]⟩
abbrev S200x64 : Shape := ⟨2, ![200, 64]⟩
abbrev S200x1x64 : Shape := ⟨3, ![200, 1, 64]⟩
abbrev S200x32x64 : Shape := ⟨3, ![200, 32, 64]⟩
abbrev S200x1x1 : Shape := ⟨3, ![200, 1, 1]⟩
abbrev S6400x64 : Shape := ⟨2, ![6400, 64]⟩
abbrev S16000x2048 : Shape := ⟨2, ![16000, 2048]⟩
abbrev S32x192 : Shape := ⟨2, ![32, 192]⟩
abbrev S32x128 : Shape := ⟨2, ![32, 128]⟩
abbrev S1x128 : Shape := ⟨2, ![1, 128]⟩
abbrev S32x1 : Shape := ⟨2, ![32, 1]⟩
abbrev S1x1 : Shape := ⟨2, ![1, 1]⟩
abbrev S32 : Shape := ⟨1, ![32]⟩

abbrev nBuf : Space → Nat
  | .hbm => 182
  | .vmem => 43
  | .smem => 0
  | _ => 0

abbrev hbmTy0_0 (i : Nat) : BufTy := match i % 128 with
  | 0 => ⟨S1x5000x140, .f32⟩
  | 1 => ⟨S1x5000, .i32⟩
  | 2 => ⟨S1x8000x2, .i32⟩
  | 3 => ⟨S1x32x24, .f32⟩
  | 4 => ⟨S120x8, .f32⟩
  | 5 => ⟨S172x64, .f32⟩
  | 6 => ⟨S172x64, .f32⟩
  | 7 => ⟨S64, .f32⟩
  | 8 => ⟨S2x64x64, .f32⟩
  | 9 => ⟨S2x64x64, .f32⟩
  | 10 => ⟨S2x64, .f32⟩
  | 11 => ⟨S3x64x64, .f32⟩
  | 12 => ⟨S3x64, .f32⟩
  | 13 => ⟨S192x128, .f32⟩
  | 14 => ⟨S128, .f32⟩
  | 15 => ⟨S128x64, .f32⟩
  | 16 => ⟨S64, .f32⟩
  | 17 => ⟨S64x1, .f32⟩
  | 18 => ⟨S1, .f32⟩
  | 19 => ⟨S5000x140, .f32⟩
  | 20 => ⟨S5000, .i32⟩
  | 21 => ⟨S8000x2, .i32⟩
  | 22 => ⟨S32x24, .f32⟩
  | 23 => ⟨S_, .i32⟩
  | 24 => ⟨S5000, .i32⟩
  | 25 => ⟨S5000, .i1⟩
  | 26 => ⟨S_, .i32⟩
  | 27 => ⟨S5000, .i32⟩
  | 28 => ⟨S5000, .i32⟩
  | 29 => ⟨S5000, .i32⟩
  | 30 => ⟨S5000x1, .i32⟩
  | 31 => ⟨S5000x8, .f32⟩
  | 32 => ⟨S5000x148, .f32⟩
  | 33 => ⟨S8000x1, .i32⟩
  | 34 => ⟨S8000, .i32⟩
  | 35 => ⟨S8000x1, .i32⟩
  | 36 => ⟨S8000, .i32⟩
  | 37 => ⟨S16000, .i32⟩
  | 38 => ⟨S8000x1, .i32⟩
  | 39 => ⟨S8000, .i32⟩
  | 40 => ⟨S8000x1, .i32⟩
  | 41 => ⟨S8000, .i32⟩
  | 42 => ⟨S16000, .i32⟩
  | 43 => ⟨S_, .f32⟩
  | 44 => ⟨S16000, .f32⟩
  | 45 => ⟨S_, .f32⟩
  | 46 => ⟨S5000, .f32⟩
  | 47 => ⟨S16000x1, .i32⟩
  | 48 => ⟨S5000, .f32⟩
  | 49 => ⟨S_, .f32⟩
  | 50 => ⟨S5000, .f32⟩
  | 51 => ⟨S5000, .f32⟩
  | 52 => ⟨S_, .f32⟩
  | 53 => ⟨S5000, .f32⟩
  | 54 => ⟨S5000, .f32⟩
  | 55 => ⟨S_, .f32⟩
  | 56 => ⟨S5000, .f32⟩
  | 57 => ⟨S5000, .f32⟩
  | 58 => ⟨S5000x1, .f32⟩
  | 59 => ⟨S_, .i32⟩
  | 60 => ⟨S16000, .i32⟩
  | 61 => ⟨S16000, .i1⟩
  | 62 => ⟨S_, .i32⟩
  | 63 => ⟨S16000, .i32⟩
  | 64 => ⟨S16000, .i32⟩
  | 65 => ⟨S16000, .i32⟩
  | 66 => ⟨S16000x1, .i32⟩
  | 67 => ⟨S16000x148, .f32⟩
  | 68 => ⟨S_, .f32⟩
  | 69 => ⟨S5000x148, .f32⟩
  | 70 => ⟨S16000x1, .i32⟩
  | 71 => ⟨S5000x148, .f32⟩
  | 72 => ⟨S5000x1, .f32⟩
  | 73 => ⟨S5000x148, .f32⟩
  | 74 => ⟨S5000x148, .f32⟩
  | 75 => ⟨S1x64x64, .f32⟩
  | 76 => ⟨S64x64, .f32⟩
  | 77 => ⟨S1x64, .f32⟩
  | 78 => ⟨S64, .f32⟩
  | 79 => ⟨S148x64, .f32⟩
  | 80 => ⟨S148x64, .bf16⟩
  | 81 => ⟨S148x64, .f32⟩
  | 82 => ⟨S148x64, .bf16⟩
  | 83 => ⟨S24x64, .f32⟩
  | 84 => ⟨S24x64, .f32⟩
  | 85 => ⟨S32x64, .f32⟩
  | 86 => ⟨S32x64, .f32⟩
  | 87 => ⟨S64x64, .bf16⟩
  | 88 => ⟨S5000x2048, .bf16⟩
  | 89 => ⟨S25x32x64, .f32⟩
  | 90 => ⟨S_, .i32⟩
  | 91 => ⟨S16000, .i32⟩
  | 92 => ⟨S16000, .i1⟩
  | 93 => ⟨S_, .i32⟩
  | 94 => ⟨S16000, .i32⟩
  | 95 => ⟨S16000, .i32⟩
  | 96 => ⟨S16000, .i32⟩
  | 97 => ⟨S16000x1, .i32⟩
  | 98 => ⟨S16000x2048, .bf16⟩
  | 99 => ⟨S16000x2048, .f32⟩
  | 100 => ⟨S_, .f32⟩
  | 101 => ⟨S5000x2048, .f32⟩
  | 102 => ⟨S16000x1, .i32⟩
  | 103 => ⟨S5000x2048, .f32⟩
  | 104 => ⟨S5000x1, .f32⟩
  | 105 => ⟨S5000x2048, .f32⟩
  | 106 => ⟨S5000x2048, .f32⟩
  | 107 => ⟨S5000x2048, .bf16⟩
  | 108 => ⟨S1x64x64, .f32⟩
  | 109 => ⟨S64x64, .f32⟩
  | 110 => ⟨S1x64x64, .f32⟩
  | 111 => ⟨S64x64, .f32⟩
  | 112 => ⟨S1x64, .f32⟩
  | 113 => ⟨S64, .f32⟩
  | 114 => ⟨S1x64x64, .f32⟩
  | 115 => ⟨S64x64, .f32⟩
  | 116 => ⟨S1x64, .f32⟩
  | 117 => ⟨S64, .f32⟩
  | 118 => ⟨S64x64, .bf16⟩
  | 119 => ⟨S64x64, .bf16⟩
  | 120 => ⟨S64x64, .bf16⟩
  | 121 => ⟨S5000x2048, .bf16⟩
  | 122 => ⟨S25x32x64, .f32⟩
  | 123 => ⟨S_, .i32⟩
  | 124 => ⟨S16000, .i32⟩
  | 125 => ⟨S16000, .i1⟩
  | 126 => ⟨S_, .i32⟩
  | 127 => ⟨S16000, .i32⟩
  | _ => ⟨S1x5000x140, .f32⟩

abbrev hbmTy0_1 (i : Nat) : BufTy := match i % 128 with
  | 0 => ⟨S16000, .i32⟩
  | 1 => ⟨S16000, .i32⟩
  | 2 => ⟨S16000x1, .i32⟩
  | 3 => ⟨S16000x2048, .bf16⟩
  | 4 => ⟨S16000x2048, .f32⟩
  | 5 => ⟨S_, .f32⟩
  | 6 => ⟨S5000x2048, .f32⟩
  | 7 => ⟨S16000x1, .i32⟩
  | 8 => ⟨S5000x2048, .f32⟩
  | 9 => ⟨S5000x1, .f32⟩
  | 10 => ⟨S5000x2048, .f32⟩
  | 11 => ⟨S5000x2048, .f32⟩
  | 12 => ⟨S5000x2048, .bf16⟩
  | 13 => ⟨S1x64x64, .f32⟩
  | 14 => ⟨S64x64, .f32⟩
  | 15 => ⟨S1x64x64, .f32⟩
  | 16 => ⟨S64x64, .f32⟩
  | 17 => ⟨S1x64, .f32⟩
  | 18 => ⟨S64, .f32⟩
  | 19 => ⟨S1x64x64, .f32⟩
  | 20 => ⟨S64x64, .f32⟩
  | 21 => ⟨S1x64, .f32⟩
  | 22 => ⟨S64, .f32⟩
  | 23 => ⟨S64x64, .bf16⟩
  | 24 => ⟨S64x64, .bf16⟩
  | 25 => ⟨S64x64, .bf16⟩
  | 26 => ⟨S5000x2048, .bf16⟩
  | 27 => ⟨S25x32x64, .f32⟩
  | 28 => ⟨S_, .f32⟩
  | 29 => ⟨S32x64, .f32⟩
  | 30 => ⟨S_, .f32⟩
  | 31 => ⟨S32x64, .f32⟩
  | 32 => ⟨S_, .f32⟩
  | 33 => ⟨S32x64, .f32⟩
  | 34 => ⟨S32x192, .f32⟩
  | 35 => ⟨S32x128, .f32⟩
  | 36 => ⟨S1x128, .f32⟩
  | 37 => ⟨S32x128, .f32⟩
  | 38 => ⟨S32x128, .f32⟩
  | 39 => ⟨S_, .f32⟩
  | 40 => ⟨S32x128, .f32⟩
  | 41 => ⟨S32x128, .f32⟩
  | 42 => ⟨S32x64, .f32⟩
  | 43 => ⟨S1x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x1, .f32⟩
  | 50 => ⟨S1x1, .f32⟩
  | 51 => ⟨S32x1, .f32⟩
  | 52 => ⟨S32x1, .f32⟩
  | 53 => ⟨S32, .f32⟩
  | _ => ⟨S1x5000x140, .f32⟩

abbrev hbmTy (i : Nat) : BufTy := match i / 128 with
  | 0 => hbmTy0_0 i
  | 1 => hbmTy0_1 i
  | _ => ⟨S1x5000x140, .f32⟩

abbrev bufTy : (tb : Table) → Fin (tcTables nBuf tb) → BufTy
  | .hbm, ⟨i, _⟩ => hbmTy i
  | .local _ .vmem, ⟨0, _⟩ => ⟨S200x148, .f32⟩
  | .local _ .vmem, ⟨1, _⟩ => ⟨S200x148, .f32⟩
  | .local _ .vmem, ⟨2, _⟩ => ⟨S200x148, .f32⟩
  | .local _ .vmem, ⟨3, _⟩ => ⟨S200x148, .f32⟩
  | .local _ .vmem, ⟨4, _⟩ => ⟨S200x1, .f32⟩
  | .local _ .vmem, ⟨5, _⟩ => ⟨S200x1, .f32⟩
  | .local _ .vmem, ⟨6, _⟩ => ⟨S148x64, .bf16⟩
  | .local _ .vmem, ⟨7, _⟩ => ⟨S148x64, .bf16⟩
  | .local _ .vmem, ⟨8, _⟩ => ⟨S32x64, .f32⟩
  | .local _ .vmem, ⟨9, _⟩ => ⟨S32x64, .f32⟩
  | .local _ .vmem, ⟨10, _⟩ => ⟨S64, .f32⟩
  | .local _ .vmem, ⟨11, _⟩ => ⟨S64x64, .bf16⟩
  | .local _ .vmem, ⟨12, _⟩ => ⟨S64, .f32⟩
  | .local _ .vmem, ⟨13, _⟩ => ⟨S200x2048, .bf16⟩
  | .local _ .vmem, ⟨14, _⟩ => ⟨S200x2048, .bf16⟩
  | .local _ .vmem, ⟨15, _⟩ => ⟨S1x32x64, .f32⟩
  | .local _ .vmem, ⟨16, _⟩ => ⟨S1x32x64, .f32⟩
  | .local _ .vmem, ⟨17, _⟩ => ⟨S200x2048, .bf16⟩
  | .local _ .vmem, ⟨18, _⟩ => ⟨S200x2048, .bf16⟩
  | .local _ .vmem, ⟨19, _⟩ => ⟨S200x2048, .bf16⟩
  | .local _ .vmem, ⟨20, _⟩ => ⟨S200x2048, .bf16⟩
  | .local _ .vmem, ⟨21, _⟩ => ⟨S64x64, .bf16⟩
  | .local _ .vmem, ⟨22, _⟩ => ⟨S64x64, .bf16⟩
  | .local _ .vmem, ⟨23, _⟩ => ⟨S64, .f32⟩
  | .local _ .vmem, ⟨24, _⟩ => ⟨S64x64, .bf16⟩
  | .local _ .vmem, ⟨25, _⟩ => ⟨S64, .f32⟩
  | .local _ .vmem, ⟨26, _⟩ => ⟨S200x2048, .bf16⟩
  | .local _ .vmem, ⟨27, _⟩ => ⟨S200x2048, .bf16⟩
  | .local _ .vmem, ⟨28, _⟩ => ⟨S1x32x64, .f32⟩
  | .local _ .vmem, ⟨29, _⟩ => ⟨S1x32x64, .f32⟩
  | .local _ .vmem, ⟨30, _⟩ => ⟨S200x2048, .bf16⟩
  | .local _ .vmem, ⟨31, _⟩ => ⟨S200x2048, .bf16⟩
  | .local _ .vmem, ⟨32, _⟩ => ⟨S200x2048, .bf16⟩
  | .local _ .vmem, ⟨33, _⟩ => ⟨S200x2048, .bf16⟩
  | .local _ .vmem, ⟨34, _⟩ => ⟨S64x64, .bf16⟩
  | .local _ .vmem, ⟨35, _⟩ => ⟨S64x64, .bf16⟩
  | .local _ .vmem, ⟨36, _⟩ => ⟨S64, .f32⟩
  | .local _ .vmem, ⟨37, _⟩ => ⟨S64x64, .bf16⟩
  | .local _ .vmem, ⟨38, _⟩ => ⟨S64, .f32⟩
  | .local _ .vmem, ⟨39, _⟩ => ⟨S200x2048, .bf16⟩
  | .local _ .vmem, ⟨40, _⟩ => ⟨S200x2048, .bf16⟩
  | .local _ .vmem, ⟨41, _⟩ => ⟨S1x32x64, .f32⟩
  | .local _ .vmem, ⟨42, _⟩ => ⟨S1x32x64, .f32⟩
  | _, _ => ⟨S1x5000x140, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_c_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59_0 : Ref sig .tc := ⟨.hbm, 88, rfl⟩
abbrev main_v59_1 : Ref sig .tc := ⟨.hbm, 89, rfl⟩
abbrev main_c_8 : Ref sig .tc := ⟨.hbm, 90, rfl⟩
abbrev main_v60 : Ref sig .tc := ⟨.hbm, 91, rfl⟩
abbrev main_v61 : Ref sig .tc := ⟨.hbm, 92, rfl⟩
abbrev main_c_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88_0 : Ref sig .tc := ⟨.hbm, 121, rfl⟩
abbrev main_v88_1 : Ref sig .tc := ⟨.hbm, 122, rfl⟩
abbrev main_c_11 : Ref sig .tc := ⟨.hbm, 123, rfl⟩
abbrev main_v89 : Ref sig .tc := ⟨.hbm, 124, rfl⟩
abbrev main_v90 : Ref sig .tc := ⟨.hbm, 125, rfl⟩
abbrev main_c_12 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_13 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117_0 : Ref sig .tc := ⟨.hbm, 154, rfl⟩
abbrev main_v117_1 : Ref sig .tc := ⟨.hbm, 155, rfl⟩
abbrev main_cst_14 : Ref sig .tc := ⟨.hbm, 156, rfl⟩
abbrev main_v118 : Ref sig .tc := ⟨.hbm, 157, rfl⟩
abbrev main_cst_15 : Ref sig .tc := ⟨.hbm, 158, rfl⟩
abbrev main_v119 : Ref sig .tc := ⟨.hbm, 159, rfl⟩
abbrev main_cst_16 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_call0_cst : Ref sig .tc := ⟨.hbm, 167, rfl⟩
abbrev main_call0_v0 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_call1_cst : Ref sig .tc := ⟨.hbm, 174, rfl⟩
abbrev main_call1_v0 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg7_1 : Ref sig .tc := ⟨.vmem, 40, rfl⟩
abbrev cc2_stg8_0 : Ref sig .tc := ⟨.vmem, 41, rfl⟩
abbrev cc2_stg8_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem7_1 : DmaSem sig := 40
abbrev cc2_sem8_0 : DmaSem sig := 41
abbrev cc2_sem8_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x148 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x148 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S148x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S148x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S200x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S200x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S200x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x32x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S200x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S200x2048 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x32x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S1x5000x140_S5000x140 : S1x5000x140.ShapeCasts S5000x140
  shapeCasts_S1x5000_S5000 : S1x5000.ShapeCasts S5000
  shapeCasts_S1x8000x2_S8000x2 : S1x8000x2.ShapeCasts S8000x2
  shapeCasts_S1x32x24_S32x24 : S1x32x24.ShapeCasts S32x24
  bcast_S_S5000 : S_.BroadcastsInDim S5000 (![] : Fin 0 → Fin S5000.rank)
  bcast_S5000_S5000x1_0 : S5000.BroadcastsInDim S5000x1 (![0] : Fin 1 → Fin S5000x1.rank)
  concatenates_S5000x140_S5000x8_S5000x148_d1 : Shape.Concatenates [S5000x140, S5000x8] S5000x148 1
  slices_S8000x2_S8000x1_0_0 : S8000x2.Slices ![0, 0] S8000x1
  shapeCasts_S8000x1_S8000 : S8000x1.ShapeCasts S8000
  slices_S8000x2_S8000x1_0_1 : S8000x2.Slices ![0, 1] S8000x1
  concatenates_S8000_S8000_S16000_d0 : Shape.Concatenates [S8000, S8000] S16000 0
  bcast_S_S16000 : S_.BroadcastsInDim S16000 (![] : Fin 0 → Fin S16000.rank)
  bcast_S16000_S16000x1_0 : S16000.BroadcastsInDim S16000x1 (![0] : Fin 1 → Fin S16000x1.rank)
  shapeCasts_S5000_S5000x1 : S5000.ShapeCasts S5000x1
  bcast_S_S5000x148 : S_.BroadcastsInDim S5000x148 (![] : Fin 0 → Fin S5000x148.rank)
  bcast_S5000x1_S5000x148_0_1 : S5000x1.BroadcastsInDim S5000x148 (![0, 1] : Fin 2 → Fin S5000x148.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S172x64_S148x64_0_0 : S172x64.Slices ![0, 0] S148x64
  bitsLt_bf16_f32 : FTy.bits .bf16 < FTy.bits .f32
  slices_S172x64_S24x64_148_0 : S172x64.Slices ![148, 0] S24x64
  inb_S200x148_S200x148_0_0 : ∀ a, (![0, 0] : Fin 2 → Nat) a + S200x148.size a ≤ S200x148.size a
  h_S200x148 : 0 < S200x148.numel
  shapeCasts_S200x148_S200x148 : S200x148.ShapeCasts S200x148
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S148x64_S148x64_0_0 : ∀ a, (![0, 0] : Fin 2 → Nat) a + S148x64.size a ≤ S148x64.size a
  h_S148x64 : 0 < S148x64.numel
  shapeCasts_S148x64_S148x64 : S148x64.ShapeCasts S148x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x1x64 : S64.ShapeCasts S1x1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  shapeCasts_S64_S1x64 : S64.ShapeCasts S1x64
  shapeCasts_S200x64_S200x1x64 : S200x64.ShapeCasts S200x1x64
  shapeCasts_S32x64_S1x32x64 : S32x64.ShapeCasts S1x32x64
  broadcasts_S200x1x64_S200x32x64 : S200x1x64.Broadcasts S200x32x64
  broadcasts_S1x32x64_S200x32x64 : S1x32x64.Broadcasts S200x32x64
  shapeCasts_S200x1_S200x1x1 : S200x1.ShapeCasts S200x1x1
  broadcasts_S200x1x1_S200x32x64 : S200x1x1.Broadcasts S200x32x64
  broadcasts_S1x1x64_S200x32x64 : S1x1x64.Broadcasts S200x32x64
  shapeCasts_S200x32x64_S200x2048 : S200x32x64.ShapeCasts S200x2048
  inb_S200x2048_S200x2048_0_0 : ∀ a, (![0, 0] : Fin 2 → Nat) a + S200x2048.size a ≤ S200x2048.size a
  h_S200x2048 : 0 < S200x2048.numel
  packedbf16_S200x2048_S200x2048_0_0 : (Rect.unit (s := S200x2048) ![0, 0] S200x2048.size inb_S200x2048_S200x2048_0_0).PackedRows (EltTy.packing .bf16)
  shapeCasts_S200x32x64_S6400x64 : S200x32x64.ShapeCasts S6400x64
  broadcasts_S1x64_S6400x64 : S1x64.Broadcasts S6400x64
  shapeCasts_S6400x64_S200x32x64 : S6400x64.ShapeCasts S200x32x64
  reduces_S200x32x64_S32x64 : S200x32x64.Reduces [0] S32x64
  inb_S1x32x64_S1x32x64_0_0_0 : ∀ a, (![0, 0, 0] : Fin 3 → Nat) a + S1x32x64.size a ≤ S1x32x64.size a
  h_S1x32x64 : 0 < S1x32x64.numel
  bcast_S_S5000x2048 : S_.BroadcastsInDim S5000x2048 (![] : Fin 0 → Fin S5000x2048.rank)
  bcast_S5000x1_S5000x2048_0_1 : S5000x1.BroadcastsInDim S5000x2048 (![0, 1] : Fin 2 → Fin S5000x2048.rank)
  slices_S2x64x64_S1x64x64_0_0_0 : S2x64x64.Slices ![0, 0, 0] S1x64x64
  slices_S2x64_S1x64_0_0 : S2x64.Slices ![0, 0] S1x64
  slices_S3x64x64_S1x64x64_1_0_0 : S3x64x64.Slices ![1, 0, 0] S1x64x64
  slices_S3x64_S1x64_1_0 : S3x64.Slices ![1, 0] S1x64
  shapeCasts_S200x2048_S200x2048 : S200x2048.ShapeCasts S200x2048
  shapeCasts_S200x2048_S6400x64 : S200x2048.ShapeCasts S6400x64
  shapeCasts_S6400x64_S200x2048 : S6400x64.ShapeCasts S200x2048
  slices_S2x64x64_S1x64x64_1_0_0 : S2x64x64.Slices ![1, 0, 0] S1x64x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  reducesTo_S25x32x64_S32x64_d0 : S25x32x64.ReducesTo [0] S32x64
  h_S_ : 0 < S_.numel
  concatenates_S32x64_S32x64_S32x64_S32x192_d1 : Shape.Concatenates [S32x64, S32x64, S32x64] S32x192 1
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  gather_S120x8_S5000x1_S5000x8_1_0_n_n_0_1_18_wf : GatherDims.WF S120x8 S5000x1 S5000x8 [1] [0] [] [0] [] 1 ![1, 8]
  scatter_S5000_S16000x1_S16000_n_0_0_1_wf : ScatterDims.WF S5000 S16000x1 S16000 [] [0] [0] 1
  gather_S5000x148_S16000x1_S16000x148_1_0_n_n_0_1_1148_wf : GatherDims.WF S5000x148 S16000x1 S16000x148 [1] [0] [] [0] [] 1 ![1, 148]
  scatter_S5000x148_S16000x1_S16000x148_1_0_0_1_wf : ScatterDims.WF S5000x148 S16000x1 S16000x148 [1] [0] [0] 1
  dot_S32x24_S24x64_S32x64_1_0_0_1_n_n_wf : DotDims.WF S32x24 S24x64 S32x64 [1] [0] [0] [1] [] []
  dot_S200x148_S148x64_S200x64_1_0_0_1_n_n_wf : DotDims.WF S200x148 S148x64 S200x64 [1] [0] [0] [1] [] []
  dot_S6400x64_S64x64_S6400x64_1_0_0_1_n_n_wf : DotDims.WF S6400x64 S64x64 S6400x64 [1] [0] [0] [1] [] []
  gather_S5000x2048_S16000x1_S16000x2048_1_0_n_n_0_1_12048_wf : GatherDims.WF S5000x2048 S16000x1 S16000x2048 [1] [0] [] [0] [] 1 ![1, 2048]
  scatter_S5000x2048_S16000x1_S16000x2048_1_0_0_1_wf : ScatterDims.WF S5000x2048 S16000x1 S16000x2048 [1] [0] [0] 1
  dot_S32x192_S192x128_S32x128_1_0_0_1_n_n_wf : DotDims.WF S32x192 S192x128 S32x128 [1] [0] [0] [1] [] []
  dot_S32x128_S128x64_S32x64_1_0_0_1_n_n_wf : DotDims.WF S32x128 S128x64 S32x64 [1] [0] [0] [1] [] []
  dot_S32x64_S64x1_S32x1_1_0_0_1_n_n_wf : DotDims.WF S32x64 S64x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x148.size a ≤ S5000x148.size a
  hwx0_0 : ∀ i : grid0.Coords, EltTy.bits .f32 = 32 ∨ (Rect.block (s := S5000x148) S200x148.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x148.size a ≤ S5000x148.size a
  hwx0_1 : ∀ i : grid0.Coords, EltTy.bits .f32 = 32 ∨ (Rect.block (s := S5000x148) S200x148.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S5000x1.size a
  hwx0_2 : ∀ i : grid0.Coords, EltTy.bits .f32 = 32 ∨ (Rect.block (s := S5000x1) S200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S148x64.size a ≤ S148x64.size a
  hwx0_3 : ∀ i : grid0.Coords, EltTy.bits .bf16 = 32 ∨ (Rect.block (s := S148x64) S148x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S148x64.size a ≤ S148x64.size a
  hwx0_4 : ∀ i : grid0.Coords, EltTy.bits .bf16 = 32 ∨ (Rect.block (s := S148x64) S148x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x2048.size a ≤ S5000x2048.size a
  hwx0_10 : ∀ i : grid0.Coords, EltTy.bits .bf16 = 32 ∨ (Rect.block (s := S5000x2048) S200x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32x64.size a ≤ S25x32x64.size a
  hwx0_11 : ∀ i : grid0.Coords, EltTy.bits .f32 = 32 ∨ (Rect.block (s := S25x32x64) S1x32x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x2048.size a ≤ S5000x2048.size a
  hwx1_0 : ∀ i : grid1.Coords, EltTy.bits .bf16 = 32 ∨ (Rect.block (s := S5000x2048) S200x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x2048.size a ≤ S5000x2048.size a
  hwx1_1 : ∀ i : grid1.Coords, EltTy.bits .bf16 = 32 ∨ (Rect.block (s := S5000x2048) S200x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x2048.size a ≤ S5000x2048.size a
  hwx1_7 : ∀ i : grid1.Coords, EltTy.bits .bf16 = 32 ∨ (Rect.block (s := S5000x2048) S200x2048.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x32x64.size a ≤ S25x32x64.size a
  hwx1_8 : ∀ i : grid1.Coords, EltTy.bits .f32 = 32 ∨ (Rect.block (s := S25x32x64) S1x32x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x2048.size a ≤ S5000x2048.size a
  hwx2_0 : ∀ i : grid2.Coords, EltTy.bits .bf16 = 32 ∨ (Rect.block (s := S5000x2048) S200x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x2048.size a ≤ S5000x2048.size a
  hwx2_1 : ∀ i : grid2.Coords, EltTy.bits .bf16 = 32 ∨ (Rect.block (s := S5000x2048) S200x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .bf16 = 32 ∨ (Rect.block (s := S64x64) S64x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S200x2048.size a ≤ S5000x2048.size a
  hwx2_7 : ∀ i : grid2.Coords, EltTy.bits .bf16 = 32 ∨ (Rect.block (s := S5000x2048) S200x2048.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x32x64.size a ≤ S25x32x64.size a
  hwx2_8 : ∀ i : grid2.Coords, EltTy.bits .f32 = 32 ∨ (Rect.block (s := S25x32x64) S1x32x64.size (cc2_transform_8 i) (hinb2_8 i)).WholeWords (EltTy.packing .f32)

variable [Facts₀]

def gather_S120x8_S5000x1_S5000x8_1_0_n_n_0_1_18 : GatherDims S120x8 S5000x1 S5000x8 where
  offsetDims := [1]
  collapsedSliceDims := [0]
  operandBatchingDims := []
  startIndicesBatchingDims := []
  startIndexMap := [0]
  indexVectorDim := 1
  sliceSizes := ![1, 8]
  wf := gather_S120x8_S5000x1_S5000x8_1_0_n_n_0_1_18_wf
def scatter_S5000_S16000x1_S16000_n_0_0_1 : ScatterDims S5000 S16000x1 S16000 where
  updateWindowDims := []
  insertedWindowDims := [0]
  scatterDimsToOperandDims := [0]
  indexVectorDim := 1
  wf := scatter_S5000_S16000x1_S16000_n_0_0_1_wf
def gather_S5000x148_S16000x1_S16000x148_1_0_n_n_0_1_1148 : GatherDims S5000x148 S16000x1 S16000x148 where
  offsetDims := [1]
  collapsedSliceDims := [0]
  operandBatchingDims := []
  startIndicesBatchingDims := []
  startIndexMap := [0]
  indexVectorDim := 1
  sliceSizes := ![1, 148]
  wf := gather_S5000x148_S16000x1_S16000x148_1_0_n_n_0_1_1148_wf
def scatter_S5000x148_S16000x1_S16000x148_1_0_0_1 : ScatterDims S5000x148 S16000x1 S16000x148 where
  updateWindowDims := [1]
  insertedWindowDims := [0]
  scatterDimsToOperandDims := [0]
  indexVectorDim := 1
  wf := scatter_S5000x148_S16000x1_S16000x148_1_0_0_1_wf
def dot_S32x24_S24x64_S32x64_1_0_0_1_n_n : DotDims S32x24 S24x64 S32x64 where
  lhsContracting := [1]
  rhsContracting := [0]
  lhsNonContracting := [0]
  rhsNonContracting := [1]
  lhsBatch := []
  rhsBatch := []
  wf := dot_S32x24_S24x64_S32x64_1_0_0_1_n_n_wf
def dot_S200x148_S148x64_S200x64_1_0_0_1_n_n : DotDims S200x148 S148x64 S200x64 where
  lhsContracting := [1]
  rhsContracting := [0]
  lhsNonContracting := [0]
  rhsNonContracting := [1]
  lhsBatch := []
  rhsBatch := []
  wf := dot_S200x148_S148x64_S200x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def gather_S5000x2048_S16000x1_S16000x2048_1_0_n_n_0_1_12048 : GatherDims S5000x2048 S16000x1 S16000x2048 where
  offsetDims := [1]
  collapsedSliceDims := [0]
  operandBatchingDims := []
  startIndicesBatchingDims := []
  startIndexMap := [0]
  indexVectorDim := 1
  sliceSizes := ![1, 2048]
  wf := gather_S5000x2048_S16000x1_S16000x2048_1_0_n_n_0_1_12048_wf
def scatter_S5000x2048_S16000x1_S16000x2048_1_0_0_1 : ScatterDims S5000x2048 S16000x1 S16000x2048 where
  updateWindowDims := [1]
  insertedWindowDims := [0]
  scatterDimsToOperandDims := [0]
  indexVectorDim := 1
  wf := scatter_S5000x2048_S16000x1_S16000x2048_1_0_0_1_wf
def dot_S32x192_S192x128_S32x128_1_0_0_1_n_n : DotDims S32x192 S192x128 S32x128 where
  lhsContracting := [1]
  rhsContracting := [0]
  lhsNonContracting := [0]
  rhsNonContracting := [1]
  lhsBatch := []
  rhsBatch := []
  wf := dot_S32x192_S192x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

abbrev win0_0 : Pipeline.Window sig grid0 :=
  Pipeline.Window.ofSpec (Memref.whole main_v11) S200x148.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S200x148.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S148x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S148x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v58) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v59_0) S200x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v59_1) S1x32x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v59_0) S200x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S200x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v85) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v80) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v87) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v84) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v88_0) S200x2048.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v88_1) S1x32x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v88_0) S200x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S200x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v114) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v115) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v109) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v116) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v113) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v117_0) S200x2048.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v117_1) S1x32x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1x5000x140 : Shape := ⟨3, ![1, 5000, 140]⟩
abbrev S1x5000 : Shape := ⟨2, ![1, 5000]⟩
abbrev S1x8000x2 : Shape := ⟨3, ![1, 8000, 2]⟩
abbrev S1x32x24 : Shape := ⟨3, ![1, 32, 24]⟩
abbrev S120x8 : Shape := ⟨2, ![120, 8]⟩
abbrev S172x64 : Shape := ⟨2, ![172, 64]⟩
abbrev S64 : Shape := ⟨1, ![64]⟩
abbrev S2x64x64 : Shape := ⟨3, ![2, 64, 64]⟩
abbrev S2x64 : Shape := ⟨2, ![2, 64]⟩
abbrev S3x64x64 : Shape := ⟨3, ![3, 64, 64]⟩
abbrev S3x64 : Shape := ⟨2, ![3, 64]⟩
abbrev S192x128 : Shape := ⟨2, ![192, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S5000x140 : Shape := ⟨2, ![5000, 140]⟩
abbrev S5000 : Shape := ⟨1, ![5000]⟩
abbrev S8000x2 : Shape := ⟨2, ![8000, 2]⟩
abbrev S32x24 : Shape := ⟨2, ![32, 24]⟩
abbrev S_ : Shape := ⟨0, ![]⟩
abbrev S5000x1 : Shape := ⟨2, ![5000, 1]⟩
abbrev S5000x8 : Shape := ⟨2, ![5000, 8]⟩
abbrev S5000x148 : Shape := ⟨2, ![5000, 148]⟩
abbrev S5000x1x148 : Shape := ⟨3, ![5000, 1, 148]⟩
abbrev S5000x32x148 : Shape := ⟨3, ![5000, 32, 148]⟩
abbrev S5000x32x24 : Shape := ⟨3, ![5000, 32, 24]⟩
abbrev S5000x32x172 : Shape := ⟨3, ![5000, 32, 172]⟩
abbrev S8000x1 : Shape := ⟨2, ![8000, 1]⟩
abbrev S8000 : Shape := ⟨1, ![8000]⟩
abbrev S16000 : Shape := ⟨1, ![16000]⟩
abbrev S16000x1 : Shape := ⟨2, ![16000, 1]⟩
abbrev S16000x32x172 : Shape := ⟨3, ![16000, 32, 172]⟩
abbrev S5000x1x1 : Shape := ⟨3, ![5000, 1, 1]⟩
abbrev S5000x32x64 : Shape := ⟨3, ![5000, 32, 64]⟩
abbrev S1x1x64 : Shape := ⟨3, ![1, 1, 64]⟩
abbrev S1x64x64 : Shape := ⟨3, ![1, 64, 64]⟩
abbrev S64x64 : Shape := ⟨2, ![64, 64]⟩
abbrev S1x64 : Shape := ⟨2, ![1, 64]⟩
abbrev S16000x32x64 : Shape := ⟨3, ![16000, 32, 64]⟩
abbrev S5000x32x192 : Shape := ⟨3, ![5000, 32, 192]⟩
abbrev S32x192 : Shape := ⟨2, ![32, 192]⟩
abbrev S32x128 : Shape := ⟨2, ![32, 128]⟩
abbrev S1x128 : Shape := ⟨2, ![1, 128]⟩
abbrev S32x64 : Shape := ⟨2, ![32, 64]⟩
abbrev S32x1 : Shape := ⟨2, ![32, 1]⟩
abbrev S1x1 : Shape := ⟨2, ![1, 1]⟩
abbrev S32 : Shape := ⟨1, ![32]⟩

abbrev nBuf : Space → Nat
  | .hbm => 217
  | .vmem => 0
  | .smem => 0
  | _ => 0

abbrev hbmTy0_0 (i : Nat) : BufTy := match i % 128 with
  | 0 => ⟨S1x5000x140, .f32⟩
  | 1 => ⟨S1x5000, .i32⟩
  | 2 => ⟨S1x8000x2, .i32⟩
  | 3 => ⟨S1x32x24, .f32⟩
  | 4 => ⟨S120x8, .f32⟩
  | 5 => ⟨S172x64, .f32⟩
  | 6 => ⟨S172x64, .f32⟩
  | 7 => ⟨S64, .f32⟩
  | 8 => ⟨S2x64x64, .f32⟩
  | 9 => ⟨S2x64x64, .f32⟩
  | 10 => ⟨S2x64, .f32⟩
  | 11 => ⟨S3x64x64, .f32⟩
  | 12 => ⟨S3x64, .f32⟩
  | 13 => ⟨S192x128, .f32⟩
  | 14 => ⟨S128, .f32⟩
  | 15 => ⟨S128x64, .f32⟩
  | 16 => ⟨S64, .f32⟩
  | 17 => ⟨S64x1, .f32⟩
  | 18 => ⟨S1, .f32⟩
  | 19 => ⟨S5000x140, .f32⟩
  | 20 => ⟨S5000, .i32⟩
  | 21 => ⟨S8000x2, .i32⟩
  | 22 => ⟨S32x24, .f32⟩
  | 23 => ⟨S_, .i32⟩
  | 24 => ⟨S5000, .i32⟩
  | 25 => ⟨S5000, .i1⟩
  | 26 => ⟨S_, .i32⟩
  | 27 => ⟨S5000, .i32⟩
  | 28 => ⟨S5000, .i32⟩
  | 29 => ⟨S5000, .i32⟩
  | 30 => ⟨S5000x1, .i32⟩
  | 31 => ⟨S5000x8, .f32⟩
  | 32 => ⟨S5000x148, .f32⟩
  | 33 => ⟨S5000x1x148, .f32⟩
  | 34 => ⟨S5000x32x148, .f32⟩
  | 35 => ⟨S1x32x24, .f32⟩
  | 36 => ⟨S5000x32x24, .f32⟩
  | 37 => ⟨S5000x32x172, .f32⟩
  | 38 => ⟨S8000x1, .i32⟩
  | 39 => ⟨S8000, .i32⟩
  | 40 => ⟨S8000x1, .i32⟩
  | 41 => ⟨S8000, .i32⟩
  | 42 => ⟨S16000, .i32⟩
  | 43 => ⟨S8000x1, .i32⟩
  | 44 => ⟨S8000, .i32⟩
  | 45 => ⟨S8000x1, .i32⟩
  | 46 => ⟨S8000, .i32⟩
  | 47 => ⟨S16000, .i32⟩
  | 48 => ⟨S_, .i32⟩
  | 49 => ⟨S16000, .i32⟩
  | 50 => ⟨S16000, .i1⟩
  | 51 => ⟨S_, .i32⟩
  | 52 => ⟨S16000, .i32⟩
  | 53 => ⟨S16000, .i32⟩
  | 54 => ⟨S16000, .i32⟩
  | 55 => ⟨S16000x1, .i32⟩
  | 56 => ⟨S16000x32x172, .f32⟩
  | 57 => ⟨S_, .f32⟩
  | 58 => ⟨S5000x32x172, .f32⟩
  | 59 => ⟨S16000x1, .i32⟩
  | 60 => ⟨S5000x32x172, .f32⟩
  | 61 => ⟨S_, .f32⟩
  | 62 => ⟨S16000, .f32⟩
  | 63 => ⟨S_, .f32⟩
  | 64 => ⟨S5000, .f32⟩
  | 65 => ⟨S16000x1, .i32⟩
  | 66 => ⟨S5000, .f32⟩
  | 67 => ⟨S_, .f32⟩
  | 68 => ⟨S5000, .f32⟩
  | 69 => ⟨S5000, .f32⟩
  | 70 => ⟨S5000x1x1, .f32⟩
  | 71 => ⟨S5000x32x172, .f32⟩
  | 72 => ⟨S5000x32x172, .f32⟩
  | 73 => ⟨S5000x32x64, .f32⟩
  | 74 => ⟨S5000x32x64, .f32⟩
  | 75 => ⟨S5000x32x64, .f32⟩
  | 76 => ⟨S1x1x64, .f32⟩
  | 77 => ⟨S5000x32x64, .f32⟩
  | 78 => ⟨S5000x32x64, .f32⟩
  | 79 => ⟨S_, .f32⟩
  | 80 => ⟨S5000x32x64, .f32⟩
  | 81 => ⟨S5000x32x64, .f32⟩
  | 82 => ⟨S1x64x64, .f32⟩
  | 83 => ⟨S64x64, .f32⟩
  | 84 => ⟨S5000x32x64, .f32⟩
  | 85 => ⟨S1x64, .f32⟩
  | 86 => ⟨S64, .f32⟩
  | 87 => ⟨S1x1x64, .f32⟩
  | 88 => ⟨S5000x32x64, .f32⟩
  | 89 => ⟨S5000x32x64, .f32⟩
  | 90 => ⟨S_, .f32⟩
  | 91 => ⟨S5000x32x64, .f32⟩
  | 92 => ⟨S5000x32x64, .f32⟩
  | 93 => ⟨S1x64x64, .f32⟩
  | 94 => ⟨S64x64, .f32⟩
  | 95 => ⟨S1x64x64, .f32⟩
  | 96 => ⟨S64x64, .f32⟩
  | 97 => ⟨S1x64, .f32⟩
  | 98 => ⟨S64, .f32⟩
  | 99 => ⟨S_, .i32⟩
  | 100 => ⟨S16000, .i32⟩
  | 101 => ⟨S16000, .i1⟩
  | 102 => ⟨S_, .i32⟩
  | 103 => ⟨S16000, .i32⟩
  | 104 => ⟨S16000, .i32⟩
  | 105 => ⟨S16000, .i32⟩
  | 106 => ⟨S16000x1, .i32⟩
  | 107 => ⟨S16000x32x64, .f32⟩
  | 108 => ⟨S_, .f32⟩
  | 109 => ⟨S5000x32x64, .f32⟩
  | 110 => ⟨S16000x1, .i32⟩
  | 111 => ⟨S5000x32x64, .f32⟩
  | 112 => ⟨S_, .f32⟩
  | 113 => ⟨S16000, .f32⟩
  | 114 => ⟨S_, .f32⟩
  | 115 => ⟨S5000, .f32⟩
  | 116 => ⟨S16000x1, .i32⟩
  | 117 => ⟨S5000, .f32⟩
  | 118 => ⟨S_, .f32⟩
  | 119 => ⟨S5000, .f32⟩
  | 120 => ⟨S5000, .f32⟩
  | 121 => ⟨S5000x1x1, .f32⟩
  | 122 => ⟨S5000x32x64, .f32⟩
  | 123 => ⟨S5000x32x64, .f32⟩
  | 124 => ⟨S5000x32x64, .f32⟩
  | 125 => ⟨S5000x32x64, .f32⟩
  | 126 => ⟨S5000x32x64, .f32⟩
  | 127 => ⟨S1x1x64, .f32⟩
  | _ => ⟨S1x5000x140, .f32⟩

abbrev hbmTy0_1 (i : Nat) : BufTy := match i % 128 with
  | 0 => ⟨S5000x32x64, .f32⟩
  | 1 => ⟨S5000x32x64, .f32⟩
  | 2 => ⟨S_, .f32⟩
  | 3 => ⟨S5000x32x64, .f32⟩
  | 4 => ⟨S5000x32x64, .f32⟩
  | 5 => ⟨S1x64x64, .f32⟩
  | 6 => ⟨S64x64, .f32⟩
  | 7 => ⟨S5000x32x64, .f32⟩
  | 8 => ⟨S1x64, .f32⟩
  | 9 => ⟨S64, .f32⟩
  | 10 => ⟨S1x1x64, .f32⟩
  | 11 => ⟨S5000x32x64, .f32⟩
  | 12 => ⟨S5000x32x64, .f32⟩
  | 13 => ⟨S_, .f32⟩
  | 14 => ⟨S5000x32x64, .f32⟩
  | 15 => ⟨S5000x32x64, .f32⟩
  | 16 => ⟨S1x64x64, .f32⟩
  | 17 => ⟨S64x64, .f32⟩
  | 18 => ⟨S1x64x64, .f32⟩
  | 19 => ⟨S64x64, .f32⟩
  | 20 => ⟨S1x64, .f32⟩
  | 21 => ⟨S64, .f32⟩
  | 22 => ⟨S_, .i32⟩
  | 23 => ⟨S16000, .i32⟩
  | 24 => ⟨S16000, .i1⟩
  | 25 => ⟨S_, .i32⟩
  | 26 => ⟨S16000, .i32⟩
  | 27 => ⟨S16000, .i32⟩
  | 28 => ⟨S16000, .i32⟩
  | 29 => ⟨S16000x1, .i32⟩
  | 30 => ⟨S16000x32x64, .f32⟩
  | 31 => ⟨S_, .f32⟩
  | 32 => ⟨S5000x32x64, .f32⟩
  | 33 => ⟨S16000x1, .i32⟩
  | 34 => ⟨S5000x32x64, .f32⟩
  | 35 => ⟨S_, .f32⟩
  | 36 => ⟨S16000, .f32⟩
  | 37 => ⟨S_, .f32⟩
  | 38 => ⟨S5000, .f32⟩
  | 39 => ⟨S16000x1, .i32⟩
  | 40 => ⟨S5000, .f32⟩
  | 41 => ⟨S_, .f32⟩
  | 42 => ⟨S5000, .f32⟩
  | 43 => ⟨S5000, .f32⟩
  | 44 => ⟨S5000x1x1, .f32⟩
  | 45 => ⟨S5000x32x64, .f32⟩
  | 46 => ⟨S5000x32x64, .f32⟩
  | 47 => ⟨S5000x32x64, .f32⟩
  | 48 => ⟨S5000x32x64, .f32⟩
  | 49 => ⟨S5000x32x64, .f32⟩
  | 50 => ⟨S1x1x64, .f32⟩
  | 51 => ⟨S5000x32x64, .f32⟩
  | 52 => ⟨S5000x32x64, .f32⟩
  | 53 => ⟨S_, .f32⟩
  | 54 => ⟨S5000x32x64, .f32⟩
  | 55 => ⟨S5000x32x64, .f32⟩
  | 56 => ⟨S1x64x64, .f32⟩
  | 57 => ⟨S64x64, .f32⟩
  | 58 => ⟨S5000x32x64, .f32⟩
  | 59 => ⟨S1x64, .f32⟩
  | 60 => ⟨S64, .f32⟩
  | 61 => ⟨S1x1x64, .f32⟩
  | 62 => ⟨S5000x32x64, .f32⟩
  | 63 => ⟨S5000x32x64, .f32⟩
  | 64 => ⟨S_, .f32⟩
  | 65 => ⟨S5000x32x64, .f32⟩
  | 66 => ⟨S5000x32x64, .f32⟩
  | 67 => ⟨S5000x32x192, .f32⟩
  | 68 => ⟨S_, .f32⟩
  | 69 => ⟨S32x192, .f32⟩
  | 70 => ⟨S32x128, .f32⟩
  | 71 => ⟨S1x128, .f32⟩
  | 72 => ⟨S32x128, .f32⟩
  | 73 => ⟨S32x128, .f32⟩
  | 74 => ⟨S_, .f32⟩
  | 75 => ⟨S32x128, .f32⟩
  | 76 => ⟨S32x128, .f32⟩
  | 77 => ⟨S32x64, .f32⟩
  | 78 => ⟨S1x64, .f32⟩
  | 79 => ⟨S32x64, .f32⟩
  | 80 => ⟨S32x64, .f32⟩
  | 81 => ⟨S_, .f32⟩
  | 82 => ⟨S32x64, .f32⟩
  | 83 => ⟨S32x64, .f32⟩
  | 84 => ⟨S32x1, .f32⟩
  | 85 => ⟨S1x1, .f32⟩
  | 86 => ⟨S32x1, .f32⟩
  | 87 => ⟨S32x1, .f32⟩
  | 88 => ⟨S32, .f32⟩
  | _ => ⟨S1x5000x140, .f32⟩

abbrev hbmTy (i : Nat) : BufTy := match i / 128 with
  | 0 => hbmTy0_0 i
  | 1 => hbmTy0_1 i
  | _ => ⟨S1x5000x140, .f32⟩

abbrev bufTy : (tb : Table) → Fin (tcTables nBuf tb) → BufTy
  | .hbm, ⟨i, _⟩ => hbmTy i
  | _, _ => ⟨S1x5000x140, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_1 : Ref sig .tc := ⟨.hbm, 48, rfl⟩
abbrev main_v27 : Ref sig .tc := ⟨.hbm, 49, rfl⟩
abbrev main_v28 : Ref sig .tc := ⟨.hbm, 50, rfl⟩
abbrev main_c_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call0_cst : Ref sig .tc := ⟨.hbm, 79, rfl⟩
abbrev main_call0_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_cst : Ref sig .tc := ⟨.hbm, 90, rfl⟩
abbrev main_call1_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_6 : Ref sig .tc := ⟨.hbm, 99, rfl⟩
abbrev main_v68 : Ref sig .tc := ⟨.hbm, 100, rfl⟩
abbrev main_v69 : Ref sig .tc := ⟨.hbm, 101, rfl⟩
abbrev main_c_7 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_8 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_9 : Ref sig .tc := ⟨.hbm, 112, rfl⟩
abbrev main_v78 : Ref sig .tc := ⟨.hbm, 113, rfl⟩
abbrev main_cst_10 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_11 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_call2_cst : Ref sig .tc := ⟨.hbm, 130, rfl⟩
abbrev main_call2_v0 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_call3_cst : Ref sig .tc := ⟨.hbm, 141, rfl⟩
abbrev main_call3_v0 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_12 : Ref sig .tc := ⟨.hbm, 150, rfl⟩
abbrev main_v109 : Ref sig .tc := ⟨.hbm, 151, rfl⟩
abbrev main_v110 : Ref sig .tc := ⟨.hbm, 152, rfl⟩
abbrev main_c_13 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_14 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_15 : Ref sig .tc := ⟨.hbm, 163, rfl⟩
abbrev main_v119 : Ref sig .tc := ⟨.hbm, 164, rfl⟩
abbrev main_cst_16 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_17 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_call4_cst : Ref sig .tc := ⟨.hbm, 181, rfl⟩
abbrev main_call4_v0 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_call5_cst : Ref sig .tc := ⟨.hbm, 192, rfl⟩
abbrev main_call5_v0 : Ref sig .tc := ⟨.hbm, 193, rfl⟩
abbrev main_v143 : Ref sig .tc := ⟨.hbm, 194, rfl⟩
abbrev main_v144 : Ref sig .tc := ⟨.hbm, 195, rfl⟩
abbrev main_cst_18 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_call6_cst : Ref sig .tc := ⟨.hbm, 202, rfl⟩
abbrev main_call6_v0 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_call7_cst : Ref sig .tc := ⟨.hbm, 209, rfl⟩
abbrev main_call7_v0 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩

abbrev nD : Nat := 1
abbrev τ : Topo := Topo.v7x

variable {F : FTy → Type} [FloatOps F]

class Facts₀ : Prop where
  shapeCasts_S1x5000x140_S5000x140 : S1x5000x140.ShapeCasts S5000x140
  shapeCasts_S1x5000_S5000 : S1x5000.ShapeCasts S5000
  shapeCasts_S1x8000x2_S8000x2 : S1x8000x2.ShapeCasts S8000x2
  shapeCasts_S1x32x24_S32x24 : S1x32x24.ShapeCasts S32x24
  bcast_S_S5000 : S_.BroadcastsInDim S5000 (![] : Fin 0 → Fin S5000.rank)
  bcast_S5000_S5000x1_0 : S5000.BroadcastsInDim S5000x1 (![0] : Fin 1 → Fin S5000x1.rank)
  concatenates_S5000x140_S5000x8_S5000x148_d1 : Shape.Concatenates [S5000x140, S5000x8] S5000x148 1
  bcast_S5000x148_S5000x1x148_0_2 : S5000x148.BroadcastsInDim S5000x1x148 (![0, 2] : Fin 2 → Fin S5000x1x148.rank)
  bcast_S5000x1x148_S5000x32x148_0_1_2 : S5000x1x148.BroadcastsInDim S5000x32x148 (![0, 1, 2] : Fin 3 → Fin S5000x32x148.rank)
  bcast_S32x24_S1x32x24_1_2 : S32x24.BroadcastsInDim S1x32x24 (![1, 2] : Fin 2 → Fin S1x32x24.rank)
  bcast_S1x32x24_S5000x32x24_0_1_2 : S1x32x24.BroadcastsInDim S5000x32x24 (![0, 1, 2] : Fin 3 → Fin S5000x32x24.rank)
  concatenates_S5000x32x148_S5000x32x24_S5000x32x172_d2 : Shape.Concatenates [S5000x32x148, S5000x32x24] S5000x32x172 2
  slices_S8000x2_S8000x1_0_0 : S8000x2.Slices ![0, 0] S8000x1
  shapeCasts_S8000x1_S8000 : S8000x1.ShapeCasts S8000
  slices_S8000x2_S8000x1_0_1 : S8000x2.Slices ![0, 1] S8000x1
  concatenates_S8000_S8000_S16000_d0 : Shape.Concatenates [S8000, S8000] S16000 0
  bcast_S_S16000 : S_.BroadcastsInDim S16000 (![] : Fin 0 → Fin S16000.rank)
  bcast_S16000_S16000x1_0 : S16000.BroadcastsInDim S16000x1 (![0] : Fin 1 → Fin S16000x1.rank)
  bcast_S_S5000x32x172 : S_.BroadcastsInDim S5000x32x172 (![] : Fin 0 → Fin S5000x32x172.rank)
  bcast_S5000_S5000x1x1_0 : S5000.BroadcastsInDim S5000x1x1 (![0] : Fin 1 → Fin S5000x1x1.rank)
  bcast_S5000x1x1_S5000x32x172_0_1_2 : S5000x1x1.BroadcastsInDim S5000x32x172 (![0, 1, 2] : Fin 3 → Fin S5000x32x172.rank)
  bcast_S64_S1x1x64_2 : S64.BroadcastsInDim S1x1x64 (![2] : Fin 1 → Fin S1x1x64.rank)
  bcast_S1x1x64_S5000x32x64_0_1_2 : S1x1x64.BroadcastsInDim S5000x32x64 (![0, 1, 2] : Fin 3 → Fin S5000x32x64.rank)
  bcast_S_S5000x32x64 : S_.BroadcastsInDim S5000x32x64 (![] : Fin 0 → Fin S5000x32x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S2x64x64_S1x64x64_0_0_0 : S2x64x64.Slices ![0, 0, 0] S1x64x64
  slices_S2x64_S1x64_0_0 : S2x64.Slices ![0, 0] S1x64
  bcast_S5000x1x1_S5000x32x64_0_1_2 : S5000x1x1.BroadcastsInDim S5000x32x64 (![0, 1, 2] : Fin 3 → Fin S5000x32x64.rank)
  slices_S3x64x64_S1x64x64_1_0_0 : S3x64x64.Slices ![1, 0, 0] S1x64x64
  slices_S3x64_S1x64_1_0 : S3x64.Slices ![1, 0] S1x64
  slices_S2x64x64_S1x64x64_1_0_0 : S2x64x64.Slices ![1, 0, 0] S1x64x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  concatenates_S5000x32x64_S5000x32x64_S5000x32x64_S5000x32x192_d2 : Shape.Concatenates [S5000x32x64, S5000x32x64, S5000x32x64] S5000x32x192 2
  reducesTo_S5000x32x192_S32x192_d0 : S5000x32x192.ReducesTo [0] S32x192
  h_S_ : 0 < S_.numel
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  gather_S120x8_S5000x1_S5000x8_1_0_n_n_0_1_18_wf : GatherDims.WF S120x8 S5000x1 S5000x8 [1] [0] [] [0] [] 1 ![1, 8]
  gather_S5000x32x172_S16000x1_S16000x32x172_12_0_n_n_0_1_132172_wf : GatherDims.WF S5000x32x172 S16000x1 S16000x32x172 [1, 2] [0] [] [0] [] 1 ![1, 32, 172]
  scatter_S5000x32x172_S16000x1_S16000x32x172_12_0_0_1_wf : ScatterDims.WF S5000x32x172 S16000x1 S16000x32x172 [1, 2] [0] [0] 1
  scatter_S5000_S16000x1_S16000_n_0_0_1_wf : ScatterDims.WF S5000 S16000x1 S16000 [] [0] [0] 1
  dot_S5000x32x172_S172x64_S5000x32x64_2_0_01_1_n_n_wf : DotDims.WF S5000x32x172 S172x64 S5000x32x64 [2] [0] [0, 1] [1] [] []
  dot_S5000x32x64_S64x64_S5000x32x64_2_0_01_1_n_n_wf : DotDims.WF S5000x32x64 S64x64 S5000x32x64 [2] [0] [0, 1] [1] [] []
  gather_S5000x32x64_S16000x1_S16000x32x64_12_0_n_n_0_1_13264_wf : GatherDims.WF S5000x32x64 S16000x1 S16000x32x64 [1, 2] [0] [] [0] [] 1 ![1, 32, 64]
  scatter_S5000x32x64_S16000x1_S16000x32x64_12_0_0_1_wf : ScatterDims.WF S5000x32x64 S16000x1 S16000x32x64 [1, 2] [0] [0] 1
  dot_S32x192_S192x128_S32x128_1_0_0_1_n_n_wf : DotDims.WF S32x192 S192x128 S32x128 [1] [0] [0] [1] [] []
  dot_S32x128_S128x64_S32x64_1_0_0_1_n_n_wf : DotDims.WF S32x128 S128x64 S32x64 [1] [0] [0] [1] [] []
  dot_S32x64_S64x1_S32x1_1_0_0_1_n_n_wf : DotDims.WF S32x64 S64x1 S32x1 [1] [0] [0] [1] [] []

variable [Facts₀]

def gather_S120x8_S5000x1_S5000x8_1_0_n_n_0_1_18 : GatherDims S120x8 S5000x1 S5000x8 where
  offsetDims := [1]
  collapsedSliceDims := [0]
  operandBatchingDims := []
  startIndicesBatchingDims := []
  startIndexMap := [0]
  indexVectorDim := 1
  sliceSizes := ![1, 8]
  wf := gather_S120x8_S5000x1_S5000x8_1_0_n_n_0_1_18_wf
def gather_S5000x32x172_S16000x1_S16000x32x172_12_0_n_n_0_1_132172 : GatherDims S5000x32x172 S16000x1 S16000x32x172 where
  offsetDims := [1, 2]
  collapsedSliceDims := [0]
  operandBatchingDims := []
  startIndicesBatchingDims := []
  startIndexMap := [0]
  indexVectorDim := 1
  sliceSizes := ![1, 32, 172]
  wf := gather_S5000x32x172_S16000x1_S16000x32x172_12_0_n_n_0_1_132172_wf
def scatter_S5000x32x172_S16000x1_S16000x32x172_12_0_0_1 : ScatterDims S5000x32x172 S16000x1 S16000x32x172 where
  updateWindowDims := [1, 2]
  insertedWindowDims := [0]
  scatterDimsToOperandDims := [0]
  indexVectorDim := 1
  wf := scatter_S5000x32x172_S16000x1_S16000x32x172_12_0_0_1_wf
def scatter_S5000_S16000x1_S16000_n_0_0_1 : ScatterDims S5000 S16000x1 S16000 where
  updateWindowDims := []
  insertedWindowDims := [0]
  scatterDimsToOperandDims := [0]
  indexVectorDim := 1
  wf := scatter_S5000_S16000x1_S16000_n_0_0_1_wf
def dot_S5000x32x172_S172x64_S5000x32x64_2_0_01_1_n_n : DotDims S5000x32x172 S172x64 S5000x32x64 where
  lhsContracting := [2]
  rhsContracting := [0]
  lhsNonContracting := [0, 1]
  rhsNonContracting := [1]
  lhsBatch := []
  rhsBatch := []
  wf := dot_S5000x32x172_S172x64_S5000x32x64_2_0_01_1_n_n_wf
def dot_S5000x32x64_S64x64_S5000x32x64_2_0_01_1_n_n : DotDims S5000x32x64 S64x64 S5000x32x64 where
  lhsContracting := [2]
  rhsContracting := [0]
  lhsNonContracting := [0, 1]
  rhsNonContracting := [1]
  lhsBatch := []
  rhsBatch := []
  wf := dot_S5000x32x64_S64x64_S5000x32x64_2_0_01_1_n_n_wf
def gather_S5000x32x64_S16000x1_S16000x32x64_12_0_n_n_0_1_13264 : GatherDims S5000x32x64 S16000x1 S16000x32x64 where
  offsetDims := [1, 2]
  collapsedSliceDims := [0]
  operandBatchingDims := []
  startIndicesBatchingDims := []
  startIndexMap := [0]
  indexVectorDim := 1
  sliceSizes := ![1, 32, 64]
  wf := gather_S5000x32x64_S16000x1_S16000x32x64_12_0_n_n_0_1_13264_wf
def scatter_S5000x32x64_S16000x1_S16000x32x64_12_0_0_1 : ScatterDims S5000x32x64 S16000x1 S16000x32x64 where
  updateWindowDims := [1, 2]
  insertedWindowDims := [0]
  scatterDimsToOperandDims := [0]
  indexVectorDim := 1
  wf := scatter_S5000x32x64_S16000x1_S16000x32x64_12_0_0_1_wf
def dot_S32x192_S192x128_S32x128_1_0_0_1_n_n : DotDims S32x192 S192x128 S32x128 where
  lhsContracting := [1]
  rhsContracting := [0]
  lhsNonContracting := [0]
  rhsNonContracting := [1]
  lhsBatch := []
  rhsBatch := []
  wf := dot_S32x192_S192x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

class Facts : Prop extends Facts₀ where

variable [Facts]
-- ==== Proof.KB.Layer0.lean ====
/-
  The first layer's kernel region, taken by itself: node tiles of 200 rows. At a grid point the body reads its ten input
  blocks (the tile's rows of the node features and of their neighbour means, the tile's has-a-neighbour column, the two
  node-part weight matrices, the two config-part products, the bias, the skip weights and the skip bias), and writes two
  blocks: the tile's activations relu(self + neigh + b0), laid out as 200 x 2048, and the tile's pooled skip sum
  (1 x 32 x 64). This module states what the two output buffers hold after the body as functions of the input blocks, proves
  the body's triple against them, and packages the launch's per-point obligation. Everything is generic in the float
  instance.
-/
import proofs.«142801_j13228499272260_2_alg».proof.Proof.Gen.Kernel.Launch
import proofs.«142801_j13228499272260_2_alg».proof.Proof.Gen.Kernel.Skeleton
import proofs.«142801_j13228499272260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map selects. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept it
    from the point before (the index map did not move). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from the point before (the index map did not move). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from the point before (the index map did not move). -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or kept it
    from the point before (the index map did not move). -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether the pipeline fetched it there or kept it
    from the point before (the index map did not move). -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether the pipeline fetched it there or kept it
    from the point before (the index map did not move). -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether the pipeline fetched it there or kept it
    from the point before (the index map did not move). -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, whether the pipeline fetched it there or kept it
    from the point before (the index map did not move). -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, whether the pipeline fetched it there or kept it
    from the point before (the index map did not move). -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, whether the pipeline fetched it there or kept it
    from the point before (the index map did not move). -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- What the body leaves in output window 10's staging buffer, as a function of the input blocks: one store over the whole buffer. -/
def out_10 (x0 : Vec F S200x148 .f32) (x1 : Vec F S200x148 .f32) (x2 : Vec F S200x1 .f32) (x3 : Vec F S148x64 .bf16) (x4 : Vec F S148x64 .bf16) (x5 : Vec F S32x64 .f32) (x6 : Vec F S32x64 .f32) (x7 : Vec F S64 .f32) (x8 : Vec F S64x64 .bf16) (x9 : Vec F S64 .f32) : Vec F S200x2048 .bf16 :=
  View.canon [⟨Rect.unit (s := S200x2048) ![0, 0] S200x2048.size inb_S200x2048_S200x2048_0_0, k0_pay2 (k0_pay4 (View.ld x7 (Rect.unit (s := S64) ![0] S64.size inb_S64_S64_0))) (k0_pay7 (View.ld x0 (Rect.unit (s := S200x148) ![0, 0] S200x148.size inb_S200x148_S200x148_0_0)) (View.ld x1 (Rect.unit (s := S200x148) ![0, 0] S200x148.size inb_S200x148_S200x148_0_0)) (View.ld x2 (Rect.unit (s := S200x1) ![0, 0] S200x1.size inb_S200x1_S200x1_0_0)) (View.ld x3 (Rect.unit (s := S148x64) ![0, 0] S148x64.size inb_S148x64_S148x64_0_0)) (View.ld x4 (Rect.unit (s := S148x64) ![0, 0] S148x64.size inb_S148x64_S148x64_0_0)) (View.ld x5 (Rect.unit (s := S32x64) ![0, 0] S32x64.size inb_S32x64_S32x64_0_0)) (View.ld x6 (Rect.unit (s := S32x64) ![0, 0] S32x64.size inb_S32x64_S32x64_0_0)))⟩]

/-- That store covers the buffer. -/
theorem cover_10 (p0 : Vec F S200x2048 .bf16) (y : S200x2048.Idx) :
    ∃ pc ∈ ([⟨Rect.unit (s := S200x2048) ![0, 0] S200x2048.size inb_S200x2048_S200x2048_0_0, p0⟩] : List (View.Piece (Elt F) S200x2048 .bf16)), y ∈ pc.1.set :=
  View.cover_of_tiled [⟨Rect.unit (s := S200x2048) ![0, 0] S200x2048.size inb_S200x2048_S200x2048_0_0, p0⟩] S200x2048.size (by rfl) y

/-- What the body leaves in output window 11's staging buffer, as a function of the input blocks: one store over the whole buffer. -/
def out_11 (x0 : Vec F S200x148 .f32) (x1 : Vec F S200x148 .f32) (x2 : Vec F S200x1 .f32) (x3 : Vec F S148x64 .bf16) (x4 : Vec F S148x64 .bf16) (x5 : Vec F S32x64 .f32) (x6 : Vec F S32x64 .f32) (x7 : Vec F S64 .f32) (x8 : Vec F S64x64 .bf16) (x9 : Vec F S64 .f32) : Vec F S1x32x64 .f32 :=
  View.canon [⟨Rect.unit (s := S1x32x64) ![0, 0, 0] S1x32x64.size inb_S1x32x64_S1x32x64_0_0_0, k0_pay3 (k0_pay4 (View.ld x7 (Rect.unit (s := S64) ![0] S64.size inb_S64_S64_0))) (k0_pay5 (View.ld x8 (Rect.unit (s := S64x64) ![0, 0] S64x64.size inb_S64x64_S64x64_0_0))) (k0_pay6 (View.ld x9 (Rect.unit (s := S64) ![0] S64.size inb_S64_S64_0))) (k0_pay7 (View.ld x0 (Rect.unit (s := S200x148) ![0, 0] S200x148.size inb_S200x148_S200x148_0_0)) (View.ld x1 (Rect.unit (s := S200x148) ![0, 0] S200x148.size inb_S200x148_S200x148_0_0)) (View.ld x2 (Rect.unit (s := S200x1) ![0, 0] S200x1.size inb_S200x1_S200x1_0_0)) (View.ld x3 (Rect.unit (s := S148x64) ![0, 0] S148x64.size inb_S148x64_S148x64_0_0)) (View.ld x4 (Rect.unit (s := S148x64) ![0, 0] S148x64.size inb_S148x64_S148x64_0_0)) (View.ld x5 (Rect.unit (s := S32x64) ![0, 0] S32x64.size inb_S32x64_S32x64_0_0)) (View.ld x6 (Rect.unit (s := S32x64) ![0, 0] S32x64.size inb_S32x64_S32x64_0_0)))⟩]

/-- That store covers the buffer. -/
theorem cover_11 (p0 : Vec F S1x32x64 .f32) (y : S1x32x64.Idx) :
    ∃ pc ∈ ([⟨Rect.unit (s := S1x32x64) ![0, 0, 0] S1x32x64.size inb_S1x32x64_S1x32x64_0_0_0, p0⟩] : List (View.Piece (Elt F) S1x32x64 .f32)), y ∈ pc.1.set :=
  View.cover_of_tiled [⟨Rect.unit (s := S1x32x64) ![0, 0, 0] S1x32x64.size inb_S1x32x64_S1x32x64_0_0_0, p0⟩] S1x32x64.size (by rfl) y

set_option maxHeartbeats 4000000 in
/-- The body's triple: run on whole staging buffers, the inputs' at contents `xJ` and the outputs' at anything, it ends with the
    inputs' as they were and each output's at `out_W` of the inputs'. -/
theorem sound_kernel (c : Dev nD) (E : Set ℕ) (i : grid0.Coords) (arg1 : Memref sig .tc .vmem S200x148 .f32) (harg1 : arg1.IsWhole) (arg2 : Memref sig .tc .vmem S200x148 .f32) (harg2 : arg2.IsWhole) (arg3 : Memref sig .tc .vmem S200x1 .f32) (harg3 : arg3.IsWhole) (arg4 : Memref sig .tc .vmem S148x64 .bf16) (harg4 : arg4.IsWhole) (arg5 : Memref sig .tc .vmem S148x64 .bf16) (harg5 : arg5.IsWhole) (arg6 : Memref sig .tc .vmem S32x64 .f32) (harg6 : arg6.IsWhole) (arg7 : Memref sig .tc .vmem S32x64 .f32) (harg7 : arg7.IsWhole) (arg8 : Memref sig .tc .vmem S64 .f32) (harg8 : arg8.IsWhole) (arg9 : Memref sig .tc .vmem S64x64 .bf16) (harg9 : arg9.IsWhole) (arg10 : Memref sig .tc .vmem S64 .f32) (harg10 : arg10.IsWhole) (arg11 : Memref sig .tc .vmem S200x2048 .bf16) (harg11 : arg11.IsWhole) (arg12 : Memref sig .tc .vmem S1x32x64 .f32) (harg12 : arg12.IsWhole)
    (x0 : Vec F S200x148 .f32) (x1 : Vec F S200x148 .f32) (x2 : Vec F S200x1 .f32) (x3 : Vec F S148x64 .bf16) (x4 : Vec F S148x64 .bf16) (x5 : Vec F S32x64 .f32) (x6 : Vec F S32x64 .f32) (x7 : Vec F S64 .f32) (x8 : Vec F S64x64 .bf16) (x9 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out_10 x0 x1 x2 x3 x4 x5 x6 x7 x8 x9) ∗ owns (c : Thread nD τ) arg12 fullShare (out_11 x0 x1 x2 x3 x4 x5 x6 x7 x8 x9)) -∗ K ⟨⟩))
      ⊢ wp frame (wpE (defs₀ (F := F)) Variants.none c none) E (cc0__layer0_kernel i arg1 harg1 arg2 harg2 arg3 harg3 arg4 harg4 arg5 harg5 arg6 harg6 arg7 harg7 arg8 harg8 arg9 harg9 arg10 harg10 arg11 harg11 arg12 harg12) K := by
  simp only [cc0__layer0_kernel_eq_skeleton]; unfold cc0__layer0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_10 _)
  iexists _; isplitr
  swap; · iexact H11
  ipureintro
  exact View.read_writes_eq_canon _ _ _ (cover_11 _)

/-- The pipeline's proof data on core `c`: the arrays as the region finds them; after the body at point `t` each input's buffer
    still at its block and each output's at `out_W` of the input blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out_10 (iblk V c 0 t) (iblk V c 1 t) (iblk V c 2 t) (iblk V c 3 t) (iblk V c 4 t) (iblk V c 5 t) (iblk V c 6 t) (iblk V c 7 t) (iblk V c 8 t) (iblk V c 9 t)
    | ⟨11, _⟩ => out_11 (iblk V c 0 t) (iblk V c 1 t) (iblk V c 2 t) (iblk V c 3 t) (iblk V c 4 t) (iblk V c 5 t) (iblk V c 6 t) (iblk V c 7 t) (iblk V c 8 t) (iblk V c 9 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = out_10 (iblk V c 0 t) (iblk V c 1 t) (iblk V c 2 t) (iblk V c 3 t) (iblk V c 4 t) (iblk V c 5 t) (iblk V c 6 t) (iblk V c 7 t) (iblk V c 8 t) (iblk V c 9 t) := by dsimp only [dat]
theorem after_11 (c : Dev nD) (t : Fin cfg0.N) : (dat V c).after 11 t = out_11 (iblk V c 0 t) (iblk V c 1 t) (iblk V c 2 t) (iblk V c 3 t) (iblk V c 4 t) (iblk V c 5 t) (iblk V c 6 t) (iblk V c 7 t) (iblk V c 8 t) (iblk V c 9 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

set_option maxHeartbeats 2000000 in
/-- The body at any point: the inputs' buffers hold their blocks, so the body's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the launch theorems, at every point. -/
theorem body_obligation (c : Dev nD) : BodyObligation (dat (F := F) V c) (defs₀ (F := F)) Variants.none () Set.univ := fun t => by
  rw [bigSep_W0, bigSep_W0]
  exact sound_body V c t

end Cert.Kernel.Layer0

end
-- ==== Proof.KB.Sage1.lean ====
/-
  Hidden layer 1's kernel region, taken by itself: node tiles of 200 rows of the 5000 x 2048 activations (32 configs x 64
  features per row). At a grid point the body reads the tile's rows of the activations and of their neighbour means, the two
  64 x 64 weight matrices, the bias, the skip weights and the skip bias, and writes the tile's next activations
  relu(x W_self + agg W_neigh + b) (200 x 2048) and the tile's pooled skip sum (1 x 32 x 64). This module states what the two
  output buffers hold after the body as functions of the input blocks, proves the body's triple against them, and packages the
  launch's per-point obligation. Everything is generic in the float instance.
-/
import proofs.«142801_j13228499272260_2_alg».proof.Proof.Gen.Kernel.Launch
import proofs.«142801_j13228499272260_2_alg».proof.Proof.Gen.Kernel.Skeleton
import proofs.«142801_j13228499272260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map selects. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it
    from the point before (the index map did not move). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from the point before (the index map did not move). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from the point before (the index map did not move). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or kept it
    from the point before (the index map did not move). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether the pipeline fetched it there or kept it
    from the point before (the index map did not move). -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether the pipeline fetched it there or kept it
    from the point before (the index map did not move). -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether the pipeline fetched it there or kept it
    from the point before (the index map did not move). -/
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- What the body leaves in output window 7's staging buffer, as a function of the input blocks: one store over the whole buffer. -/
def out_7 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S200x2048 .bf16 :=
  View.canon [⟨Rect.unit (s := S200x2048) ![0, 0] S200x2048.size inb_S200x2048_S200x2048_0_0, k1_pay2 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0))⟩]

/-- That store covers the buffer. -/
theorem cover_7 (p0 : Vec F S200x2048 .bf16) (y : S200x2048.Idx) :
    ∃ pc ∈ ([⟨Rect.unit (s := S200x2048) ![0, 0] S200x2048.size inb_S200x2048_S200x2048_0_0, p0⟩] : List (View.Piece (Elt F) S200x2048 .bf16)), y ∈ pc.1.set :=
  View.cover_of_tiled [⟨Rect.unit (s := S200x2048) ![0, 0] S200x2048.size inb_S200x2048_S200x2048_0_0, p0⟩] S200x2048.size (by rfl) y

/-- What the body leaves in output window 8's staging buffer, as a function of the input blocks: one store over the whole buffer. -/
def out_8 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S1x32x64 .f32 :=
  View.canon [⟨Rect.unit (s := S1x32x64) ![0, 0, 0] S1x32x64.size inb_S1x32x64_S1x32x64_0_0_0, k1_pay3 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0)) (View.ld x5 (Rect.unit (s := S64x64) ![0, 0] S64x64.size inb_S64x64_S64x64_0_0)) (View.ld x6 (Rect.unit (s := S64) ![0] S64.size inb_S64_S64_0))⟩]

/-- That store covers the buffer. -/
theorem cover_8 (p0 : Vec F S1x32x64 .f32) (y : S1x32x64.Idx) :
    ∃ pc ∈ ([⟨Rect.unit (s := S1x32x64) ![0, 0, 0] S1x32x64.size inb_S1x32x64_S1x32x64_0_0_0, p0⟩] : List (View.Piece (Elt F) S1x32x64 .f32)), y ∈ pc.1.set :=
  View.cover_of_tiled [⟨Rect.unit (s := S1x32x64) ![0, 0, 0] S1x32x64.size inb_S1x32x64_S1x32x64_0_0_0, p0⟩] S1x32x64.size (by rfl) y

set_option maxHeartbeats 4000000 in
/-- The body's triple: run on whole staging buffers, the inputs' at contents `xJ` and the outputs' at anything, it ends with the
    inputs' as they were and each output's at `out_W` of the inputs'. -/
theorem sound_kernel (c : Dev nD) (E : Set ℕ) (i : grid1.Coords) (arg1 : Memref sig .tc .vmem S200x2048 .bf16) (harg1 : arg1.IsWhole) (arg2 : Memref sig .tc .vmem S200x2048 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S200x2048 .bf16) (harg8 : arg8.IsWhole) (arg9 : Memref sig .tc .vmem S1x32x64 .f32) (harg9 : arg9.IsWhole)
    (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out_7 x0 x1 x2 x3 x4 x5 x6) ∗ owns (c : Thread nD τ) arg9 fullShare (out_8 x0 x1 x2 x3 x4 x5 x6)) -∗ K ⟨⟩))
      ⊢ wp frame (wpE (defs₀ (F := F)) Variants.none c none) E (cc1__sage_h_kernel i arg1 harg1 arg2 harg2 arg3 harg3 arg4 harg4 arg5 harg5 arg6 harg6 arg7 harg7 arg8 harg8 arg9 harg9) K := by
  simp only [cc1__sage_h_kernel_eq_skeleton]; unfold cc1__sage_h_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_7 _)
  iexists _; isplitr
  swap; · iexact H8
  ipureintro
  exact View.read_writes_eq_canon _ _ _ (cover_8 _)

/-- The pipeline's proof data on core `c`: the arrays as the region finds them; after the body at point `t` each input's buffer
    still at its block and each output's at `out_W` of the input blocks; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out_7 (iblk V c 0 t) (iblk V c 1 t) (iblk V c 2 t) (iblk V c 3 t) (iblk V c 4 t) (iblk V c 5 t) (iblk V c 6 t)
    | ⟨8, _⟩ => out_8 (iblk V c 0 t) (iblk V c 1 t) (iblk V c 2 t) (iblk V c 3 t) (iblk V c 4 t) (iblk V c 5 t) (iblk V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = out_7 (iblk V c 0 t) (iblk V c 1 t) (iblk V c 2 t) (iblk V c 3 t) (iblk V c 4 t) (iblk V c 5 t) (iblk V c 6 t) := by dsimp only [dat]
theorem after_8 (c : Dev nD) (t : Fin cfg1.N) : (dat V c).after 8 t = out_8 (iblk V c 0 t) (iblk V c 1 t) (iblk V c 2 t) (iblk V c 3 t) (iblk V c 4 t) (iblk V c 5 t) (iblk V c 6 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

set_option maxHeartbeats 2000000 in
/-- The body at any point: the inputs' buffers hold their blocks, so the body's triple applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the launch theorems, at every point. -/
theorem body_obligation (c : Dev nD) : BodyObligation (dat (F := F) V c) (defs₀ (F := F)) Variants.none () Set.univ := fun t => by
  rw [bigSep_W1, bigSep_W1]
  exact sound_body V c t

end Cert.Kernel.Sage1

end
-- ==== Proof.KB.Sage2.lean ====
/-
  Hidden layer 2's kernel region, taken by itself: node tiles of 200 rows of the 5000 x 2048 activations (32 configs x 64
  features per row). At a grid point the body reads the tile's rows of the activations and of their neighbour means, the two
  64 x 64 weight matrices, the bias, the skip weights and the skip bias, and writes the tile's next activations
  relu(x W_self + agg W_neigh + b) (200 x 2048) and the tile's pooled skip sum (1 x 32 x 64). This module states what the two
  output buffers hold after the body as functions of the input blocks, proves the body's triple against them, and packages the
  launch's per-point obligation. Everything is generic in the float instance.
-/
import proofs.«142801_j13228499272260_2_alg».proof.Proof.Gen.Kernel.Launch
import proofs.«142801_j13228499272260_2_alg».proof.Proof.Gen.Kernel.Skeleton
import proofs.«142801_j13228499272260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map selects. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept it
    from the point before (the index map did not move). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from the point before (the index map did not move). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from the point before (the index map did not move). -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or kept it
    from the point before (the index map did not move). -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether the pipeline fetched it there or kept it
    from the point before (the index map did not move). -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether the pipeline fetched it there or kept it
    from the point before (the index map did not move). -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether the pipeline fetched it there or kept it
    from the point before (the index map did not move). -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- What the body leaves in output window 7's staging buffer, as a function of the input blocks: one store over the whole buffer. -/
def out_7 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S200x2048 .bf16 :=
  View.canon [⟨Rect.unit (s := S200x2048) ![0, 0] S200x2048.size inb_S200x2048_S200x2048_0_0, k2_pay2 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0))⟩]

/-- That store covers the buffer. -/
theorem cover_7 (p0 : Vec F S200x2048 .bf16) (y : S200x2048.Idx) :
    ∃ pc ∈ ([⟨Rect.unit (s := S200x2048) ![0, 0] S200x2048.size inb_S200x2048_S200x2048_0_0, p0⟩] : List (View.Piece (Elt F) S200x2048 .bf16)), y ∈ pc.1.set :=
  View.cover_of_tiled [⟨Rect.unit (s := S200x2048) ![0, 0] S200x2048.size inb_S200x2048_S200x2048_0_0, p0⟩] S200x2048.size (by rfl) y

/-- What the body leaves in output window 8's staging buffer, as a function of the input blocks: one store over the whole buffer. -/
def out_8 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S1x32x64 .f32 :=
  View.canon [⟨Rect.unit (s := S1x32x64) ![0, 0, 0] S1x32x64.size inb_S1x32x64_S1x32x64_0_0_0, k2_pay3 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0)) (View.ld x5 (Rect.unit (s := S64x64) ![0, 0] S64x64.size inb_S64x64_S64x64_0_0)) (View.ld x6 (Rect.unit (s := S64) ![0] S64.size inb_S64_S64_0))⟩]

/-- That store covers the buffer. -/
theorem cover_8 (p0 : Vec F S1x32x64 .f32) (y : S1x32x64.Idx) :
    ∃ pc ∈ ([⟨Rect.unit (s := S1x32x64) ![0, 0, 0] S1x32x64.size inb_S1x32x64_S1x32x64_0_0_0, p0⟩] : List (View.Piece (Elt F) S1x32x64 .f32)), y ∈ pc.1.set :=
  View.cover_of_tiled [⟨Rect.unit (s := S1x32x64) ![0, 0, 0] S1x32x64.size inb_S1x32x64_S1x32x64_0_0_0, p0⟩] S1x32x64.size (by rfl) y

set_option maxHeartbeats 4000000 in
/-- The body's triple: run on whole staging buffers, the inputs' at contents `xJ` and the outputs' at anything, it ends with the
    inputs' as they were and each output's at `out_W` of the inputs'. -/
theorem sound_kernel (c : Dev nD) (E : Set ℕ) (i : grid2.Coords) (arg1 : Memref sig .tc .vmem S200x2048 .bf16) (harg1 : arg1.IsWhole) (arg2 : Memref sig .tc .vmem S200x2048 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S200x2048 .bf16) (harg8 : arg8.IsWhole) (arg9 : Memref sig .tc .vmem S1x32x64 .f32) (harg9 : arg9.IsWhole)
    (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out_7 x0 x1 x2 x3 x4 x5 x6) ∗ owns (c : Thread nD τ) arg9 fullShare (out_8 x0 x1 x2 x3 x4 x5 x6)) -∗ K ⟨⟩))
      ⊢ wp frame (wpE (defs₀ (F := F)) Variants.none c none) E (cc2__sage_h_kernel i arg1 harg1 arg2 harg2 arg3 harg3 arg4 harg4 arg5 harg5 arg6 harg6 arg7 harg7 arg8 harg8 arg9 harg9) K := by
  simp only [cc2__sage_h_kernel_eq_skeleton]; unfold cc2__sage_h_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_7 _)
  iexists _; isplitr
  swap; · iexact H8
  ipureintro
  exact View.read_writes_eq_canon _ _ _ (cover_8 _)

/-- The pipeline's proof data on core `c`: the arrays as the region finds them; after the body at point `t` each input's buffer
    still at its block and each output's at `out_W` of the input blocks; nothing owed, full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out_7 (iblk V c 0 t) (iblk V c 1 t) (iblk V c 2 t) (iblk V c 3 t) (iblk V c 4 t) (iblk V c 5 t) (iblk V c 6 t)
    | ⟨8, _⟩ => out_8 (iblk V c 0 t) (iblk V c 1 t) (iblk V c 2 t) (iblk V c 3 t) (iblk V c 4 t) (iblk V c 5 t) (iblk V c 6 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = out_7 (iblk V c 0 t) (iblk V c 1 t) (iblk V c 2 t) (iblk V c 3 t) (iblk V c 4 t) (iblk V c 5 t) (iblk V c 6 t) := by dsimp only [dat]
theorem after_8 (c : Dev nD) (t : Fin cfg2.N) : (dat V c).after 8 t = out_8 (iblk V c 0 t) (iblk V c 1 t) (iblk V c 2 t) (iblk V c 3 t) (iblk V c 4 t) (iblk V c 5 t) (iblk V c 6 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

set_option maxHeartbeats 2000000 in
/-- The body at any point: the inputs' buffers hold their blocks, so the body's triple applies. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the launch theorems, at every point. -/
theorem body_obligation (c : Dev nD) : BodyObligation (dat (F := F) V c) (defs₀ (F := F)) Variants.none () Set.univ := fun t => by
  rw [bigSep_W2, bigSep_W2]
  exact sound_body V c t

end Cert.Kernel.Sage2

end
-- ==== Proof.KB.Run.lean ====
/-
  The whole program's run, segment by segment: eleven segments — the host stretch that prepares layer 0's operands (op-embedding
  lookup, degrees, neighbour means of the node features, the config-part products), layer 0's region, the stretch that forms the
  neighbour means of its activations, hidden layer 1's region, the same stretch again, hidden layer 2's region, and five short
  stretches for the pooled sums and the three-layer head. The contents of every buffer at each boundary are a fold from the launch
  memory: a host stretch applies its operations; a region leaves its output arrays at what its write-backs assemble and every other
  buffer as entered. No stretch and no region writes an argument array, so each argument reads back to the launch memory. Generic
  in the float instance.
-/
import proofs.«142801_j13228499272260_2_alg».proof.Proof.KB.Layer0
import proofs.«142801_j13228499272260_2_alg».proof.Proof.KB.Sage1
import proofs.«142801_j13228499272260_2_alg».proof.Proof.KB.Sage2

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: layer 0's operands are ready. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 0's region: its two result arrays at what the write-backs assemble, everything else as entered. -/
def W2 (c : Dev nD) : Valuation τ sig (Elt F) :=
  Pipeline.withArrays spec0 c (W1 m ρ c) fun w => (Layer0.dat (V1 m ρ) c).arrAt w cfg0.N
theorem W2_arr (c : Dev nD) (w : Fin cfg0.W) :
    W2 m ρ c (Proc.devRef .tc (Pipeline.arrRef spec0 w)) = (Layer0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: hidden layer 1's operands are ready. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After hidden layer 1's region. -/
def W4 (c : Dev nD) : Valuation τ sig (Elt F) :=
  Pipeline.withArrays spec1 c (W3 m ρ c) fun w => (Sage1.dat (V3 m ρ) c).arrAt w cfg1.N
theorem W4_arr (c : Dev nD) (w : Fin cfg1.W) :
    W4 m ρ c (Proc.devRef .tc (Pipeline.arrRef spec1 w)) = (Sage1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Sage1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: hidden layer 2's operands are ready. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After hidden layer 2's region. -/
def W6 (c : Dev nD) : Valuation τ sig (Elt F) :=
  Pipeline.withArrays spec2 c (W5 m ρ c) fun w => (Sage2.dat (V5 m ρ) c).arrAt w cfg2.N
theorem W6_arr (c : Dev nD) (w : Fin cfg2.W) :
    W6 m ρ c (Proc.devRef .tc (Pipeline.arrRef spec2 w)) = (Sage2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Sage2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the pooled sums, their concatenation and the head's first affine map; -/
abbrev W7 : Dev nD → Valuation τ sig (Elt F) := fun c => StableHlo.after hostOps3 (W6 m ρ c)
/-- its relu; -/
abbrev W8 : Dev nD → Valuation τ sig (Elt F) := fun c => StableHlo.after hostOps3_1 (W7 m ρ c)
/-- the second affine map; -/
abbrev W9 : Dev nD → Valuation τ sig (Elt F) := fun c => StableHlo.after hostOps3_2 (W8 m ρ c)
/-- its relu; -/
abbrev W10 : Dev nD → Valuation τ sig (Elt F) := fun c => StableHlo.after hostOps3_3 (W9 m ρ c)
/-- the last affine map and the reshape to the result. -/
abbrev W11 : Dev nD → Valuation τ sig (Elt F) := fun c => StableHlo.after hostOps3_4 (W10 m ρ c)

/-! ## What each host stretch writes -/

/-- The buffers `hostOps0` writes: its operations' results. -/
abbrev hostOps0_W : List (Ref sig .tc) := [main_v0, main_v1, main_v2, main_v3, main_c, main_v4, main_v5, main_c_0, main_v6, main_v7, main_v8, main_v9, main_v10, main_v11, main_v12, main_v13, main_v14, main_v15, main_v16, main_v17, main_v18, main_v19, main_v20, main_v21, main_cst, main_v22, main_cst_1, main_v23, main_v24, main_v25, main_cst_2, main_v26, main_v27, main_cst_3, main_v28, main_v29, main_cst_4, main_v30, main_v31, main_v32, main_c_5, main_v33, main_v34, main_c_6, main_v35, main_v36, main_v37, main_v38, main_v39, main_cst_7, main_v40, main_v41, main_v42, main_v43, main_v44, main_v45, main_v46, main_v47, main_v48, main_v49, main_v50, main_v51, main_v52, main_v53, main_v54, main_v55, main_v56, main_v57, main_v58]
theorem hostOps0_writes : (hostOps0 : List (HloOp τ sig (Elt F))).Forall fun op => op.writes ⊆ ((hostOps0_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_fresh : (hostOps0 : List (HloOp τ sig (Elt F))).Forall fun op => op.fresh = ∅ := by
  simp only [List.Forall]; repeat' constructor

/-- The buffers `hostOps1` writes: its operations' results. -/
abbrev hostOps1_W : List (Ref sig .tc) := [main_c_8, main_v60, main_v61, main_c_9, main_v62, main_v63, main_v64, main_v65, main_v66, main_v67, main_cst_10, main_v68, main_v69, main_v70, main_v71, main_v72, main_v73, main_v74, main_v75, main_v76, main_v77, main_v78, main_v79, main_v80, main_v81, main_v82, main_v83, main_v84, main_v85, main_v86, main_v87]
theorem hostOps1_writes : (hostOps1 : List (HloOp τ sig (Elt F))).Forall fun op => op.writes ⊆ ((hostOps1_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

/-- The buffers `hostOps2` writes: its operations' results. -/
abbrev hostOps2_W : List (Ref sig .tc) := [main_c_11, main_v89, main_v90, main_c_12, main_v91, main_v92, main_v93, main_v94, main_v95, main_v96, main_cst_13, main_v97, main_v98, main_v99, main_v100, main_v101, main_v102, main_v103, main_v104, main_v105, main_v106, main_v107, main_v108, main_v109, main_v110, main_v111, main_v112, main_v113, main_v114, main_v115, main_v116]
theorem hostOps2_writes : (hostOps2 : List (HloOp τ sig (Elt F))).Forall fun op => op.writes ⊆ ((hostOps2_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

/-- The buffers `hostOps3` writes: its operations' results. -/
abbrev hostOps3_W : List (Ref sig .tc) := [main_cst_14, main_v118, main_cst_15, main_v119, main_cst_16, main_v120, main_v121, main_v122, main_v123, main_v124, main_v125]
theorem hostOps3_writes : (hostOps3 : List (HloOp τ sig (Elt F))).Forall fun op => op.writes ⊆ ((hostOps3_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

/-- The buffers `hostOps3_1` writes: its operations' results. -/
abbrev hostOps3_1_W : List (Ref sig .tc) := [main_call0_cst, main_call0_v0, main_v126]
theorem hostOps3_1_writes : (hostOps3_1 : List (HloOp τ sig (Elt F))).Forall fun op => op.writes ⊆ ((hostOps3_1_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

/-- The buffers `hostOps3_2` writes: its operations' results. -/
abbrev hostOps3_2_W : List (Ref sig .tc) := [main_v127, main_v128, main_v129, main_v130]
theorem hostOps3_2_writes : (hostOps3_2 : List (HloOp τ sig (Elt F))).Forall fun op => op.writes ⊆ ((hostOps3_2_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor

/-- The buffers `hostOps3_3` writes: its operations' results. -/
abbrev hostOps3_3_W : List (Ref sig .tc) := [main_call1_cst, main_call1_v0, main_v131]
theorem hostOps3_3_writes : (hostOps3_3 : List (HloOp τ sig (Elt F))).Forall fun op => op.writes ⊆ ((hostOps3_3_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor

/-- The buffers `hostOps3_4` writes: its operations' results. -/
abbrev hostOps3_4_W : List (Ref sig .tc) := [main_v132, main_v133, main_v134, main_v135, main_v136]
theorem hostOps3_4_writes : (hostOps3_4 : List (HloOp τ sig (Elt F))).Forall fun op => op.writes ⊆ ((hostOps3_4_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_4_fresh : (hostOps3_4 : List (HloOp τ sig (Elt F))).Forall fun op => op.fresh = ∅ := by
  simp only [List.Forall]; repeat' constructor

/-! ## The arguments end as launched -/

/-- A buffer that no host stretch writes and that is no region's window array holds its launch contents at the end. -/
theorem kept (c : Dev nD) (r : Ref sig .tc)
    (h0 : r ∉ hostOps0_W) (h1 : r ∉ hostOps1_W) (h2 : r ∉ hostOps2_W) (h3 : r ∉ hostOps3_W) (h4 : r ∉ hostOps3_1_W) (h5 : r ∉ hostOps3_2_W) (h6 : r ∉ hostOps3_3_W) (h7 : r ∉ hostOps3_4_W)
    (hs0 : ∀ w, Pipeline.arrRef spec0 w ≠ r) (hs1 : ∀ w, Pipeline.arrRef spec1 w ≠ r) (hs2 : ∀ w, Pipeline.arrRef spec2 w ≠ r) :
    W11 m ρ c (Proc.devRef .tc r) = m ((c : Thread nD τ).loc r) :=
  calc W11 m ρ c (Proc.devRef .tc r)
    _ = W10 m ρ c (Proc.devRef .tc r) := StableHlo.after_of_writes_sub hostOps3_4 _ hostOps3_4_writes h7
    _ = W9 m ρ c (Proc.devRef .tc r) := StableHlo.after_of_writes_sub hostOps3_3 _ hostOps3_3_writes h6
    _ = W8 m ρ c (Proc.devRef .tc r) := StableHlo.after_of_writes_sub hostOps3_2 _ hostOps3_2_writes h5
    _ = W7 m ρ c (Proc.devRef .tc r) := StableHlo.after_of_writes_sub hostOps3_1 _ hostOps3_1_writes h4
    _ = W6 m ρ c (Proc.devRef .tc r) := StableHlo.after_of_writes_sub hostOps3 _ hostOps3_writes h3
    _ = W5 m ρ c (Proc.devRef .tc r) := W6_of_ne m ρ c r hs2
    _ = W4 m ρ c (Proc.devRef .tc r) := StableHlo.after_of_writes_sub hostOps2 _ hostOps2_writes h2
    _ = W3 m ρ c (Proc.devRef .tc r) := W4_of_ne m ρ c r hs1
    _ = W2 m ρ c (Proc.devRef .tc r) := StableHlo.after_of_writes_sub hostOps1 _ hostOps1_writes h1
    _ = W1 m ρ c (Proc.devRef .tc r) := W2_of_ne m ρ c r hs0
    _ = W0 m ρ c (Proc.devRef .tc r) := StableHlo.after_of_writes_sub hostOps0 _ hostOps0_writes h0
    _ = m ((c : Thread nD τ).loc r) := rfl

theorem W11_main_arg0 (c : Dev nD) : W11 m ρ c (Proc.devRef .tc main_arg0) = m ((c : Thread nD τ).loc main_arg0) :=
  kept m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  kept m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  kept m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  kept m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  kept m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  kept m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  kept m ρ c main_arg6 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  kept m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  kept m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  kept m ρ c main_arg10 (by decide) (by decide) (by decide) (by decide) (by decide) (by decide) (by decide) (by decide) (by decide) (by decide) (by decide)
theorem W11_main_arg11 (c : Dev nD) : W11 m ρ c (Proc.devRef .tc main_arg11) = m ((c : Thread nD τ).loc main_arg11) :=
  kept m ρ c main_arg11 (by decide) (by decide) (by decide) (by decide) (by decide) (by decide) (by decide) (by decide) (by decide) (by decide) (by decide)
theorem W11_main_arg12 (c : Dev nD) : W11 m ρ c (Proc.devRef .tc main_arg12) = m ((c : Thread nD τ).loc main_arg12) :=
  kept m ρ c main_arg12 (by decide) (by decide) (by decide) (by decide) (by decide) (by decide) (by decide) (by decide) (by decide) (by decide) (by decide)
theorem W11_main_arg13 (c : Dev nD) : W11 m ρ c (Proc.devRef .tc main_arg13) = m ((c : Thread nD τ).loc main_arg13) :=
  kept m ρ c main_arg13 (by decide) (by decide) (by decide) (by decide) (by decide) (by decide) (by decide) (by decide) (by decide) (by decide) (by decide)
theorem W11_main_arg14 (c : Dev nD) : W11 m ρ c (Proc.devRef .tc main_arg14) = m ((c : Thread nD τ).loc main_arg14) :=
  kept m ρ c main_arg14 (by decide) (by decide) (by decide) (by decide) (by decide) (by decide) (by decide) (by decide) (by decide) (by decide) (by decide)
theorem W11_main_arg15 (c : Dev nD) : W11 m ρ c (Proc.devRef .tc main_arg15) = m ((c : Thread nD τ).loc main_arg15) :=
  kept m ρ c main_arg15 (by decide) (by decide) (by decide) (by decide) (by decide) (by decide) (by decide) (by decide) (by decide) (by decide) (by decide)
theorem W11_main_arg16 (c : Dev nD) : W11 m ρ c (Proc.devRef .tc main_arg16) = m ((c : Thread nD τ).loc main_arg16) :=
  kept m ρ c main_arg16 (by decide) (by decide) (by decide) (by decide) (by decide) (by decide) (by decide) (by decide) (by decide) (by decide) (by decide)
theorem W11_main_arg17 (c : Dev nD) : W11 m ρ c (Proc.devRef .tc main_arg17) = m ((c : Thread nD τ).loc main_arg17) :=
  kept m ρ c main_arg17 (by decide) (by decide) (by decide) (by decide) (by decide) (by decide) (by decide) (by decide) (by decide) (by decide) (by decide)
theorem W11_main_arg18 (c : Dev nD) : W11 m ρ c (Proc.devRef .tc main_arg18) = m ((c : Thread nD τ).loc main_arg18) :=
  kept m ρ c main_arg18 (by decide) (by decide) (by decide) (by decide) (by decide) (by decide) (by decide) (by decide) (by decide) (by decide) (by decide)
/-- The layer-0 bias is read by layer 0's region through an input window: the region leaves an input's array as entered. -/
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := StableHlo.after_of_writes_sub hostOps3_4 _ hostOps3_4_writes (by decide)
    _ = W9 m ρ c (Proc.devRef .tc main_arg7) := StableHlo.after_of_writes_sub hostOps3_3 _ hostOps3_3_writes (by decide)
    _ = W8 m ρ c (Proc.devRef .tc main_arg7) := StableHlo.after_of_writes_sub hostOps3_2 _ hostOps3_2_writes (by decide)
    _ = W7 m ρ c (Proc.devRef .tc main_arg7) := StableHlo.after_of_writes_sub hostOps3_1 _ hostOps3_1_writes (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 7).trans (((Layer0.dat (V1 m ρ) c).arrAt_in 7 rfl _).trans (Layer0.A_eq (V1 m ρ) c 7))
    _ = W0 m ρ c (Proc.devRef .tc main_arg7) := StableHlo.after_of_writes_sub hostOps0 _ hostOps0_writes (by decide)
    _ = m ((c : Thread nD τ).loc main_arg7) := rfl

/-! ## The proof data family and the thread state -/

abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => Layer0.dat (V1 m ρ) c
  | ⟨1, _⟩ => fun c => Sage1.dat (V3 m ρ) c
  | ⟨2, _⟩ => fun c => Sage2.dat (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: its arrays are split out of the unscoped buffers at entry and put back at the exit contents;
    the generator register passes through the kernel's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at the exit contents;
    the generator register passes through the kernel's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Sage1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at entry and put back at the exit contents;
    the generator register passes through the kernel's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Sage2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .host (hseg hostOps3_3 hostOps3_3_sub hostOps3_3_fresh (W9 m ρ)),
    .host (hseg hostOps3_4 hostOps3_4_sub hostOps3_4_fresh (W10 m ρ)) ]

/-- The printed program is the run of these segments. -/
theorem main_run (c : Dev nD) : main (F := F) c = Pipeline.Seg.run (segs m ρ) := (main_chain c).trans (by chain_rfl)

/-- What the run establishes about the final memory: every unscoped buffer holds the last boundary's contents. -/
abbrev Final (r : PUnit × MemSt nD τ sig (Elt F)) : Prop :=
  ∀ c : Dev nD, ∀ b ∈ Pipeline.ucRefs τ sig, r.2.mem (((c : Thread nD τ)).1, b) = W11 m ρ c b

set_option backward.isDefEq.respectTransparency.types false in
/-- THE RUN: from any memory with zero counters every weakly fair execution of the program terminates, nothing faulting, and the
    final memory holds, at every unscoped buffer, the fold's last contents. -/
theorem run : θ_run defs (onTc (τ := τ) (main (F := F))) ⟨m, fun _ => 0, ρ⟩ (Final m ρ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- THE FRAME: the program runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun s h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c),
    (h c _ (mem_uc main_arg11 (by decide))).trans (W11_main_arg11 m ρ c),
    (h c _ (mem_uc main_arg12 (by decide))).trans (W11_main_arg12 m ρ c),
    (h c _ (mem_uc main_arg13 (by decide))).trans (W11_main_arg13 m ρ c),
    (h c _ (mem_uc main_arg14 (by decide))).trans (W11_main_arg14 m ρ c),
    (h c _ (mem_uc main_arg15 (by decide))).trans (W11_main_arg15 m ρ c),
    (h c _ (mem_uc main_arg16 (by decide))).trans (W11_main_arg16 m ρ c),
    (h c _ (mem_uc main_arg17 (by decide))).trans (W11_main_arg17 m ρ c),
    (h c _ (mem_uc main_arg18 (by decide))).trans (W11_main_arg18 m ρ c)⟩) (run m ρ)

end Cert.Kernel.Run

end
-- ==== Proof.KI.Layer0.lean ====
/-
  The first layer's kernel region, taken by itself: node tiles of 200 rows. At a grid point the body reads its ten input
  blocks (the tile's rows of the node features and of their neighbour means, the tile's has-a-neighbour column, the two
  node-part weight matrices, the two config-part products, the bias, the skip weights and the skip bias), and writes two
  blocks: the tile's activations relu(self + neigh + b0), laid out as 200 x 2048, and the tile's pooled skip sum
  (1 x 32 x 64). This module states what the two output buffers hold after the body as functions of the input blocks, proves
  the body's triple against them, and packages the launch's per-point obligation. Everything is generic in the float
  instance.
-/
import proofs.«142801_j13228499272260_2_alg».proof.Proof.Gen.KernelIdeal.Launch
import proofs.«142801_j13228499272260_2_alg».proof.Proof.Gen.KernelIdeal.Skeleton
import proofs.«142801_j13228499272260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map selects. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept it
    from the point before (the index map did not move). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from the point before (the index map did not move). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from the point before (the index map did not move). -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or kept it
    from the point before (the index map did not move). -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether the pipeline fetched it there or kept it
    from the point before (the index map did not move). -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether the pipeline fetched it there or kept it
    from the point before (the index map did not move). -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether the pipeline fetched it there or kept it
    from the point before (the index map did not move). -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, whether the pipeline fetched it there or kept it
    from the point before (the index map did not move). -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, whether the pipeline fetched it there or kept it
    from the point before (the index map did not move). -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, whether the pipeline fetched it there or kept it
    from the point before (the index map did not move). -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- What the body leaves in output window 10's staging buffer, as a function of the input blocks: one store over the whole buffer. -/
def out_10 (x0 : Vec F S200x148 .f32) (x1 : Vec F S200x148 .f32) (x2 : Vec F S200x1 .f32) (x3 : Vec F S148x64 .bf16) (x4 : Vec F S148x64 .bf16) (x5 : Vec F S32x64 .f32) (x6 : Vec F S32x64 .f32) (x7 : Vec F S64 .f32) (x8 : Vec F S64x64 .bf16) (x9 : Vec F S64 .f32) : Vec F S200x2048 .bf16 :=
  View.canon [⟨Rect.unit (s := S200x2048) ![0, 0] S200x2048.size inb_S200x2048_S200x2048_0_0, k0_pay2 (k0_pay4 (View.ld x7 (Rect.unit (s := S64) ![0] S64.size inb_S64_S64_0))) (k0_pay7 (View.ld x0 (Rect.unit (s := S200x148) ![0, 0] S200x148.size inb_S200x148_S200x148_0_0)) (View.ld x1 (Rect.unit (s := S200x148) ![0, 0] S200x148.size inb_S200x148_S200x148_0_0)) (View.ld x2 (Rect.unit (s := S200x1) ![0, 0] S200x1.size inb_S200x1_S200x1_0_0)) (View.ld x3 (Rect.unit (s := S148x64) ![0, 0] S148x64.size inb_S148x64_S148x64_0_0)) (View.ld x4 (Rect.unit (s := S148x64) ![0, 0] S148x64.size inb_S148x64_S148x64_0_0)) (View.ld x5 (Rect.unit (s := S32x64) ![0, 0] S32x64.size inb_S32x64_S32x64_0_0)) (View.ld x6 (Rect.unit (s := S32x64) ![0, 0] S32x64.size inb_S32x64_S32x64_0_0)))⟩]

/-- That store covers the buffer. -/
theorem cover_10 (p0 : Vec F S200x2048 .bf16) (y : S200x2048.Idx) :
    ∃ pc ∈ ([⟨Rect.unit (s := S200x2048) ![0, 0] S200x2048.size inb_S200x2048_S200x2048_0_0, p0⟩] : List (View.Piece (Elt F) S200x2048 .bf16)), y ∈ pc.1.set :=
  View.cover_of_tiled [⟨Rect.unit (s := S200x2048) ![0, 0] S200x2048.size inb_S200x2048_S200x2048_0_0, p0⟩] S200x2048.size (by rfl) y

/-- What the body leaves in output window 11's staging buffer, as a function of the input blocks: one store over the whole buffer. -/
def out_11 (x0 : Vec F S200x148 .f32) (x1 : Vec F S200x148 .f32) (x2 : Vec F S200x1 .f32) (x3 : Vec F S148x64 .bf16) (x4 : Vec F S148x64 .bf16) (x5 : Vec F S32x64 .f32) (x6 : Vec F S32x64 .f32) (x7 : Vec F S64 .f32) (x8 : Vec F S64x64 .bf16) (x9 : Vec F S64 .f32) : Vec F S1x32x64 .f32 :=
  View.canon [⟨Rect.unit (s := S1x32x64) ![0, 0, 0] S1x32x64.size inb_S1x32x64_S1x32x64_0_0_0, k0_pay3 (k0_pay4 (View.ld x7 (Rect.unit (s := S64) ![0] S64.size inb_S64_S64_0))) (k0_pay5 (View.ld x8 (Rect.unit (s := S64x64) ![0, 0] S64x64.size inb_S64x64_S64x64_0_0))) (k0_pay6 (View.ld x9 (Rect.unit (s := S64) ![0] S64.size inb_S64_S64_0))) (k0_pay7 (View.ld x0 (Rect.unit (s := S200x148) ![0, 0] S200x148.size inb_S200x148_S200x148_0_0)) (View.ld x1 (Rect.unit (s := S200x148) ![0, 0] S200x148.size inb_S200x148_S200x148_0_0)) (View.ld x2 (Rect.unit (s := S200x1) ![0, 0] S200x1.size inb_S200x1_S200x1_0_0)) (View.ld x3 (Rect.unit (s := S148x64) ![0, 0] S148x64.size inb_S148x64_S148x64_0_0)) (View.ld x4 (Rect.unit (s := S148x64) ![0, 0] S148x64.size inb_S148x64_S148x64_0_0)) (View.ld x5 (Rect.unit (s := S32x64) ![0, 0] S32x64.size inb_S32x64_S32x64_0_0)) (View.ld x6 (Rect.unit (s := S32x64) ![0, 0] S32x64.size inb_S32x64_S32x64_0_0)))⟩]

/-- That store covers the buffer. -/
theorem cover_11 (p0 : Vec F S1x32x64 .f32) (y : S1x32x64.Idx) :
    ∃ pc ∈ ([⟨Rect.unit (s := S1x32x64) ![0, 0, 0] S1x32x64.size inb_S1x32x64_S1x32x64_0_0_0, p0⟩] : List (View.Piece (Elt F) S1x32x64 .f32)), y ∈ pc.1.set :=
  View.cover_of_tiled [⟨Rect.unit (s := S1x32x64) ![0, 0, 0] S1x32x64.size inb_S1x32x64_S1x32x64_0_0_0, p0⟩] S1x32x64.size (by rfl) y

set_option maxHeartbeats 4000000 in
/-- The body's triple: run on whole staging buffers, the inputs' at contents `xJ` and the outputs' at anything, it ends with the
    inputs' as they were and each output's at `out_W` of the inputs'. -/
theorem sound_kernel (c : Dev nD) (E : Set ℕ) (i : grid0.Coords) (arg1 : Memref sig .tc .vmem S200x148 .f32) (harg1 : arg1.IsWhole) (arg2 : Memref sig .tc .vmem S200x148 .f32) (harg2 : arg2.IsWhole) (arg3 : Memref sig .tc .vmem S200x1 .f32) (harg3 : arg3.IsWhole) (arg4 : Memref sig .tc .vmem S148x64 .bf16) (harg4 : arg4.IsWhole) (arg5 : Memref sig .tc .vmem S148x64 .bf16) (harg5 : arg5.IsWhole) (arg6 : Memref sig .tc .vmem S32x64 .f32) (harg6 : arg6.IsWhole) (arg7 : Memref sig .tc .vmem S32x64 .f32) (harg7 : arg7.IsWhole) (arg8 : Memref sig .tc .vmem S64 .f32) (harg8 : arg8.IsWhole) (arg9 : Memref sig .tc .vmem S64x64 .bf16) (harg9 : arg9.IsWhole) (arg10 : Memref sig .tc .vmem S64 .f32) (harg10 : arg10.IsWhole) (arg11 : Memref sig .tc .vmem S200x2048 .bf16) (harg11 : arg11.IsWhole) (arg12 : Memref sig .tc .vmem S1x32x64 .f32) (harg12 : arg12.IsWhole)
    (x0 : Vec F S200x148 .f32) (x1 : Vec F S200x148 .f32) (x2 : Vec F S200x1 .f32) (x3 : Vec F S148x64 .bf16) (x4 : Vec F S148x64 .bf16) (x5 : Vec F S32x64 .f32) (x6 : Vec F S32x64 .f32) (x7 : Vec F S64 .f32) (x8 : Vec F S64x64 .bf16) (x9 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out_10 x0 x1 x2 x3 x4 x5 x6 x7 x8 x9) ∗ owns (c : Thread nD τ) arg12 fullShare (out_11 x0 x1 x2 x3 x4 x5 x6 x7 x8 x9)) -∗ K ⟨⟩))
      ⊢ wp frame (wpE (defs₀ (F := F)) Variants.none c none) E (cc0__layer0_kernel i arg1 harg1 arg2 harg2 arg3 harg3 arg4 harg4 arg5 harg5 arg6 harg6 arg7 harg7 arg8 harg8 arg9 harg9 arg10 harg10 arg11 harg11 arg12 harg12) K := by
  simp only [cc0__layer0_kernel_eq_skeleton]; unfold cc0__layer0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover_10 _)
  iexists _; isplitr
  swap; · iexact H11
  ipureintro
  exact View.read_writes_eq_canon _ _ _ (cover_11 _)

/-- The pipeline's proof data on core `c`: the arrays as the region finds them; after the body at point `t` each input's buffer
    still at its block and each output's at `out_W` of the input blocks; nothing owed, full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => out_10 (iblk V c 0 t) (iblk V c 1 t) (iblk V c 2 t) (iblk V c 3 t) (iblk V c 4 t) (iblk V c 5 t) (iblk V c 6 t) (iblk V c 7 t) (iblk V c 8 t) (iblk V c 9 t)
    | ⟨11, _⟩ => out_11 (iblk V c 0 t) (iblk V c 1 t) (iblk V c 2 t) (iblk V c 3 t) (iblk V c 4 t) (iblk V c 5 t) (iblk V c 6 t) (iblk V c 7 t) (iblk V c 8 t) (iblk V c 9 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = out_10 (iblk V c 0 t) (iblk V c 1 t) (iblk V c 2 t) (iblk V c 3 t) (iblk V c 4 t) (iblk V c 5 t) (iblk V c 6 t) (iblk V c 7 t) (iblk V c 8 t) (iblk V c 9 t) := by dsimp only [dat]
theorem after_11 (c : Dev nD) (t : Fin cfg0.N) : (dat V c).after 11 t = out_11 (iblk V c 0 t) (iblk V c 1 t) (iblk V c 2 t) (iblk V c 3 t) (iblk V c 4 t) (iblk V c 5 t) (iblk V c 6 t) (iblk V c 7 t) (iblk V c 8 t) (iblk V c 9 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

set_option maxHeartbeats 2000000 in
/-- The body at any point: the inputs' buffers hold their blocks, so the body's triple applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the launch theorems, at every point. -/
theorem body_obligation (c : Dev nD) : BodyObligation (dat (F := F) V c) (defs₀ (F := F)) Variants.none () Set.univ := fun t => by
  rw [bigSep_W0, bigSep_W0]
  exact sound_body V c t

end Cert.KernelIdeal.Layer0

end
-- ==== Proof.KI.Sage1.lean ====
/-
  Hidden layer 1's kernel region, taken by itself: node tiles of 200 rows of the 5000 x 2048 activations (32 configs x 64
  features per row). At a grid point the body reads the tile's rows of the activations and of their neighbour means, the two
  64 x 64 weight matrices, the bias, the skip weights and the skip bias, and writes the tile's next activations
  relu(x W_self + agg W_neigh + b) (200 x 2048) and the tile's pooled skip sum (1 x 32 x 64). This module states what the two
  output buffers hold after the body as functions of the input blocks, proves the body's triple against them, and packages the
  launch's per-point obligation. Everything is generic in the float instance.
-/
import proofs.«142801_j13228499272260_2_alg».proof.Proof.Gen.KernelIdeal.Launch
import proofs.«142801_j13228499272260_2_alg».proof.Proof.Gen.KernelIdeal.Skeleton
import proofs.«142801_j13228499272260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map selects. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it
    from the point before (the index map did not move). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from the point before (the index map did not move). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from the point before (the index map did not move). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or kept it
    from the point before (the index map did not move). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether the pipeline fetched it there or kept it
    from the point before (the index map did not move). -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether the pipeline fetched it there or kept it
    from the point before (the index map did not move). -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether the pipeline fetched it there or kept it
    from the point before (the index map did not move). -/
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- What the body leaves in output window 7's staging buffer, as a function of the input blocks: one store over the whole buffer. -/
def out_7 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S200x2048 .bf16 :=
  View.canon [⟨Rect.unit (s := S200x2048) ![0, 0] S200x2048.size inb_S200x2048_S200x2048_0_0, k1_pay2 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0))⟩]

/-- That store covers the buffer. -/
theorem cover_7 (p0 : Vec F S200x2048 .bf16) (y : S200x2048.Idx) :
    ∃ pc ∈ ([⟨Rect.unit (s := S200x2048) ![0, 0] S200x2048.size inb_S200x2048_S200x2048_0_0, p0⟩] : List (View.Piece (Elt F) S200x2048 .bf16)), y ∈ pc.1.set :=
  View.cover_of_tiled [⟨Rect.unit (s := S200x2048) ![0, 0] S200x2048.size inb_S200x2048_S200x2048_0_0, p0⟩] S200x2048.size (by rfl) y

/-- What the body leaves in output window 8's staging buffer, as a function of the input blocks: one store over the whole buffer. -/
def out_8 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S1x32x64 .f32 :=
  View.canon [⟨Rect.unit (s := S1x32x64) ![0, 0, 0] S1x32x64.size inb_S1x32x64_S1x32x64_0_0_0, k1_pay3 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0)) (View.ld x5 (Rect.unit (s := S64x64) ![0, 0] S64x64.size inb_S64x64_S64x64_0_0)) (View.ld x6 (Rect.unit (s := S64) ![0] S64.size inb_S64_S64_0))⟩]

/-- That store covers the buffer. -/
theorem cover_8 (p0 : Vec F S1x32x64 .f32) (y : S1x32x64.Idx) :
    ∃ pc ∈ ([⟨Rect.unit (s := S1x32x64) ![0, 0, 0] S1x32x64.size inb_S1x32x64_S1x32x64_0_0_0, p0⟩] : List (View.Piece (Elt F) S1x32x64 .f32)), y ∈ pc.1.set :=
  View.cover_of_tiled [⟨Rect.unit (s := S1x32x64) ![0, 0, 0] S1x32x64.size inb_S1x32x64_S1x32x64_0_0_0, p0⟩] S1x32x64.size (by rfl) y

set_option maxHeartbeats 4000000 in
/-- The body's triple: run on whole staging buffers, the inputs' at contents `xJ` and the outputs' at anything, it ends with the
    inputs' as they were and each output's at `out_W` of the inputs'. -/
theorem sound_kernel (c : Dev nD) (E : Set ℕ) (i : grid1.Coords) (arg1 : Memref sig .tc .vmem S200x2048 .bf16) (harg1 : arg1.IsWhole) (arg2 : Memref sig .tc .vmem S200x2048 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S200x2048 .bf16) (harg8 : arg8.IsWhole) (arg9 : Memref sig .tc .vmem S1x32x64 .f32) (harg9 : arg9.IsWhole)
    (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out_7 x0 x1 x2 x3 x4 x5 x6) ∗ owns (c : Thread nD τ) arg9 fullShare (out_8 x0 x1 x2 x3 x4 x5 x6)) -∗ K ⟨⟩))
      ⊢ wp frame (wpE (defs₀ (F := F)) Variants.none c none) E (cc1__sage_h_kernel i arg1 harg1 arg2 harg2 arg3 harg3 arg4 harg4 arg5 harg5 arg6 harg6 arg7 harg7 arg8 harg8 arg9 harg9) K := by
  simp only [cc1__sage_h_kernel_eq_skeleton]; unfold cc1__sage_h_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_7 _)
  iexists _; isplitr
  swap; · iexact H8
  ipureintro
  exact View.read_writes_eq_canon _ _ _ (cover_8 _)

/-- The pipeline's proof data on core `c`: the arrays as the region finds them; after the body at point `t` each input's buffer
    still at its block and each output's at `out_W` of the input blocks; nothing owed, full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out_7 (iblk V c 0 t) (iblk V c 1 t) (iblk V c 2 t) (iblk V c 3 t) (iblk V c 4 t) (iblk V c 5 t) (iblk V c 6 t)
    | ⟨8, _⟩ => out_8 (iblk V c 0 t) (iblk V c 1 t) (iblk V c 2 t) (iblk V c 3 t) (iblk V c 4 t) (iblk V c 5 t) (iblk V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = out_7 (iblk V c 0 t) (iblk V c 1 t) (iblk V c 2 t) (iblk V c 3 t) (iblk V c 4 t) (iblk V c 5 t) (iblk V c 6 t) := by dsimp only [dat]
theorem after_8 (c : Dev nD) (t : Fin cfg1.N) : (dat V c).after 8 t = out_8 (iblk V c 0 t) (iblk V c 1 t) (iblk V c 2 t) (iblk V c 3 t) (iblk V c 4 t) (iblk V c 5 t) (iblk V c 6 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

set_option maxHeartbeats 2000000 in
/-- The body at any point: the inputs' buffers hold their blocks, so the body's triple applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the launch theorems, at every point. -/
theorem body_obligation (c : Dev nD) : BodyObligation (dat (F := F) V c) (defs₀ (F := F)) Variants.none () Set.univ := fun t => by
  rw [bigSep_W1, bigSep_W1]
  exact sound_body V c t

end Cert.KernelIdeal.Sage1

end
-- ==== Proof.KI.Sage2.lean ====
/-
  Hidden layer 2's kernel region, taken by itself: node tiles of 200 rows of the 5000 x 2048 activations (32 configs x 64
  features per row). At a grid point the body reads the tile's rows of the activations and of their neighbour means, the two
  64 x 64 weight matrices, the bias, the skip weights and the skip bias, and writes the tile's next activations
  relu(x W_self + agg W_neigh + b) (200 x 2048) and the tile's pooled skip sum (1 x 32 x 64). This module states what the two
  output buffers hold after the body as functions of the input blocks, proves the body's triple against them, and packages the
  launch's per-point obligation. Everything is generic in the float instance.
-/
import proofs.«142801_j13228499272260_2_alg».proof.Proof.Gen.KernelIdeal.Launch
import proofs.«142801_j13228499272260_2_alg».proof.Proof.Gen.KernelIdeal.Skeleton
import proofs.«142801_j13228499272260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map selects. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept it
    from the point before (the index map did not move). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from the point before (the index map did not move). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from the point before (the index map did not move). -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or kept it
    from the point before (the index map did not move). -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether the pipeline fetched it there or kept it
    from the point before (the index map did not move). -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether the pipeline fetched it there or kept it
    from the point before (the index map did not move). -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether the pipeline fetched it there or kept it
    from the point before (the index map did not move). -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- What the body leaves in output window 7's staging buffer, as a function of the input blocks: one store over the whole buffer. -/
def out_7 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S200x2048 .bf16 :=
  View.canon [⟨Rect.unit (s := S200x2048) ![0, 0] S200x2048.size inb_S200x2048_S200x2048_0_0, k2_pay2 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0))⟩]

/-- That store covers the buffer. -/
theorem cover_7 (p0 : Vec F S200x2048 .bf16) (y : S200x2048.Idx) :
    ∃ pc ∈ ([⟨Rect.unit (s := S200x2048) ![0, 0] S200x2048.size inb_S200x2048_S200x2048_0_0, p0⟩] : List (View.Piece (Elt F) S200x2048 .bf16)), y ∈ pc.1.set :=
  View.cover_of_tiled [⟨Rect.unit (s := S200x2048) ![0, 0] S200x2048.size inb_S200x2048_S200x2048_0_0, p0⟩] S200x2048.size (by rfl) y

/-- What the body leaves in output window 8's staging buffer, as a function of the input blocks: one store over the whole buffer. -/
def out_8 (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) : Vec F S1x32x64 .f32 :=
  View.canon [⟨Rect.unit (s := S1x32x64) ![0, 0, 0] S1x32x64.size inb_S1x32x64_S1x32x64_0_0_0, k2_pay3 (View.ld x0 (Rect.unit (s := S200x2048) ![0, 0] S200x2048.size inb_S200x2048_S200x2048_0_0)) (View.ld x1 (Rect.unit (s := S200x2048) ![0, 0] S200x2048.size inb_S200x2048_S200x2048_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S64) ![0] S64.size inb_S64_S64_0)) (View.ld x5 (Rect.unit (s := S64x64) ![0, 0] S64x64.size inb_S64x64_S64x64_0_0)) (View.ld x6 (Rect.unit (s := S64) ![0] S64.size inb_S64_S64_0))⟩]

/-- That store covers the buffer. -/
theorem cover_8 (p0 : Vec F S1x32x64 .f32) (y : S1x32x64.Idx) :
    ∃ pc ∈ ([⟨Rect.unit (s := S1x32x64) ![0, 0, 0] S1x32x64.size inb_S1x32x64_S1x32x64_0_0_0, p0⟩] : List (View.Piece (Elt F) S1x32x64 .f32)), y ∈ pc.1.set :=
  View.cover_of_tiled [⟨Rect.unit (s := S1x32x64) ![0, 0, 0] S1x32x64.size inb_S1x32x64_S1x32x64_0_0_0, p0⟩] S1x32x64.size (by rfl) y

set_option maxHeartbeats 4000000 in
/-- The body's triple: run on whole staging buffers, the inputs' at contents `xJ` and the outputs' at anything, it ends with the
    inputs' as they were and each output's at `out_W` of the inputs'. -/
theorem sound_kernel (c : Dev nD) (E : Set ℕ) (i : grid2.Coords) (arg1 : Memref sig .tc .vmem S200x2048 .bf16) (harg1 : arg1.IsWhole) (arg2 : Memref sig .tc .vmem S200x2048 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S64 .f32) (harg5 : arg5.IsWhole) (arg6 : Memref sig .tc .vmem S64x64 .bf16) (harg6 : arg6.IsWhole) (arg7 : Memref sig .tc .vmem S64 .f32) (harg7 : arg7.IsWhole) (arg8 : Memref sig .tc .vmem S200x2048 .bf16) (harg8 : arg8.IsWhole) (arg9 : Memref sig .tc .vmem S1x32x64 .f32) (harg9 : arg9.IsWhole)
    (x0 : Vec F S200x2048 .bf16) (x1 : Vec F S200x2048 .bf16) (x2 : Vec F S64x64 .bf16) (x3 : Vec F S64x64 .bf16) (x4 : Vec F S64 .f32) (x5 : Vec F S64x64 .bf16) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out_7 x0 x1 x2 x3 x4 x5 x6) ∗ owns (c : Thread nD τ) arg9 fullShare (out_8 x0 x1 x2 x3 x4 x5 x6)) -∗ K ⟨⟩))
      ⊢ wp frame (wpE (defs₀ (F := F)) Variants.none c none) E (cc2__sage_h_kernel i arg1 harg1 arg2 harg2 arg3 harg3 arg4 harg4 arg5 harg5 arg6 harg6 arg7 harg7 arg8 harg8 arg9 harg9) K := by
  simp only [cc2__sage_h_kernel_eq_skeleton]; unfold cc2__sage_h_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_7 _)
  iexists _; isplitr
  swap; · iexact H8
  ipureintro
  exact View.read_writes_eq_canon _ _ _ (cover_8 _)

/-- The pipeline's proof data on core `c`: the arrays as the region finds them; after the body at point `t` each input's buffer
    still at its block and each output's at `out_W` of the input blocks; nothing owed, full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out_7 (iblk V c 0 t) (iblk V c 1 t) (iblk V c 2 t) (iblk V c 3 t) (iblk V c 4 t) (iblk V c 5 t) (iblk V c 6 t)
    | ⟨8, _⟩ => out_8 (iblk V c 0 t) (iblk V c 1 t) (iblk V c 2 t) (iblk V c 3 t) (iblk V c 4 t) (iblk V c 5 t) (iblk V c 6 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = out_7 (iblk V c 0 t) (iblk V c 1 t) (iblk V c 2 t) (iblk V c 3 t) (iblk V c 4 t) (iblk V c 5 t) (iblk V c 6 t) := by dsimp only [dat]
theorem after_8 (c : Dev nD) (t : Fin cfg2.N) : (dat V c).after 8 t = out_8 (iblk V c 0 t) (iblk V c 1 t) (iblk V c 2 t) (iblk V c 3 t) (iblk V c 4 t) (iblk V c 5 t) (iblk V c 6 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))

set_option maxHeartbeats 2000000 in
/-- The body at any point: the inputs' buffers hold their blocks, so the body's triple applies. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the launch theorems, at every point. -/
theorem body_obligation (c : Dev nD) : BodyObligation (dat (F := F) V c) (defs₀ (F := F)) Variants.none () Set.univ := fun t => by
  rw [bigSep_W2, bigSep_W2]
  exact sound_body V c t

end Cert.KernelIdeal.Sage2

end
-- ==== Proof.KI.Run.lean ====
/-
  The whole program's run, segment by segment: eleven segments — the host stretch that prepares layer 0's operands (op-embedding
  lookup, degrees, neighbour means of the node features, the config-part products), layer 0's region, the stretch that forms the
  neighbour means of its activations, hidden layer 1's region, the same stretch again, hidden layer 2's region, and five short
  stretches for the pooled sums and the three-layer head. The contents of every buffer at each boundary are a fold from the launch
  memory: a host stretch applies its operations; a region leaves its output arrays at what its write-backs assemble and every other
  buffer as entered. No stretch and no region writes an argument array, so each argument reads back to the launch memory. Generic
  in the float instance.
-/
import proofs.«142801_j13228499272260_2_alg».proof.Proof.KI.Layer0
import proofs.«142801_j13228499272260_2_alg».proof.Proof.KI.Sage1
import proofs.«142801_j13228499272260_2_alg».proof.Proof.KI.Sage2

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: layer 0's operands are ready. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 0's region: its two result arrays at what the write-backs assemble, everything else as entered. -/
def W2 (c : Dev nD) : Valuation τ sig (Elt F) :=
  Pipeline.withArrays spec0 c (W1 m ρ c) fun w => (Layer0.dat (V1 m ρ) c).arrAt w cfg0.N
theorem W2_arr (c : Dev nD) (w : Fin cfg0.W) :
    W2 m ρ c (Proc.devRef .tc (Pipeline.arrRef spec0 w)) = (Layer0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: hidden layer 1's operands are ready. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After hidden layer 1's region. -/
def W4 (c : Dev nD) : Valuation τ sig (Elt F) :=
  Pipeline.withArrays spec1 c (W3 m ρ c) fun w => (Sage1.dat (V3 m ρ) c).arrAt w cfg1.N
theorem W4_arr (c : Dev nD) (w : Fin cfg1.W) :
    W4 m ρ c (Proc.devRef .tc (Pipeline.arrRef spec1 w)) = (Sage1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Sage1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: hidden layer 2's operands are ready. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After hidden layer 2's region. -/
def W6 (c : Dev nD) : Valuation τ sig (Elt F) :=
  Pipeline.withArrays spec2 c (W5 m ρ c) fun w => (Sage2.dat (V5 m ρ) c).arrAt w cfg2.N
theorem W6_arr (c : Dev nD) (w : Fin cfg2.W) :
    W6 m ρ c (Proc.devRef .tc (Pipeline.arrRef spec2 w)) = (Sage2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Sage2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the pooled sums, their concatenation and the head's first affine map; -/
abbrev W7 : Dev nD → Valuation τ sig (Elt F) := fun c => StableHlo.after hostOps3 (W6 m ρ c)
/-- its relu; -/
abbrev W8 : Dev nD → Valuation τ sig (Elt F) := fun c => StableHlo.after hostOps3_1 (W7 m ρ c)
/-- the second affine map; -/
abbrev W9 : Dev nD → Valuation τ sig (Elt F) := fun c => StableHlo.after hostOps3_2 (W8 m ρ c)
/-- its relu; -/
abbrev W10 : Dev nD → Valuation τ sig (Elt F) := fun c => StableHlo.after hostOps3_3 (W9 m ρ c)
/-- the last affine map and the reshape to the result. -/
abbrev W11 : Dev nD → Valuation τ sig (Elt F) := fun c => StableHlo.after hostOps3_4 (W10 m ρ c)

/-! ## What each host stretch writes -/

/-- The buffers `hostOps0` writes: its operations' results. -/
abbrev hostOps0_W : List (Ref sig .tc) := [main_v0, main_v1, main_v2, main_v3, main_c, main_v4, main_v5, main_c_0, main_v6, main_v7, main_v8, main_v9, main_v10, main_v11, main_v12, main_v13, main_v14, main_v15, main_v16, main_v17, main_v18, main_v19, main_v20, main_v21, main_cst, main_v22, main_cst_1, main_v23, main_v24, main_v25, main_cst_2, main_v26, main_v27, main_cst_3, main_v28, main_v29, main_cst_4, main_v30, main_v31, main_v32, main_c_5, main_v33, main_v34, main_c_6, main_v35, main_v36, main_v37, main_v38, main_v39, main_cst_7, main_v40, main_v41, main_v42, main_v43, main_v44, main_v45, main_v46, main_v47, main_v48, main_v49, main_v50, main_v51, main_v52, main_v53, main_v54, main_v55, main_v56, main_v57, main_v58]
theorem hostOps0_writes : (hostOps0 : List (HloOp τ sig (Elt F))).Forall fun op => op.writes ⊆ ((hostOps0_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_fresh : (hostOps0 : List (HloOp τ sig (Elt F))).Forall fun op => op.fresh = ∅ := by
  simp only [List.Forall]; repeat' constructor

/-- The buffers `hostOps1` writes: its operations' results. -/
abbrev hostOps1_W : List (Ref sig .tc) := [main_c_8, main_v60, main_v61, main_c_9, main_v62, main_v63, main_v64, main_v65, main_v66, main_v67, main_cst_10, main_v68, main_v69, main_v70, main_v71, main_v72, main_v73, main_v74, main_v75, main_v76, main_v77, main_v78, main_v79, main_v80, main_v81, main_v82, main_v83, main_v84, main_v85, main_v86, main_v87]
theorem hostOps1_writes : (hostOps1 : List (HloOp τ sig (Elt F))).Forall fun op => op.writes ⊆ ((hostOps1_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

/-- The buffers `hostOps2` writes: its operations' results. -/
abbrev hostOps2_W : List (Ref sig .tc) := [main_c_11, main_v89, main_v90, main_c_12, main_v91, main_v92, main_v93, main_v94, main_v95, main_v96, main_cst_13, main_v97, main_v98, main_v99, main_v100, main_v101, main_v102, main_v103, main_v104, main_v105, main_v106, main_v107, main_v108, main_v109, main_v110, main_v111, main_v112, main_v113, main_v114, main_v115, main_v116]
theorem hostOps2_writes : (hostOps2 : List (HloOp τ sig (Elt F))).Forall fun op => op.writes ⊆ ((hostOps2_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

/-- The buffers `hostOps3` writes: its operations' results. -/
abbrev hostOps3_W : List (Ref sig .tc) := [main_cst_14, main_v118, main_cst_15, main_v119, main_cst_16, main_v120, main_v121, main_v122, main_v123, main_v124, main_v125]
theorem hostOps3_writes : (hostOps3 : List (HloOp τ sig (Elt F))).Forall fun op => op.writes ⊆ ((hostOps3_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

/-- The buffers `hostOps3_1` writes: its operations' results. -/
abbrev hostOps3_1_W : List (Ref sig .tc) := [main_call0_cst, main_call0_v0, main_v126]
theorem hostOps3_1_writes : (hostOps3_1 : List (HloOp τ sig (Elt F))).Forall fun op => op.writes ⊆ ((hostOps3_1_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

/-- The buffers `hostOps3_2` writes: its operations' results. -/
abbrev hostOps3_2_W : List (Ref sig .tc) := [main_v127, main_v128, main_v129, main_v130]
theorem hostOps3_2_writes : (hostOps3_2 : List (HloOp τ sig (Elt F))).Forall fun op => op.writes ⊆ ((hostOps3_2_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor

/-- The buffers `hostOps3_3` writes: its operations' results. -/
abbrev hostOps3_3_W : List (Ref sig .tc) := [main_call1_cst, main_call1_v0, main_v131]
theorem hostOps3_3_writes : (hostOps3_3 : List (HloOp τ sig (Elt F))).Forall fun op => op.writes ⊆ ((hostOps3_3_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor

/-- The buffers `hostOps3_4` writes: its operations' results. -/
abbrev hostOps3_4_W : List (Ref sig .tc) := [main_v132, main_v133, main_v134, main_v135, main_v136]
theorem hostOps3_4_writes : (hostOps3_4 : List (HloOp τ sig (Elt F))).Forall fun op => op.writes ⊆ ((hostOps3_4_W).map (Proc.devRef (τ := τ) .tc)).toFinset := by
  simp only [List.Forall]
  repeat' apply And.intro
  all_goals (simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_4_fresh : (hostOps3_4 : List (HloOp τ sig (Elt F))).Forall fun op => op.fresh = ∅ := by
  simp only [List.Forall]; repeat' constructor

/-! ## The arguments end as launched -/

/-- A buffer that no host stretch writes and that is no region's window array holds its launch contents at the end. -/
theorem kept (c : Dev nD) (r : Ref sig .tc)
    (h0 : r ∉ hostOps0_W) (h1 : r ∉ hostOps1_W) (h2 : r ∉ hostOps2_W) (h3 : r ∉ hostOps3_W) (h4 : r ∉ hostOps3_1_W) (h5 : r ∉ hostOps3_2_W) (h6 : r ∉ hostOps3_3_W) (h7 : r ∉ hostOps3_4_W)
    (hs0 : ∀ w, Pipeline.arrRef spec0 w ≠ r) (hs1 : ∀ w, Pipeline.arrRef spec1 w ≠ r) (hs2 : ∀ w, Pipeline.arrRef spec2 w ≠ r) :
    W11 m ρ c (Proc.devRef .tc r) = m ((c : Thread nD τ).loc r) :=
  calc W11 m ρ c (Proc.devRef .tc r)
    _ = W10 m ρ c (Proc.devRef .tc r) := StableHlo.after_of_writes_sub hostOps3_4 _ hostOps3_4_writes h7
    _ = W9 m ρ c (Proc.devRef .tc r) := StableHlo.after_of_writes_sub hostOps3_3 _ hostOps3_3_writes h6
    _ = W8 m ρ c (Proc.devRef .tc r) := StableHlo.after_of_writes_sub hostOps3_2 _ hostOps3_2_writes h5
    _ = W7 m ρ c (Proc.devRef .tc r) := StableHlo.after_of_writes_sub hostOps3_1 _ hostOps3_1_writes h4
    _ = W6 m ρ c (Proc.devRef .tc r) := StableHlo.after_of_writes_sub hostOps3 _ hostOps3_writes h3
    _ = W5 m ρ c (Proc.devRef .tc r) := W6_of_ne m ρ c r hs2
    _ = W4 m ρ c (Proc.devRef .tc r) := StableHlo.after_of_writes_sub hostOps2 _ hostOps2_writes h2
    _ = W3 m ρ c (Proc.devRef .tc r) := W4_of_ne m ρ c r hs1
    _ = W2 m ρ c (Proc.devRef .tc r) := StableHlo.after_of_writes_sub hostOps1 _ hostOps1_writes h1
    _ = W1 m ρ c (Proc.devRef .tc r) := W2_of_ne m ρ c r hs0
    _ = W0 m ρ c (Proc.devRef .tc r) := StableHlo.after_of_writes_sub hostOps0 _ hostOps0_writes h0
    _ = m ((c : Thread nD τ).loc r) := rfl

theorem W11_main_arg0 (c : Dev nD) : W11 m ρ c (Proc.devRef .tc main_arg0) = m ((c : Thread nD τ).loc main_arg0) :=
  kept m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  kept m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  kept m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  kept m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  kept m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  kept m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  kept m ρ c main_arg6 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  kept m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  kept m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  kept m ρ c main_arg10 (by decide) (by decide) (by decide) (by decide) (by decide) (by decide) (by decide) (by decide) (by decide) (by decide) (by decide)
theorem W11_main_arg11 (c : Dev nD) : W11 m ρ c (Proc.devRef .tc main_arg11) = m ((c : Thread nD τ).loc main_arg11) :=
  kept m ρ c main_arg11 (by decide) (by decide) (by decide) (by decide) (by decide) (by decide) (by decide) (by decide) (by decide) (by decide) (by decide)
theorem W11_main_arg12 (c : Dev nD) : W11 m ρ c (Proc.devRef .tc main_arg12) = m ((c : Thread nD τ).loc main_arg12) :=
  kept m ρ c main_arg12 (by decide) (by decide) (by decide) (by decide) (by decide) (by decide) (by decide) (by decide) (by decide) (by decide) (by decide)
theorem W11_main_arg13 (c : Dev nD) : W11 m ρ c (Proc.devRef .tc main_arg13) = m ((c : Thread nD τ).loc main_arg13) :=
  kept m ρ c main_arg13 (by decide) (by decide) (by decide) (by decide) (by decide) (by decide) (by decide) (by decide) (by decide) (by decide) (by decide)
theorem W11_main_arg14 (c : Dev nD) : W11 m ρ c (Proc.devRef .tc main_arg14) = m ((c : Thread nD τ).loc main_arg14) :=
  kept m ρ c main_arg14 (by decide) (by decide) (by decide) (by decide) (by decide) (by decide) (by decide) (by decide) (by decide) (by decide) (by decide)
theorem W11_main_arg15 (c : Dev nD) : W11 m ρ c (Proc.devRef .tc main_arg15) = m ((c : Thread nD τ).loc main_arg15) :=
  kept m ρ c main_arg15 (by decide) (by decide) (by decide) (by decide) (by decide) (by decide) (by decide) (by decide) (by decide) (by decide) (by decide)
theorem W11_main_arg16 (c : Dev nD) : W11 m ρ c (Proc.devRef .tc main_arg16) = m ((c : Thread nD τ).loc main_arg16) :=
  kept m ρ c main_arg16 (by decide) (by decide) (by decide) (by decide) (by decide) (by decide) (by decide) (by decide) (by decide) (by decide) (by decide)
theorem W11_main_arg17 (c : Dev nD) : W11 m ρ c (Proc.devRef .tc main_arg17) = m ((c : Thread nD τ).loc main_arg17) :=
  kept m ρ c main_arg17 (by decide) (by decide) (by decide) (by decide) (by decide) (by decide) (by decide) (by decide) (by decide) (by decide) (by decide)
theorem W11_main_arg18 (c : Dev nD) : W11 m ρ c (Proc.devRef .tc main_arg18) = m ((c : Thread nD τ).loc main_arg18) :=
  kept m ρ c main_arg18 (by decide) (by decide) (by decide) (by decide) (by decide) (by decide) (by decide) (by decide) (by decide) (by decide) (by decide)
/-- The layer-0 bias is read by layer 0's region through an input window: the region leaves an input's array as entered. -/
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := StableHlo.after_of_writes_sub hostOps3_4 _ hostOps3_4_writes (by decide)
    _ = W9 m ρ c (Proc.devRef .tc main_arg7) := StableHlo.after_of_writes_sub hostOps3_3 _ hostOps3_3_writes (by decide)
    _ = W8 m ρ c (Proc.devRef .tc main_arg7) := StableHlo.after_of_writes_sub hostOps3_2 _ hostOps3_2_writes (by decide)
    _ = W7 m ρ c (Proc.devRef .tc main_arg7) := StableHlo.after_of_writes_sub hostOps3_1 _ hostOps3_1_writes (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 7).trans (((Layer0.dat (V1 m ρ) c).arrAt_in 7 rfl _).trans (Layer0.A_eq (V1 m ρ) c 7))
    _ = W0 m ρ c (Proc.devRef .tc main_arg7) := StableHlo.after_of_writes_sub hostOps0 _ hostOps0_writes (by decide)
    _ = m ((c : Thread nD τ).loc main_arg7) := rfl

/-! ## The proof data family and the thread state -/

abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => Layer0.dat (V1 m ρ) c
  | ⟨1, _⟩ => fun c => Sage1.dat (V3 m ρ) c
  | ⟨2, _⟩ => fun c => Sage2.dat (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: its arrays are split out of the unscoped buffers at entry and put back at the exit contents;
    the generator register passes through the kernel's invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at the exit contents;
    the generator register passes through the kernel's invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Sage1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at entry and put back at the exit contents;
    the generator register passes through the kernel's invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Sage2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .host (hseg hostOps3_3 hostOps3_3_sub hostOps3_3_fresh (W9 m ρ)),
    .host (hseg hostOps3_4 hostOps3_4_sub hostOps3_4_fresh (W10 m ρ)) ]

/-- The printed program is the run of these segments. -/
theorem main_run (c : Dev nD) : main (F := F) c = Pipeline.Seg.run (segs m ρ) := (main_chain c).trans (by chain_rfl)

/-- What the run establishes about the final memory: every unscoped buffer holds the last boundary's contents. -/
abbrev Final (r : PUnit × MemSt nD τ sig (Elt F)) : Prop :=
  ∀ c : Dev nD, ∀ b ∈ Pipeline.ucRefs τ sig, r.2.mem (((c : Thread nD τ)).1, b) = W11 m ρ c b

set_option backward.isDefEq.respectTransparency.types false in
/-- THE RUN: from any memory with zero counters every weakly fair execution of the program terminates, nothing faulting, and the
    final memory holds, at every unscoped buffer, the fold's last contents. -/
theorem run : θ_run defs (onTc (τ := τ) (main (F := F))) ⟨m, fun _ => 0, ρ⟩ (Final m ρ) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- THE FRAME: the program runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun s h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c),
    (h c _ (mem_uc main_arg11 (by decide))).trans (W11_main_arg11 m ρ c),
    (h c _ (mem_uc main_arg12 (by decide))).trans (W11_main_arg12 m ρ c),
    (h c _ (mem_uc main_arg13 (by decide))).trans (W11_main_arg13 m ρ c),
    (h c _ (mem_uc main_arg14 (by decide))).trans (W11_main_arg14 m ρ c),
    (h c _ (mem_uc main_arg15 (by decide))).trans (W11_main_arg15 m ρ c),
    (h c _ (mem_uc main_arg16 (by decide))).trans (W11_main_arg16 m ρ c),
    (h c _ (mem_uc main_arg17 (by decide))).trans (W11_main_arg17 m ρ c),
    (h c _ (mem_uc main_arg18 (by decide))).trans (W11_main_arg18 m ρ c)⟩) (run m ρ)

end Cert.KernelIdeal.Run

end
-- ==== Proof.KI.TileRead.lean ====
/-
  A node tile's arrays re-laid, read at an index. A tile is 200 nodes; an activation row is 32 configurations of 64 features,
  stored as 2048 consecutive numbers; the body also sees the tile as 6400 rows (node-major, then configuration) of 64 features.
  Each lemma says which element of the operand a re-laid or broadcast array holds at (node r, configuration c, feature h).
-/
import proofs.«142801_j13228499272260_2_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal
open Idealize.ShloMosaic Idealize.ShloMosaic.ValueIdx

variable {α : Type}

/-! ## Broadcasts to the tile's 200 x 32 x 64 box -/

/-- A per-node-and-feature array, constant over configurations. -/
theorem bcast_node_feat (x : S200x1x64.Idx → α) (hb : S200x1x64.Broadcasts S200x32x64) (r : Fin 200) (c : Fin 32) (h : Fin 64) :
    broadcastTo S200x32x64 x hb (ix3 r c h) = x (ix3 r 0 h) :=
  broadcastTo_apply x hb (ix3 r c h) (ix3 r 0 h) (fun a => match a with
    | ⟨0, _⟩ => rfl
    | ⟨1, _⟩ => rfl
    | ⟨2, _⟩ => rfl)

/-- A per-configuration-and-feature array, constant over nodes. -/
theorem bcast_cfg_feat (x : S1x32x64.Idx → α) (hb : S1x32x64.Broadcasts S200x32x64) (r : Fin 200) (c : Fin 32) (h : Fin 64) :
    broadcastTo S200x32x64 x hb (ix3 r c h) = x (ix3 0 c h) :=
  broadcastTo_apply x hb (ix3 r c h) (ix3 0 c h) (fun a => match a with
    | ⟨0, _⟩ => rfl
    | ⟨1, _⟩ => rfl
    | ⟨2, _⟩ => rfl)

/-- A per-node column, constant over configurations and features. -/
theorem bcast_node (x : S200x1x1.Idx → α) (hb : S200x1x1.Broadcasts S200x32x64) (r : Fin 200) (c : Fin 32) (h : Fin 64) :
    broadcastTo S200x32x64 x hb (ix3 r c h) = x (ix3 r 0 0) :=
  broadcastTo_apply x hb (ix3 r c h) (ix3 r 0 0) (fun a => match a with
    | ⟨0, _⟩ => rfl
    | ⟨1, _⟩ => rfl
    | ⟨2, _⟩ => rfl)

/-- A per-feature row, constant over nodes and configurations. -/
theorem bcast_feat (x : S1x1x64.Idx → α) (hb : S1x1x64.Broadcasts S200x32x64) (r : Fin 200) (c : Fin 32) (h : Fin 64) :
    broadcastTo S200x32x64 x hb (ix3 r c h) = x (ix3 0 0 h) :=
  broadcastTo_apply x hb (ix3 r c h) (ix3 0 0 h) (fun a => match a with
    | ⟨0, _⟩ => rfl
    | ⟨1, _⟩ => rfl
    | ⟨2, _⟩ => rfl)

/-- A per-feature row over the 6400 node-configuration rows. -/
theorem bcast_feat_rows (x : S1x64.Idx → α) (hb : S1x64.Broadcasts S6400x64) (q : Fin 6400) (k : Fin 64) :
    broadcastTo S6400x64 x hb (ix2 q k) = x (ix2 0 k) :=
  broadcastTo_apply x hb (ix2 q k) (ix2 0 k) (fun a => match a with
    | ⟨0, _⟩ => rfl
    | ⟨1, _⟩ => rfl)

/-! ## Unit axes put in -/

theorem cast_node_feat (x : S200x64.Idx → α) (hc : S200x64.ShapeCasts S200x1x64) (r : Fin 200) (h : Fin 64) :
    shapeCast S200x1x64 x hc (ix3 r 0 h) = x (ix2 r h) :=
  shapeCast_apply x hc (ix3 r 0 h) (ix2 r h) (by
    rw [Shape.rowMajor_val_two, Shape.rowMajor_val_three]
    show r.val * 64 + h.val = (r.val * 1 + 0) * 64 + h.val
    omega)

theorem cast_cfg_feat (x : S32x64.Idx → α) (hc : S32x64.ShapeCasts S1x32x64) (c : Fin 32) (h : Fin 64) :
    shapeCast S1x32x64 x hc (ix3 0 c h) = x (ix2 c h) :=
  shapeCast_apply x hc (ix3 0 c h) (ix2 c h) (by
    rw [Shape.rowMajor_val_two, Shape.rowMajor_val_three]
    show c.val * 64 + h.val = (0 * 32 + c.val) * 64 + h.val
    omega)

theorem cast_node (x : S200x1.Idx → α) (hc : S200x1.ShapeCasts S200x1x1) (r : Fin 200) :
    shapeCast S200x1x1 x hc (ix3 r 0 0) = x (ix2 r 0) :=
  shapeCast_apply x hc (ix3 r 0 0) (ix2 r 0) (by
    rw [Shape.rowMajor_val_two, Shape.rowMajor_val_three]
    show r.val * 1 + 0 = (r.val * 1 + 0) * 1 + 0
    omega)

theorem cast_feat3 (x : S64.Idx → α) (hc : S64.ShapeCasts S1x1x64) (h : Fin 64) :
    shapeCast S1x1x64 x hc (ix3 0 0 h) = x (ix1 h) :=
  shapeCast_apply x hc (ix3 0 0 h) (ix1 h) (by
    rw [Shape.rowMajor_val_one, Shape.rowMajor_val_three]
    show h.val = (0 * 1 + 0) * 64 + h.val
    omega)

theorem cast_feat2 (x : S64.Idx → α) (hc : S64.ShapeCasts S1x64) (k : Fin 64) :
    shapeCast S1x64 x hc (ix2 0 k) = x (ix1 k) :=
  shapeCast_apply x hc (ix2 0 k) (ix1 k) (by
    rw [Shape.rowMajor_val_one, Shape.rowMajor_val_two]
    show k.val = 0 * 64 + k.val
    omega)

/-! ## The tile as 200 x 2048, as 6400 x 64, and back -/

/-- Feature h of configuration c of node r sits at column c * 64 + h of row r. -/
theorem cast_flat (x : S200x32x64.Idx → α) (hc : S200x32x64.ShapeCasts S200x2048) (r : Fin 200) (c : Fin 32) (h : Fin 64) :
    shapeCast S200x2048 x hc (ix2 r ⟨c.val * 64 + h.val, by omega⟩) = x (ix3 r c h) :=
  shapeCast_apply x hc _ (ix3 r c h) (by
    rw [Shape.rowMajor_val_two, Shape.rowMajor_val_three]
    show (r.val * 32 + c.val) * 64 + h.val = r.val * 2048 + (c.val * 64 + h.val)
    omega)

/-- The other way: a 200 x 2048 array seen as the box. -/
theorem cast_box (x : S200x2048.Idx → α) (hc : S200x2048.ShapeCasts S200x32x64) (r : Fin 200) (c : Fin 32) (h : Fin 64) :
    shapeCast S200x32x64 x hc (ix3 r c h) = x (ix2 r ⟨c.val * 64 + h.val, by omega⟩) :=
  shapeCast_apply x hc (ix3 r c h) _ (by
    rw [Shape.rowMajor_val_two, Shape.rowMajor_val_three]
    show r.val * 2048 + (c.val * 64 + h.val) = (r.val * 32 + c.val) * 64 + h.val
    omega)

/-- Row r * 32 + c of the 6400 x 64 view is configuration c of node r. -/
theorem cast_rows (x : S200x32x64.Idx → α) (hc : S200x32x64.ShapeCasts S6400x64) (r : Fin 200) (c : Fin 32) (h : Fin 64) :
    shapeCast S6400x64 x hc (ix2 ⟨r.val * 32 + c.val, by omega⟩ h) = x (ix3 r c h) :=
  shapeCast_apply x hc _ (ix3 r c h) (by
    rw [Shape.rowMajor_val_two, Shape.rowMajor_val_three]
    show (r.val * 32 + c.val) * 64 + h.val = (r.val * 32 + c.val) * 64 + h.val
    rfl)

theorem cast_rows_flat (x : S200x2048.Idx → α) (hc : S200x2048.ShapeCasts S6400x64) (r : Fin 200) (c : Fin 32) (h : Fin 64) :
    shapeCast S6400x64 x hc (ix2 ⟨r.val * 32 + c.val, by omega⟩ h) = x (ix2 r ⟨c.val * 64 + h.val, by omega⟩) :=
  shapeCast_apply x hc _ _ (by
    rw [Shape.rowMajor_val_two, Shape.rowMajor_val_two]
    show r.val * 2048 + (c.val * 64 + h.val) = (r.val * 32 + c.val) * 64 + h.val
    omega)

theorem cast_unrows (x : S6400x64.Idx → α) (hc : S6400x64.ShapeCasts S200x32x64) (r : Fin 200) (c : Fin 32) (h : Fin 64) :
    shapeCast S200x32x64 x hc (ix3 r c h) = x (ix2 ⟨r.val * 32 + c.val, by omega⟩ h) :=
  shapeCast_apply x hc (ix3 r c h) _ (by
    rw [Shape.rowMajor_val_two, Shape.rowMajor_val_three]
    show (r.val * 32 + c.val) * 64 + h.val = (r.val * 32 + c.val) * 64 + h.val
    rfl)

theorem cast_rows_to_flat (x : S6400x64.Idx → α) (hc : S6400x64.ShapeCasts S200x2048) (r : Fin 200) (c : Fin 32) (h : Fin 64) :
    shapeCast S200x2048 x hc (ix2 r ⟨c.val * 64 + h.val, by omega⟩) = x (ix2 ⟨r.val * 32 + c.val, by omega⟩ h) :=
  shapeCast_apply x hc _ _ (by
    rw [Shape.rowMajor_val_two, Shape.rowMajor_val_two]
    show (r.val * 32 + c.val) * 64 + h.val = r.val * 2048 + (c.val * 64 + h.val)
    omega)

end Cert.KernelIdeal.Tile

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.Spec.lean ====
/-
  THE MATHEMATICS OF THE NETWORK, with no program in sight.

  A graph on 5000 nodes is given by 16000 directed edge slots: slot e reads its source row at node `g e` and adds into the
  node whose number is the integer `tgt e` (a slot whose `tgt` is no node number adds nowhere). For a node function X,
  `nsum X n` is zero plus the sum of X (g e) over the slots e landing on n, and `deg n` is zero plus the number of such
  slots. A node's neighbour mean of X is nsum X n divided by max (deg n) 1.

  Each node n carries 148 features xn n; each of 32 configurations c carries 24 features cf c; the first layer runs on their
  concatenation x0 n c (172 features), the next two layers on 64 features. A layer is
      relu ((sum_d X n c d * Wself d h  +  sum_d mean(X . c d) n * Wneigh d h) + b h),
  each layer's output also feeds a skip map relu (sum_h Y n c h * S h k + sb k), the three skip outputs are concatenated to
  192 features and summed over all nodes, and a three-layer head maps each configuration's 192 sums to one number.

  `refForm` is that function exactly as the plain formulation computes it. Everything is over the extended reals.
-/
import Idealize.ShloMosaic.Lib.ValueIdx
import Idealize.ShloMosaic.PureOps.Ideal

noncomputable section

open scoped BigOperators

namespace Gnn

open Idealize.ShloMosaic

/-- The float literal 1.0, as both programs spell it. -/
abbrev one : EReal := Ideal.ofBits .f32 0x3F800000#32
/-- The float literal 0.0, as both programs spell it. -/
abbrev zero : EReal := Ideal.ofBits .f32 0x00000000#32

/-- relu x = max x 0. -/
def relu (x : EReal) : EReal := max x zero

/-- The edge slots: where each reads (`g`) and the integer it adds at (`tgt`). -/
structure Graph where
  g : Fin 16000 → Fin 5000
  tgt : Fin 16000 → Int

/-- The slots landing on node n. -/
def Graph.into (G : Graph) (n : Fin 5000) : Finset (Fin 16000) :=
  Finset.univ.filter fun e => G.tgt e = (n.val : Int)

/-- zero plus the sum of X over the sources of the slots landing on n. -/
def nsum (G : Graph) (X : Fin 5000 → EReal) (n : Fin 5000) : EReal := zero + ∑ e ∈ G.into n, X (G.g e)

/-- zero plus one per slot landing on n. -/
def deg (G : Graph) (n : Fin 5000) : EReal := zero + ∑ _e ∈ G.into n, one

/-- The neighbour mean, as a quotient. -/
def meanDiv (G : Graph) (X : Fin 5000 → EReal) (n : Fin 5000) : EReal := Ideal.div (nsum G X n) (max (deg G n) one)

/-- The first layer's input: node features then configuration features. -/
def x0 (xn : Fin 5000 → Fin 148 → EReal) (cf : Fin 32 → Fin 24 → EReal) (n : Fin 5000) (c : Fin 32) (d : Fin 172) : EReal :=
  if h : d.val < 148 then xn n ⟨d.val, h⟩ else cf c ⟨d.val - 148, by omega⟩

/-- One layer on D input features. -/
def sage {D : Nat} (G : Graph) (X : Fin 5000 → Fin 32 → Fin D → EReal) (ws wn : Fin D → Fin 64 → EReal) (b : Fin 64 → EReal)
    (n : Fin 5000) (c : Fin 32) (h : Fin 64) : EReal :=
  relu (((∑ d : Fin D, X n c d * ws d h) + (∑ d : Fin D, meanDiv G (fun n' => X n' c d) n * wn d h)) + b h)

/-- A layer's skip map. -/
def skip (Y : Fin 5000 → Fin 32 → Fin 64 → EReal) (sw : Fin 64 → Fin 64 → EReal) (sb : Fin 64 → EReal)
    (n : Fin 5000) (c : Fin 32) (k : Fin 64) : EReal :=
  relu ((∑ h : Fin 64, Y n c h * sw h k) + sb k)

/-- Three blocks of 64 side by side. -/
def cat3 (a b c : Fin 64 → EReal) (j : Fin 192) : EReal :=
  if h1 : j.val < 64 then a ⟨j.val, h1⟩ else if h2 : j.val < 128 then b ⟨j.val - 64, by omega⟩ else c ⟨j.val - 128, by omega⟩

/-- The head on one configuration's 192 pooled sums. -/
def head (p1w : Fin 192 → Fin 128 → EReal) (p1b : Fin 128 → EReal) (p2w : Fin 128 → Fin 64 → EReal) (p2b : Fin 64 → EReal)
    (p3w : Fin 64 → EReal) (p3b : EReal) (z : Fin 192 → EReal) : EReal :=
  (∑ k : Fin 64, relu ((∑ j : Fin 128, relu ((∑ i : Fin 192, z i * p1w i j) + p1b j) * p2w j k) + p2b k) * p3w k) + p3b

/-- The network's parameters. -/
structure Params where
  cf : Fin 32 → Fin 24 → EReal
  ws0 : Fin 172 → Fin 64 → EReal
  wn0 : Fin 172 → Fin 64 → EReal
  b0 : Fin 64 → EReal
  ws : Fin 2 → Fin 64 → Fin 64 → EReal
  wn : Fin 2 → Fin 64 → Fin 64 → EReal
  b : Fin 2 → Fin 64 → EReal
  sw : Fin 3 → Fin 64 → Fin 64 → EReal
  sb : Fin 3 → Fin 64 → EReal
  p1w : Fin 192 → Fin 128 → EReal
  p1b : Fin 128 → EReal
  p2w : Fin 128 → Fin 64 → EReal
  p2b : Fin 64 → EReal
  p3w : Fin 64 → EReal
  p3b : EReal

section Ref
variable (G : Graph) (xn : Fin 5000 → Fin 148 → EReal) (P : Params)

def y1 : Fin 5000 → Fin 32 → Fin 64 → EReal := sage G (x0 xn P.cf) P.ws0 P.wn0 P.b0
def y2 : Fin 5000 → Fin 32 → Fin 64 → EReal := sage G (y1 G xn P) (P.ws 0) (P.wn 0) (P.b 0)
def y3 : Fin 5000 → Fin 32 → Fin 64 → EReal := sage G (y2 G xn P) (P.ws 1) (P.wn 1) (P.b 1)

/-- The pooled skip features of configuration c: zero plus the sum over all nodes. -/
def pooled (c : Fin 32) (j : Fin 192) : EReal :=
  zero + ∑ n : Fin 5000, cat3 (skip (y1 G xn P) (P.sw 0) (P.sb 0) n c) (skip (y2 G xn P) (P.sw 1) (P.sb 1) n c)
    (skip (y3 G xn P) (P.sw 2) (P.sb 2) n c) j

/-- The network's output for configuration c, in the plain formulation. -/
def refForm (c : Fin 32) : EReal := head P.p1w P.p1b P.p2w P.p2b P.p3w P.p3b (pooled G xn P c)

end Ref

end Gnn

end
-- ==== Proof.KI.Layer0Pay.lean ====
/-
  The first layer's body, read at an index over the extended reals. For a tile's node r, configuration c and feature h:
  the pre-activation is (node-part self product + config-part self row) + (node-part neighbour product + has-neighbour flag
  times config-part neighbour row); the activation adds the bias and takes relu; stored as 200 x 2048 it sits at column
  c * 64 + h; the pooled skip sum at (c, k) adds, over the tile's 200 nodes, relu of the activation's row times the skip
  weights plus the skip bias.
-/
import proofs.«142801_j13228499272260_2_alg».proof.Proof.Gen.KernelIdeal.Skeleton
import proofs.«142801_j13228499272260_2_alg».proof.Proof.KI.TileRead
import proofs.«142801_j13228499272260_2_alg».proof.Proof.LibHostRead
import proofs.«142801_j13228499272260_2_alg».proof.Proof.Spec

noncomputable section

open scoped BigOperators

namespace Cert.KernelIdeal.Layer0Pay

open Cert.KernelIdeal Cert.KernelIdeal.Gen Cert.KernelIdeal.Tile
open Idealize.ShloMosaic Idealize.ShloMosaic.ValueIdx

/-- The sum over a tile's nodes. -/
theorem sum_nodes (src : FVec Ideal S200x32x64 .f32) (hr : S200x32x64.Reduces [0] S32x64) (hφ : FKind.Formats .f32)
    (hacc : (0x00000000#32 : BitVec 32) = FKind.add.neutral .f32 hφ) (c : Fin 32) (k : Fin 64) :
    multiReduction .add [0] S32x64 src 0x00000000#32 hr hφ hacc (ix2 c k) = ∑ r : Fin 200, src (ix3 r c k) := by
  refine (Ideal.multiReduction_add_single src 0x00000000#32 hr hφ hacc (ix2 c k)).trans ?_
  show ∑ r : Fin 200, src (hr.lift (ix2 c k) r) = _
  refine Finset.sum_congr rfl fun r _ => congrArg src ?_
  funext a
  refine Fin.ext ?_
  match a with
  | ⟨0, _⟩ => rfl
  | ⟨1, _⟩ => rfl
  | ⟨2, _⟩ => rfl

/-- The product of the tile's 6400 node-configuration rows with a 64 x 64 matrix, at (row, column). -/
theorem rows_matmul (l : FVec Ideal S6400x64 .bf16) (w : FVec Ideal S64x64 .bf16) (q : Fin 6400) (k : Fin 64) :
    matmul dot_S6400x64_S64x64_S6400x64_1_0_0_1_n_n none l w (constant S6400x64 .f32 0x00000000#32) (ix2 q k)
      = ∑ h : Fin 64, l (ix2 q h) * w (ix2 h k) :=
  Cert.LibHR.plainMatmul_zero_apply (φ₁ := .bf16) (φ₂ := .bf16) 6400 64 64 dot_S6400x64_S64x64_S6400x64_1_0_0_1_n_n_wf l w q k

/-- The pre-activation at (r, c, h). -/
theorem pay7_apply (x0 x1 : Vec Ideal S200x148 .f32) (x2 : Vec Ideal S200x1 .f32) (x3 x4 : Vec Ideal S148x64 .bf16)
    (x5 x6 : Vec Ideal S32x64 .f32) (r : Fin 200) (c : Fin 32) (h : Fin 64) :
    k0_pay7 (F := Ideal) x0 x1 x2 x3 x4 x5 x6 (ix3 r c h)
      = ((∑ d : Fin 148, x0 (ix2 r d) * x3 (ix2 d h)) + x5 (ix2 c h))
        + ((∑ d : Fin 148, x1 (ix2 r d) * x4 (ix2 d h)) + x2 (ix2 r 0) * x6 (ix2 c h)) := by
  unfold k0_pay7
  simp only [addf_apply, mulf_apply]
  rw [bcast_node_feat, bcast_cfg_feat, bcast_node_feat, bcast_node, bcast_cfg_feat,
    cast_node_feat, cast_cfg_feat, cast_node_feat, cast_node, cast_cfg_feat]
  simp only [shapeCast_self]
  have hm (l : FVec Ideal S200x148 .bf16) (w : FVec Ideal S148x64 .bf16) :
      matmul dot_S200x148_S148x64_S200x64_1_0_0_1_n_n none l w (constant S200x64 .f32 0x00000000#32) (ix2 r h)
        = ∑ d : Fin 148, l (ix2 r d) * w (ix2 d h) :=
    Cert.LibHR.plainMatmul_zero_apply (φ₁ := .bf16) (φ₂ := .bf16) 200 148 64 dot_S200x148_S148x64_S200x64_1_0_0_1_n_n_wf l w r h
  rw [hm, hm]
  rfl

/-- The activation at (r, c, h): relu of the pre-activation plus the bias. -/
theorem pay1_apply (v17 : FVec Ideal S1x1x64 .f32) (v38 : FVec Ideal S200x32x64 .f32) (r : Fin 200) (c : Fin 32) (h : Fin 64) :
    k0_pay1 (F := Ideal) v17 v38 (ix3 r c h) = Gnn.relu (v38 (ix3 r c h) + v17 (ix3 0 0 h)) := by
  unfold k0_pay1
  show max (v38 (ix3 r c h) + broadcastTo S200x32x64 v17 broadcasts_S1x1x64_S200x32x64 (ix3 r c h)) (Ideal.ofBits .f32 0x00000000#32) = _
  rw [bcast_feat]
  rfl

/-- Stored flat, the activation of (r, c, h) sits at column c * 64 + h. -/
theorem pay2_apply (v17 : FVec Ideal S1x1x64 .f32) (v38 : FVec Ideal S200x32x64 .f32) (r : Fin 200) (c : Fin 32) (h : Fin 64) :
    k0_pay2 (F := Ideal) v17 v38 (ix2 r ⟨c.val * 64 + h.val, by omega⟩) = k0_pay1 (F := Ideal) v17 v38 (ix3 r c h) := by
  unfold k0_pay2
  exact cast_flat _ _ r c h

/-- The tile's pooled skip sum at (c, k). -/
theorem pay3_apply (v17 : FVec Ideal S1x1x64 .f32) (v19 : FVec Ideal S64x64 .bf16) (v22 : FVec Ideal S1x64 .f32)
    (v38 : FVec Ideal S200x32x64 .f32) (c : Fin 32) (k : Fin 64) :
    k0_pay3 (F := Ideal) v17 v19 v22 v38 (ix3 0 c k)
      = ∑ r : Fin 200, Gnn.relu ((∑ h : Fin 64, k0_pay1 (F := Ideal) v17 v38 (ix3 r c h) * v19 (ix2 h k)) + v22 (ix2 0 k)) := by
  unfold k0_pay3
  refine (cast_cfg_feat _ _ c k).trans ?_
  refine (sum_nodes _ _ _ _ c k).trans ?_
  refine Finset.sum_congr rfl fun r _ => ?_
  refine (cast_unrows _ _ r c k).trans ?_
  show max (matmul dot_S6400x64_S64x64_S6400x64_1_0_0_1_n_n none (shapeCast S6400x64 (k0_pay1 (F := Ideal) v17 v38) shapeCasts_S200x32x64_S6400x64) v19
      (constant S6400x64 .f32 0x00000000#32) (ix2 ⟨r.val * 32 + c.val, by omega⟩ k)
    + broadcastTo S6400x64 v22 broadcasts_S1x64_S6400x64 (ix2 ⟨r.val * 32 + c.val, by omega⟩ k)) (Ideal.ofBits .f32 0x00000000#32) = _
  rw [bcast_feat_rows, rows_matmul]
  simp only [cast_rows]
  rfl

theorem pay4_apply (v16 : Vec Ideal S64 .f32) (h : Fin 64) : k0_pay4 (F := Ideal) v16 (ix3 0 0 h) = v16 (ix1 h) := by
  unfold k0_pay4
  exact cast_feat3 _ _ h

theorem pay5_eq (v18 : Vec Ideal S64x64 .bf16) : k0_pay5 (F := Ideal) v18 = v18 := by
  unfold k0_pay5
  exact shapeCast_self _ _

theorem pay6_apply (v20 : Vec Ideal S64 .f32) (k : Fin 64) : k0_pay6 (F := Ideal) v20 (ix2 0 k) = v20 (ix1 k) := by
  unfold k0_pay6
  rw [cast_feat2, shapeCast_self]

/-- The first layer's activation of node n, configuration c, feature h, from the eight arrays the body reads. -/
def act (A0 A1 : S5000x148.Idx → EReal) (A2 : S5000x1.Idx → EReal) (A3 A4 : S148x64.Idx → EReal) (A5 A6 : S32x64.Idx → EReal)
    (A7 : S64.Idx → EReal) (n : Fin 5000) (c : Fin 32) (h : Fin 64) : EReal :=
  Gnn.relu ((((∑ d : Fin 148, A0 (ix2 n d) * A3 (ix2 d h)) + A5 (ix2 c h))
      + ((∑ d : Fin 148, A1 (ix2 n d) * A4 (ix2 d h)) + A2 (ix2 n 0) * A6 (ix2 c h))) + A7 (ix1 h))

/-- A tile's stored activation, from the tile's blocks. -/
theorem tile_act (x0 x1 : Vec Ideal S200x148 .f32) (x2 : Vec Ideal S200x1 .f32) (x3 x4 : Vec Ideal S148x64 .bf16)
    (x5 x6 : Vec Ideal S32x64 .f32) (x7 : Vec Ideal S64 .f32) (r : Fin 200) (c : Fin 32) (h : Fin 64) :
    k0_pay2 (F := Ideal) (k0_pay4 x7) (k0_pay7 x0 x1 x2 x3 x4 x5 x6) (ix2 r ⟨c.val * 64 + h.val, by omega⟩)
      = Gnn.relu ((((∑ d : Fin 148, x0 (ix2 r d) * x3 (ix2 d h)) + x5 (ix2 c h))
          + ((∑ d : Fin 148, x1 (ix2 r d) * x4 (ix2 d h)) + x2 (ix2 r 0) * x6 (ix2 c h))) + x7 (ix1 h)) := by
  rw [pay2_apply, pay1_apply, pay7_apply, pay4_apply]

/-- A tile's pooled skip sum, from the tile's blocks. -/
theorem tile_pool (x0 x1 : Vec Ideal S200x148 .f32) (x2 : Vec Ideal S200x1 .f32) (x3 x4 : Vec Ideal S148x64 .bf16)
    (x5 x6 : Vec Ideal S32x64 .f32) (x7 : Vec Ideal S64 .f32) (x8 : Vec Ideal S64x64 .bf16) (x9 : Vec Ideal S64 .f32)
    (c : Fin 32) (k : Fin 64) :
    k0_pay3 (F := Ideal) (k0_pay4 x7) (k0_pay5 x8) (k0_pay6 x9) (k0_pay7 x0 x1 x2 x3 x4 x5 x6) (ix3 0 c k)
      = ∑ r : Fin 200, Gnn.relu ((∑ h : Fin 64,
          Gnn.relu ((((∑ d : Fin 148, x0 (ix2 r d) * x3 (ix2 d h)) + x5 (ix2 c h))
            + ((∑ d : Fin 148, x1 (ix2 r d) * x4 (ix2 d h)) + x2 (ix2 r 0) * x6 (ix2 c h))) + x7 (ix1 h)) * x8 (ix2 h k))
          + x9 (ix1 k)) := by
  rw [pay3_apply]
  simp only [pay1_apply, pay7_apply, pay4_apply, pay5_eq, pay6_apply]

end Cert.KernelIdeal.Layer0Pay

end
-- ==== Proof.KI.Layer0Val.lean ====
/-
  What layer 0's region leaves in its two result arrays, as functions of the arrays it reads. Row n of the 5000 x 2048 activation
  array lies in tile n / 200, whose block the body fills from the tile's rows of the node features and of their neighbour means,
  the tile's has-a-neighbour column and the five small whole arrays; entry (t, c, k) of the 25 x 32 x 64 pooled array is tile t's sum.
-/
import proofs.«142801_j13228499272260_2_alg».proof.Proof.KI.Layer0
import proofs.«142801_j13228499272260_2_alg».proof.Proof.KI.Layer0Pay
import Idealize.ShloMosaic.Lib.Pipeline.Value

set_option maxRecDepth 16384

noncomputable section

open scoped BigOperators

namespace Cert.KernelIdeal.Layer0Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## Where each window's block sits -/

/-- The printed index maps over the 25 grid points: the three row-tiled inputs and the two outputs move one block per point along the
    node axis; every other window stays at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = t.val
    ∧ win0_10.index t (1 : Fin 2) = 0
    ∧ win0_11.index t (0 : Fin 3) = t.val
    ∧ win0_11.index t (1 : Fin 3) = 0
    ∧ win0_11.index t (2 : Fin 3) = 0 :=
  (by decide +kernel : ∀ t : Fin grid0.N, _)

theorem t_lt (t : Fin cfg0.N) : t.val < 25 := lt_of_lt_of_eq t.isLt N_0

/-- Node r of tile t. -/
def tnode (t : Fin cfg0.N) (r : Fin 200) : Fin 5000 := ⟨t.val * 200 + r.val, by have := t_lt t; omega⟩

variable (V : (c : Dev nD) → (b : Ref sig .tc) → Buf (Elt Ideal) ((c : Thread nD τ).loc b))

/-- Window 0's block at point t: rows t * 200 ... t * 200 + 199 of its array. -/
theorem blk_0 (c : Dev nD) (t : Fin cfg0.N) (p : Fin 200) (q : Fin 148) :
    Layer0.iblk V c 0 t (ix2 p q) = V c main_v11 (ix2 (tnode t p) q) := by
  show V c main_v11 (((cfg0.win 0).blk t).view.emb (ix2 p q)) = _
  refine congrArg _ (funext fun a => Fin.ext ?_)
  exact match a with
    | ⟨0, _⟩ => by
      show win0_0.index t (0 : Fin 2) * 200 + 1 * p.val = t.val * 200 + p.val
      rw [(idx_facts t).1]; omega
    | ⟨1, _⟩ => by
      show win0_0.index t (1 : Fin 2) * 148 + 1 * q.val = q.val
      rw [(idx_facts t).2.1]; omega

/-- Window 1's block at point t: rows t * 200 ... t * 200 + 199 of its array. -/
theorem blk_1 (c : Dev nD) (t : Fin cfg0.N) (p : Fin 200) (q : Fin 148) :
    Layer0.iblk V c 1 t (ix2 p q) = V c main_v45 (ix2 (tnode t p) q) := by
  show V c main_v45 (((cfg0.win 1).blk t).view.emb (ix2 p q)) = _
  refine congrArg _ (funext fun a => Fin.ext ?_)
  exact match a with
    | ⟨0, _⟩ => by
      show win0_1.index t (0 : Fin 2) * 200 + 1 * p.val = t.val * 200 + p.val
      rw [(idx_facts t).2.2.1]; omega
    | ⟨1, _⟩ => by
      show win0_1.index t (1 : Fin 2) * 148 + 1 * q.val = q.val
      rw [(idx_facts t).2.2.2.1]; omega

/-- Window 2's block at point t: rows t * 200 ... t * 200 + 199 of its array. -/
theorem blk_2 (c : Dev nD) (t : Fin cfg0.N) (p : Fin 200) (q : Fin 1) :
    Layer0.iblk V c 2 t (ix2 p q) = V c main_v32 (ix2 (tnode t p) q) := by
  show V c main_v32 (((cfg0.win 2).blk t).view.emb (ix2 p q)) = _
  refine congrArg _ (funext fun a => Fin.ext ?_)
  exact match a with
    | ⟨0, _⟩ => by
      show win0_2.index t (0 : Fin 2) * 200 + 1 * p.val = t.val * 200 + p.val
      rw [(idx_facts t).2.2.2.2.1]; omega
    | ⟨1, _⟩ => by
      show win0_2.index t (1 : Fin 2) * 1 + 1 * q.val = q.val
      rw [(idx_facts t).2.2.2.2.2.1]; omega

/-- Window 3's block at point t: its whole array. -/
theorem blk_3 (c : Dev nD) (t : Fin cfg0.N) (p : Fin 148) (q : Fin 64) :
    Layer0.iblk V c 3 t (ix2 p q) = V c main_v51 (ix2 p q) := by
  show V c main_v51 (((cfg0.win 3).blk t).view.emb (ix2 p q)) = _
  refine congrArg _ (funext fun a => Fin.ext ?_)
  exact match a with
    | ⟨0, _⟩ => by
      show win0_3.index t (0 : Fin 2) * 148 + 1 * p.val = p.val
      rw [(idx_facts t).2.2.2.2.2.2.1]; omega
    | ⟨1, _⟩ => by
      show win0_3.index t (1 : Fin 2) * 64 + 1 * q.val = q.val
      rw [(idx_facts t).2.2.2.2.2.2.2.1]; omega

/-- Window 4's block at point t: its whole array. -/
theorem blk_4 (c : Dev nD) (t : Fin cfg0.N) (p : Fin 148) (q : Fin 64) :
    Layer0.iblk V c 4 t (ix2 p q) = V c main_v53 (ix2 p q) := by
  show V c main_v53 (((cfg0.win 4).blk t).view.emb (ix2 p q)) = _
  refine congrArg _ (funext fun a => Fin.ext ?_)
  exact match a with
    | ⟨0, _⟩ => by
      show win0_4.index t (0 : Fin 2) * 148 + 1 * p.val = p.val
      rw [(idx_facts t).2.2.2.2.2.2.2.2.1]; omega
    | ⟨1, _⟩ => by
      show win0_4.index t (1 : Fin 2) * 64 + 1 * q.val = q.val
      rw [(idx_facts t).2.2.2.2.2.2.2.2.2.1]; omega

/-- Window 5's block at point t: its whole array. -/
theorem blk_5 (c : Dev nD) (t : Fin cfg0.N) (p : Fin 32) (q : Fin 64) :
    Layer0.iblk V c 5 t (ix2 p q) = V c main_v56 (ix2 p q) := by
  show V c main_v56 (((cfg0.win 5).blk t).view.emb (ix2 p q)) = _
  refine congrArg _ (funext fun a => Fin.ext ?_)
  exact match a with
    | ⟨0, _⟩ => by
      show win0_5.index t (0 : Fin 2) * 32 + 1 * p.val = p.val
      rw [(idx_facts t).2.2.2.2.2.2.2.2.2.2.1]; omega
    | ⟨1, _⟩ => by
      show win0_5.index t (1 : Fin 2) * 64 + 1 * q.val = q.val
      rw [(idx_facts t).2.2.2.2.2.2.2.2.2.2.2.1]; omega

/-- Window 6's block at point t: its whole array. -/
theorem blk_6 (c : Dev nD) (t : Fin cfg0.N) (p : Fin 32) (q : Fin 64) :
    Layer0.iblk V c 6 t (ix2 p q) = V c main_v57 (ix2 p q) := by
  show V c main_v57 (((cfg0.win 6).blk t).view.emb (ix2 p q)) = _
  refine congrArg _ (funext fun a => Fin.ext ?_)
  exact match a with
    | ⟨0, _⟩ => by
      show win0_6.index t (0 : Fin 2) * 32 + 1 * p.val = p.val
      rw [(idx_facts t).2.2.2.2.2.2.2.2.2.2.2.2.1]; omega
    | ⟨1, _⟩ => by
      show win0_6.index t (1 : Fin 2) * 64 + 1 * q.val = q.val
      rw [(idx_facts t).2.2.2.2.2.2.2.2.2.2.2.2.2.1]; omega

/-- Window 7's block at point t: its whole array. -/
theorem blk_7 (c : Dev nD) (t : Fin cfg0.N) (q : Fin 64) :
    Layer0.iblk V c 7 t (ix1 q) = V c main_arg7 (ix1 q) := by
  show V c main_arg7 (((cfg0.win 7).blk t).view.emb (ix1 q)) = _
  refine congrArg _ (funext fun a => Fin.ext ?_)
  exact match a with
    | ⟨0, _⟩ => by
      show win0_7.index t (0 : Fin 1) * 64 + 1 * q.val = q.val
      rw [(idx_facts t).2.2.2.2.2.2.2.2.2.2.2.2.2.2.1]; omega

/-- Window 8's block at point t: its whole array. -/
theorem blk_8 (c : Dev nD) (t : Fin cfg0.N) (p : Fin 64) (q : Fin 64) :
    Layer0.iblk V c 8 t (ix2 p q) = V c main_v58 (ix2 p q) := by
  show V c main_v58 (((cfg0.win 8).blk t).view.emb (ix2 p q)) = _
  refine congrArg _ (funext fun a => Fin.ext ?_)
  exact match a with
    | ⟨0, _⟩ => by
      show win0_8.index t (0 : Fin 2) * 64 + 1 * p.val = p.val
      rw [(idx_facts t).2.2.2.2.2.2.2.2.2.2.2.2.2.2.2.1]; omega
    | ⟨1, _⟩ => by
      show win0_8.index t (1 : Fin 2) * 64 + 1 * q.val = q.val
      rw [(idx_facts t).2.2.2.2.2.2.2.2.2.2.2.2.2.2.2.2.1]; omega

/-- Window 9's block at point t: its whole array. -/
theorem blk_9 (c : Dev nD) (t : Fin cfg0.N) (q : Fin 64) :
    Layer0.iblk V c 9 t (ix1 q) = V c main_v49 (ix1 q) := by
  show V c main_v49 (((cfg0.win 9).blk t).view.emb (ix1 q)) = _
  refine congrArg _ (funext fun a => Fin.ext ?_)
  exact match a with
    | ⟨0, _⟩ => by
      show win0_9.index t (0 : Fin 1) * 64 + 1 * q.val = q.val
      rw [(idx_facts t).2.2.2.2.2.2.2.2.2.2.2.2.2.2.2.2.2.1]; omega

/-! ## The body's two stores, each one whole-buffer piece -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out_10_eq (x0 x1 : Vec Ideal S200x148 .f32) (x2 : Vec Ideal S200x1 .f32) (x3 x4 : Vec Ideal S148x64 .bf16)
    (x5 x6 : Vec Ideal S32x64 .f32) (x7 : Vec Ideal S64 .f32) (x8 : Vec Ideal S64x64 .bf16) (x9 : Vec Ideal S64 .f32) :
    Layer0.out_10 x0 x1 x2 x3 x4 x5 x6 x7 x8 x9 = k0_pay2 (F := Ideal) (k0_pay4 x7) (k0_pay7 x0 x1 x2 x3 x4 x5 x6) := by
  unfold Layer0.out_10
  rw [View.canon_unit_zero hz2]
  simp only [View.ld_unit_zero (S := S200x148) hz2, View.ld_unit_zero (S := S200x1) hz2, View.ld_unit_zero (S := S148x64) hz2,
    View.ld_unit_zero (S := S32x64) hz2, View.ld_unit_zero (S := S64) hz1]

theorem out_11_eq (x0 x1 : Vec Ideal S200x148 .f32) (x2 : Vec Ideal S200x1 .f32) (x3 x4 : Vec Ideal S148x64 .bf16)
    (x5 x6 : Vec Ideal S32x64 .f32) (x7 : Vec Ideal S64 .f32) (x8 : Vec Ideal S64x64 .bf16) (x9 : Vec Ideal S64 .f32) :
    Layer0.out_11 x0 x1 x2 x3 x4 x5 x6 x7 x8 x9
      = k0_pay3 (F := Ideal) (k0_pay4 x7) (k0_pay5 x8) (k0_pay6 x9) (k0_pay7 x0 x1 x2 x3 x4 x5 x6) := by
  unfold Layer0.out_11
  rw [View.canon_unit_zero hz3]
  simp only [View.ld_unit_zero (S := S200x148) hz2, View.ld_unit_zero (S := S200x1) hz2, View.ld_unit_zero (S := S148x64) hz2,
    View.ld_unit_zero (S := S32x64) hz2, View.ld_unit_zero (S := S64) hz1, View.ld_unit_zero (S := S64x64) hz2]

/-! ## What the two result arrays end holding -/

/-- Layer 0's activation of node n at flat column q (configuration q / 64, feature q % 64). -/
def X1at (c : Dev nD) (n : Fin 5000) (q : Fin 2048) : EReal :=
  Layer0Pay.act (V c main_v11) (V c main_v45) (V c main_v32) (V c main_v51) (V c main_v53) (V c main_v56) (V c main_v57) (V c main_arg7) n ⟨q.val / 64, by omega⟩ ⟨q.val % 64, by omega⟩

theorem X1at_flat (c : Dev nD) (n : Fin 5000) (cc : Fin 32) (h : Fin 64) :
    X1at V c n ⟨cc.val * 64 + h.val, by omega⟩ = Layer0Pay.act (V c main_v11) (V c main_v45) (V c main_v32) (V c main_v51) (V c main_v53) (V c main_v56) (V c main_v57) (V c main_arg7) n cc h := by
  unfold X1at
  congr 1
  · exact Fin.ext (by show (cc.val * 64 + h.val) / 64 = cc.val; omega)
  · exact Fin.ext (by show (cc.val * 64 + h.val) % 64 = h.val; omega)

/-- The 5000 x 2048 activation array. -/
def X1 (c : Dev nD) : S5000x2048.Idx → EReal := fun i => X1at V c ⟨(i 0).val, (i 0).isLt⟩ ⟨(i 1).val, (i 1).isLt⟩

/-- A tile's pooled skip sum of layer 0 at (configuration, feature). -/
def P0at (c : Dev nD) (t : Fin cfg0.N) (cc : Fin 32) (k : Fin 64) : EReal :=
  ∑ r : Fin 200, Gnn.relu ((∑ h : Fin 64, Layer0Pay.act (V c main_v11) (V c main_v45) (V c main_v32) (V c main_v51) (V c main_v53) (V c main_v56) (V c main_v57) (V c main_arg7) (tnode t r) cc h * V c main_v58 (ix2 h k)) + V c main_v49 (ix1 k))

/-- The 25 x 32 x 64 array of the tiles' pooled sums. -/
def P0 (c : Dev nD) : S25x32x64.Idx → EReal := fun i =>
  P0at V c ⟨(i 0).val, by rw [show cfg0.N = 25 from N_0]; exact (i 0).isLt⟩ ⟨(i 1).val, (i 1).isLt⟩ ⟨(i 2).val, (i 2).isLt⟩

/-- The body's stored activation block at point t, entry by entry. -/
theorem act_block (c : Dev nD) (t : Fin cfg0.N) (j : S200x2048.Idx) :
    k0_pay2 (F := Ideal) (k0_pay4 (Layer0.iblk V c 7 t)) (k0_pay7 (Layer0.iblk V c 0 t) (Layer0.iblk V c 1 t) (Layer0.iblk V c 2 t) (Layer0.iblk V c 3 t) (Layer0.iblk V c 4 t) (Layer0.iblk V c 5 t) (Layer0.iblk V c 6 t)) j
      = X1at V c (tnode t ⟨(j 0).val, (j 0).isLt⟩) ⟨(j 1).val, (j 1).isLt⟩ := by
  obtain ⟨r, q, rfl⟩ : ∃ (r : Fin 200) (q : Fin 2048), j = ix2 r q := ⟨j 0, j 1, eq_ix2 j⟩
  obtain ⟨cc, h, rfl⟩ : ∃ (cc : Fin 32) (h : Fin 64), q = ⟨cc.val * 64 + h.val, by omega⟩ :=
    ⟨⟨q.val / 64, by omega⟩, ⟨q.val % 64, by omega⟩, Fin.ext (by show q.val = q.val / 64 * 64 + q.val % 64; omega)⟩
  refine (Layer0Pay.tile_act (Layer0.iblk V c 0 t) (Layer0.iblk V c 1 t) (Layer0.iblk V c 2 t) (Layer0.iblk V c 3 t) (Layer0.iblk V c 4 t) (Layer0.iblk V c 5 t) (Layer0.iblk V c 6 t) (Layer0.iblk V c 7 t) r cc h).trans ?_
  simp only [blk_0, blk_1, blk_2, blk_3, blk_4, blk_5, blk_6, blk_7]
  exact (X1at_flat V c (tnode t r) cc h).symm

/-- The body's stored pooled block at point t, entry by entry. -/
theorem pool_block (c : Dev nD) (t : Fin cfg0.N) (j : S1x32x64.Idx) :
    k0_pay3 (F := Ideal) (k0_pay4 (Layer0.iblk V c 7 t)) (k0_pay5 (Layer0.iblk V c 8 t)) (k0_pay6 (Layer0.iblk V c 9 t))
        (k0_pay7 (Layer0.iblk V c 0 t) (Layer0.iblk V c 1 t) (Layer0.iblk V c 2 t) (Layer0.iblk V c 3 t) (Layer0.iblk V c 4 t) (Layer0.iblk V c 5 t) (Layer0.iblk V c 6 t)) j
      = P0at V c t ⟨(j 1).val, (j 1).isLt⟩ ⟨(j 2).val, (j 2).isLt⟩ := by
  obtain ⟨z, cc, k, rfl⟩ : ∃ (z : Fin 1) (cc : Fin 32) (k : Fin 64), j = ix3 z cc k := ⟨j 0, j 1, j 2, eq_ix3 j⟩
  obtain rfl : z = 0 := Subsingleton.elim _ _
  refine (Layer0Pay.tile_pool (Layer0.iblk V c 0 t) (Layer0.iblk V c 1 t) (Layer0.iblk V c 2 t) (Layer0.iblk V c 3 t) (Layer0.iblk V c 4 t) (Layer0.iblk V c 5 t) (Layer0.iblk V c 6 t) (Layer0.iblk V c 7 t) (Layer0.iblk V c 8 t) (Layer0.iblk V c 9 t) cc k).trans ?_
  simp only [blk_0, blk_1, blk_2, blk_3, blk_4, blk_5, blk_6, blk_7, blk_8, blk_9]
  rfl

set_option maxHeartbeats 4000000 in
set_option maxHeartbeats 800000 in
/-- WHAT POINT t WRITES BACK to the activation array is block t of `X1`. -/
theorem flushed10_eq (c : Dev nD) (t : Fin cfg0.N) :
    (Layer0.dat V c).flushed 10 t = ((cfg0.win 10).blk t).view.read (Elt Ideal) (X1 V c) := by
  show (cfg0.win 10).cut (grid0.coords t) ((Layer0.dat V c).after 10 t) = _
  rw [Layer0.after_10, out_10_eq]
  funext j
  refine (act_block V c t j).trans ?_
  show _ = X1 V c (((cfg0.win 10).blk t).view.emb j)
  unfold X1
  have e0 : tnode t ⟨(j 0).val, (j 0).isLt⟩
      = (⟨((((cfg0.win 10).blk t).view.emb j) 0).val, ((((cfg0.win 10).blk t).view.emb j) 0).isLt⟩ : Fin 5000) := by
    refine Fin.ext ?_
    show t.val * 200 + (j 0).val = win0_10.index t (0 : Fin 2) * 200 + 1 * (j 0).val
    rw [(idx_facts t).2.2.2.2.2.2.2.2.2.2.2.2.2.2.2.2.2.2.1]; omega
  have e1 : (⟨(j 1).val, (j 1).isLt⟩ : Fin 2048)
      = ⟨((((cfg0.win 10).blk t).view.emb j) 1).val, ((((cfg0.win 10).blk t).view.emb j) 1).isLt⟩ := by
    refine Fin.ext ?_
    show (j 1).val = win0_10.index t (1 : Fin 2) * 2048 + 1 * (j 1).val
    rw [(idx_facts t).2.2.2.2.2.2.2.2.2.2.2.2.2.2.2.2.2.2.2.1]; omega
  exact congrArg₂ (X1at V c) e0 e1

/-- WHAT POINT t WRITES BACK to the pooled array is block t of `P0`. -/
theorem flushed11_eq (c : Dev nD) (t : Fin cfg0.N) :
    (Layer0.dat V c).flushed 11 t = ((cfg0.win 11).blk t).view.read (Elt Ideal) (P0 V c) := by
  show (cfg0.win 11).cut (grid0.coords t) ((Layer0.dat V c).after 11 t) = _
  rw [Layer0.after_11, out_11_eq]
  funext j
  refine (pool_block V c t j).trans ?_
  show _ = P0 V c (((cfg0.win 11).blk t).view.emb j)
  unfold P0
  congr 1
  · refine Fin.ext ?_
    show t.val = win0_11.index t (0 : Fin 3) * 1 + 1 * (j 0).val
    have hj : (j 0).val < 1 := (j 0).isLt
    rw [(idx_facts t).2.2.2.2.2.2.2.2.2.2.2.2.2.2.2.2.2.2.2.2.1]; omega
  · refine Fin.ext ?_
    show (j 1).val = win0_11.index t (1 : Fin 3) * 32 + 1 * (j 1).val
    rw [(idx_facts t).2.2.2.2.2.2.2.2.2.2.2.2.2.2.2.2.2.2.2.2.2.1]; omega
  · refine Fin.ext ?_
    show (j 2).val = win0_11.index t (2 : Fin 3) * 64 + 1 * (j 2).val
    rw [(idx_facts t).2.2.2.2.2.2.2.2.2.2.2.2.2.2.2.2.2.2.2.2.2.2]; omega

theorem mem_blk10 (t : Fin cfg0.N) (i : S5000x2048.Idx) :
    i ∈ ((cfg0.win 10).blk t).view.set ↔ ∀ a : Fin 2, win0_10.index t a * S200x2048.size a ≤ (i a).val
      ∧ (i a).val < win0_10.index t a * S200x2048.size a + S200x2048.size a := by
  show i ∈ ((View.whole main_v59_0).slice (win0_10.rect t)).set ↔ _
  rw [View.set_slice_whole, Rect.mem_set_unit]
  exact Iff.rfl

theorem mem_blk11 (t : Fin cfg0.N) (i : S25x32x64.Idx) :
    i ∈ ((cfg0.win 11).blk t).view.set ↔ ∀ a : Fin 3, win0_11.index t a * S1x32x64.size a ≤ (i a).val
      ∧ (i a).val < win0_11.index t a * S1x32x64.size a + S1x32x64.size a := by
  show i ∈ ((View.whole main_v59_1).slice (win0_11.rect t)).set ↔ _
  rw [View.set_slice_whole, Rect.mem_set_unit]
  exact Iff.rfl

/-- Every row of the activation array is in its tile's block. -/
theorem cover10 (i : S5000x2048.Idx) : ∃ t : Fin cfg0.N, (cfg0.win 10).flush t = true ∧ i ∈ ((cfg0.win 10).blk t).view.set := by
  have hi0 : (i 0).val < 5000 := (i 0).isLt
  have hi1 : (i 1).val < 2048 := (i 1).isLt
  refine ⟨⟨(i 0).val / 200, by rw [show cfg0.N = 25 from N_0]; omega⟩, flush0_10 _, ?_⟩
  rw [mem_blk10]
  intro a
  exact match a with
    | ⟨0, _⟩ => by
      show win0_10.index _ (0 : Fin 2) * 200 ≤ (i 0).val ∧ (i 0).val < win0_10.index _ (0 : Fin 2) * 200 + 200
      rw [(idx_facts _).2.2.2.2.2.2.2.2.2.2.2.2.2.2.2.2.2.2.1]
      show (i 0).val / 200 * 200 ≤ (i 0).val ∧ (i 0).val < (i 0).val / 200 * 200 + 200
      omega
    | ⟨1, _⟩ => by
      show win0_10.index _ (1 : Fin 2) * 2048 ≤ (i 1).val ∧ (i 1).val < win0_10.index _ (1 : Fin 2) * 2048 + 2048
      rw [(idx_facts _).2.2.2.2.2.2.2.2.2.2.2.2.2.2.2.2.2.2.2.1]
      omega

/-- Every entry of the pooled array is in its tile's block. -/
theorem cover11 (i : S25x32x64.Idx) : ∃ t : Fin cfg0.N, (cfg0.win 11).flush t = true ∧ i ∈ ((cfg0.win 11).blk t).view.set := by
  have hi0 : (i 0).val < 25 := (i 0).isLt
  have hi1 : (i 1).val < 32 := (i 1).isLt
  have hi2 : (i 2).val < 64 := (i 2).isLt
  refine ⟨⟨(i 0).val, by rw [show cfg0.N = 25 from N_0]; omega⟩, flush0_11 _, ?_⟩
  rw [mem_blk11]
  intro a
  exact match a with
    | ⟨0, _⟩ => by
      show win0_11.index _ (0 : Fin 3) * 1 ≤ (i 0).val ∧ (i 0).val < win0_11.index _ (0 : Fin 3) * 1 + 1
      rw [(idx_facts _).2.2.2.2.2.2.2.2.2.2.2.2.2.2.2.2.2.2.2.2.1]
      show (i 0).val * 1 ≤ (i 0).val ∧ (i 0).val < (i 0).val * 1 + 1
      omega
    | ⟨1, _⟩ => by
      show win0_11.index _ (1 : Fin 3) * 32 ≤ (i 1).val ∧ (i 1).val < win0_11.index _ (1 : Fin 3) * 32 + 32
      rw [(idx_facts _).2.2.2.2.2.2.2.2.2.2.2.2.2.2.2.2.2.2.2.2.2.1]
      omega
    | ⟨2, _⟩ => by
      show win0_11.index _ (2 : Fin 3) * 64 ≤ (i 2).val ∧ (i 2).val < win0_11.index _ (2 : Fin 3) * 64 + 64
      rw [(idx_facts _).2.2.2.2.2.2.2.2.2.2.2.2.2.2.2.2.2.2.2.2.2.2]
      omega

/-- THE ACTIVATION ARRAY after the region. -/
theorem final10 (c : Dev nD) : (Layer0.dat V c).arrAt 10 cfg0.N = X1 V c :=
  (Layer0.dat V c).arrAt_eq_of_cover 10 (X1 V c) (fun t _ => flushed10_eq V c t) cover10

/-- THE POOLED ARRAY after the region. -/
theorem final11 (c : Dev nD) : (Layer0.dat V c).arrAt 11 cfg0.N = P0 V c :=
  (Layer0.dat V c).arrAt_eq_of_cover 11 (P0 V c) (fun t _ => flushed11_eq V c t) cover11

end Cert.KernelIdeal.Layer0Val

end
-- ==== Proof.KI.Sage1Pay.lean ====
/-
  A hidden layer's body (layer 1), read at an index over the extended reals. For a tile's node r, configuration c and feature h:
  the next activation is relu ((the node's 64 features times the self weights + its neighbour mean's 64 features times the
  neighbour weights) + the bias); stored as 200 x 2048 it sits at column c * 64 + h; the pooled skip sum at (c, k) adds, over the
  tile's 200 nodes, relu of the next activation's row times the skip weights plus the skip bias.
-/
import proofs.«142801_j13228499272260_2_alg».proof.Proof.Gen.KernelIdeal.Skeleton
import proofs.«142801_j13228499272260_2_alg».proof.Proof.KI.Layer0Pay

noncomputable section

open scoped BigOperators

namespace Cert.KernelIdeal.Sage1Pay

open Cert.KernelIdeal Cert.KernelIdeal.Gen Cert.KernelIdeal.Tile Cert.KernelIdeal.Layer0Pay
open Idealize.ShloMosaic Idealize.ShloMosaic.ValueIdx

/-- The next activation of (r, c, h), in the 6400-row view (row r * 32 + c). -/
theorem pay1_apply (v0 v3 : Vec Ideal S200x2048 .bf16) (v6 v8 : Vec Ideal S64x64 .bf16) (v10 : Vec Ideal S64 .f32)
    (r : Fin 200) (c : Fin 32) (h : Fin 64) :
    k1_pay1 (F := Ideal) v0 v3 v6 v8 v10 (ix2 ⟨r.val * 32 + c.val, by omega⟩ h)
      = Gnn.relu (((∑ k : Fin 64, v0 (ix2 r ⟨c.val * 64 + k.val, by omega⟩) * v6 (ix2 k h))
          + (∑ k : Fin 64, v3 (ix2 r ⟨c.val * 64 + k.val, by omega⟩) * v8 (ix2 k h))) + v10 (ix1 h)) := by
  unfold k1_pay1
  show max ((matmul (F := Ideal) dot_S6400x64_S64x64_S6400x64_1_0_0_1_n_n none
        (shapeCast S6400x64 (shapeCast S200x2048 v0 shapeCasts_S200x2048_S200x2048) shapeCasts_S200x2048_S6400x64)
        (shapeCast S64x64 v6 shapeCasts_S64x64_S64x64) (constant (F := Ideal) S6400x64 .f32 0x00000000#32) (ix2 ⟨r.val * 32 + c.val, by omega⟩ h)
      + matmul (F := Ideal) dot_S6400x64_S64x64_S6400x64_1_0_0_1_n_n none
        (shapeCast S6400x64 (shapeCast S200x2048 v3 shapeCasts_S200x2048_S200x2048) shapeCasts_S200x2048_S6400x64)
        (shapeCast S64x64 v8 shapeCasts_S64x64_S64x64) (constant (F := Ideal) S6400x64 .f32 0x00000000#32) (ix2 ⟨r.val * 32 + c.val, by omega⟩ h))
      + broadcastTo S6400x64 (shapeCast S1x64 (shapeCast S64 v10 shapeCasts_S64_S64) shapeCasts_S64_S1x64) broadcasts_S1x64_S6400x64
          (ix2 ⟨r.val * 32 + c.val, by omega⟩ h)) (Ideal.ofBits .f32 0x00000000#32) = _
  rw [bcast_feat_rows, cast_feat2, rows_matmul, rows_matmul]
  simp only [shapeCast_self, cast_rows_flat]
  rfl

/-- Stored flat, the next activation of (r, c, h) sits at column c * 64 + h. -/
theorem pay2_apply (v0 v3 : Vec Ideal S200x2048 .bf16) (v6 v8 : Vec Ideal S64x64 .bf16) (v10 : Vec Ideal S64 .f32)
    (r : Fin 200) (c : Fin 32) (h : Fin 64) :
    k1_pay2 (F := Ideal) v0 v3 v6 v8 v10 (ix2 r ⟨c.val * 64 + h.val, by omega⟩)
      = k1_pay1 (F := Ideal) v0 v3 v6 v8 v10 (ix2 ⟨r.val * 32 + c.val, by omega⟩ h) := by
  unfold k1_pay2
  exact cast_rows_to_flat _ _ r c h

/-- The tile's pooled skip sum at (c, k). -/
theorem pay3_apply (v0 v3 : Vec Ideal S200x2048 .bf16) (v6 v8 : Vec Ideal S64x64 .bf16) (v10 : Vec Ideal S64 .f32)
    (v13 : Vec Ideal S64x64 .bf16) (v15 : Vec Ideal S64 .f32) (c : Fin 32) (k : Fin 64) :
    k1_pay3 (F := Ideal) v0 v3 v6 v8 v10 v13 v15 (ix3 0 c k)
      = ∑ r : Fin 200, Gnn.relu ((∑ h : Fin 64, k1_pay1 (F := Ideal) v0 v3 v6 v8 v10 (ix2 ⟨r.val * 32 + c.val, by omega⟩ h) * v13 (ix2 h k))
          + v15 (ix1 k)) := by
  unfold k1_pay3
  refine (cast_cfg_feat _ _ c k).trans ?_
  refine (sum_nodes _ _ _ _ c k).trans ?_
  refine Finset.sum_congr rfl fun r _ => ?_
  refine (cast_unrows _ _ r c k).trans ?_
  show max (matmul (F := Ideal) dot_S6400x64_S64x64_S6400x64_1_0_0_1_n_n none (k1_pay1 (F := Ideal) v0 v3 v6 v8 v10)
        (shapeCast S64x64 v13 shapeCasts_S64x64_S64x64) (constant (F := Ideal) S6400x64 .f32 0x00000000#32) (ix2 ⟨r.val * 32 + c.val, by omega⟩ k)
      + broadcastTo S6400x64 (shapeCast S1x64 (shapeCast S64 v15 shapeCasts_S64_S64) shapeCasts_S64_S1x64) broadcasts_S1x64_S6400x64
          (ix2 ⟨r.val * 32 + c.val, by omega⟩ k)) (Ideal.ofBits .f32 0x00000000#32) = _
  rw [bcast_feat_rows, cast_feat2, rows_matmul]
  simp only [shapeCast_self]
  rfl

/-- A hidden layer's next activation of node n, configuration c, feature h, from the five arrays the body reads. -/
def act (A0 A1 : S5000x2048.Idx → EReal) (A2 A3 : S64x64.Idx → EReal) (A4 : S64.Idx → EReal)
    (n : Fin 5000) (c : Fin 32) (h : Fin 64) : EReal :=
  Gnn.relu (((∑ k : Fin 64, A0 (ix2 n ⟨c.val * 64 + k.val, by omega⟩) * A2 (ix2 k h))
      + (∑ k : Fin 64, A1 (ix2 n ⟨c.val * 64 + k.val, by omega⟩) * A3 (ix2 k h))) + A4 (ix1 h))

/-- A tile's stored next activation, from the tile's blocks. -/
theorem tile_act (v0 v3 : Vec Ideal S200x2048 .bf16) (v6 v8 : Vec Ideal S64x64 .bf16) (v10 : Vec Ideal S64 .f32)
    (r : Fin 200) (c : Fin 32) (h : Fin 64) :
    k1_pay2 (F := Ideal) v0 v3 v6 v8 v10 (ix2 r ⟨c.val * 64 + h.val, by omega⟩)
      = Gnn.relu (((∑ k : Fin 64, v0 (ix2 r ⟨c.val * 64 + k.val, by omega⟩) * v6 (ix2 k h))
          + (∑ k : Fin 64, v3 (ix2 r ⟨c.val * 64 + k.val, by omega⟩) * v8 (ix2 k h))) + v10 (ix1 h)) := by
  rw [pay2_apply, pay1_apply]

/-- A tile's pooled skip sum, from the tile's blocks. -/
theorem tile_pool (v0 v3 : Vec Ideal S200x2048 .bf16) (v6 v8 : Vec Ideal S64x64 .bf16) (v10 : Vec Ideal S64 .f32)
    (v13 : Vec Ideal S64x64 .bf16) (v15 : Vec Ideal S64 .f32) (c : Fin 32) (k : Fin 64) :
    k1_pay3 (F := Ideal) v0 v3 v6 v8 v10 v13 v15 (ix3 0 c k)
      = ∑ r : Fin 200, Gnn.relu ((∑ h : Fin 64,
          Gnn.relu (((∑ k' : Fin 64, v0 (ix2 r ⟨c.val * 64 + k'.val, by omega⟩) * v6 (ix2 k' h))
            + (∑ k' : Fin 64, v3 (ix2 r ⟨c.val * 64 + k'.val, by omega⟩) * v8 (ix2 k' h))) + v10 (ix1 h)) * v13 (ix2 h k))
          + v15 (ix1 k)) := by
  rw [pay3_apply]
  simp only [pay1_apply]

end Cert.KernelIdeal.Sage1Pay

end
-- ==== Proof.KI.Sage1Val.lean ====
/-
  What hidden layer 1's region leaves in its two result arrays, as functions of the arrays it reads. Row n of the 5000 x 2048
  next-activation array lies in tile n / 200, whose block the body fills from the tile's rows of the activations and of their neighbour
  means and the five small whole arrays; entry (t, c, k) of the 25 x 32 x 64 pooled array is tile t's sum.
-/
import proofs.«142801_j13228499272260_2_alg».proof.Proof.KI.Sage1
import proofs.«142801_j13228499272260_2_alg».proof.Proof.KI.Sage1Pay
import Idealize.ShloMosaic.Lib.Pipeline.Value

set_option maxRecDepth 16384

noncomputable section

open scoped BigOperators

namespace Cert.KernelIdeal.Sage1Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The printed index maps over the 25 grid points: the two row-tiled inputs and the two outputs move one block per point along the
    node axis; every other window stays at block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = t.val
    ∧ win1_7.index t (1 : Fin 2) = 0
    ∧ win1_8.index t (0 : Fin 3) = t.val
    ∧ win1_8.index t (1 : Fin 3) = 0
    ∧ win1_8.index t (2 : Fin 3) = 0 :=
  (by decide +kernel : ∀ t : Fin grid1.N, _)

theorem t_lt (t : Fin cfg1.N) : t.val < 25 := lt_of_lt_of_eq t.isLt N_1

/-- Node r of tile t. -/
def tnode (t : Fin cfg1.N) (r : Fin 200) : Fin 5000 := ⟨t.val * 200 + r.val, by have := t_lt t; omega⟩

variable (V : (c : Dev nD) → (b : Ref sig .tc) → Buf (Elt Ideal) ((c : Thread nD τ).loc b))

/-- Window 0's block at point t: rows t * 200 ... t * 200 + 199 of its array. -/
theorem blk_0 (c : Dev nD) (t : Fin cfg1.N) (p : Fin 200) (q : Fin 2048) :
    Sage1.iblk V c 0 t (ix2 p q) = V c main_v59_0 (ix2 (tnode t p) q) := by
  show V c main_v59_0 (((cfg1.win 0).blk t).view.emb (ix2 p q)) = _
  refine congrArg _ (funext fun a => Fin.ext ?_)
  exact match a with
    | ⟨0, _⟩ => by
      show win1_0.index t (0 : Fin 2) * 200 + 1 * p.val = t.val * 200 + p.val
      rw [(idx_facts t).1]; omega
    | ⟨1, _⟩ => by
      show win1_0.index t (1 : Fin 2) * 2048 + 1 * q.val = q.val
      rw [(idx_facts t).2.1]; omega

/-- Window 1's block at point t: rows t * 200 ... t * 200 + 199 of its array. -/
theorem blk_1 (c : Dev nD) (t : Fin cfg1.N) (p : Fin 200) (q : Fin 2048) :
    Sage1.iblk V c 1 t (ix2 p q) = V c main_v74 (ix2 (tnode t p) q) := by
  show V c main_v74 (((cfg1.win 1).blk t).view.emb (ix2 p q)) = _
  refine congrArg _ (funext fun a => Fin.ext ?_)
  exact match a with
    | ⟨0, _⟩ => by
      show win1_1.index t (0 : Fin 2) * 200 + 1 * p.val = t.val * 200 + p.val
      rw [(idx_facts t).2.2.1]; omega
    | ⟨1, _⟩ => by
      show win1_1.index t (1 : Fin 2) * 2048 + 1 * q.val = q.val
      rw [(idx_facts t).2.2.2.1]; omega

/-- Window 2's block at point t: its whole array. -/
theorem blk_2 (c : Dev nD) (t : Fin cfg1.N) (p : Fin 64) (q : Fin 64) :
    Sage1.iblk V c 2 t (ix2 p q) = V c main_v85 (ix2 p q) := by
  show V c main_v85 (((cfg1.win 2).blk t).view.emb (ix2 p q)) = _
  refine congrArg _ (funext fun a => Fin.ext ?_)
  exact match a with
    | ⟨0, _⟩ => by
      show win1_2.index t (0 : Fin 2) * 64 + 1 * p.val = p.val
      rw [(idx_facts t).2.2.2.2.1]; omega
    | ⟨1, _⟩ => by
      show win1_2.index t (1 : Fin 2) * 64 + 1 * q.val = q.val
      rw [(idx_facts t).2.2.2.2.2.1]; omega

/-- Window 3's block at point t: its whole array. -/
theorem blk_3 (c : Dev nD) (t : Fin cfg1.N) (p : Fin 64) (q : Fin 64) :
    Sage1.iblk V c 3 t (ix2 p q) = V c main_v86 (ix2 p q) := by
  show V c main_v86 (((cfg1.win 3).blk t).view.emb (ix2 p q)) = _
  refine congrArg _ (funext fun a => Fin.ext ?_)
  exact match a with
    | ⟨0, _⟩ => by
      show win1_3.index t (0 : Fin 2) * 64 + 1 * p.val = p.val
      rw [(idx_facts t).2.2.2.2.2.2.1]; omega
    | ⟨1, _⟩ => by
      show win1_3.index t (1 : Fin 2) * 64 + 1 * q.val = q.val
      rw [(idx_facts t).2.2.2.2.2.2.2.1]; omega

/-- Window 4's block at point t: its whole array. -/
theorem blk_4 (c : Dev nD) (t : Fin cfg1.N) (q : Fin 64) :
    Sage1.iblk V c 4 t (ix1 q) = V c main_v80 (ix1 q) := by
  show V c main_v80 (((cfg1.win 4).blk t).view.emb (ix1 q)) = _
  refine congrArg _ (funext fun a => Fin.ext ?_)
  exact match a with
    | ⟨0, _⟩ => by
      show win1_4.index t (0 : Fin 1) * 64 + 1 * q.val = q.val
      rw [(idx_facts t).2.2.2.2.2.2.2.2.1]; omega

/-- Window 5's block at point t: its whole array. -/
theorem blk_5 (c : Dev nD) (t : Fin cfg1.N) (p : Fin 64) (q : Fin 64) :
    Sage1.iblk V c 5 t (ix2 p q) = V c main_v87 (ix2 p q) := by
  show V c main_v87 (((cfg1.win 5).blk t).view.emb (ix2 p q)) = _
  refine congrArg _ (funext fun a => Fin.ext ?_)
  exact match a with
    | ⟨0, _⟩ => by
      show win1_5.index t (0 : Fin 2) * 64 + 1 * p.val = p.val
      rw [(idx_facts t).2.2.2.2.2.2.2.2.2.1]; omega
    | ⟨1, _⟩ => by
      show win1_5.index t (1 : Fin 2) * 64 + 1 * q.val = q.val
      rw [(idx_facts t).2.2.2.2.2.2.2.2.2.2.1]; omega

/-- Window 6's block at point t: its whole array. -/
theorem blk_6 (c : Dev nD) (t : Fin cfg1.N) (q : Fin 64) :
    Sage1.iblk V c 6 t (ix1 q) = V c main_v84 (ix1 q) := by
  show V c main_v84 (((cfg1.win 6).blk t).view.emb (ix1 q)) = _
  refine congrArg _ (funext fun a => Fin.ext ?_)
  exact match a with
    | ⟨0, _⟩ => by
      show win1_6.index t (0 : Fin 1) * 64 + 1 * q.val = q.val
      rw [(idx_facts t).2.2.2.2.2.2.2.2.2.2.2.1]; omega

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out_7_eq (x0 x1 : Vec Ideal S200x2048 .bf16) (x2 x3 : Vec Ideal S64x64 .bf16) (x4 : Vec Ideal S64 .f32)
    (x5 : Vec Ideal S64x64 .bf16) (x6 : Vec Ideal S64 .f32) :
    Sage1.out_7 x0 x1 x2 x3 x4 x5 x6 = k1_pay2 (F := Ideal) x0 x1 x2 x3 x4 := by
  unfold Sage1.out_7
  rw [View.canon_unit_zero hz2]
  simp only [View.ld_unit_zero (S := S200x2048) hz2, View.ld_unit_zero (S := S64x64) hz2, View.ld_unit_zero (S := S64) hz1]

theorem out_8_eq (x0 x1 : Vec Ideal S200x2048 .bf16) (x2 x3 : Vec Ideal S64x64 .bf16) (x4 : Vec Ideal S64 .f32)
    (x5 : Vec Ideal S64x64 .bf16) (x6 : Vec Ideal S64 .f32) :
    Sage1.out_8 x0 x1 x2 x3 x4 x5 x6 = k1_pay3 (F := Ideal) x0 x1 x2 x3 x4 x5 x6 := by
  unfold Sage1.out_8
  rw [View.canon_unit_zero hz3]
  simp only [View.ld_unit_zero (S := S200x2048) hz2, View.ld_unit_zero (S := S64x64) hz2, View.ld_unit_zero (S := S64) hz1]

/-- The next activation of node n at flat column q (configuration q / 64, feature q % 64). -/
def Xat (c : Dev nD) (n : Fin 5000) (q : Fin 2048) : EReal :=
  Sage1Pay.act (V c main_v59_0) (V c main_v74) (V c main_v85) (V c main_v86) (V c main_v80) n ⟨q.val / 64, by omega⟩ ⟨q.val % 64, by omega⟩

theorem Xat_flat (c : Dev nD) (n : Fin 5000) (cc : Fin 32) (h : Fin 64) :
    Xat V c n ⟨cc.val * 64 + h.val, by omega⟩ = Sage1Pay.act (V c main_v59_0) (V c main_v74) (V c main_v85) (V c main_v86) (V c main_v80) n cc h := by
  unfold Xat
  congr 1
  · exact Fin.ext (by show (cc.val * 64 + h.val) / 64 = cc.val; omega)
  · exact Fin.ext (by show (cc.val * 64 + h.val) % 64 = h.val; omega)

/-- The 5000 x 2048 next-activation array. -/
def X (c : Dev nD) : S5000x2048.Idx → EReal := fun i => Xat V c ⟨(i 0).val, (i 0).isLt⟩ ⟨(i 1).val, (i 1).isLt⟩

/-- A tile's pooled skip sum at (configuration, feature). -/
def Pat (c : Dev nD) (t : Fin cfg1.N) (cc : Fin 32) (k : Fin 64) : EReal :=
  ∑ r : Fin 200, Gnn.relu ((∑ h : Fin 64, Sage1Pay.act (V c main_v59_0) (V c main_v74) (V c main_v85) (V c main_v86) (V c main_v80) (tnode t r) cc h * V c main_v87 (ix2 h k)) + V c main_v84 (ix1 k))

/-- The 25 x 32 x 64 array of the tiles' pooled sums. -/
def Pl (c : Dev nD) : S25x32x64.Idx → EReal := fun i =>
  Pat V c ⟨(i 0).val, by rw [show cfg1.N = 25 from N_1]; exact (i 0).isLt⟩ ⟨(i 1).val, (i 1).isLt⟩ ⟨(i 2).val, (i 2).isLt⟩

theorem act_block (c : Dev nD) (t : Fin cfg1.N) (j : S200x2048.Idx) :
    k1_pay2 (F := Ideal) (Sage1.iblk V c 0 t) (Sage1.iblk V c 1 t) (Sage1.iblk V c 2 t) (Sage1.iblk V c 3 t) (Sage1.iblk V c 4 t) j = Xat V c (tnode t ⟨(j 0).val, (j 0).isLt⟩) ⟨(j 1).val, (j 1).isLt⟩ := by
  obtain ⟨r, q, rfl⟩ : ∃ (r : Fin 200) (q : Fin 2048), j = ix2 r q := ⟨j 0, j 1, eq_ix2 j⟩
  obtain ⟨cc, h, rfl⟩ : ∃ (cc : Fin 32) (h : Fin 64), q = ⟨cc.val * 64 + h.val, by omega⟩ :=
    ⟨⟨q.val / 64, by omega⟩, ⟨q.val % 64, by omega⟩, Fin.ext (by show q.val = q.val / 64 * 64 + q.val % 64; omega)⟩
  refine (Sage1Pay.tile_act (Sage1.iblk V c 0 t) (Sage1.iblk V c 1 t) (Sage1.iblk V c 2 t) (Sage1.iblk V c 3 t) (Sage1.iblk V c 4 t) r cc h).trans ?_
  simp only [blk_0, blk_1, blk_2, blk_3, blk_4]
  exact (Xat_flat V c (tnode t r) cc h).symm

theorem pool_block (c : Dev nD) (t : Fin cfg1.N) (j : S1x32x64.Idx) :
    k1_pay3 (F := Ideal) (Sage1.iblk V c 0 t) (Sage1.iblk V c 1 t) (Sage1.iblk V c 2 t) (Sage1.iblk V c 3 t) (Sage1.iblk V c 4 t) (Sage1.iblk V c 5 t) (Sage1.iblk V c 6 t) j = Pat V c t ⟨(j 1).val, (j 1).isLt⟩ ⟨(j 2).val, (j 2).isLt⟩ := by
  obtain ⟨z, cc, k, rfl⟩ : ∃ (z : Fin 1) (cc : Fin 32) (k : Fin 64), j = ix3 z cc k := ⟨j 0, j 1, j 2, eq_ix3 j⟩
  obtain rfl : z = 0 := Subsingleton.elim _ _
  refine (Sage1Pay.tile_pool (Sage1.iblk V c 0 t) (Sage1.iblk V c 1 t) (Sage1.iblk V c 2 t) (Sage1.iblk V c 3 t) (Sage1.iblk V c 4 t) (Sage1.iblk V c 5 t) (Sage1.iblk V c 6 t) cc k).trans ?_
  simp only [blk_0, blk_1, blk_2, blk_3, blk_4, blk_5, blk_6]
  rfl

set_option maxHeartbeats 800000 in
/-- WHAT POINT t WRITES BACK to the next-activation array is block t of `X`. -/
theorem flushed7_eq (c : Dev nD) (t : Fin cfg1.N) :
    (Sage1.dat V c).flushed 7 t = ((cfg1.win 7).blk t).view.read (Elt Ideal) (X V c) := by
  show (cfg1.win 7).cut (grid1.coords t) ((Sage1.dat V c).after 7 t) = _
  rw [Sage1.after_7, out_7_eq]
  funext j
  refine (act_block V c t j).trans ?_
  show _ = X V c (((cfg1.win 7).blk t).view.emb j)
  unfold X
  have e0 : tnode t ⟨(j 0).val, (j 0).isLt⟩
      = (⟨((((cfg1.win 7).blk t).view.emb j) 0).val, ((((cfg1.win 7).blk t).view.emb j) 0).isLt⟩ : Fin 5000) := by
    refine Fin.ext ?_
    show t.val * 200 + (j 0).val = win1_7.index t (0 : Fin 2) * 200 + 1 * (j 0).val
    rw [(idx_facts t).2.2.2.2.2.2.2.2.2.2.2.2.1]; omega
  have e1 : (⟨(j 1).val, (j 1).isLt⟩ : Fin 2048)
      = ⟨((((cfg1.win 7).blk t).view.emb j) 1).val, ((((cfg1.win 7).blk t).view.emb j) 1).isLt⟩ := by
    refine Fin.ext ?_
    show (j 1).val = win1_7.index t (1 : Fin 2) * 2048 + 1 * (j 1).val
    rw [(idx_facts t).2.2.2.2.2.2.2.2.2.2.2.2.2.1]; omega
  exact congrArg₂ (Xat V c) e0 e1

set_option maxHeartbeats 800000 in
/-- WHAT POINT t WRITES BACK to the pooled array is block t of `Pl`. -/
theorem flushed8_eq (c : Dev nD) (t : Fin cfg1.N) :
    (Sage1.dat V c).flushed 8 t = ((cfg1.win 8).blk t).view.read (Elt Ideal) (Pl V c) := by
  show (cfg1.win 8).cut (grid1.coords t) ((Sage1.dat V c).after 8 t) = _
  rw [Sage1.after_8, out_8_eq]
  funext j
  refine (pool_block V c t j).trans ?_
  show _ = Pl V c (((cfg1.win 8).blk t).view.emb j)
  unfold Pl
  congr 1
  · refine Fin.ext ?_
    show t.val = win1_8.index t (0 : Fin 3) * 1 + 1 * (j 0).val
    have hj : (j 0).val < 1 := (j 0).isLt
    rw [(idx_facts t).2.2.2.2.2.2.2.2.2.2.2.2.2.2.1]; omega
  · refine Fin.ext ?_
    show (j 1).val = win1_8.index t (1 : Fin 3) * 32 + 1 * (j 1).val
    rw [(idx_facts t).2.2.2.2.2.2.2.2.2.2.2.2.2.2.2.1]; omega
  · refine Fin.ext ?_
    show (j 2).val = win1_8.index t (2 : Fin 3) * 64 + 1 * (j 2).val
    rw [(idx_facts t).2.2.2.2.2.2.2.2.2.2.2.2.2.2.2.2]; omega

theorem mem_blk7 (t : Fin cfg1.N) (i : S5000x2048.Idx) :
    i ∈ ((cfg1.win 7).blk t).view.set ↔ ∀ a : Fin 2, win1_7.index t a * S200x2048.size a ≤ (i a).val
      ∧ (i a).val < win1_7.index t a * S200x2048.size a + S200x2048.size a := by
  show i ∈ ((View.whole main_v88_0).slice (win1_7.rect t)).set ↔ _
  rw [View.set_slice_whole, Rect.mem_set_unit]
  exact Iff.rfl

theorem mem_blk8 (t : Fin cfg1.N) (i : S25x32x64.Idx) :
    i ∈ ((cfg1.win 8).blk t).view.set ↔ ∀ a : Fin 3, win1_8.index t a * S1x32x64.size a ≤ (i a).val
      ∧ (i a).val < win1_8.index t a * S1x32x64.size a + S1x32x64.size a := by
  show i ∈ ((View.whole main_v88_1).slice (win1_8.rect t)).set ↔ _
  rw [View.set_slice_whole, Rect.mem_set_unit]
  exact Iff.rfl

theorem cover7 (i : S5000x2048.Idx) : ∃ t : Fin cfg1.N, (cfg1.win 7).flush t = true ∧ i ∈ ((cfg1.win 7).blk t).view.set := by
  have hi0 : (i 0).val < 5000 := (i 0).isLt
  have hi1 : (i 1).val < 2048 := (i 1).isLt
  refine ⟨⟨(i 0).val / 200, by rw [show cfg1.N = 25 from N_1]; omega⟩, flush1_7 _, ?_⟩
  rw [mem_blk7]
  intro a
  exact match a with
    | ⟨0, _⟩ => by
      show win1_7.index _ (0 : Fin 2) * 200 ≤ (i 0).val ∧ (i 0).val < win1_7.index _ (0 : Fin 2) * 200 + 200
      rw [(idx_facts _).2.2.2.2.2.2.2.2.2.2.2.2.1]
      show (i 0).val / 200 * 200 ≤ (i 0).val ∧ (i 0).val < (i 0).val / 200 * 200 + 200
      omega
    | ⟨1, _⟩ => by
      show win1_7.index _ (1 : Fin 2) * 2048 ≤ (i 1).val ∧ (i 1).val < win1_7.index _ (1 : Fin 2) * 2048 + 2048
      rw [(idx_facts _).2.2.2.2.2.2.2.2.2.2.2.2.2.1]
      omega

theorem cover8 (i : S25x32x64.Idx) : ∃ t : Fin cfg1.N, (cfg1.win 8).flush t = true ∧ i ∈ ((cfg1.win 8).blk t).view.set := by
  have hi0 : (i 0).val < 25 := (i 0).isLt
  have hi1 : (i 1).val < 32 := (i 1).isLt
  have hi2 : (i 2).val < 64 := (i 2).isLt
  refine ⟨⟨(i 0).val, by rw [show cfg1.N = 25 from N_1]; omega⟩, flush1_8 _, ?_⟩
  rw [mem_blk8]
  intro a
  exact match a with
    | ⟨0, _⟩ => by
      show win1_8.index _ (0 : Fin 3) * 1 ≤ (i 0).val ∧ (i 0).val < win1_8.index _ (0 : Fin 3) * 1 + 1
      rw [(idx_facts _).2.2.2.2.2.2.2.2.2.2.2.2.2.2.1]
      show (i 0).val * 1 ≤ (i 0).val ∧ (i 0).val < (i 0).val * 1 + 1
      omega
    | ⟨1, _⟩ => by
      show win1_8.index _ (1 : Fin 3) * 32 ≤ (i 1).val ∧ (i 1).val < win1_8.index _ (1 : Fin 3) * 32 + 32
      rw [(idx_facts _).2.2.2.2.2.2.2.2.2.2.2.2.2.2.2.1]
      omega
    | ⟨2, _⟩ => by
      show win1_8.index _ (2 : Fin 3) * 64 ≤ (i 2).val ∧ (i 2).val < win1_8.index _ (2 : Fin 3) * 64 + 64
      rw [(idx_facts _).2.2.2.2.2.2.2.2.2.2.2.2.2.2.2.2]
      omega

/-- THE NEXT-ACTIVATION ARRAY after the region. -/
theorem final7 (c : Dev nD) : (Sage1.dat V c).arrAt 7 cfg1.N = X V c :=
  (Sage1.dat V c).arrAt_eq_of_cover 7 (X V c) (fun t _ => flushed7_eq V c t) cover7

/-- THE POOLED ARRAY after the region. -/
theorem final8 (c : Dev nD) : (Sage1.dat V c).arrAt 8 cfg1.N = Pl V c :=
  (Sage1.dat V c).arrAt_eq_of_cover 8 (Pl V c) (fun t _ => flushed8_eq V c t) cover8

end Cert.KernelIdeal.Sage1Val

end
-- ==== Proof.KI.Sage2Pay.lean ====
/-
  A hidden layer's body (layer 2), read at an index over the extended reals. For a tile's node r, configuration c and feature h:
  the next activation is relu ((the node's 64 features times the self weights + its neighbour mean's 64 features times the
  neighbour weights) + the bias); stored as 200 x 2048 it sits at column c * 64 + h; the pooled skip sum at (c, k) adds, over the
  tile's 200 nodes, relu of the next activation's row times the skip weights plus the skip bias.
-/
import proofs.«142801_j13228499272260_2_alg».proof.Proof.Gen.KernelIdeal.Skeleton
import proofs.«142801_j13228499272260_2_alg».proof.Proof.KI.Layer0Pay

noncomputable section

open scoped BigOperators

namespace Cert.KernelIdeal.Sage2Pay

open Cert.KernelIdeal Cert.KernelIdeal.Gen Cert.KernelIdeal.Tile Cert.KernelIdeal.Layer0Pay
open Idealize.ShloMosaic Idealize.ShloMosaic.ValueIdx

/-- The next activation of (r, c, h), in the 6400-row view (row r * 32 + c). -/
theorem pay1_apply (v0 v3 : Vec Ideal S200x2048 .bf16) (v6 v8 : Vec Ideal S64x64 .bf16) (v10 : Vec Ideal S64 .f32)
    (r : Fin 200) (c : Fin 32) (h : Fin 64) :
    k2_pay1 (F := Ideal) v0 v3 v6 v8 v10 (ix2 ⟨r.val * 32 + c.val, by omega⟩ h)
      = Gnn.relu (((∑ k : Fin 64, v0 (ix2 r ⟨c.val * 64 + k.val, by omega⟩) * v6 (ix2 k h))
          + (∑ k : Fin 64, v3 (ix2 r ⟨c.val * 64 + k.val, by omega⟩) * v8 (ix2 k h))) + v10 (ix1 h)) := by
  unfold k2_pay1
  show max ((matmul (F := Ideal) dot_S6400x64_S64x64_S6400x64_1_0_0_1_n_n none
        (shapeCast S6400x64 (shapeCast S200x2048 v0 shapeCasts_S200x2048_S200x2048) shapeCasts_S200x2048_S6400x64)
        (shapeCast S64x64 v6 shapeCasts_S64x64_S64x64) (constant (F := Ideal) S6400x64 .f32 0x00000000#32) (ix2 ⟨r.val * 32 + c.val, by omega⟩ h)
      + matmul (F := Ideal) dot_S6400x64_S64x64_S6400x64_1_0_0_1_n_n none
        (shapeCast S6400x64 (shapeCast S200x2048 v3 shapeCasts_S200x2048_S200x2048) shapeCasts_S200x2048_S6400x64)
        (shapeCast S64x64 v8 shapeCasts_S64x64_S64x64) (constant (F := Ideal) S6400x64 .f32 0x00000000#32) (ix2 ⟨r.val * 32 + c.val, by omega⟩ h))
      + broadcastTo S6400x64 (shapeCast S1x64 (shapeCast S64 v10 shapeCasts_S64_S64) shapeCasts_S64_S1x64) broadcasts_S1x64_S6400x64
          (ix2 ⟨r.val * 32 + c.val, by omega⟩ h)) (Ideal.ofBits .f32 0x00000000#32) = _
  rw [bcast_feat_rows, cast_feat2, rows_matmul, rows_matmul]
  simp only [shapeCast_self, cast_rows_flat]
  rfl

/-- Stored flat, the next activation of (r, c, h) sits at column c * 64 + h. -/
theorem pay2_apply (v0 v3 : Vec Ideal S200x2048 .bf16) (v6 v8 : Vec Ideal S64x64 .bf16) (v10 : Vec Ideal S64 .f32)
    (r : Fin 200) (c : Fin 32) (h : Fin 64) :
    k2_pay2 (F := Ideal) v0 v3 v6 v8 v10 (ix2 r ⟨c.val * 64 + h.val, by omega⟩)
      = k2_pay1 (F := Ideal) v0 v3 v6 v8 v10 (ix2 ⟨r.val * 32 + c.val, by omega⟩ h) := by
  unfold k2_pay2
  exact cast_rows_to_flat _ _ r c h

/-- The tile's pooled skip sum at (c, k). -/
theorem pay3_apply (v0 v3 : Vec Ideal S200x2048 .bf16) (v6 v8 : Vec Ideal S64x64 .bf16) (v10 : Vec Ideal S64 .f32)
    (v13 : Vec Ideal S64x64 .bf16) (v15 : Vec Ideal S64 .f32) (c : Fin 32) (k : Fin 64) :
    k2_pay3 (F := Ideal) v0 v3 v6 v8 v10 v13 v15 (ix3 0 c k)
      = ∑ r : Fin 200, Gnn.relu ((∑ h : Fin 64, k2_pay1 (F := Ideal) v0 v3 v6 v8 v10 (ix2 ⟨r.val * 32 + c.val, by omega⟩ h) * v13 (ix2 h k))
          + v15 (ix1 k)) := by
  unfold k2_pay3
  refine (cast_cfg_feat _ _ c k).trans ?_
  refine (sum_nodes _ _ _ _ c k).trans ?_
  refine Finset.sum_congr rfl fun r _ => ?_
  refine (cast_unrows _ _ r c k).trans ?_
  show max (matmul (F := Ideal) dot_S6400x64_S64x64_S6400x64_1_0_0_1_n_n none (k2_pay1 (F := Ideal) v0 v3 v6 v8 v10)
        (shapeCast S64x64 v13 shapeCasts_S64x64_S64x64) (constant (F := Ideal) S6400x64 .f32 0x00000000#32) (ix2 ⟨r.val * 32 + c.val, by omega⟩ k)
      + broadcastTo S6400x64 (shapeCast S1x64 (shapeCast S64 v15 shapeCasts_S64_S64) shapeCasts_S64_S1x64) broadcasts_S1x64_S6400x64
          (ix2 ⟨r.val * 32 + c.val, by omega⟩ k)) (Ideal.ofBits .f32 0x00000000#32) = _
  rw [bcast_feat_rows, cast_feat2, rows_matmul]
  simp only [shapeCast_self]
  rfl

/-- A hidden layer's next activation of node n, configuration c, feature h, from the five arrays the body reads. -/
def act (A0 A1 : S5000x2048.Idx → EReal) (A2 A3 : S64x64.Idx → EReal) (A4 : S64.Idx → EReal)
    (n : Fin 5000) (c : Fin 32) (h : Fin 64) : EReal :=
  Gnn.relu (((∑ k : Fin 64, A0 (ix2 n ⟨c.val * 64 + k.val, by omega⟩) * A2 (ix2 k h))
      + (∑ k : Fin 64, A1 (ix2 n ⟨c.val * 64 + k.val, by omega⟩) * A3 (ix2 k h))) + A4 (ix1 h))

/-- A tile's stored next activation, from the tile's blocks. -/
theorem tile_act (v0 v3 : Vec Ideal S200x2048 .bf16) (v6 v8 : Vec Ideal S64x64 .bf16) (v10 : Vec Ideal S64 .f32)
    (r : Fin 200) (c : Fin 32) (h : Fin 64) :
    k2_pay2 (F := Ideal) v0 v3 v6 v8 v10 (ix2 r ⟨c.val * 64 + h.val, by omega⟩)
      = Gnn.relu (((∑ k : Fin 64, v0 (ix2 r ⟨c.val * 64 + k.val, by omega⟩) * v6 (ix2 k h))
          + (∑ k : Fin 64, v3 (ix2 r ⟨c.val * 64 + k.val, by omega⟩) * v8 (ix2 k h))) + v10 (ix1 h)) := by
  rw [pay2_apply, pay1_apply]

/-- A tile's pooled skip sum, from the tile's blocks. -/
theorem tile_pool (v0 v3 : Vec Ideal S200x2048 .bf16) (v6 v8 : Vec Ideal S64x64 .bf16) (v10 : Vec Ideal S64 .f32)
    (v13 : Vec Ideal S64x64 .bf16) (v15 : Vec Ideal S64 .f32) (c : Fin 32) (k : Fin 64) :
    k2_pay3 (F := Ideal) v0 v3 v6 v8 v10 v13 v15 (ix3 0 c k)
      = ∑ r : Fin 200, Gnn.relu ((∑ h : Fin 64,
          Gnn.relu (((∑ k' : Fin 64, v0 (ix2 r ⟨c.val * 64 + k'.val, by omega⟩) * v6 (ix2 k' h))
            + (∑ k' : Fin 64, v3 (ix2 r ⟨c.val * 64 + k'.val, by omega⟩) * v8 (ix2 k' h))) + v10 (ix1 h)) * v13 (ix2 h k))
          + v15 (ix1 k)) := by
  rw [pay3_apply]
  simp only [pay1_apply]

end Cert.KernelIdeal.Sage2Pay

end
-- ==== Proof.KI.Sage2Val.lean ====
/-
  What hidden layer 2's region leaves in its two result arrays, as functions of the arrays it reads. Row n of the 5000 x 2048
  next-activation array lies in tile n / 200, whose block the body fills from the tile's rows of the activations and of their neighbour
  means and the five small whole arrays; entry (t, c, k) of the 25 x 32 x 64 pooled array is tile t's sum.
-/
import proofs.«142801_j13228499272260_2_alg».proof.Proof.KI.Sage2
import proofs.«142801_j13228499272260_2_alg».proof.Proof.KI.Sage2Pay
import Idealize.ShloMosaic.Lib.Pipeline.Value

set_option maxRecDepth 16384

noncomputable section

open scoped BigOperators

namespace Cert.KernelIdeal.Sage2Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The printed index maps over the 25 grid points: the two row-tiled inputs and the two outputs move one block per point along the
    node axis; every other window stays at block 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = t.val
    ∧ win2_7.index t (1 : Fin 2) = 0
    ∧ win2_8.index t (0 : Fin 3) = t.val
    ∧ win2_8.index t (1 : Fin 3) = 0
    ∧ win2_8.index t (2 : Fin 3) = 0 :=
  (by decide +kernel : ∀ t : Fin grid2.N, _)

theorem t_lt (t : Fin cfg2.N) : t.val < 25 := lt_of_lt_of_eq t.isLt N_2

/-- Node r of tile t. -/
def tnode (t : Fin cfg2.N) (r : Fin 200) : Fin 5000 := ⟨t.val * 200 + r.val, by have := t_lt t; omega⟩

variable (V : (c : Dev nD) → (b : Ref sig .tc) → Buf (Elt Ideal) ((c : Thread nD τ).loc b))

/-- Window 0's block at point t: rows t * 200 ... t * 200 + 199 of its array. -/
theorem blk_0 (c : Dev nD) (t : Fin cfg2.N) (p : Fin 200) (q : Fin 2048) :
    Sage2.iblk V c 0 t (ix2 p q) = V c main_v88_0 (ix2 (tnode t p) q) := by
  show V c main_v88_0 (((cfg2.win 0).blk t).view.emb (ix2 p q)) = _
  refine congrArg _ (funext fun a => Fin.ext ?_)
  exact match a with
    | ⟨0, _⟩ => by
      show win2_0.index t (0 : Fin 2) * 200 + 1 * p.val = t.val * 200 + p.val
      rw [(idx_facts t).1]; omega
    | ⟨1, _⟩ => by
      show win2_0.index t (1 : Fin 2) * 2048 + 1 * q.val = q.val
      rw [(idx_facts t).2.1]; omega

/-- Window 1's block at point t: rows t * 200 ... t * 200 + 199 of its array. -/
theorem blk_1 (c : Dev nD) (t : Fin cfg2.N) (p : Fin 200) (q : Fin 2048) :
    Sage2.iblk V c 1 t (ix2 p q) = V c main_v103 (ix2 (tnode t p) q) := by
  show V c main_v103 (((cfg2.win 1).blk t).view.emb (ix2 p q)) = _
  refine congrArg _ (funext fun a => Fin.ext ?_)
  exact match a with
    | ⟨0, _⟩ => by
      show win2_1.index t (0 : Fin 2) * 200 + 1 * p.val = t.val * 200 + p.val
      rw [(idx_facts t).2.2.1]; omega
    | ⟨1, _⟩ => by
      show win2_1.index t (1 : Fin 2) * 2048 + 1 * q.val = q.val
      rw [(idx_facts t).2.2.2.1]; omega

/-- Window 2's block at point t: its whole array. -/
theorem blk_2 (c : Dev nD) (t : Fin cfg2.N) (p : Fin 64) (q : Fin 64) :
    Sage2.iblk V c 2 t (ix2 p q) = V c main_v114 (ix2 p q) := by
  show V c main_v114 (((cfg2.win 2).blk t).view.emb (ix2 p q)) = _
  refine congrArg _ (funext fun a => Fin.ext ?_)
  exact match a with
    | ⟨0, _⟩ => by
      show win2_2.index t (0 : Fin 2) * 64 + 1 * p.val = p.val
      rw [(idx_facts t).2.2.2.2.1]; omega
    | ⟨1, _⟩ => by
      show win2_2.index t (1 : Fin 2) * 64 + 1 * q.val = q.val
      rw [(idx_facts t).2.2.2.2.2.1]; omega

/-- Window 3's block at point t: its whole array. -/
theorem blk_3 (c : Dev nD) (t : Fin cfg2.N) (p : Fin 64) (q : Fin 64) :
    Sage2.iblk V c 3 t (ix2 p q) = V c main_v115 (ix2 p q) := by
  show V c main_v115 (((cfg2.win 3).blk t).view.emb (ix2 p q)) = _
  refine congrArg _ (funext fun a => Fin.ext ?_)
  exact match a with
    | ⟨0, _⟩ => by
      show win2_3.index t (0 : Fin 2) * 64 + 1 * p.val = p.val
      rw [(idx_facts t).2.2.2.2.2.2.1]; omega
    | ⟨1, _⟩ => by
      show win2_3.index t (1 : Fin 2) * 64 + 1 * q.val = q.val
      rw [(idx_facts t).2.2.2.2.2.2.2.1]; omega

/-- Window 4's block at point t: its whole array. -/
theorem blk_4 (c : Dev nD) (t : Fin cfg2.N) (q : Fin 64) :
    Sage2.iblk V c 4 t (ix1 q) = V c main_v109 (ix1 q) := by
  show V c main_v109 (((cfg2.win 4).blk t).view.emb (ix1 q)) = _
  refine congrArg _ (funext fun a => Fin.ext ?_)
  exact match a with
    | ⟨0, _⟩ => by
      show win2_4.index t (0 : Fin 1) * 64 + 1 * q.val = q.val
      rw [(idx_facts t).2.2.2.2.2.2.2.2.1]; omega

/-- Window 5's block at point t: its whole array. -/
theorem blk_5 (c : Dev nD) (t : Fin cfg2.N) (p : Fin 64) (q : Fin 64) :
    Sage2.iblk V c 5 t (ix2 p q) = V c main_v116 (ix2 p q) := by
  show V c main_v116 (((cfg2.win 5).blk t).view.emb (ix2 p q)) = _
  refine congrArg _ (funext fun a => Fin.ext ?_)
  exact match a with
    | ⟨0, _⟩ => by
      show win2_5.index t (0 : Fin 2) * 64 + 1 * p.val = p.val
      rw [(idx_facts t).2.2.2.2.2.2.2.2.2.1]; omega
    | ⟨1, _⟩ => by
      show win2_5.index t (1 : Fin 2) * 64 + 1 * q.val = q.val
      rw [(idx_facts t).2.2.2.2.2.2.2.2.2.2.1]; omega

/-- Window 6's block at point t: its whole array. -/
theorem blk_6 (c : Dev nD) (t : Fin cfg2.N) (q : Fin 64) :
    Sage2.iblk V c 6 t (ix1 q) = V c main_v113 (ix1 q) := by
  show V c main_v113 (((cfg2.win 6).blk t).view.emb (ix1 q)) = _
  refine congrArg _ (funext fun a => Fin.ext ?_)
  exact match a with
    | ⟨0, _⟩ => by
      show win2_6.index t (0 : Fin 1) * 64 + 1 * q.val = q.val
      rw [(idx_facts t).2.2.2.2.2.2.2.2.2.2.2.1]; omega

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem out_7_eq (x0 x1 : Vec Ideal S200x2048 .bf16) (x2 x3 : Vec Ideal S64x64 .bf16) (x4 : Vec Ideal S64 .f32)
    (x5 : Vec Ideal S64x64 .bf16) (x6 : Vec Ideal S64 .f32) :
    Sage2.out_7 x0 x1 x2 x3 x4 x5 x6 = k2_pay2 (F := Ideal) x0 x1 x2 x3 x4 := by
  unfold Sage2.out_7
  rw [View.canon_unit_zero hz2]
  simp only [View.ld_unit_zero (S := S200x2048) hz2, View.ld_unit_zero (S := S64x64) hz2, View.ld_unit_zero (S := S64) hz1]

theorem out_8_eq (x0 x1 : Vec Ideal S200x2048 .bf16) (x2 x3 : Vec Ideal S64x64 .bf16) (x4 : Vec Ideal S64 .f32)
    (x5 : Vec Ideal S64x64 .bf16) (x6 : Vec Ideal S64 .f32) :
    Sage2.out_8 x0 x1 x2 x3 x4 x5 x6 = k2_pay3 (F := Ideal) x0 x1 x2 x3 x4 x5 x6 := by
  unfold Sage2.out_8
  rw [View.canon_unit_zero hz3]
  simp only [View.ld_unit_zero (S := S200x2048) hz2, View.ld_unit_zero (S := S64x64) hz2, View.ld_unit_zero (S := S64) hz1]

/-- The next activation of node n at flat column q (configuration q / 64, feature q % 64). -/
def Xat (c : Dev nD) (n : Fin 5000) (q : Fin 2048) : EReal :=
  Sage2Pay.act (V c main_v88_0) (V c main_v103) (V c main_v114) (V c main_v115) (V c main_v109) n ⟨q.val / 64, by omega⟩ ⟨q.val % 64, by omega⟩

theorem Xat_flat (c : Dev nD) (n : Fin 5000) (cc : Fin 32) (h : Fin 64) :
    Xat V c n ⟨cc.val * 64 + h.val, by omega⟩ = Sage2Pay.act (V c main_v88_0) (V c main_v103) (V c main_v114) (V c main_v115) (V c main_v109) n cc h := by
  unfold Xat
  congr 1
  · exact Fin.ext (by show (cc.val * 64 + h.val) / 64 = cc.val; omega)
  · exact Fin.ext (by show (cc.val * 64 + h.val) % 64 = h.val; omega)

/-- The 5000 x 2048 next-activation array. -/
def X (c : Dev nD) : S5000x2048.Idx → EReal := fun i => Xat V c ⟨(i 0).val, (i 0).isLt⟩ ⟨(i 1).val, (i 1).isLt⟩

/-- A tile's pooled skip sum at (configuration, feature). -/
def Pat (c : Dev nD) (t : Fin cfg2.N) (cc : Fin 32) (k : Fin 64) : EReal :=
  ∑ r : Fin 200, Gnn.relu ((∑ h : Fin 64, Sage2Pay.act (V c main_v88_0) (V c main_v103) (V c main_v114) (V c main_v115) (V c main_v109) (tnode t r) cc h * V c main_v116 (ix2 h k)) + V c main_v113 (ix1 k))

/-- The 25 x 32 x 64 array of the tiles' pooled sums. -/
def Pl (c : Dev nD) : S25x32x64.Idx → EReal := fun i =>
  Pat V c ⟨(i 0).val, by rw [show cfg2.N = 25 from N_2]; exact (i 0).isLt⟩ ⟨(i 1).val, (i 1).isLt⟩ ⟨(i 2).val, (i 2).isLt⟩

theorem act_block (c : Dev nD) (t : Fin cfg2.N) (j : S200x2048.Idx) :
    k2_pay2 (F := Ideal) (Sage2.iblk V c 0 t) (Sage2.iblk V c 1 t) (Sage2.iblk V c 2 t) (Sage2.iblk V c 3 t) (Sage2.iblk V c 4 t) j = Xat V c (tnode t ⟨(j 0).val, (j 0).isLt⟩) ⟨(j 1).val, (j 1).isLt⟩ := by
  obtain ⟨r, q, rfl⟩ : ∃ (r : Fin 200) (q : Fin 2048), j = ix2 r q := ⟨j 0, j 1, eq_ix2 j⟩
  obtain ⟨cc, h, rfl⟩ : ∃ (cc : Fin 32) (h : Fin 64), q = ⟨cc.val * 64 + h.val, by omega⟩ :=
    ⟨⟨q.val / 64, by omega⟩, ⟨q.val % 64, by omega⟩, Fin.ext (by show q.val = q.val / 64 * 64 + q.val % 64; omega)⟩
  refine (Sage2Pay.tile_act (Sage2.iblk V c 0 t) (Sage2.iblk V c 1 t) (Sage2.iblk V c 2 t) (Sage2.iblk V c 3 t) (Sage2.iblk V c 4 t) r cc h).trans ?_
  simp only [blk_0, blk_1, blk_2, blk_3, blk_4]
  exact (Xat_flat V c (tnode t r) cc h).symm

theorem pool_block (c : Dev nD) (t : Fin cfg2.N) (j : S1x32x64.Idx) :
    k2_pay3 (F := Ideal) (Sage2.iblk V c 0 t) (Sage2.iblk V c 1 t) (Sage2.iblk V c 2 t) (Sage2.iblk V c 3 t) (Sage2.iblk V c 4 t) (Sage2.iblk V c 5 t) (Sage2.iblk V c 6 t) j = Pat V c t ⟨(j 1).val, (j 1).isLt⟩ ⟨(j 2).val, (j 2).isLt⟩ := by
  obtain ⟨z, cc, k, rfl⟩ : ∃ (z : Fin 1) (cc : Fin 32) (k : Fin 64), j = ix3 z cc k := ⟨j 0, j 1, j 2, eq_ix3 j⟩
  obtain rfl : z = 0 := Subsingleton.elim _ _
  refine (Sage2Pay.tile_pool (Sage2.iblk V c 0 t) (Sage2.iblk V c 1 t) (Sage2.iblk V c 2 t) (Sage2.iblk V c 3 t) (Sage2.iblk V c 4 t) (Sage2.iblk V c 5 t) (Sage2.iblk V c 6 t) cc k).trans ?_
  simp only [blk_0, blk_1, blk_2, blk_3, blk_4, blk_5, blk_6]
  rfl

set_option maxHeartbeats 800000 in
/-- WHAT POINT t WRITES BACK to the next-activation array is block t of `X`. -/
theorem flushed7_eq (c : Dev nD) (t : Fin cfg2.N) :
    (Sage2.dat V c).flushed 7 t = ((cfg2.win 7).blk t).view.read (Elt Ideal) (X V c) := by
  show (cfg2.win 7).cut (grid2.coords t) ((Sage2.dat V c).after 7 t) = _
  rw [Sage2.after_7, out_7_eq]
  funext j
  refine (act_block V c t j).trans ?_
  show _ = X V c (((cfg2.win 7).blk t).view.emb j)
  unfold X
  have e0 : tnode t ⟨(j 0).val, (j 0).isLt⟩
      = (⟨((((cfg2.win 7).blk t).view.emb j) 0).val, ((((cfg2.win 7).blk t).view.emb j) 0).isLt⟩ : Fin 5000) := by
    refine Fin.ext ?_
    show t.val * 200 + (j 0).val = win2_7.index t (0 : Fin 2) * 200 + 1 * (j 0).val
    rw [(idx_facts t).2.2.2.2.2.2.2.2.2.2.2.2.1]; omega
  have e1 : (⟨(j 1).val, (j 1).isLt⟩ : Fin 2048)
      = ⟨((((cfg2.win 7).blk t).view.emb j) 1).val, ((((cfg2.win 7).blk t).view.emb j) 1).isLt⟩ := by
    refine Fin.ext ?_
    show (j 1).val = win2_7.index t (1 : Fin 2) * 2048 + 1 * (j 1).val
    rw [(idx_facts t).2.2.2.2.2.2.2.2.2.2.2.2.2.1]; omega
  exact congrArg₂ (Xat V c) e0 e1

set_option maxHeartbeats 800000 in
/-- WHAT POINT t WRITES BACK to the pooled array is block t of `Pl`. -/
theorem flushed8_eq (c : Dev nD) (t : Fin cfg2.N) :
    (Sage2.dat V c).flushed 8 t = ((cfg2.win 8).blk t).view.read (Elt Ideal) (Pl V c) := by
  show (cfg2.win 8).cut (grid2.coords t) ((Sage2.dat V c).after 8 t) = _
  rw [Sage2.after_8, out_8_eq]
  funext j
  refine (pool_block V c t j).trans ?_
  show _ = Pl V c (((cfg2.win 8).blk t).view.emb j)
  unfold Pl
  congr 1
  · refine Fin.ext ?_
    show t.val = win2_8.index t (0 : Fin 3) * 1 + 1 * (j 0).val
    have hj : (j 0).val < 1 := (j 0).isLt
    rw [(idx_facts t).2.2.2.2.2.2.2.2.2.2.2.2.2.2.1]; omega
  · refine Fin.ext ?_
    show (j 1).val = win2_8.index t (1 : Fin 3) * 32 + 1 * (j 1).val
    rw [(idx_facts t).2.2.2.2.2.2.2.2.2.2.2.2.2.2.2.1]; omega
  · refine Fin.ext ?_
    show (j 2).val = win2_8.index t (2 : Fin 3) * 64 + 1 * (j 2).val
    rw [(idx_facts t).2.2.2.2.2.2.2.2.2.2.2.2.2.2.2.2]; omega

theorem mem_blk7 (t : Fin cfg2.N) (i : S5000x2048.Idx) :
    i ∈ ((cfg2.win 7).blk t).view.set ↔ ∀ a : Fin 2, win2_7.index t a * S200x2048.size a ≤ (i a).val
      ∧ (i a).val < win2_7.index t a * S200x2048.size a + S200x2048.size a := by
  show i ∈ ((View.whole main_v117_0).slice (win2_7.rect t)).set ↔ _
  rw [View.set_slice_whole, Rect.mem_set_unit]
  exact Iff.rfl

theorem mem_blk8 (t : Fin cfg2.N) (i : S25x32x64.Idx) :
    i ∈ ((cfg2.win 8).blk t).view.set ↔ ∀ a : Fin 3, win2_8.index t a * S1x32x64.size a ≤ (i a).val
      ∧ (i a).val < win2_8.index t a * S1x32x64.size a + S1x32x64.size a := by
  show i ∈ ((View.whole main_v117_1).slice (win2_8.rect t)).set ↔ _
  rw [View.set_slice_whole, Rect.mem_set_unit]
  exact Iff.rfl

theorem cover7 (i : S5000x2048.Idx) : ∃ t : Fin cfg2.N, (cfg2.win 7).flush t = true ∧ i ∈ ((cfg2.win 7).blk t).view.set := by
  have hi0 : (i 0).val < 5000 := (i 0).isLt
  have hi1 : (i 1).val < 2048 := (i 1).isLt
  refine ⟨⟨(i 0).val / 200, by rw [show cfg2.N = 25 from N_2]; omega⟩, flush2_7 _, ?_⟩
  rw [mem_blk7]
  intro a
  exact match a with
    | ⟨0, _⟩ => by
      show win2_7.index _ (0 : Fin 2) * 200 ≤ (i 0).val ∧ (i 0).val < win2_7.index _ (0 : Fin 2) * 200 + 200
      rw [(idx_facts _).2.2.2.2.2.2.2.2.2.2.2.2.1]
      show (i 0).val / 200 * 200 ≤ (i 0).val ∧ (i 0).val < (i 0).val / 200 * 200 + 200
      omega
    | ⟨1, _⟩ => by
      show win2_7.index _ (1 : Fin 2) * 2048 ≤ (i 1).val ∧ (i 1).val < win2_7.index _ (1 : Fin 2) * 2048 + 2048
      rw [(idx_facts _).2.2.2.2.2.2.2.2.2.2.2.2.2.1]
      omega

theorem cover8 (i : S25x32x64.Idx) : ∃ t : Fin cfg2.N, (cfg2.win 8).flush t = true ∧ i ∈ ((cfg2.win 8).blk t).view.set := by
  have hi0 : (i 0).val < 25 := (i 0).isLt
  have hi1 : (i 1).val < 32 := (i 1).isLt
  have hi2 : (i 2).val < 64 := (i 2).isLt
  refine ⟨⟨(i 0).val, by rw [show cfg2.N = 25 from N_2]; omega⟩, flush2_8 _, ?_⟩
  rw [mem_blk8]
  intro a
  exact match a with
    | ⟨0, _⟩ => by
      show win2_8.index _ (0 : Fin 3) * 1 ≤ (i 0).val ∧ (i 0).val < win2_8.index _ (0 : Fin 3) * 1 + 1
      rw [(idx_facts _).2.2.2.2.2.2.2.2.2.2.2.2.2.2.1]
      show (i 0).val * 1 ≤ (i 0).val ∧ (i 0).val < (i 0).val * 1 + 1
      omega
    | ⟨1, _⟩ => by
      show win2_8.index _ (1 : Fin 3) * 32 ≤ (i 1).val ∧ (i 1).val < win2_8.index _ (1 : Fin 3) * 32 + 32
      rw [(idx_facts _).2.2.2.2.2.2.2.2.2.2.2.2.2.2.2.1]
      omega
    | ⟨2, _⟩ => by
      show win2_8.index _ (2 : Fin 3) * 64 ≤ (i 2).val ∧ (i 2).val < win2_8.index _ (2 : Fin 3) * 64 + 64
      rw [(idx_facts _).2.2.2.2.2.2.2.2.2.2.2.2.2.2.2.2]
      omega

/-- THE NEXT-ACTIVATION ARRAY after the region. -/
theorem final7 (c : Dev nD) : (Sage2.dat V c).arrAt 7 cfg2.N = X V c :=
  (Sage2.dat V c).arrAt_eq_of_cover 7 (X V c) (fun t _ => flushed7_eq V c t) cover7

/-- THE POOLED ARRAY after the region. -/
theorem final8 (c : Dev nD) : (Sage2.dat V c).arrAt 8 cfg2.N = Pl V c :=
  (Sage2.dat V c).arrAt_eq_of_cover 8 (Pl V c) (fun t _ => flushed8_eq V c t) cover8

end Cert.KernelIdeal.Sage2Val

end
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLine2.lean ====
/-
  Reading a straight line of host operations one operation at a time: the forms for an operation of no operand, of two and of
  three operands (the one-operand, reshape and many-operand forms are in the first file). When every operation of a line writes one
  buffer of its own, what the line leaves in the buffer the k-th operation writes is that operation's function of what the line leaves
  in its operands.
-/
import proofs.«142801_j13228499272260_2_alg».proof.Proof.LibHostLine

namespace Cert.CubePad.Line

open Idealize.ShloMosaic Idealize.ShloMosaic.StableHlo

variable {τ : Topo} {sig : RefSig} {Val : EltTy → Type}

/-- An operation of no operand (a constant), the k-th of the line. -/
theorem Writes.nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- A two-operand operation, the k-th of the line. -/
theorem Writes.binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- A three-operand operation, the k-th of the line. -/
theorem Writes.ternary_at {ops : List (HloOp τ sig Val)} {W : List (Ref sig .tc)} (h : Writes ops W) (V : Valuation τ sig Val)
    (k : Nat) (a b c y : Ref sig .tc)
    (f : a.ty.Contents Val → b.ty.Contents Val → c.ty.Contents Val → y.ty.Contents Val) (ha hb hc hy)
    (hk : ops[k]? = some (ternary a b c y f ha hb hc hy)) (hyW : y ∉ W.drop (k + 1)) (haW : a ∉ W.drop k) (hbW : b ∉ W.drop k)
    (hcW : c ∉ W.drop k) :
    after ops V (Proc.devRef .tc y)
      = f (after ops V (Proc.devRef .tc a)) (after ops V (Proc.devRef .tc b)) (after ops V (Proc.devRef .tc c)) := by
  rw [h.read_at V k _ hk hyW, ternary_result, h.read_take k V haW, h.read_take k V hbW, h.read_take k V hcW]

end Cert.CubePad.Line
-- ==== Proof.KI.HostLines.lean ====
/-
  The program's host stretches as lines that write one buffer per operation: the list of buffers each stretch writes, in order,
  and the fact that its operations write exactly those. With it a buffer's final contents are read one operation at a time.
-/
import proofs.«142801_j13228499272260_2_alg».proof.Proof.Gen.KernelIdeal.Launch
import proofs.«142801_j13228499272260_2_alg».proof.Proof.LibHostLine2

set_option maxRecDepth 16384

noncomputable section

namespace Cert.KernelIdeal.Host

open Cert.KernelIdeal Cert.KernelIdeal.Gen
open Idealize.ShloMosaic Idealize.ShloMosaic.TcCoe Idealize.ShloMosaic.StableHlo
open Cert.CubePad

variable {F : FTy → Type} [FloatOps F]

/-- The buffers `hostOps0` writes, one per operation, in order. -/
abbrev hostOps0_W : List (Ref sig .tc) := [main_v0, main_v1, main_v2, main_v3, main_c, main_v4, main_v5, main_c_0, main_v6, main_v7, main_v8, main_v9, main_v10, main_v11, main_v12, main_v13, main_v14, main_v15, main_v16, main_v17, main_v18, main_v19, main_v20, main_v21, main_cst, main_v22, main_cst_1, main_v23, main_v24, main_v25, main_cst_2, main_v26, main_v27, main_cst_3, main_v28, main_v29, main_cst_4, main_v30, main_v31, main_v32, main_c_5, main_v33, main_v34, main_c_6, main_v35, main_v36, main_v37, main_v38, main_v39, main_cst_7, main_v40, main_v41, main_v42, main_v43, main_v44, main_v45, main_v46, main_v47, main_v48, main_v49, main_v50, main_v51, main_v52, main_v53, main_v54, main_v55, main_v56, main_v57, main_v58]
set_option maxHeartbeats 4000000 in
theorem hostOps0_line : Line.Writes (hostOps0 (F := F)) hostOps0_W :=
  .cons (StableHlo.reshape_writes ..) (.cons (StableHlo.reshape_writes ..) (.cons (StableHlo.reshape_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.nullary_writes ..) (.cons (StableHlo.unary_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.nullary_writes ..) (.cons (StableHlo.unary_writes ..) (.cons (StableHlo.unary_writes ..) (.cons (StableHlo.ternary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.unary_writes ..) (.cons (StableHlo.unary_writes ..) (.cons (StableHlo.unary_writes ..) (.cons (StableHlo.unary_writes ..) (.cons (StableHlo.unary_writes ..) (.cons (StableHlo.binary_writes ..) (.cons (StableHlo.binary_writes ..) (.cons (StableHlo.unary_writes ..) .nil))))))))))))))))))))))))))))))))))))))))))))))))))))))))))))))))))))

/-- The buffers `hostOps1` writes, one per operation, in order. -/
abbrev hostOps1_W : List (Ref sig .tc) := [main_c_8, main_v60, main_v61, main_c_9, main_v62, main_v63, main_v64, main_v65, main_v66, main_v67, main_cst_10, main_v68, main_v69, main_v70, main_v71, main_v72, main_v73, main_v74, main_v75, main_v76, main_v77, main_v78, main_v79, main_v80, main_v81, main_v82, main_v83, main_v84, main_v85, main_v86, main_v87]
set_option maxHeartbeats 4000000 in
theorem hostOps1_line : Line.Writes (hostOps1 (F := F)) hostOps1_W :=
  .cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.nullary_writes ..) (.cons (StableHlo.unary_writes ..) (.cons (StableHlo.unary_writes ..) (.cons (StableHlo.ternary_writes ..) (.cons (StableHlo.unary_writes ..) (.cons (StableHlo.unary_writes ..) (.cons (StableHlo.binary_writes ..) (.cons (StableHlo.unary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.unary_writes ..) (.cons (StableHlo.unary_writes ..) .nil))))))))))))))))))))))))))))))

/-- The buffers `hostOps2` writes, one per operation, in order. -/
abbrev hostOps2_W : List (Ref sig .tc) := [main_c_11, main_v89, main_v90, main_c_12, main_v91, main_v92, main_v93, main_v94, main_v95, main_v96, main_cst_13, main_v97, main_v98, main_v99, main_v100, main_v101, main_v102, main_v103, main_v104, main_v105, main_v106, main_v107, main_v108, main_v109, main_v110, main_v111, main_v112, main_v113, main_v114, main_v115, main_v116]
set_option maxHeartbeats 4000000 in
theorem hostOps2_line : Line.Writes (hostOps2 (F := F)) hostOps2_W :=
  .cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.unary_writes ..) (.cons (StableHlo.nullary_writes ..) (.cons (StableHlo.unary_writes ..) (.cons (StableHlo.unary_writes ..) (.cons (StableHlo.ternary_writes ..) (.cons (StableHlo.unary_writes ..) (.cons (StableHlo.unary_writes ..) (.cons (StableHlo.binary_writes ..) (.cons (StableHlo.unary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.unary_writes ..) (.cons (StableHlo.unary_writes ..) (.cons (StableHlo.unary_writes ..) .nil))))))))))))))))))))))))))))))

/-- The buffers `hostOps3` writes, one per operation, in order. -/
abbrev hostOps3_W : List (Ref sig .tc) := [main_cst_14, main_v118, main_cst_15, main_v119, main_cst_16, main_v120, main_v121, main_v122, main_v123, main_v124, main_v125]
set_option maxHeartbeats 4000000 in
theorem hostOps3_line : Line.Writes (hostOps3 (F := F)) hostOps3_W :=
  .cons (StableHlo.nullary_writes ..) (.cons (StableHlo.binary_writes ..) (.cons (StableHlo.nullary_writes ..) (.cons (StableHlo.binary_writes ..) (.cons (StableHlo.nullary_writes ..) (.cons (StableHlo.binary_writes ..) (.cons (StableHlo.nary_writes ..) (.cons (StableHlo.binary_writes ..) (.cons (StableHlo.unary_writes ..) (.cons (StableHlo.unary_writes ..) (.cons (StableHlo.binary_writes ..) .nil))))))))))

/-- The buffers `hostOps3_1` writes, one per operation, in order. -/
abbrev hostOps3_1_W : List (Ref sig .tc) := [main_call0_cst, main_call0_v0, main_v126]
set_option maxHeartbeats 4000000 in
theorem hostOps3_1_line : Line.Writes (hostOps3_1 (F := F)) hostOps3_1_W :=
  .cons (StableHlo.nullary_writes ..) (.cons (StableHlo.unary_writes ..) (.cons (StableHlo.binary_writes ..) .nil))

/-- The buffers `hostOps3_2` writes, one per operation, in order. -/
abbrev hostOps3_2_W : List (Ref sig .tc) := [main_v127, main_v128, main_v129, main_v130]
set_option maxHeartbeats 4000000 in
theorem hostOps3_2_line : Line.Writes (hostOps3_2 (F := F)) hostOps3_2_W :=
  .cons (StableHlo.binary_writes ..) (.cons (StableHlo.unary_writes ..) (.cons (StableHlo.unary_writes ..) (.cons (StableHlo.binary_writes ..) .nil)))

/-- The buffers `hostOps3_3` writes, one per operation, in order. -/
abbrev hostOps3_3_W : List (Ref sig .tc) := [main_call1_cst, main_call1_v0, main_v131]
set_option maxHeartbeats 4000000 in
theorem hostOps3_3_line : Line.Writes (hostOps3_3 (F := F)) hostOps3_3_W :=
  .cons (StableHlo.nullary_writes ..) (.cons (StableHlo.unary_writes ..) (.cons (StableHlo.binary_writes ..) .nil))

/-- The buffers `hostOps3_4` writes, one per operation, in order. -/
abbrev hostOps3_4_W : List (Ref sig .tc) := [main_v132, main_v133, main_v134, main_v135, main_v136]
set_option maxHeartbeats 4000000 in
theorem hostOps3_4_line : Line.Writes (hostOps3_4 (F := F)) hostOps3_4_W :=
  .cons (StableHlo.binary_writes ..) (.cons (StableHlo.unary_writes ..) (.cons (StableHlo.unary_writes ..) (.cons (StableHlo.binary_writes ..) (.cons (StableHlo.reshape_writes ..) .nil))))

end Cert.KernelIdeal.Host

end
-- ==== Proof.LibGatherScatter.lean ====
/-
  General lemmas about StableHLO's indexed reads and writes, read at one index, and about the sums they produce.

  * A ROW GATHER (operand `[N, C]`, start indices `[R, 1]`, result `[R, C]`) and an ELEMENT GATHER (operand `[N]`,
    start indices `[R, 1]`, result `[R]`) read at an index: the operand at the start index, read signed and clamped
    into `[0, N − 1]` (`rowGather_apply`, `eltGather_apply`).
  * A ROW SCATTER-ADD (operand `[N, C]`, scatter indices `[R, 1]`, updates `[R, C]`) and an ELEMENT SCATTER-ADD
    (operand `[N]`, updates `[R]`) read at an index, over the extended reals: the operand's element plus the sum of
    the updates whose scatter index, read signed and NOT clamped, is that row (`rowScatterAdd_apply`,
    `eltScatterAdd_apply`).
  * Sums over a filtered index range that is the concatenation of two ranges, and a filter that holds at exactly one
    point (`sum_filter_split`, `sum_filter_single`).
  * A nonnegative real factor moved across an extended-real sum, with no finiteness asked of the summands
    (`coe_mul_sum`, `scale_law`).
  * The index normalisation applied before a gather (a negative index is shifted up by the extent) on an index that
    is a row number already (`clampRow_of_hit`, `clampRow_ofNat`, `toInt_ofNat_lt`).
-/
import Idealize.ShloMosaic.Lib.ValueIdx
import Idealize.ShloMosaic.Lib.Pipeline.Value
import Idealize.ShloMosaic.PureOps.Ideal.Laws

noncomputable section

open scoped BigOperators

namespace Cert.LibGS

open Idealize.ShloMosaic Idealize.ShloMosaic.ValueIdx

/-- A signed word read as a row number of an `N`-row table: its value clamped into `[0, N − 1]`. -/
def clampRow (N : Nat) (hN : 0 < N) {w : Nat} (v : BitVec w) : Fin N := ⟨min v.toInt.toNat (N - 1), by omega⟩

/-! ## A row gather -/

/-- The dimension numbers of a row gather: operand `[N, C]`, start indices `[R, 1]`, result `[R, C]`; the one
    start-index component names the row axis, which is collapsed, and the slice is one whole row. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped, column `c`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (clampRow N hN (idx (ix2 e 0))) c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = _
    rw [GatherDims.batchCoord_eq_zero _ _ _ List.not_mem_nil]
    unfold GatherDims.start
    rw [dif_neg (show (1 : Fin 2) ∉ (rowGatherDims N R C wf).startIndexMap from (by decide : (1 : Fin 2) ∉ [(0 : Fin 2)]))]
    simp only [Nat.add_zero, Nat.zero_add]
    unfold GatherDims.offCoord
    rw [dif_pos (show (1 : Fin 2) ∈ (rowGatherDims N R C wf).sKept from
      (GatherDims.mem_sKept _ _).mpr ⟨(by decide : (1 : Fin 2) ∉ [(0 : Fin 2)]), List.not_mem_nil⟩)]
    rfl

/-! ## A row scatter-add -/

/-- The dimension numbers of a row scatter: operand `[N, C]`, scatter indices `[R, 1]`, updates `[R, C]`; the one
    scatter-index component names the row axis, which is inserted, and the update window is one whole row. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where update `(e, c')` of a row scatter lands: at `(n, c)` exactly when its scatter index, read signed, is `n`
    and `c' = c`; an index outside `[0, N)` lands nowhere. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (c' : Fin C) (n : Fin N) (c : Fin C) :
    (rowScatterDims N R C wf).resultIdx? (ix2 e c') idx = some (ix2 n c)
      ↔ ((idx (ix2 e 0)).toInt = (n.val : Int) ∧ c' = c) := by
  have hs0 : (rowScatterDims N R C wf).start (ix2 e c') idx 0 = (idx (ix2 e 0)).toInt := by
    unfold ScatterDims.start
    rw [dif_pos (show (0 : Fin 2) ∈ (rowScatterDims N R C wf).scatterDimsToOperandDims from List.mem_singleton.mpr rfl)]
    have hsi : (rowScatterDims N R C wf).siIdx (ix2 e c')
        ⟨List.idxOf (0 : Fin 2) (rowScatterDims N R C wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (rowScatterDims N R C wf).start (ix2 e c') idx 1 = 0 := by
    unfold ScatterDims.start
    rw [dif_neg (show (1 : Fin 2) ∉ (rowScatterDims N R C wf).scatterDimsToOperandDims from
      (by decide : (1 : Fin 2) ∉ [(0 : Fin 2)]))]
  have hw0 : (rowScatterDims N R C wf).window (ix2 e c') 0 = 0 := by
    unfold ScatterDims.window
    rw [dif_neg (show (0 : Fin 2) ∉ (rowScatterDims N R C wf).sKept from by
      simp [ScatterDims.sKept, Shape.kept])]
  have hw1 : (rowScatterDims N R C wf).window (ix2 e c') 1 = c'.val := by
    unfold ScatterDims.window
    rw [dif_pos (show (1 : Fin 2) ∈ (rowScatterDims N R C wf).sKept from by
      simp [ScatterDims.sKept, Shape.kept])]
    rfl
  unfold ScatterDims.resultIdx?
  split
  · rename_i h
    rw [Option.some.injEq]
    constructor
    · intro hf
      have h0 := congrArg (fun f => (f 0).val) hf
      have h1 := congrArg (fun f => (f 1).val) hf
      have g0 := (h 0).1
      simp only [hs0, hw0] at h0 g0
      simp only [hs1, hw1] at h1
      refine ⟨?_, Fin.ext ?_⟩
      · change ((idx (ix2 e 0)).toInt + ((0 : Nat) : Int)).toNat = n.val at h0
        omega
      · change ((0 : Int) + (c'.val : Int)).toNat = c.val at h1
        omega
    · rintro ⟨hA, rfl⟩
      funext a; refine Fin.ext ?_
      match a with
      | ⟨0, _⟩ =>
        show ((rowScatterDims N R C wf).start (ix2 e c') idx 0 + ((rowScatterDims N R C wf).window (ix2 e c') 0 : Nat)).toNat = n.val
        rw [hs0, hw0, hA]; simp
      | ⟨1, _⟩ =>
        show ((rowScatterDims N R C wf).start (ix2 e c') idx 1 + ((rowScatterDims N R C wf).window (ix2 e c') 1 : Nat)).toNat = c'.val
        rw [hs1, hw1]; simp
  · rename_i h
    constructor
    · intro hf; exact absurd hf (by simp)
    · rintro ⟨hA, rfl⟩
      exfalso; apply h
      intro a
      match a with
      | ⟨0, _⟩ =>
        show 0 ≤ (rowScatterDims N R C wf).start (ix2 e c') idx 0 + ((rowScatterDims N R C wf).window (ix2 e c') 0 : Nat)
          ∧ (rowScatterDims N R C wf).start (ix2 e c') idx 0 + ((rowScatterDims N R C wf).window (ix2 e c') 0 : Nat) < (N : Int)
        rw [hs0, hw0, hA]; have := n.isLt; omega
      | ⟨1, _⟩ =>
        show 0 ≤ (rowScatterDims N R C wf).start (ix2 e c') idx 1 + ((rowScatterDims N R C wf).window (ix2 e c') 1 : Nat)
          ∧ (rowScatterDims N R C wf).start (ix2 e c') idx 1 + ((rowScatterDims N R C wf).window (ix2 e c') 1 : Nat) < (C : Int)
        rw [hs1, hw1]; have := c'.isLt; omega

/-- THE ROW SCATTER-ADD READ AT `(n, c)`, over the extended reals: the operand's element plus the sum of column `c`
    of the updates whose scatter index, read signed and not clamped, is `n`. -/
theorem rowScatterAdd_apply {φ : FTy} {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Host.scatterAdd (F := Ideal) (φ := φ) (rowScatterDims N R C wf) x idx upd (ix2 n c)
      = x (ix2 n c) + ∑ e ∈ Finset.univ.filter (fun e : Fin R => (idx (ix2 e 0)).toInt = (n.val : Int)), upd (ix2 e c) := by
  show x (ix2 n c) + ∑ j ∈ Finset.univ.filter
    (fun j => (rowScatterDims N R C wf).resultIdx? j idx = some (ix2 n c)), upd j = _
  congr 1
  rw [Finset.sum_filter, sum_idx2, Finset.sum_filter]
  refine Finset.sum_congr rfl fun e _ => ?_
  simp only [rowScatter_resultIdx_iff]
  by_cases hA : (idx (ix2 e 0)).toInt = (n.val : Int)
  · simp [hA]
  · simp [hA]

/-! ## An element gather -/

/-- The dimension numbers of an element gather: operand `[N]`, start indices `[R, 1]`, result `[R]`. -/
abbrev eltGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped. -/
theorem eltGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (eltGatherDims N R wf) x idx (ix1 e) = x (ix1 (clampRow N hN (idx (ix2 e 0)))) := by
  unfold Host.gather
  congr 1
  funext a
  obtain rfl : a = 0 := Subsingleton.elim _ _
  refine Fin.ext ?_
  show (eltGatherDims N R wf).start (ix1 e) idx 0 + (eltGatherDims N R wf).batchCoord (ix1 e) 0
    + (eltGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N R wf).startIndexMap from List.mem_singleton.mpr rfl)]
  have hsi : (eltGatherDims N R wf).siIdx (ix1 e) ⟨List.idxOf (0 : Fin 1) (eltGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An element scatter-add -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an element scatter: operand `[N]`, scatter indices `[R, 1]`, updates `[R]`. -/
abbrev eltScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `e` of an element scatter lands: at `n` exactly when its scatter index, read signed, is `n`. -/
theorem eltScatter_resultIdx_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (eltScatterDims N R wf).resultIdx? (ix1 e) idx = some (ix1 n) ↔ (idx (ix2 e 0)).toInt = (n.val : Int) := by
  have hs0 : (eltScatterDims N R wf).start (ix1 e) idx 0 = (idx (ix2 e 0)).toInt := by
    unfold ScatterDims.start
    rw [dif_pos (show (0 : Fin 1) ∈ (eltScatterDims N R wf).scatterDimsToOperandDims from List.mem_singleton.mpr rfl)]
    have hsi : (eltScatterDims N R wf).siIdx (ix1 e)
        ⟨List.idxOf (0 : Fin 1) (eltScatterDims N R wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (eltScatterDims N R wf).window (ix1 e) 0 = 0 := by
    unfold ScatterDims.window
    rw [dif_neg (show (0 : Fin 1) ∉ (eltScatterDims N R wf).sKept from by
      simp [ScatterDims.sKept, Shape.kept])]
  unfold ScatterDims.resultIdx?
  split
  · rename_i h
    rw [Option.some.injEq]
    constructor
    · intro hf
      have h0 := congrArg (fun f => (f 0).val) hf
      have g0 := (h 0).1
      simp only [hs0, hw0] at h0 g0
      change ((idx (ix2 e 0)).toInt + ((0 : Nat) : Int)).toNat = n.val at h0
      omega
    · intro hA
      funext a
      obtain rfl : a = 0 := Subsingleton.elim _ _
      refine Fin.ext ?_
      show ((eltScatterDims N R wf).start (ix1 e) idx 0 + ((eltScatterDims N R wf).window (ix1 e) 0 : Nat)).toNat = n.val
      rw [hs0, hw0, hA]; simp
  · rename_i h
    constructor
    · intro hf; exact absurd hf (by simp)
    · intro hA
      exfalso; apply h
      intro a
      obtain rfl : a = 0 := Subsingleton.elim _ _
      show 0 ≤ (eltScatterDims N R wf).start (ix1 e) idx 0 + ((eltScatterDims N R wf).window (ix1 e) 0 : Nat)
        ∧ (eltScatterDims N R wf).start (ix1 e) idx 0 + ((eltScatterDims N R wf).window (ix1 e) 0 : Nat) < (N : Int)
      rw [hs0, hw0, hA]; have := n.isLt; omega

/-- THE ELEMENT SCATTER-ADD READ AT `n`, over the extended reals: the operand's element plus the sum of the updates
    whose scatter index, read signed and not clamped, is `n`. -/
theorem eltScatterAdd_apply {φ : FTy} {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Host.scatterAdd (F := Ideal) (φ := φ) (eltScatterDims N R wf) x idx upd (ix1 n)
      = x (ix1 n) + ∑ e ∈ Finset.univ.filter (fun e : Fin R => (idx (ix2 e 0)).toInt = (n.val : Int)), upd (ix1 e) := by
  show x (ix1 n) + ∑ j ∈ Finset.univ.filter
    (fun j => (eltScatterDims N R wf).resultIdx? j idx = some (ix1 n)), upd j = _
  congr 1
  rw [Finset.sum_filter, sum_idx1, Finset.sum_filter]
  refine Finset.sum_congr rfl fun e _ => ?_
  simp only [eltScatter_resultIdx_iff]

/-! ## Sums over a concatenated range, and a filter that holds at one point -/

/-- A filtered sum over `Fin T`, `T = A + B`, is the filtered sum over the first `A` indices plus the one over the
    last `B`. -/
theorem sum_filter_split {M : Type*} [AddCommMonoid M] {A B T : Nat} (h : A + B = T) (P : Fin T → Prop)
    [DecidablePred P] (f : Fin T → M) :
    ∑ i ∈ Finset.univ.filter P, f i
      = ∑ i ∈ Finset.univ.filter (fun i : Fin A => P ⟨i.val, by omega⟩), f ⟨i.val, by omega⟩
      + ∑ i ∈ Finset.univ.filter (fun i : Fin B => P ⟨A + i.val, by omega⟩), f ⟨A + i.val, by omega⟩ := by
  subst h
  rw [Finset.sum_filter, Finset.sum_filter, Finset.sum_filter, Fin.sum_univ_add]
  rfl

/-- A filtered sum whose filter holds at exactly one point is the summand there. -/
theorem sum_filter_single {M : Type*} [AddCommMonoid M] {B : Nat} (n : Fin B) (P : Fin B → Prop) [DecidablePred P]
    (hP : ∀ i, P i ↔ i = n) (f : Fin B → M) :
    ∑ i ∈ Finset.univ.filter P, f i = f n := by
  have hs : Finset.univ.filter P = {n} := by
    ext i; simp [hP]
  rw [hs, Finset.sum_singleton]

/-! ## A nonnegative real factor across extended-real sums -/

/-- A nonnegative real factor distributes over an extended-real sum of two terms, whatever the terms. -/
theorem coe_mul_add {r : ℝ} (hr : 0 ≤ r) (y z : EReal) : (r : EReal) * (y + z) = (r : EReal) * y + (r : EReal) * z :=
  EReal.left_distrib_of_nonneg_of_ne_top (EReal.coe_nonneg.mpr hr) (EReal.coe_ne_top r) y z

/-- A nonnegative real factor distributes over a finite extended-real sum, whatever the summands. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- Scaling "zero plus a sum, plus a tail" by a nonnegative real: the factor goes onto every summand and the tail. -/
theorem scale_law {ι : Type*} (s : Finset ι) (r : ℝ) (hr : 0 ≤ r) (z : EReal) (hz : z = 0) (a : ι → EReal) (t : EReal) :
    (r : EReal) * ((z + ∑ e ∈ s, a e) + t) = z + (∑ e ∈ s, a e * (r : EReal) + t * (r : EReal)) := by
  subst hz
  rw [zero_add, zero_add, coe_mul_add hr, coe_mul_sum s r hr, mul_comm (r : EReal) t]
  congr 1
  exact Finset.sum_congr rfl fun e _ => mul_comm _ _

/-! ## The index normalisation before a gather, on an index that is a row number already -/

/-- A natural below `100000` as a 32-bit word reads back, signed, as itself. -/
theorem toInt_ofNat_small (k : Nat) (hk : k < 100000) : (BitVec.ofNat 32 k).toInt = (k : Int) := by
  rw [BitVec.toInt_eq_toNat_cond, BitVec.toNat_ofNat]
  split <;> omega

/-- The normalisation "a negative index is shifted up by the extent" leaves a word whose signed value is a row
    number `n` alone, and clamping reads it as `n`. -/
theorem clampRow_of_hit (v : BitVec 32) (n : Fin 100000) (h : v.toInt = (n.val : Int)) :
    clampRow 100000 (by decide) (Scalar.select (IntOp.cmpi .slt v 0#32) (IntOp.addi v 100000#32) v) = n := by
  have hlt : v.slt 0#32 = false := by
    unfold BitVec.slt
    rw [h]
    simp
  have hc : IntOp.cmpi .slt v 0#32 = 0#1 := by
    show BitVec.ofBool (v.slt 0#32) = 0#1
    rw [hlt]; rfl
  rw [hc, select_zero]
  refine Fin.ext ?_
  show min v.toInt.toNat (100000 - 1) = n.val
  rw [h]
  have := n.isLt
  omega

/-- The same for the word of a row number. -/
theorem clampRow_ofNat (n : Fin 100000) :
    clampRow 100000 (by decide) (Scalar.select (IntOp.cmpi .slt (BitVec.ofNat 32 n.val) 0#32)
      (IntOp.addi (BitVec.ofNat 32 n.val) 100000#32) (BitVec.ofNat 32 n.val)) = n :=
  clampRow_of_hit _ n (toInt_ofNat_small n.val n.isLt)

/-- The word of a row number `i` reads, signed, as the row number `n` exactly when `i = n`. -/
theorem toInt_ofNat_lt (n i : Fin 100000) : (BitVec.ofNat 32 i.val).toInt = (n.val : Int) ↔ i = n := by
  rw [toInt_ofNat_small i.val i.isLt]
  constructor
  · intro h; exact Fin.ext (by exact_mod_cast h)
  · rintro rfl; rfl

end Cert.LibGS

end
-- ==== Proof.SpecK.lean ====
/-
  THE SAME NETWORK AS THE TILED FORMULATION COMPUTES IT.

  The first layer never forms the 172-feature input: the 172-long contraction splits into the node part (148 features, one product
  per node) and the configuration part (24 features, one product per configuration), and the neighbour mean of the configuration part
  is the configuration part itself times the has-a-neighbour flag min (deg n) 1. A neighbour mean is the neighbour sum TIMES
  1 / max (deg n) 1. The pooled skip sums are taken per tile of 200 nodes and the 25 tiles added afterwards.
-/
import proofs.«142801_j13228499272260_2_alg».proof.Proof.Spec

noncomputable section

open scoped BigOperators

namespace Gnn

open Idealize.ShloMosaic

/-- 1 / max (deg n) 1. -/
def dinv (G : Graph) (n : Fin 5000) : EReal := Ideal.div one (max (deg G n) one)

/-- min (deg n) 1: one if some slot lands on n, zero otherwise. -/
def mask (G : Graph) (n : Fin 5000) : EReal := min (deg G n) one

/-- The neighbour mean, as a product. -/
def meanMul (G : Graph) (X : Fin 5000 → EReal) (n : Fin 5000) : EReal := nsum G X n * dinv G n

/-- A layer on 64 features, with the mean as a product. -/
def sageK (G : Graph) (X : Fin 5000 → Fin 32 → Fin 64 → EReal) (ws wn : Fin 64 → Fin 64 → EReal) (b : Fin 64 → EReal)
    (n : Fin 5000) (c : Fin 32) (h : Fin 64) : EReal :=
  relu (((∑ k : Fin 64, X n c k * ws k h) + (∑ k : Fin 64, meanMul G (fun n' => X n' c k) n * wn k h)) + b h)

/-- Node r of tile t. -/
def tileNode (t : Fin 25) (r : Fin 200) : Fin 5000 := ⟨t.val * 200 + r.val, by omega⟩

/-- A tile's pooled skip sum. -/
def poolK (Y : Fin 5000 → Fin 32 → Fin 64 → EReal) (sw : Fin 64 → Fin 64 → EReal) (sb : Fin 64 → EReal)
    (t : Fin 25) (c : Fin 32) (k : Fin 64) : EReal :=
  ∑ r : Fin 200, relu ((∑ h : Fin 64, Y (tileNode t r) c h * sw h k) + sb k)

section Ker
variable (G : Graph) (xn : Fin 5000 → Fin 148 → EReal) (P : Params)

/-- The first layer, split. -/
def x1K (n : Fin 5000) (c : Fin 32) (h : Fin 64) : EReal :=
  relu ((((∑ d : Fin 148, xn n d * P.ws0 ⟨d.val, by omega⟩ h) + (∑ k : Fin 24, P.cf c k * P.ws0 ⟨148 + k.val, by omega⟩ h))
      + ((∑ d : Fin 148, meanMul G (fun n' => xn n' d) n * P.wn0 ⟨d.val, by omega⟩ h)
          + mask G n * (∑ k : Fin 24, P.cf c k * P.wn0 ⟨148 + k.val, by omega⟩ h)))
    + P.b0 h)

def x2K : Fin 5000 → Fin 32 → Fin 64 → EReal := sageK G (x1K G xn P) (P.ws 0) (P.wn 0) (P.b 0)
def x3K : Fin 5000 → Fin 32 → Fin 64 → EReal := sageK G (x2K G xn P) (P.ws 1) (P.wn 1) (P.b 1)

/-- The pooled skip features: per layer, zero plus the sum of the 25 tiles' sums; the three layers side by side. -/
def pooledK (c : Fin 32) (j : Fin 192) : EReal :=
  cat3 (fun k => zero + ∑ t : Fin 25, poolK (x1K G xn P) (P.sw 0) (P.sb 0) t c k)
    (fun k => zero + ∑ t : Fin 25, poolK (x2K G xn P) (P.sw 1) (P.sb 1) t c k)
    (fun k => zero + ∑ t : Fin 25, poolK (x3K G xn P) (P.sw 2) (P.sb 2) t c k) j

/-- The network's output for configuration c, in the tiled formulation. -/
def kerForm (c : Fin 32) : EReal := head P.p1w P.p1b P.p2w P.p2b P.p3w P.p3b (pooledK G xn P c)

end Ker

end Gnn

end
-- ==== Proof.SpecArgs.lean ====
/-
  How the programs' arrays give the network's data: the parameters are the argument arrays read at their indices; the graph is
  read off two columns of 16000 index words — a slot's source row is its source word read signed and clamped into [0, 4999]
  (the row gather's rule), its target the target word read signed (the scatter-add's rule: a word that is no row number adds
  nowhere) —; the node features are a 5000 x 148 array read at its indices.
-/
import proofs.«142801_j13228499272260_2_alg».proof.Proof.Spec

noncomputable section

namespace Gnn

open Idealize.ShloMosaic Idealize.ShloMosaic.ValueIdx

/-- The graph two index columns describe. -/
def graphOfCols (srcCol dstCol : IVec ⟨2, ![16000, 1]⟩ 32) : Graph where
  g e := ⟨min (srcCol (ix2 e 0)).toInt.toNat (5000 - 1), by omega⟩
  tgt e := (dstCol (ix2 e 0)).toInt

/-- A 5000 x 148 array as node features. -/
def xnOfArr (x : (⟨2, ![5000, 148]⟩ : Shape).Idx → EReal) (n : Fin 5000) (d : Fin 148) : EReal := x (ix2 n d)

/-- The parameters, from the argument arrays (arguments 3 and 5 to 18 of both programs, in that order). -/
def paramsOf (a3 : (⟨3, ![1, 32, 24]⟩ : Shape).Idx → EReal) (a5 a6 : (⟨2, ![172, 64]⟩ : Shape).Idx → EReal)
    (a7 : (⟨1, ![64]⟩ : Shape).Idx → EReal) (a8 a9 : (⟨3, ![2, 64, 64]⟩ : Shape).Idx → EReal)
    (a10 : (⟨2, ![2, 64]⟩ : Shape).Idx → EReal) (a11 : (⟨3, ![3, 64, 64]⟩ : Shape).Idx → EReal)
    (a12 : (⟨2, ![3, 64]⟩ : Shape).Idx → EReal) (a13 : (⟨2, ![192, 128]⟩ : Shape).Idx → EReal)
    (a14 : (⟨1, ![128]⟩ : Shape).Idx → EReal) (a15 : (⟨2, ![128, 64]⟩ : Shape).Idx → EReal)
    (a16 : (⟨1, ![64]⟩ : Shape).Idx → EReal) (a17 : (⟨2, ![64, 1]⟩ : Shape).Idx → EReal)
    (a18 : (⟨1, ![1]⟩ : Shape).Idx → EReal) : Params where
  cf c k := a3 (ix3 0 c k)
  ws0 d h := a5 (ix2 d h)
  wn0 d h := a6 (ix2 d h)
  b0 h := a7 (ix1 h)
  ws l k h := a8 (ix3 l k h)
  wn l k h := a9 (ix3 l k h)
  b l h := a10 (ix2 l h)
  sw l h k := a11 (ix3 l h k)
  sb l k := a12 (ix2 l k)
  p1w i j := a13 (ix2 i j)
  p1b j := a14 (ix1 j)
  p2w j k := a15 (ix2 j k)
  p2b k := a16 (ix1 k)
  p3w k := a17 (ix2 k 0)
  p3b := a18 (ix1 0)

end Gnn

end
-- ==== Proof.KI.Host0.lean ====
/-
  The first host stretch, read one operation at a time: the 69 operations that prepare layer 0's operands. Each operation's result
  buffer holds its function of what its operand buffers hold; the node-feature array and the two index columns are closed terms of
  the arguments; the degree, 1 / max (degree, 1), the has-a-neighbour flag, the neighbour mean of the node features, the node-part
  weights, the config-part products and the first skip weights are read at an index; and layer 0's activation, from these, is the
  split first layer of the network.
-/
import Idealize.ShloMosaic.Lib.StableHlo.Run
import Idealize.ShloMosaic.PureOps.Ideal
import Idealize.ShloMosaic.Lib.ValueIdx
import Idealize.ShloMosaic.Lib.Pipeline.Value
import proofs.«142801_j13228499272260_2_alg».proof.Proof.KI.HostLines
import proofs.«142801_j13228499272260_2_alg».proof.Proof.KI.Layer0Pay
import proofs.«142801_j13228499272260_2_alg».proof.Proof.LibGatherScatter
import proofs.«142801_j13228499272260_2_alg».proof.Proof.LibHostRead
import proofs.«142801_j13228499272260_2_alg».proof.Proof.SpecK
import proofs.«142801_j13228499272260_2_alg».proof.Proof.SpecArgs

set_option maxRecDepth 16384

noncomputable section

namespace Cert.KernelIdeal.Host0

open Cert.KernelIdeal Cert.KernelIdeal.Gen
open Idealize.ShloMosaic Idealize.ShloMosaic.TcCoe Idealize.ShloMosaic.StableHlo Idealize.ShloMosaic.ValueIdx
open Cert.CubePad

section Eqs
variable {F : FTy → Type} [FloatOps F] (V : Valuation τ sig (Elt F))

/-- What the first host stretch leaves in a buffer. -/
def A (r : Ref sig .tc) : (Proc.devRef (τ := τ) .tc r).ty.Contents (Elt F) := StableHlo.after (hostOps0 (F := F)) V (Proc.devRef .tc r)
abbrev L := Host.hostOps0_line (F := F)

/-! ## One equation per operation: its result buffer holds its function of what its operand buffers hold -/

theorem e_v0 : A V main_v0 = fun i => shapeCast S5000x140 (A V main_arg0) shapeCasts_S1x5000x140_S5000x140 i :=
  (L).reshape_at V 0 main_arg0 main_v0 rfl shapeCasts_S1x5000x140_S5000x140 _ _ rfl (by decide) (by decide)
theorem e_v1 : A V main_v1 = fun i => shapeCast S5000 (A V main_arg1) shapeCasts_S1x5000_S5000 i :=
  (L).reshape_at V 1 main_arg1 main_v1 rfl shapeCasts_S1x5000_S5000 _ _ rfl (by decide) (by decide)
theorem e_v2 : A V main_v2 = fun i => shapeCast S8000x2 (A V main_arg2) shapeCasts_S1x8000x2_S8000x2 i :=
  (L).reshape_at V 2 main_arg2 main_v2 rfl shapeCasts_S1x8000x2_S8000x2 _ _ rfl (by decide) (by decide)
theorem e_v3 : A V main_v3 = fun i => shapeCast S32x24 (A V main_arg3) shapeCasts_S1x32x24_S32x24 i :=
  (L).reshape_at V 3 main_arg3 main_v3 rfl shapeCasts_S1x32x24_S32x24 _ _ rfl (by decide) (by decide)
theorem e_c : A V main_c = (constantI S_ 32 0#32) :=
  (L).nullary_at V 4 main_c _ _ rfl (by decide)
theorem e_v4 : A V main_v4 = (broadcastInDim S5000 ![] bcast_S_S5000 : (⟨S_, .i32⟩ : BufTy).Contents (Elt F) → (⟨S5000, .i32⟩ : BufTy).Contents (Elt F)) (A V main_c) :=
  (L).unary_at V 5 main_c main_v4 _ _ _ rfl (by decide) (by decide)
theorem e_v5 : A V main_v5 = (cmpi .slt : (⟨S5000, .i32⟩ : BufTy).Contents (Elt F) → (⟨S5000, .i32⟩ : BufTy).Contents (Elt F) → (⟨S5000, .i1⟩ : BufTy).Contents (Elt F)) (A V main_v1) (A V main_v4) :=
  (L).binary_at V 6 main_v1 main_v4 main_v5 _ _ _ _ rfl (by decide) (by decide) (by decide)
theorem e_c_0 : A V main_c_0 = (constantI S_ 32 120#32) :=
  (L).nullary_at V 7 main_c_0 _ _ rfl (by decide)
theorem e_v6 : A V main_v6 = (broadcastInDim S5000 ![] bcast_S_S5000 : (⟨S_, .i32⟩ : BufTy).Contents (Elt F) → (⟨S5000, .i32⟩ : BufTy).Contents (Elt F)) (A V main_c_0) :=
  (L).unary_at V 8 main_c_0 main_v6 _ _ _ rfl (by decide) (by decide)
theorem e_v7 : A V main_v7 = (addi : (⟨S5000, .i32⟩ : BufTy).Contents (Elt F) → (⟨S5000, .i32⟩ : BufTy).Contents (Elt F) → (⟨S5000, .i32⟩ : BufTy).Contents (Elt F)) (A V main_v1) (A V main_v6) :=
  (L).binary_at V 9 main_v1 main_v6 main_v7 _ _ _ _ rfl (by decide) (by decide) (by decide)
theorem e_v8 : A V main_v8 = (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (A V main_v5) (A V main_v7) (A V main_v1) :=
  (L).ternary_at V 10 main_v5 main_v7 main_v1 main_v8 _ _ _ _ _ rfl (by decide) (by decide) (by decide) (by decide)
theorem e_v9 : A V main_v9 = (broadcastInDim S5000x1 ![0] bcast_S5000_S5000x1_0 : (⟨S5000, .i32⟩ : BufTy).Contents (Elt F) → (⟨S5000x1, .i32⟩ : BufTy).Contents (Elt F)) (A V main_v8) :=
  (L).unary_at V 11 main_v8 main_v9 _ _ _ rfl (by decide) (by decide)
theorem e_v10 : A V main_v10 = ((fun x i => Host.gather gather_S120x8_S5000x1_S5000x8_1_0_n_n_0_1_18 x i) : (⟨S120x8, .f32⟩ : BufTy).Contents (Elt F) → (⟨S5000x1, .i32⟩ : BufTy).Contents (Elt F) → (⟨S5000x8, .f32⟩ : BufTy).Contents (Elt F)) (A V main_arg4) (A V main_v9) :=
  (L).binary_at V 12 main_arg4 main_v9 main_v10 _ _ _ _ rfl (by decide) (by decide) (by decide)
theorem e_v11 : A V main_v11 = ((fun a b => concatenate S5000x148 1 [⟨S5000x140, a⟩, ⟨S5000x8, b⟩] concatenates_S5000x140_S5000x8_S5000x148_d1) : (⟨S5000x140, .f32⟩ : BufTy).Contents (Elt F) → (⟨S5000x8, .f32⟩ : BufTy).Contents (Elt F) → (⟨S5000x148, .f32⟩ : BufTy).Contents (Elt F)) (A V main_v0) (A V main_v10) :=
  (L).binary_at V 13 main_v0 main_v10 main_v11 _ _ _ _ rfl (by decide) (by decide) (by decide)
theorem e_v12 : A V main_v12 = ((extractStridedSlice S8000x1 ![0, 0] · slices_S8000x2_S8000x1_0_0) : (⟨S8000x2, .i32⟩ : BufTy).Contents (Elt F) → (⟨S8000x1, .i32⟩ : BufTy).Contents (Elt F)) (A V main_v2) :=
  (L).unary_at V 14 main_v2 main_v12 _ _ _ rfl (by decide) (by decide)
theorem e_v13 : A V main_v13 = fun i => shapeCast S8000 (A V main_v12) shapeCasts_S8000x1_S8000 i :=
  (L).reshape_at V 15 main_v12 main_v13 rfl shapeCasts_S8000x1_S8000 _ _ rfl (by decide) (by decide)
theorem e_v14 : A V main_v14 = ((extractStridedSlice S8000x1 ![0, 1] · slices_S8000x2_S8000x1_0_1) : (⟨S8000x2, .i32⟩ : BufTy).Contents (Elt F) → (⟨S8000x1, .i32⟩ : BufTy).Contents (Elt F)) (A V main_v2) :=
  (L).unary_at V 16 main_v2 main_v14 _ _ _ rfl (by decide) (by decide)
theorem e_v15 : A V main_v15 = fun i => shapeCast S8000 (A V main_v14) shapeCasts_S8000x1_S8000 i :=
  (L).reshape_at V 17 main_v14 main_v15 rfl shapeCasts_S8000x1_S8000 _ _ rfl (by decide) (by decide)
theorem e_v16 : A V main_v16 = ((fun a b => concatenate S16000 0 [⟨S8000, a⟩, ⟨S8000, b⟩] concatenates_S8000_S8000_S16000_d0) : (⟨S8000, .i32⟩ : BufTy).Contents (Elt F) → (⟨S8000, .i32⟩ : BufTy).Contents (Elt F) → (⟨S16000, .i32⟩ : BufTy).Contents (Elt F)) (A V main_v13) (A V main_v15) :=
  (L).binary_at V 18 main_v13 main_v15 main_v16 _ _ _ _ rfl (by decide) (by decide) (by decide)
theorem e_v17 : A V main_v17 = ((extractStridedSlice S8000x1 ![0, 1] · slices_S8000x2_S8000x1_0_1) : (⟨S8000x2, .i32⟩ : BufTy).Contents (Elt F) → (⟨S8000x1, .i32⟩ : BufTy).Contents (Elt F)) (A V main_v2) :=
  (L).unary_at V 19 main_v2 main_v17 _ _ _ rfl (by decide) (by decide)
theorem e_v18 : A V main_v18 = fun i => shapeCast S8000 (A V main_v17) shapeCasts_S8000x1_S8000 i :=
  (L).reshape_at V 20 main_v17 main_v18 rfl shapeCasts_S8000x1_S8000 _ _ rfl (by decide) (by decide)
theorem e_v19 : A V main_v19 = ((extractStridedSlice S8000x1 ![0, 0] · slices_S8000x2_S8000x1_0_0) : (⟨S8000x2, .i32⟩ : BufTy).Contents (Elt F) → (⟨S8000x1, .i32⟩ : BufTy).Contents (Elt F)) (A V main_v2) :=
  (L).unary_at V 21 main_v2 main_v19 _ _ _ rfl (by decide) (by decide)
theorem e_v20 : A V main_v20 = fun i => shapeCast S8000 (A V main_v19) shapeCasts_S8000x1_S8000 i :=
  (L).reshape_at V 22 main_v19 main_v20 rfl shapeCasts_S8000x1_S8000 _ _ rfl (by decide) (by decide)
theorem e_v21 : A V main_v21 = ((fun a b => concatenate S16000 0 [⟨S8000, a⟩, ⟨S8000, b⟩] concatenates_S8000_S8000_S16000_d0) : (⟨S8000, .i32⟩ : BufTy).Contents (Elt F) → (⟨S8000, .i32⟩ : BufTy).Contents (Elt F) → (⟨S16000, .i32⟩ : BufTy).Contents (Elt F)) (A V main_v18) (A V main_v20) :=
  (L).binary_at V 23 main_v18 main_v20 main_v21 _ _ _ _ rfl (by decide) (by decide) (by decide)
theorem e_cst : A V main_cst = (constant S_ .f32 0x3F800000#32) :=
  (L).nullary_at V 24 main_cst _ _ rfl (by decide)
theorem e_v22 : A V main_v22 = (broadcastInDim S16000 ![] bcast_S_S16000 : (⟨S_, .f32⟩ : BufTy).Contents (Elt F) → (⟨S16000, .f32⟩ : BufTy).Contents (Elt F)) (A V main_cst) :=
  (L).unary_at V 25 main_cst main_v22 _ _ _ rfl (by decide) (by decide)
theorem e_cst_1 : A V main_cst_1 = (constant S_ .f32 0x00000000#32) :=
  (L).nullary_at V 26 main_cst_1 _ _ rfl (by decide)
theorem e_v23 : A V main_v23 = (broadcastInDim S5000 ![] bcast_S_S5000 : (⟨S_, .f32⟩ : BufTy).Contents (Elt F) → (⟨S5000, .f32⟩ : BufTy).Contents (Elt F)) (A V main_cst_1) :=
  (L).unary_at V 27 main_cst_1 main_v23 _ _ _ rfl (by decide) (by decide)
theorem e_v24 : A V main_v24 = (broadcastInDim S16000x1 ![0] bcast_S16000_S16000x1_0 : (⟨S16000, .i32⟩ : BufTy).Contents (Elt F) → (⟨S16000x1, .i32⟩ : BufTy).Contents (Elt F)) (A V main_v21) :=
  (L).unary_at V 28 main_v21 main_v24 _ _ _ rfl (by decide) (by decide)
theorem e_v25 : A V main_v25 = ((fun x i u => Host.scatterAdd scatter_S5000_S16000x1_S16000_n_0_0_1 x i u) : (⟨S5000, .f32⟩ : BufTy).Contents (Elt F) → (⟨S16000x1, .i32⟩ : BufTy).Contents (Elt F) → (⟨S16000, .f32⟩ : BufTy).Contents (Elt F) → (⟨S5000, .f32⟩ : BufTy).Contents (Elt F)) (A V main_v23) (A V main_v24) (A V main_v22) :=
  (L).ternary_at V 29 main_v23 main_v24 main_v22 main_v25 _ _ _ _ _ rfl (by decide) (by decide) (by decide) (by decide)
theorem e_cst_2 : A V main_cst_2 = (constant S_ .f32 0x3F800000#32) :=
  (L).nullary_at V 30 main_cst_2 _ _ rfl (by decide)
theorem e_v26 : A V main_v26 = (broadcastInDim S5000 ![] bcast_S_S5000 : (⟨S_, .f32⟩ : BufTy).Contents (Elt F) → (⟨S5000, .f32⟩ : BufTy).Contents (Elt F)) (A V main_cst_2) :=
  (L).unary_at V 31 main_cst_2 main_v26 _ _ _ rfl (by decide) (by decide)
theorem e_v27 : A V main_v27 = (maximumf : (⟨S5000, .f32⟩ : BufTy).Contents (Elt F) → (⟨S5000, .f32⟩ : BufTy).Contents (Elt F) → (⟨S5000, .f32⟩ : BufTy).Contents (Elt F)) (A V main_v25) (A V main_v26) :=
  (L).binary_at V 32 main_v25 main_v26 main_v27 _ _ _ _ rfl (by decide) (by decide) (by decide)
theorem e_cst_3 : A V main_cst_3 = (constant S_ .f32 0x3F800000#32) :=
  (L).nullary_at V 33 main_cst_3 _ _ rfl (by decide)
theorem e_v28 : A V main_v28 = (broadcastInDim S5000 ![] bcast_S_S5000 : (⟨S_, .f32⟩ : BufTy).Contents (Elt F) → (⟨S5000, .f32⟩ : BufTy).Contents (Elt F)) (A V main_cst_3) :=
  (L).unary_at V 34 main_cst_3 main_v28 _ _ _ rfl (by decide) (by decide)
theorem e_v29 : A V main_v29 = (Host.divf : (⟨S5000, .f32⟩ : BufTy).Contents (Elt F) → (⟨S5000, .f32⟩ : BufTy).Contents (Elt F) → (⟨S5000, .f32⟩ : BufTy).Contents (Elt F)) (A V main_v28) (A V main_v27) :=
  (L).binary_at V 35 main_v28 main_v27 main_v29 _ _ _ _ rfl (by decide) (by decide) (by decide)
theorem e_cst_4 : A V main_cst_4 = (constant S_ .f32 0x3F800000#32) :=
  (L).nullary_at V 36 main_cst_4 _ _ rfl (by decide)
theorem e_v30 : A V main_v30 = (broadcastInDim S5000 ![] bcast_S_S5000 : (⟨S_, .f32⟩ : BufTy).Contents (Elt F) → (⟨S5000, .f32⟩ : BufTy).Contents (Elt F)) (A V main_cst_4) :=
  (L).unary_at V 37 main_cst_4 main_v30 _ _ _ rfl (by decide) (by decide)
theorem e_v31 : A V main_v31 = (minimumf : (⟨S5000, .f32⟩ : BufTy).Contents (Elt F) → (⟨S5000, .f32⟩ : BufTy).Contents (Elt F) → (⟨S5000, .f32⟩ : BufTy).Contents (Elt F)) (A V main_v25) (A V main_v30) :=
  (L).binary_at V 38 main_v25 main_v30 main_v31 _ _ _ _ rfl (by decide) (by decide) (by decide)
theorem e_v32 : A V main_v32 = fun i => shapeCast S5000x1 (A V main_v31) shapeCasts_S5000_S5000x1 i :=
  (L).reshape_at V 39 main_v31 main_v32 rfl shapeCasts_S5000_S5000x1 _ _ rfl (by decide) (by decide)
theorem e_c_5 : A V main_c_5 = (constantI S_ 32 0#32) :=
  (L).nullary_at V 40 main_c_5 _ _ rfl (by decide)
theorem e_v33 : A V main_v33 = (broadcastInDim S16000 ![] bcast_S_S16000 : (⟨S_, .i32⟩ : BufTy).Contents (Elt F) → (⟨S16000, .i32⟩ : BufTy).Contents (Elt F)) (A V main_c_5) :=
  (L).unary_at V 41 main_c_5 main_v33 _ _ _ rfl (by decide) (by decide)
theorem e_v34 : A V main_v34 = (cmpi .slt : (⟨S16000, .i32⟩ : BufTy).Contents (Elt F) → (⟨S16000, .i32⟩ : BufTy).Contents (Elt F) → (⟨S16000, .i1⟩ : BufTy).Contents (Elt F)) (A V main_v16) (A V main_v33) :=
  (L).binary_at V 42 main_v16 main_v33 main_v34 _ _ _ _ rfl (by decide) (by decide) (by decide)
theorem e_c_6 : A V main_c_6 = (constantI S_ 32 5000#32) :=
  (L).nullary_at V 43 main_c_6 _ _ rfl (by decide)
theorem e_v35 : A V main_v35 = (broadcastInDim S16000 ![] bcast_S_S16000 : (⟨S_, .i32⟩ : BufTy).Contents (Elt F) → (⟨S16000, .i32⟩ : BufTy).Contents (Elt F)) (A V main_c_6) :=
  (L).unary_at V 44 main_c_6 main_v35 _ _ _ rfl (by decide) (by decide)
theorem e_v36 : A V main_v36 = (addi : (⟨S16000, .i32⟩ : BufTy).Contents (Elt F) → (⟨S16000, .i32⟩ : BufTy).Contents (Elt F) → (⟨S16000, .i32⟩ : BufTy).Contents (Elt F)) (A V main_v16) (A V main_v35) :=
  (L).binary_at V 45 main_v16 main_v35 main_v36 _ _ _ _ rfl (by decide) (by decide) (by decide)
theorem e_v37 : A V main_v37 = (select : (⟨S16000, .i1⟩ : BufTy).Contents (Elt F) → (⟨S16000, .i32⟩ : BufTy).Contents (Elt F) → (⟨S16000, .i32⟩ : BufTy).Contents (Elt F) → (⟨S16000, .i32⟩ : BufTy).Contents (Elt F)) (A V main_v34) (A V main_v36) (A V main_v16) :=
  (L).ternary_at V 46 main_v34 main_v36 main_v16 main_v37 _ _ _ _ _ rfl (by decide) (by decide) (by decide) (by decide)
theorem e_v38 : A V main_v38 = (broadcastInDim S16000x1 ![0] bcast_S16000_S16000x1_0 : (⟨S16000, .i32⟩ : BufTy).Contents (Elt F) → (⟨S16000x1, .i32⟩ : BufTy).Contents (Elt F)) (A V main_v37) :=
  (L).unary_at V 47 main_v37 main_v38 _ _ _ rfl (by decide) (by decide)
theorem e_v39 : A V main_v39 = ((fun x i => Host.gather gather_S5000x148_S16000x1_S16000x148_1_0_n_n_0_1_1148 x i) : (⟨S5000x148, .f32⟩ : BufTy).Contents (Elt F) → (⟨S16000x1, .i32⟩ : BufTy).Contents (Elt F) → (⟨S16000x148, .f32⟩ : BufTy).Contents (Elt F)) (A V main_v11) (A V main_v38) :=
  (L).binary_at V 48 main_v11 main_v38 main_v39 _ _ _ _ rfl (by decide) (by decide) (by decide)
theorem e_cst_7 : A V main_cst_7 = (constant S_ .f32 0x00000000#32) :=
  (L).nullary_at V 49 main_cst_7 _ _ rfl (by decide)
theorem e_v40 : A V main_v40 = (broadcastInDim S5000x148 ![] bcast_S_S5000x148 : (⟨S_, .f32⟩ : BufTy).Contents (Elt F) → (⟨S5000x148, .f32⟩ : BufTy).Contents (Elt F)) (A V main_cst_7) :=
  (L).unary_at V 50 main_cst_7 main_v40 _ _ _ rfl (by decide) (by decide)
theorem e_v41 : A V main_v41 = (broadcastInDim S16000x1 ![0] bcast_S16000_S16000x1_0 : (⟨S16000, .i32⟩ : BufTy).Contents (Elt F) → (⟨S16000x1, .i32⟩ : BufTy).Contents (Elt F)) (A V main_v21) :=
  (L).unary_at V 51 main_v21 main_v41 _ _ _ rfl (by decide) (by decide)
theorem e_v42 : A V main_v42 = ((fun x i u => Host.scatterAdd scatter_S5000x148_S16000x1_S16000x148_1_0_0_1 x i u) : (⟨S5000x148, .f32⟩ : BufTy).Contents (Elt F) → (⟨S16000x1, .i32⟩ : BufTy).Contents (Elt F) → (⟨S16000x148, .f32⟩ : BufTy).Contents (Elt F) → (⟨S5000x148, .f32⟩ : BufTy).Contents (Elt F)) (A V main_v40) (A V main_v41) (A V main_v39) :=
  (L).ternary_at V 52 main_v40 main_v41 main_v39 main_v42 _ _ _ _ _ rfl (by decide) (by decide) (by decide) (by decide)
theorem e_v43 : A V main_v43 = (broadcastInDim S5000x1 ![0] bcast_S5000_S5000x1_0 : (⟨S5000, .f32⟩ : BufTy).Contents (Elt F) → (⟨S5000x1, .f32⟩ : BufTy).Contents (Elt F)) (A V main_v29) :=
  (L).unary_at V 53 main_v29 main_v43 _ _ _ rfl (by decide) (by decide)
theorem e_v44 : A V main_v44 = (broadcastInDim S5000x148 ![0, 1] bcast_S5000x1_S5000x148_0_1 : (⟨S5000x1, .f32⟩ : BufTy).Contents (Elt F) → (⟨S5000x148, .f32⟩ : BufTy).Contents (Elt F)) (A V main_v43) :=
  (L).unary_at V 54 main_v43 main_v44 _ _ _ rfl (by decide) (by decide)
theorem e_v45 : A V main_v45 = (mulf : (⟨S5000x148, .f32⟩ : BufTy).Contents (Elt F) → (⟨S5000x148, .f32⟩ : BufTy).Contents (Elt F) → (⟨S5000x148, .f32⟩ : BufTy).Contents (Elt F)) (A V main_v42) (A V main_v44) :=
  (L).binary_at V 55 main_v42 main_v44 main_v45 _ _ _ _ rfl (by decide) (by decide) (by decide)
theorem e_v46 : A V main_v46 = ((extractStridedSlice S1x64x64 ![0, 0, 0] · slices_S3x64x64_S1x64x64_0_0_0) : (⟨S3x64x64, .f32⟩ : BufTy).Contents (Elt F) → (⟨S1x64x64, .f32⟩ : BufTy).Contents (Elt F)) (A V main_arg11) :=
  (L).unary_at V 56 main_arg11 main_v46 _ _ _ rfl (by decide) (by decide)
theorem e_v47 : A V main_v47 = fun i => shapeCast S64x64 (A V main_v46) shapeCasts_S1x64x64_S64x64 i :=
  (L).reshape_at V 57 main_v46 main_v47 rfl shapeCasts_S1x64x64_S64x64 _ _ rfl (by decide) (by decide)
theorem e_v48 : A V main_v48 = ((extractStridedSlice S1x64 ![0, 0] · slices_S3x64_S1x64_0_0) : (⟨S3x64, .f32⟩ : BufTy).Contents (Elt F) → (⟨S1x64, .f32⟩ : BufTy).Contents (Elt F)) (A V main_arg12) :=
  (L).unary_at V 58 main_arg12 main_v48 _ _ _ rfl (by decide) (by decide)
theorem e_v49 : A V main_v49 = fun i => shapeCast S64 (A V main_v48) shapeCasts_S1x64_S64 i :=
  (L).reshape_at V 59 main_v48 main_v49 rfl shapeCasts_S1x64_S64 _ _ rfl (by decide) (by decide)
theorem e_v50 : A V main_v50 = ((extractStridedSlice S148x64 ![0, 0] · slices_S172x64_S148x64_0_0) : (⟨S172x64, .f32⟩ : BufTy).Contents (Elt F) → (⟨S148x64, .f32⟩ : BufTy).Contents (Elt F)) (A V main_arg5) :=
  (L).unary_at V 60 main_arg5 main_v50 _ _ _ rfl (by decide) (by decide)
theorem e_v51 : A V main_v51 = ((truncf .bf16 · bitsLt_bf16_f32) : (⟨S148x64, .f32⟩ : BufTy).Contents (Elt F) → (⟨S148x64, .bf16⟩ : BufTy).Contents (Elt F)) (A V main_v50) :=
  (L).unary_at V 61 main_v50 main_v51 _ _ _ rfl (by decide) (by decide)
theorem e_v52 : A V main_v52 = ((extractStridedSlice S148x64 ![0, 0] · slices_S172x64_S148x64_0_0) : (⟨S172x64, .f32⟩ : BufTy).Contents (Elt F) → (⟨S148x64, .f32⟩ : BufTy).Contents (Elt F)) (A V main_arg6) :=
  (L).unary_at V 62 main_arg6 main_v52 _ _ _ rfl (by decide) (by decide)
theorem e_v53 : A V main_v53 = ((truncf .bf16 · bitsLt_bf16_f32) : (⟨S148x64, .f32⟩ : BufTy).Contents (Elt F) → (⟨S148x64, .bf16⟩ : BufTy).Contents (Elt F)) (A V main_v52) :=
  (L).unary_at V 63 main_v52 main_v53 _ _ _ rfl (by decide) (by decide)
theorem e_v54 : A V main_v54 = ((extractStridedSlice S24x64 ![148, 0] · slices_S172x64_S24x64_148_0) : (⟨S172x64, .f32⟩ : BufTy).Contents (Elt F) → (⟨S24x64, .f32⟩ : BufTy).Contents (Elt F)) (A V main_arg5) :=
  (L).unary_at V 64 main_arg5 main_v54 _ _ _ rfl (by decide) (by decide)
theorem e_v55 : A V main_v55 = ((extractStridedSlice S24x64 ![148, 0] · slices_S172x64_S24x64_148_0) : (⟨S172x64, .f32⟩ : BufTy).Contents (Elt F) → (⟨S24x64, .f32⟩ : BufTy).Contents (Elt F)) (A V main_arg6) :=
  (L).unary_at V 65 main_arg6 main_v55 _ _ _ rfl (by decide) (by decide)
theorem e_v56 : A V main_v56 = ((fun l r => Host.dotGeneral dot_S32x24_S24x64_S32x64_1_0_0_1_n_n none l r) : (⟨S32x24, .f32⟩ : BufTy).Contents (Elt F) → (⟨S24x64, .f32⟩ : BufTy).Contents (Elt F) → (⟨S32x64, .f32⟩ : BufTy).Contents (Elt F)) (A V main_v3) (A V main_v54) :=
  (L).binary_at V 66 main_v3 main_v54 main_v56 _ _ _ _ rfl (by decide) (by decide) (by decide)
theorem e_v57 : A V main_v57 = ((fun l r => Host.dotGeneral dot_S32x24_S24x64_S32x64_1_0_0_1_n_n none l r) : (⟨S32x24, .f32⟩ : BufTy).Contents (Elt F) → (⟨S24x64, .f32⟩ : BufTy).Contents (Elt F) → (⟨S32x64, .f32⟩ : BufTy).Contents (Elt F)) (A V main_v3) (A V main_v55) :=
  (L).binary_at V 67 main_v3 main_v55 main_v57 _ _ _ _ rfl (by decide) (by decide) (by decide)
theorem e_v58 : A V main_v58 = ((truncf .bf16 · bitsLt_bf16_f32) : (⟨S64x64, .f32⟩ : BufTy).Contents (Elt F) → (⟨S64x64, .bf16⟩ : BufTy).Contents (Elt F)) (A V main_v47) :=
  (L).unary_at V 68 main_v47 main_v58 _ _ _ rfl (by decide) (by decide)

theorem e_arg0 : A V main_arg0 = V (Proc.devRef .tc main_arg0) := (L).arg V (by decide)
theorem e_arg1 : A V main_arg1 = V (Proc.devRef .tc main_arg1) := (L).arg V (by decide)
theorem e_arg2 : A V main_arg2 = V (Proc.devRef .tc main_arg2) := (L).arg V (by decide)
theorem e_arg3 : A V main_arg3 = V (Proc.devRef .tc main_arg3) := (L).arg V (by decide)
theorem e_arg4 : A V main_arg4 = V (Proc.devRef .tc main_arg4) := (L).arg V (by decide)
theorem e_arg5 : A V main_arg5 = V (Proc.devRef .tc main_arg5) := (L).arg V (by decide)
theorem e_arg6 : A V main_arg6 = V (Proc.devRef .tc main_arg6) := (L).arg V (by decide)
theorem e_arg7 : A V main_arg7 = V (Proc.devRef .tc main_arg7) := (L).arg V (by decide)
theorem e_arg11 : A V main_arg11 = V (Proc.devRef .tc main_arg11) := (L).arg V (by decide)
theorem e_arg12 : A V main_arg12 = V (Proc.devRef .tc main_arg12) := (L).arg V (by decide)

/-! ## The three arrays both programs form the same way, as closed terms of the arguments -/

/-- The node features: the 140 given features beside the 8 op-embedding features gathered by the (wrapped, clamped) opcode. -/
def xnArrK (a0 : (⟨S1x5000x140, .f32⟩ : BufTy).Contents (Elt F)) (a1 : (⟨S1x5000, .i32⟩ : BufTy).Contents (Elt F)) (a4 : (⟨S120x8, .f32⟩ : BufTy).Contents (Elt F)) : (⟨S5000x148, .f32⟩ : BufTy).Contents (Elt F) :=
  (((fun a b => concatenate S5000x148 1 [⟨S5000x140, a⟩, ⟨S5000x8, b⟩] concatenates_S5000x140_S5000x8_S5000x148_d1) : (⟨S5000x140, .f32⟩ : BufTy).Contents (Elt F) → (⟨S5000x8, .f32⟩ : BufTy).Contents (Elt F) → (⟨S5000x148, .f32⟩ : BufTy).Contents (Elt F)) (shapeCast S5000x140 a0 shapeCasts_S1x5000x140_S5000x140) (((fun x i => Host.gather gather_S120x8_S5000x1_S5000x8_1_0_n_n_0_1_18 x i) : (⟨S120x8, .f32⟩ : BufTy).Contents (Elt F) → (⟨S5000x1, .i32⟩ : BufTy).Contents (Elt F) → (⟨S5000x8, .f32⟩ : BufTy).Contents (Elt F)) a4 ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) (shapeCast S5000 a1 shapeCasts_S1x5000_S5000) ((broadcastInDim S5000 ![] bcast_S_S5000 : (⟨S_, .i32⟩ : BufTy).Contents (Elt F) → (⟨S5000, .i32⟩ : BufTy).Contents (Elt F)) (constantI S_ 32 0#32))) ((addi : (⟨S5000, .i32⟩ : BufTy).Contents (Elt F) → (⟨S5000, .i32⟩ : BufTy).Contents (Elt F) → (⟨S5000, .i32⟩ : BufTy).Contents (Elt F)) (shapeCast S5000 a1 shapeCasts_S1x5000_S5000) ((broadcastInDim S5000 ![] bcast_S_S5000 : (⟨S_, .i32⟩ : BufTy).Contents (Elt F) → (⟨S5000, .i32⟩ : BufTy).Contents (Elt F)) (constantI S_ 32 120#32))) (shapeCast S5000 a1 shapeCasts_S1x5000_S5000)))))

/-- The column of source words (negative words wrapped by 5000): both directions of every edge. -/
def srcColK (a2 : (⟨S1x8000x2, .i32⟩ : BufTy).Contents (Elt F)) : (⟨S16000x1, .i32⟩ : BufTy).Contents (Elt F) :=
  ((broadcastInDim S16000x1 ![0] bcast_S16000_S16000x1_0 : (⟨S16000, .i32⟩ : BufTy).Contents (Elt F) → (⟨S16000x1, .i32⟩ : BufTy).Contents (Elt F)) ((select : (⟨S16000, .i1⟩ : BufTy).Contents (Elt F) → (⟨S16000, .i32⟩ : BufTy).Contents (Elt F) → (⟨S16000, .i32⟩ : BufTy).Contents (Elt F) → (⟨S16000, .i32⟩ : BufTy).Contents (Elt F)) ((cmpi .slt : (⟨S16000, .i32⟩ : BufTy).Contents (Elt F) → (⟨S16000, .i32⟩ : BufTy).Contents (Elt F) → (⟨S16000, .i1⟩ : BufTy).Contents (Elt F)) (((fun a b => concatenate S16000 0 [⟨S8000, a⟩, ⟨S8000, b⟩] concatenates_S8000_S8000_S16000_d0) : (⟨S8000, .i32⟩ : BufTy).Contents (Elt F) → (⟨S8000, .i32⟩ : BufTy).Contents (Elt F) → (⟨S16000, .i32⟩ : BufTy).Contents (Elt F)) (shapeCast S8000 (((extractStridedSlice S8000x1 ![0, 0] · slices_S8000x2_S8000x1_0_0) : (⟨S8000x2, .i32⟩ : BufTy).Contents (Elt F) → (⟨S8000x1, .i32⟩ : BufTy).Contents (Elt F)) (shapeCast S8000x2 a2 shapeCasts_S1x8000x2_S8000x2)) shapeCasts_S8000x1_S8000) (shapeCast S8000 (((extractStridedSlice S8000x1 ![0, 1] · slices_S8000x2_S8000x1_0_1) : (⟨S8000x2, .i32⟩ : BufTy).Contents (Elt F) → (⟨S8000x1, .i32⟩ : BufTy).Contents (Elt F)) (shapeCast S8000x2 a2 shapeCasts_S1x8000x2_S8000x2)) shapeCasts_S8000x1_S8000)) ((broadcastInDim S16000 ![] bcast_S_S16000 : (⟨S_, .i32⟩ : BufTy).Contents (Elt F) → (⟨S16000, .i32⟩ : BufTy).Contents (Elt F)) (constantI S_ 32 0#32))) ((addi : (⟨S16000, .i32⟩ : BufTy).Contents (Elt F) → (⟨S16000, .i32⟩ : BufTy).Contents (Elt F) → (⟨S16000, .i32⟩ : BufTy).Contents (Elt F)) (((fun a b => concatenate S16000 0 [⟨S8000, a⟩, ⟨S8000, b⟩] concatenates_S8000_S8000_S16000_d0) : (⟨S8000, .i32⟩ : BufTy).Contents (Elt F) → (⟨S8000, .i32⟩ : BufTy).Contents (Elt F) → (⟨S16000, .i32⟩ : BufTy).Contents (Elt F)) (shapeCast S8000 (((extractStridedSlice S8000x1 ![0, 0] · slices_S8000x2_S8000x1_0_0) : (⟨S8000x2, .i32⟩ : BufTy).Contents (Elt F) → (⟨S8000x1, .i32⟩ : BufTy).Contents (Elt F)) (shapeCast S8000x2 a2 shapeCasts_S1x8000x2_S8000x2)) shapeCasts_S8000x1_S8000) (shapeCast S8000 (((extractStridedSlice S8000x1 ![0, 1] · slices_S8000x2_S8000x1_0_1) : (⟨S8000x2, .i32⟩ : BufTy).Contents (Elt F) → (⟨S8000x1, .i32⟩ : BufTy).Contents (Elt F)) (shapeCast S8000x2 a2 shapeCasts_S1x8000x2_S8000x2)) shapeCasts_S8000x1_S8000)) ((broadcastInDim S16000 ![] bcast_S_S16000 : (⟨S_, .i32⟩ : BufTy).Contents (Elt F) → (⟨S16000, .i32⟩ : BufTy).Contents (Elt F)) (constantI S_ 32 5000#32))) (((fun a b => concatenate S16000 0 [⟨S8000, a⟩, ⟨S8000, b⟩] concatenates_S8000_S8000_S16000_d0) : (⟨S8000, .i32⟩ : BufTy).Contents (Elt F) → (⟨S8000, .i32⟩ : BufTy).Contents (Elt F) → (⟨S16000, .i32⟩ : BufTy).Contents (Elt F)) (shapeCast S8000 (((extractStridedSlice S8000x1 ![0, 0] · slices_S8000x2_S8000x1_0_0) : (⟨S8000x2, .i32⟩ : BufTy).Contents (Elt F) → (⟨S8000x1, .i32⟩ : BufTy).Contents (Elt F)) (shapeCast S8000x2 a2 shapeCasts_S1x8000x2_S8000x2)) shapeCasts_S8000x1_S8000) (shapeCast S8000 (((extractStridedSlice S8000x1 ![0, 1] · slices_S8000x2_S8000x1_0_1) : (⟨S8000x2, .i32⟩ : BufTy).Contents (Elt F) → (⟨S8000x1, .i32⟩ : BufTy).Contents (Elt F)) (shapeCast S8000x2 a2 shapeCasts_S1x8000x2_S8000x2)) shapeCasts_S8000x1_S8000))))

/-- The column of target words: both directions of every edge. -/
def dstColK (a2 : (⟨S1x8000x2, .i32⟩ : BufTy).Contents (Elt F)) : (⟨S16000x1, .i32⟩ : BufTy).Contents (Elt F) :=
  ((broadcastInDim S16000x1 ![0] bcast_S16000_S16000x1_0 : (⟨S16000, .i32⟩ : BufTy).Contents (Elt F) → (⟨S16000x1, .i32⟩ : BufTy).Contents (Elt F)) (((fun a b => concatenate S16000 0 [⟨S8000, a⟩, ⟨S8000, b⟩] concatenates_S8000_S8000_S16000_d0) : (⟨S8000, .i32⟩ : BufTy).Contents (Elt F) → (⟨S8000, .i32⟩ : BufTy).Contents (Elt F) → (⟨S16000, .i32⟩ : BufTy).Contents (Elt F)) (shapeCast S8000 (((extractStridedSlice S8000x1 ![0, 1] · slices_S8000x2_S8000x1_0_1) : (⟨S8000x2, .i32⟩ : BufTy).Contents (Elt F) → (⟨S8000x1, .i32⟩ : BufTy).Contents (Elt F)) (shapeCast S8000x2 a2 shapeCasts_S1x8000x2_S8000x2)) shapeCasts_S8000x1_S8000) (shapeCast S8000 (((extractStridedSlice S8000x1 ![0, 0] · slices_S8000x2_S8000x1_0_0) : (⟨S8000x2, .i32⟩ : BufTy).Contents (Elt F) → (⟨S8000x1, .i32⟩ : BufTy).Contents (Elt F)) (shapeCast S8000x2 a2 shapeCasts_S1x8000x2_S8000x2)) shapeCasts_S8000x1_S8000)))

theorem closed_v11 : A V main_v11 = xnArrK (V (Proc.devRef .tc main_arg0)) (V (Proc.devRef .tc main_arg1)) (V (Proc.devRef .tc main_arg4)) := by
  rw [e_v11, e_v0, e_v10, e_v9, e_v8, e_v5, e_v1, e_v4, e_c, e_v7, e_v6, e_c_0, e_arg0, e_arg1, e_arg4]
  rfl

theorem closed_v38 : A V main_v38 = srcColK (F := F) (V (Proc.devRef .tc main_arg2)) := by
  rw [e_v38, e_v37, e_v34, e_v16, e_v13, e_v12, e_v2, e_v15, e_v14, e_v33, e_c_5, e_v36, e_v35, e_c_6, e_arg2]
  rfl

theorem closed_v24 : A V main_v24 = dstColK (F := F) (V (Proc.devRef .tc main_arg2)) := by
  rw [e_v24, e_v21, e_v18, e_v17, e_v2, e_v20, e_v19, e_arg2]
  rfl

theorem v41_eq_v24 : A V main_v41 = A V main_v24 := by rw [e_v41, e_v24]

/-- The defining equation, for modules that meet the fold itself. -/
theorem A_def (r : Ref sig .tc) : A V r = StableHlo.after (hostOps0 (F := F)) V (Proc.devRef .tc r) := rfl

end Eqs

attribute [local irreducible] A

variable (V : Valuation τ sig (Elt Ideal))

/-- A buffer's contents, typed as an array of a literal shape and element type. -/
abbrev rd (S : Shape) (e : EltTy) (x : Vec Ideal S e) : Vec Ideal S e := x

/-! ## The stretch's results at an index -/

section Index
open scoped BigOperators

variable (Sx D : Vec Ideal S16000x1 .i32) (X : Vec Ideal S5000x148 .f32)
  (hS : rd S16000x1 .i32 (A V main_v38) = Sx) (hD : rd S16000x1 .i32 (A V main_v24) = D) (hX : rd S5000x148 .f32 (A V main_v11) = X)

/-- The graph the two index columns describe. -/
abbrev Gk : Gnn.Graph := Gnn.graphOfCols Sx D

theorem v22_apply (e : Fin 16000) : (rd S16000 .f32 (A V main_v22)) (ix1 e) = Gnn.one := by
  rw [e_v22, e_cst]; exact (Cert.LibHR.bcastScalar_apply _ _ _).trans rfl
theorem v23_apply (n : Fin 5000) : (rd S5000 .f32 (A V main_v23)) (ix1 n) = Gnn.zero := by
  rw [e_v23, e_cst_1]; exact (Cert.LibHR.bcastScalar_apply _ _ _).trans rfl
theorem v26_apply (n : Fin 5000) : (rd S5000 .f32 (A V main_v26)) (ix1 n) = Gnn.one := by
  rw [e_v26, e_cst_2]; exact (Cert.LibHR.bcastScalar_apply _ _ _).trans rfl
theorem v28_apply (n : Fin 5000) : (rd S5000 .f32 (A V main_v28)) (ix1 n) = Gnn.one := by
  rw [e_v28, e_cst_3]; exact (Cert.LibHR.bcastScalar_apply _ _ _).trans rfl
theorem v30_apply (n : Fin 5000) : (rd S5000 .f32 (A V main_v30)) (ix1 n) = Gnn.one := by
  rw [e_v30, e_cst_4]; exact (Cert.LibHR.bcastScalar_apply _ _ _).trans rfl
theorem v40_apply (n : Fin 5000) (d : Fin 148) : (rd S5000x148 .f32 (A V main_v40)) (ix2 n d) = Gnn.zero := by
  rw [e_v40, e_cst_7]; exact (Cert.LibHR.bcastScalar_apply _ _ _).trans rfl

include hD in
/-- The degree: zero plus one per slot landing on the node. -/
theorem deg_apply (n : Fin 5000) : (rd S5000 .f32 (A V main_v25)) (ix1 n) = Gnn.deg (Gk Sx D) n := by
  rw [e_v25]
  refine (Cert.LibGS.eltScatterAdd_apply (φ := .f32) scatter_S5000_S16000x1_S16000_n_0_0_1_wf (rd S5000 .f32 (A V main_v23)) (rd S16000x1 .i32 (A V main_v24)) (rd S16000 .f32 (A V main_v22)) n).trans ?_
  rw [hD, v23_apply, Finset.sum_congr rfl (fun e _ => v22_apply V e)]
  rfl

include hD in
theorem dinv_apply (n : Fin 5000) : (rd S5000 .f32 (A V main_v29)) (ix1 n) = Gnn.dinv (Gk Sx D) n := by
  rw [e_v29]
  show FloatOps.hostDivf (F := Ideal) (φ := .f32) ((rd S5000 .f32 (A V main_v28)) (ix1 n)) ((rd S5000 .f32 (A V main_v27)) (ix1 n)) = _
  rw [Ideal.hostDivf_def, v28_apply, e_v27]
  show Ideal.div Gnn.one (max ((rd S5000 .f32 (A V main_v25)) (ix1 n)) ((rd S5000 .f32 (A V main_v26)) (ix1 n))) = _
  rw [deg_apply V Sx D hD, v26_apply]
  rfl

include hD in
theorem mask_apply (n : Fin 5000) : (rd S5000x1 .f32 (A V main_v32)) (ix2 n 0) = Gnn.mask (Gk Sx D) n := by
  rw [e_v32]
  refine (shapeCast_apply (rd S5000 .f32 (A V main_v31)) shapeCasts_S5000_S5000x1 (ix2 n 0) (ix1 n) (by
    rw [Shape.rowMajor_val_one, Shape.rowMajor_val_two]
    show n.val = n.val * 1 + 0
    omega)).trans ?_
  rw [e_v31]
  show min ((rd S5000 .f32 (A V main_v25)) (ix1 n)) ((rd S5000 .f32 (A V main_v30)) (ix1 n)) = _
  rw [deg_apply V Sx D hD, v30_apply]
  rfl

/-- A vector broadcast to a column and then across the columns reads the vector at the row. -/
theorem bcast_col_full {α : Type} {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (x : (⟨1, ![a]⟩ : Shape).Idx → α) (i : Fin a) (j : Fin b) :
    broadcastInDim ⟨2, ![a, b]⟩ ![0, 1] h2 (broadcastInDim ⟨2, ![a, 1]⟩ ![0] h1 x) (ix2 i j) = x (ix1 i) := by
  refine (broadcastInDim_apply _ h2 _ (ix2 i j) (ix2 i (0 : Fin 1)) (fun c => match c with
    | ⟨0, _⟩ => by
      show i.val = if a = 1 then 0 else i.val
      split
      · have := i.isLt; omega
      · rfl
    | ⟨1, _⟩ => by
      show 0 = if (1 : Nat) = 1 then 0 else j.val
      rw [if_pos rfl])).trans ?_
  exact Cert.LibHR.bcastCol_apply h1 x i 0

include hS hX in
theorem v39_apply (e : Fin 16000) (d : Fin 148) :
    (rd S16000x148 .f32 (A V main_v39)) (ix2 e d) = X (ix2 (Cert.LibGS.clampRow 5000 (by omega) (Sx (ix2 e 0))) d) := by
  rw [e_v39]
  refine (Cert.LibGS.rowGather_apply (by omega) gather_S5000x148_S16000x1_S16000x148_1_0_n_n_0_1_1148_wf (rd S5000x148 .f32 (A V main_v11)) (rd S16000x1 .i32 (A V main_v38)) e d).trans ?_
  rw [hS, hX]

include hS hD hX in
/-- The neighbour mean of the node features: the neighbour sum times 1 / max (deg, 1). -/
theorem aggxn_apply (n : Fin 5000) (d : Fin 148) :
    (rd S5000x148 .f32 (A V main_v45)) (ix2 n d) = Gnn.meanMul (Gk Sx D) (fun n' => X (ix2 n' d)) n := by
  have h42 : (rd S5000x148 .f32 (A V main_v42)) (ix2 n d) = Gnn.nsum (Gk Sx D) (fun n' => X (ix2 n' d)) n := by
    rw [e_v42]
    refine (Cert.LibGS.rowScatterAdd_apply (φ := .f32) scatter_S5000x148_S16000x1_S16000x148_1_0_0_1_wf (rd S5000x148 .f32 (A V main_v40)) (rd S16000x1 .i32 (A V main_v41))
      (rd S16000x148 .f32 (A V main_v39)) n d).trans ?_
    rw [v40_apply, v41_eq_v24, hD, Finset.sum_congr rfl (fun e _ => v39_apply V Sx X hS hX e d)]
    rfl
  have h44 : (rd S5000x148 .f32 (A V main_v44)) (ix2 n d) = Gnn.dinv (Gk Sx D) n := by
    rw [e_v44, e_v43]
    exact (bcast_col_full _ _ (rd S5000 .f32 (A V main_v29)) n d).trans (dinv_apply V Sx D hD n)
  rw [e_v45]
  show (rd S5000x148 .f32 (A V main_v42)) (ix2 n d) * (rd S5000x148 .f32 (A V main_v44)) (ix2 n d) = _
  rw [h42, h44]
  rfl

/-! The weights: slices of the arguments -/

theorem v51_apply (d : Fin 148) (h : Fin 64) :
    (rd S148x64 .bf16 (A V main_v51)) (ix2 d h) = (rd S172x64 .f32 (rd S172x64 .f32 (V (Proc.devRef .tc main_arg5)))) (ix2 ⟨d.val, by omega⟩ h) := by
  rw [e_v51, e_v50, e_arg5]
  show extractStridedSlice S148x64 ![0, 0] (rd S172x64 .f32 (rd S172x64 .f32 (V (Proc.devRef .tc main_arg5)))) slices_S172x64_S148x64_0_0 (ix2 d h) = _
  exact extractStridedSlice_apply ![0, 0] (rd S172x64 .f32 (rd S172x64 .f32 (V (Proc.devRef .tc main_arg5)))) slices_S172x64_S148x64_0_0 (ix2 d h) (ix2 ⟨d.val, by omega⟩ h) (fun a => match a with
    | ⟨0, _⟩ => by show d.val = 0 + d.val; omega
    | ⟨1, _⟩ => by show h.val = 0 + h.val; omega)

theorem v53_apply (d : Fin 148) (h : Fin 64) :
    (rd S148x64 .bf16 (A V main_v53)) (ix2 d h) = (rd S172x64 .f32 (rd S172x64 .f32 (V (Proc.devRef .tc main_arg6)))) (ix2 ⟨d.val, by omega⟩ h) := by
  rw [e_v53, e_v52, e_arg6]
  show extractStridedSlice S148x64 ![0, 0] (rd S172x64 .f32 (rd S172x64 .f32 (V (Proc.devRef .tc main_arg6)))) slices_S172x64_S148x64_0_0 (ix2 d h) = _
  exact extractStridedSlice_apply ![0, 0] (rd S172x64 .f32 (rd S172x64 .f32 (V (Proc.devRef .tc main_arg6)))) slices_S172x64_S148x64_0_0 (ix2 d h) (ix2 ⟨d.val, by omega⟩ h) (fun a => match a with
    | ⟨0, _⟩ => by show d.val = 0 + d.val; omega
    | ⟨1, _⟩ => by show h.val = 0 + h.val; omega)

theorem v3_apply (c : Fin 32) (k : Fin 24) : (rd S32x24 .f32 (A V main_v3)) (ix2 c k) = (rd S1x32x24 .f32 (rd S1x32x24 .f32 (V (Proc.devRef .tc main_arg3)))) (ix3 0 c k) := by
  rw [e_v3, e_arg3]
  show shapeCast S32x24 (rd S1x32x24 .f32 (rd S1x32x24 .f32 (V (Proc.devRef .tc main_arg3)))) shapeCasts_S1x32x24_S32x24 (ix2 c k) = _
  exact shapeCast_apply _ shapeCasts_S1x32x24_S32x24 (ix2 c k) (ix3 0 c k) (by
    rw [Shape.rowMajor_val_two, Shape.rowMajor_val_three]
    show (0 * 32 + c.val) * 24 + k.val = c.val * 24 + k.val
    omega)

theorem v54_apply (k : Fin 24) (h : Fin 64) :
    (rd S24x64 .f32 (A V main_v54)) (ix2 k h) = (rd S172x64 .f32 (rd S172x64 .f32 (V (Proc.devRef .tc main_arg5)))) (ix2 ⟨148 + k.val, by omega⟩ h) := by
  rw [e_v54, e_arg5]
  show extractStridedSlice S24x64 ![148, 0] (rd S172x64 .f32 (rd S172x64 .f32 (V (Proc.devRef .tc main_arg5)))) slices_S172x64_S24x64_148_0 (ix2 k h) = _
  exact extractStridedSlice_apply ![148, 0] (rd S172x64 .f32 (rd S172x64 .f32 (V (Proc.devRef .tc main_arg5)))) slices_S172x64_S24x64_148_0 (ix2 k h) (ix2 ⟨148 + k.val, by omega⟩ h) (fun a => match a with
    | ⟨0, _⟩ => by show 148 + k.val = 148 + k.val; rfl
    | ⟨1, _⟩ => by show h.val = 0 + h.val; omega)

theorem v55_apply (k : Fin 24) (h : Fin 64) :
    (rd S24x64 .f32 (A V main_v55)) (ix2 k h) = (rd S172x64 .f32 (rd S172x64 .f32 (V (Proc.devRef .tc main_arg6)))) (ix2 ⟨148 + k.val, by omega⟩ h) := by
  rw [e_v55, e_arg6]
  show extractStridedSlice S24x64 ![148, 0] (rd S172x64 .f32 (rd S172x64 .f32 (V (Proc.devRef .tc main_arg6)))) slices_S172x64_S24x64_148_0 (ix2 k h) = _
  exact extractStridedSlice_apply ![148, 0] (rd S172x64 .f32 (rd S172x64 .f32 (V (Proc.devRef .tc main_arg6)))) slices_S172x64_S24x64_148_0 (ix2 k h) (ix2 ⟨148 + k.val, by omega⟩ h) (fun a => match a with
    | ⟨0, _⟩ => by show 148 + k.val = 148 + k.val; rfl
    | ⟨1, _⟩ => by show h.val = 0 + h.val; omega)

theorem v56_apply (c : Fin 32) (h : Fin 64) :
    (rd S32x64 .f32 (A V main_v56)) (ix2 c h) = ∑ k : Fin 24, (rd S1x32x24 .f32 (rd S1x32x24 .f32 (V (Proc.devRef .tc main_arg3)))) (ix3 0 c k) * (rd S172x64 .f32 (rd S172x64 .f32 (V (Proc.devRef .tc main_arg5)))) (ix2 ⟨148 + k.val, by omega⟩ h) := by
  rw [e_v56]
  refine (Cert.LibHR.plainDot_apply (φ₁ := .f32) (φ₂ := .f32) 32 24 64 dot_S32x24_S24x64_S32x64_1_0_0_1_n_n_wf (rd S32x24 .f32 (A V main_v3)) (rd S24x64 .f32 (A V main_v54)) c h).trans ?_
  exact Finset.sum_congr rfl fun k _ => by rw [v3_apply, v54_apply]

theorem v57_apply (c : Fin 32) (h : Fin 64) :
    (rd S32x64 .f32 (A V main_v57)) (ix2 c h) = ∑ k : Fin 24, (rd S1x32x24 .f32 (rd S1x32x24 .f32 (V (Proc.devRef .tc main_arg3)))) (ix3 0 c k) * (rd S172x64 .f32 (rd S172x64 .f32 (V (Proc.devRef .tc main_arg6)))) (ix2 ⟨148 + k.val, by omega⟩ h) := by
  rw [e_v57]
  refine (Cert.LibHR.plainDot_apply (φ₁ := .f32) (φ₂ := .f32) 32 24 64 dot_S32x24_S24x64_S32x64_1_0_0_1_n_n_wf (rd S32x24 .f32 (A V main_v3)) (rd S24x64 .f32 (A V main_v55)) c h).trans ?_
  exact Finset.sum_congr rfl fun k _ => by rw [v3_apply, v55_apply]

theorem v58_apply (h : Fin 64) (k : Fin 64) : (rd S64x64 .bf16 (A V main_v58)) (ix2 h k) = (rd S3x64x64 .f32 (rd S3x64x64 .f32 (V (Proc.devRef .tc main_arg11)))) (ix3 0 h k) := by
  rw [e_v58, e_v47, e_v46, e_arg11]
  show shapeCast S64x64 (extractStridedSlice S1x64x64 ![0, 0, 0] (rd S3x64x64 .f32 (rd S3x64x64 .f32 (V (Proc.devRef .tc main_arg11)))) slices_S3x64x64_S1x64x64_0_0_0)
    shapeCasts_S1x64x64_S64x64 (ix2 h k) = _
  refine (shapeCast_apply _ shapeCasts_S1x64x64_S64x64 (ix2 h k) (ix3 0 h k) (by
    rw [Shape.rowMajor_val_two, Shape.rowMajor_val_three]
    show (0 * 64 + h.val) * 64 + k.val = h.val * 64 + k.val
    omega)).trans ?_
  exact extractStridedSlice_apply ![0, 0, 0] (rd S3x64x64 .f32 (rd S3x64x64 .f32 (V (Proc.devRef .tc main_arg11)))) slices_S3x64x64_S1x64x64_0_0_0 (ix3 0 h k) (ix3 0 h k) (fun a => match a with
    | ⟨0, _⟩ => by show 0 = 0 + 0; rfl
    | ⟨1, _⟩ => by show h.val = 0 + h.val; omega
    | ⟨2, _⟩ => by show k.val = 0 + k.val; omega)

theorem v49_apply (k : Fin 64) : (rd S64 .f32 (A V main_v49)) (ix1 k) = (rd S3x64 .f32 (rd S3x64 .f32 (V (Proc.devRef .tc main_arg12)))) (ix2 0 k) := by
  rw [e_v49, e_v48, e_arg12]
  show shapeCast S64 (extractStridedSlice S1x64 ![0, 0] (rd S3x64 .f32 (rd S3x64 .f32 (V (Proc.devRef .tc main_arg12)))) slices_S3x64_S1x64_0_0) shapeCasts_S1x64_S64 (ix1 k) = _
  refine (shapeCast_apply _ shapeCasts_S1x64_S64 (ix1 k) (ix2 0 k) (by
    rw [Shape.rowMajor_val_two, Shape.rowMajor_val_one]
    show 0 * 64 + k.val = k.val
    omega)).trans ?_
  exact extractStridedSlice_apply ![0, 0] (rd S3x64 .f32 (rd S3x64 .f32 (V (Proc.devRef .tc main_arg12)))) slices_S3x64_S1x64_0_0 (ix2 0 k) (ix2 0 k) (fun a => match a with
    | ⟨0, _⟩ => by show 0 = 0 + 0; rfl
    | ⟨1, _⟩ => by show k.val = 0 + k.val; omega)

/-! ## Layer 0's activation, from the stretch's results, is the split first layer -/

/-- The network's parameters, read off the argument buffers. -/
abbrev Pof : Gnn.Params :=
  Gnn.paramsOf (V (Proc.devRef .tc main_arg3)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14)) (V (Proc.devRef .tc main_arg15))
    (V (Proc.devRef .tc main_arg16)) (V (Proc.devRef .tc main_arg17)) (V (Proc.devRef .tc main_arg18))

include hS hD hX in
theorem act0_eq (n : Fin 5000) (cc : Fin 32) (h : Fin 64) :
    Layer0Pay.act (rd S5000x148 .f32 (A V main_v11)) (rd S5000x148 .f32 (A V main_v45)) (rd S5000x1 .f32 (A V main_v32))
        (rd S148x64 .bf16 (A V main_v51)) (rd S148x64 .bf16 (A V main_v53)) (rd S32x64 .f32 (A V main_v56)) (rd S32x64 .f32 (A V main_v57))
        (rd S64 .f32 (A V main_arg7)) n cc h
      = Gnn.x1K (Gk Sx D) (Gnn.xnOfArr X) (Pof V) n cc h := by
  unfold Layer0Pay.act Gnn.x1K
  have h1 : ∀ d : Fin 148, (rd S5000x148 .f32 (A V main_v11)) (ix2 n d) * (rd S148x64 .bf16 (A V main_v51)) (ix2 d h)
      = Gnn.xnOfArr X n d * (Pof V).ws0 ⟨d.val, by omega⟩ h := fun d => by rw [v51_apply, hX]; rfl
  have h2 : ∀ d : Fin 148, (rd S5000x148 .f32 (A V main_v45)) (ix2 n d) * (rd S148x64 .bf16 (A V main_v53)) (ix2 d h)
      = Gnn.meanMul (Gk Sx D) (fun n' => Gnn.xnOfArr X n' d) n * (Pof V).wn0 ⟨d.val, by omega⟩ h := fun d => by
    rw [aggxn_apply V Sx D X hS hD hX n d, v53_apply]; rfl
  rw [Finset.sum_congr rfl (fun d _ => h1 d), Finset.sum_congr rfl (fun d _ => h2 d), v56_apply, v57_apply, mask_apply V Sx D hD n, e_arg7]
  rfl

theorem sw0_apply (h k : Fin 64) : (rd S64x64 .bf16 (A V main_v58)) (ix2 h k) = (Pof V).sw 0 h k := by rw [v58_apply]; rfl
theorem sb0_apply (k : Fin 64) : (rd S64 .f32 (A V main_v49)) (ix1 k) = (Pof V).sb 0 k := by rw [v49_apply]; rfl

end Index

end Cert.KernelIdeal.Host0

end
-- ==== Proof.LibRowOps.lean ====
/-
  ROW GATHER AND ROW SCATTER-ADD READ AT AN INDEX.

  A table of N rows and C columns is gathered by a column of E index words (row e of the result is the table's row
  at the e-th word, read as a signed integer and clamped into [0, N - 1]), and a table of E update rows is
  scatter-added into a table of N rows by such a column (row n of the result is row n of the table plus the sum of
  the update rows whose word, read as a signed integer and not clamped, is n; a word outside [0, N - 1] drops its row).
-/
import Idealize.ShloMosaic.Lib.ValueIdx

noncomputable section

open scoped BigOperators

namespace RowOps

open Idealize.ShloMosaic Idealize.ShloMosaic.ValueIdx

/-- The dimension numbers of a row gather: operand [N, C], start indices [E, 1], result [E, C]; axis 0 is collapsed
    and indexed, axis 1 is the offset axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {N E C w : Nat}
  (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the row axis the operand coordinate of result (e, k) is the e-th word read signed, clamped into [0, N - 1]. -/
theorem gather_rows_coord0 :
    (rowGatherDims N E C wf).start (ix2 e k) idx (0 : Fin 2) + (rowGatherDims N E C wf).batchCoord (ix2 e k) (0 : Fin 2)
      + (rowGatherDims N E C wf).offCoord (ix2 e k) (0 : Fin 2) = min (idx (ix2 e 0)).toInt.toNat (N - 1) := by
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e k)
      ⟨List.idxOf (0 : Fin 2) (rowGatherDims N E C wf).startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the operand coordinate of result (e, k) is k. -/
theorem gather_rows_coord1 :
    (rowGatherDims N E C wf).start (ix2 e k) idx (1 : Fin 2) + (rowGatherDims N E C wf).batchCoord (ix2 e k) (1 : Fin 2)
      + (rowGatherDims N E C wf).offCoord (ix2 e k) (1 : Fin 2) = k.val := by
  rw [GatherDims.batchCoord_eq_zero _ _ _ List.not_mem_nil]
  have hst : (rowGatherDims N E C wf).start (ix2 e k) idx (1 : Fin 2) = 0 := by
    unfold GatherDims.start
    rw [dif_neg (show (1 : Fin 2) ∉ ([0] : List (Fin 2)) by decide)]
  have hoff : (rowGatherDims N E C wf).offCoord (ix2 e k) (1 : Fin 2) = k.val := by
    rfl
  rw [hst, hoff]
  simp

end Gather

/-- The row gather at (e, k): the table at row min (toNat of the e-th word read signed) (N - 1), column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ => exact gather_rows_coord0 wf idx e k
  | ⟨1, _⟩ => exact gather_rows_coord1 wf idx e k

/-- The dimension numbers of a row scatter: operand [N, C], scatter indices [E, 1], updates [E, C]; axis 0 is the
    inserted and indexed axis, axis 1 the window axis carried whole. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update (e, k) starts at the e-th word read signed (not clamped). -/
theorem scatter_rows_start0 :
    (rowScatterDims N E C wf).start (ix2 e k) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window of every update starts at 0. -/
theorem scatter_rows_start1 :
    (rowScatterDims N E C wf).start (ix2 e k) idx (1 : Fin 2) = 0 := by
  unfold ScatterDims.start
  rw [dif_neg (show (1 : Fin 2) ∉ ([0] : List (Fin 2)) by decide)]

/-- On the row axis the window coordinate of every update is 0. -/
theorem scatter_rows_window0 : (rowScatterDims N E C wf).window (ix2 e k) (0 : Fin 2) = 0 := by
  rfl

/-- On the column axis the window coordinate of update (e, k) is k. -/
theorem scatter_rows_window1 : (rowScatterDims N E C wf).window (ix2 e k) (1 : Fin 2) = k.val := by
  rfl

end Scatter

/-- An update lands on operand index i exactly when, on every axis, its window start plus its window coordinate is
    i's coordinate (an update leaving the operand on some axis lands nowhere). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have ha := h a
      rw [← hf]
      show _ = (((d.start j idx a + (d.window j a : Int)).toNat : Nat) : Int)
      omega
    · intro hf
      funext a
      refine Fin.ext ?_
      show (d.start j idx a + (d.window j a : Int)).toNat = (i a).val
      rw [hf a]
      omega
  · rename_i h
    constructor
    · intro hf
      cases hf
    · intro hf
      exfalso
      apply h
      intro a
      rw [hf a]
      have := (i a).isLt
      constructor <;> omega

/-- Update (e, k) lands on (n, k') exactly when the e-th word read signed is n and k = k'. -/
theorem resultIdx_rows {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (idx (ix2 e 0)).toInt = (n.val : Int) ∧ k = k' := by
  rw [resultIdx?_eq_some_iff]
  constructor
  · intro h
    have a0 : (rowScatterDims N E C wf).start (ix2 e k) idx (0 : Fin 2)
        + ((rowScatterDims N E C wf).window (ix2 e k) (0 : Fin 2) : Int) = (n.val : Int) := h (0 : Fin 2)
    have a1 : (rowScatterDims N E C wf).start (ix2 e k) idx (1 : Fin 2)
        + ((rowScatterDims N E C wf).window (ix2 e k) (1 : Fin 2) : Int) = (k'.val : Int) := h (1 : Fin 2)
    rw [scatter_rows_start0, scatter_rows_window0] at a0
    rw [scatter_rows_start1, scatter_rows_window1] at a1
    exact ⟨by omega, Fin.ext (by omega)⟩
  · rintro ⟨h0, rfl⟩ a
    match a with
    | ⟨0, _⟩ =>
      show (rowScatterDims N E C wf).start (ix2 e k) idx (0 : Fin 2)
        + ((rowScatterDims N E C wf).window (ix2 e k) (0 : Fin 2) : Int) = (n.val : Int)
      rw [scatter_rows_start0, scatter_rows_window0]
      omega
    | ⟨1, _⟩ =>
      show (rowScatterDims N E C wf).start (ix2 e k) idx (1 : Fin 2)
        + ((rowScatterDims N E C wf).window (ix2 e k) (1 : Fin 2) : Int) = (k.val : Int)
      rw [scatter_rows_start1, scatter_rows_window1]
      omega

/-- The row scatter-add at (n, k): the table's element plus the sum, over the update rows whose word read signed
    is n, of their element in column k. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k) + ∑ e ∈ Finset.univ.filter (fun e : Fin E => (idx (ix2 e 0)).toInt = (n.val : Int)),
          upd (ix2 e k) := by
  unfold Ideal.hostScatterAdd
  congr 1
  rw [Finset.sum_filter, Finset.sum_filter, sum_idx2]
  refine Finset.sum_congr rfl fun e _ => ?_
  simp only [resultIdx_rows]
  by_cases h : (idx (ix2 e 0)).toInt = (n.val : Int)
  · simp [h, Finset.sum_ite_eq']
  · simp [h]

end RowOps

end
-- ==== Proof.Ref.LibRowOps3.lean ====
/-
  GATHER AND SCATTER-ADD ALONG THE FIRST AXIS OF A THREE-AXIS ARRAY, AND THE SCATTER-ADD OF A VECTOR, READ AT AN INDEX.

  An array of N slabs, each C by D, is gathered by a column of E index words: slab e of the result is the array's slab
  at the e-th word, read as a signed integer and clamped into [0, N - 1]. An array of E update slabs is scatter-added
  into an array of N slabs by such a column: slab n of the result is slab n of the array plus the sum of the update
  slabs whose word, read as a signed integer and not clamped, is n (a word outside [0, N - 1] drops its slab). The same
  for a vector of E updates added into a vector of N entries. Sums over a one-axis and a three-axis index set are the
  iterated sums over the coordinates.
-/
import Idealize.ShloMosaic.Lib.ValueIdx

noncomputable section

open scoped BigOperators

namespace RowOps3

open Idealize.ShloMosaic Idealize.ShloMosaic.ValueIdx

/-! ## Sums over index sets -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-! ## Gather along the first of three axes -/

/-- The dimension numbers: operand [N, C, D], start indices [E, 1], result [E, C, D]; axis 0 is collapsed and indexed,
    axes 1 and 2 are offset axes carried whole. -/
abbrev gatherDims3 (N E C D : Nat)
    (wf : GatherDims.WF ⟨3, ![N, C, D]⟩ ⟨2, ![E, 1]⟩ ⟨3, ![E, C, D]⟩ [1, 2] [0] [] [0] [] 1 ![1, C, D]) :
    GatherDims ⟨3, ![N, C, D]⟩ ⟨2, ![E, 1]⟩ ⟨3, ![E, C, D]⟩ where
  offsetDims := [1, 2]
  collapsedSliceDims := [0]
  operandBatchingDims := []
  startIndicesBatchingDims := []
  startIndexMap := [0]
  indexVectorDim := 1
  sliceSizes := ![1, C, D]
  wf := wf

section Gather
variable {N E C D w : Nat}
  (wf : GatherDims.WF ⟨3, ![N, C, D]⟩ ⟨2, ![E, 1]⟩ ⟨3, ![E, C, D]⟩ [1, 2] [0] [] [0] [] 1 ![1, C, D])
  (idx : IVec ⟨2, ![E, 1]⟩ w) (e : Fin E) (c : Fin C) (k : Fin D)

/-- On axis 0 the operand coordinate of result (e, c, k) is the e-th word read signed, clamped into [0, N - 1]. -/
theorem gather3_coord0 :
    (gatherDims3 N E C D wf).start (ix3 e c k) idx (0 : Fin 3) + (gatherDims3 N E C D wf).batchCoord (ix3 e c k) (0 : Fin 3)
      + (gatherDims3 N E C D wf).offCoord (ix3 e c k) (0 : Fin 3) = min (idx (ix2 e 0)).toInt.toNat (N - 1) := by
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 3) ∈ (gatherDims3 N E C D wf).startIndexMap from List.mem_singleton.mpr rfl)]
  have hsi : (gatherDims3 N E C D wf).siIdx (ix3 e c k)
      ⟨List.idxOf (0 : Fin 3) (gatherDims3 N E C D wf).startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On axis 1 the operand coordinate of result (e, c, k) is c. -/
theorem gather3_coord1 :
    (gatherDims3 N E C D wf).start (ix3 e c k) idx (1 : Fin 3) + (gatherDims3 N E C D wf).batchCoord (ix3 e c k) (1 : Fin 3)
      + (gatherDims3 N E C D wf).offCoord (ix3 e c k) (1 : Fin 3) = c.val := by
  rw [GatherDims.batchCoord_eq_zero _ _ _ List.not_mem_nil]
  have hst : (gatherDims3 N E C D wf).start (ix3 e c k) idx (1 : Fin 3) = 0 := by
    unfold GatherDims.start
    rw [dif_neg (show (1 : Fin 3) ∉ ([0] : List (Fin 3)) by decide)]
  have hoff : (gatherDims3 N E C D wf).offCoord (ix3 e c k) (1 : Fin 3) = c.val := by
    rfl
  rw [hst, hoff]
  simp

/-- On axis 2 the operand coordinate of result (e, c, k) is k. -/
theorem gather3_coord2 :
    (gatherDims3 N E C D wf).start (ix3 e c k) idx (2 : Fin 3) + (gatherDims3 N E C D wf).batchCoord (ix3 e c k) (2 : Fin 3)
      + (gatherDims3 N E C D wf).offCoord (ix3 e c k) (2 : Fin 3) = k.val := by
  rw [GatherDims.batchCoord_eq_zero _ _ _ List.not_mem_nil]
  have hst : (gatherDims3 N E C D wf).start (ix3 e c k) idx (2 : Fin 3) = 0 := by
    unfold GatherDims.start
    rw [dif_neg (show (2 : Fin 3) ∉ ([0] : List (Fin 3)) by decide)]
  have hoff : (gatherDims3 N E C D wf).offCoord (ix3 e c k) (2 : Fin 3) = k.val := by
    rfl
  rw [hst, hoff]
  simp

end Gather

/-- The gather at (e, c, k): the array at slab min (toNat of the e-th word read signed) (N - 1), position (c, k). -/
theorem gather3_apply {α : Type} {N E C D w : Nat} (hN : 0 < N)
    (wf : GatherDims.WF ⟨3, ![N, C, D]⟩ ⟨2, ![E, 1]⟩ ⟨3, ![E, C, D]⟩ [1, 2] [0] [] [0] [] 1 ![1, C, D])
    (x : (⟨3, ![N, C, D]⟩ : Shape).Idx → α) (idx : IVec ⟨2, ![E, 1]⟩ w) (e : Fin E) (c : Fin C) (k : Fin D) :
    Host.gather (gatherDims3 N E C D wf) x idx (ix3 e c k)
      = x (ix3 ⟨min (idx (ix2 e 0)).toInt.toNat (N - 1), by omega⟩ c k) := by
  unfold Host.gather
  congr 1
  funext a
  refine Fin.ext ?_
  match a with
  | ⟨0, _⟩ => exact gather3_coord0 wf idx e c k
  | ⟨1, _⟩ => exact gather3_coord1 wf idx e c k
  | ⟨2, _⟩ => exact gather3_coord2 wf idx e c k

/-! ## Where an update lands -/

/-- An update lands on operand index i exactly when, on every axis, its window start plus its window coordinate is
    i's coordinate (an update leaving the operand on some axis lands nowhere). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have ha := h a
      rw [← hf]
      show _ = (((d.start j idx a + (d.window j a : Int)).toNat : Nat) : Int)
      omega
    · intro hf
      funext a
      refine Fin.ext ?_
      show (d.start j idx a + (d.window j a : Int)).toNat = (i a).val
      rw [hf a]
      omega
  · rename_i h
    constructor
    · intro hf
      cases hf
    · intro hf
      exfalso
      apply h
      intro a
      rw [hf a]
      have := (i a).isLt
      constructor <;> omega

/-! ## Scatter-add along the first of three axes -/

/-- The dimension numbers: operand [N, C, D], scatter indices [E, 1], updates [E, C, D]; axis 0 is the inserted and
    indexed axis, axes 1 and 2 the window axes carried whole. -/
abbrev scatterDims3 (N E C D : Nat)
    (wf : ScatterDims.WF ⟨3, ![N, C, D]⟩ ⟨2, ![E, 1]⟩ ⟨3, ![E, C, D]⟩ [1, 2] [0] [0] 1) :
    ScatterDims ⟨3, ![N, C, D]⟩ ⟨2, ![E, 1]⟩ ⟨3, ![E, C, D]⟩ where
  updateWindowDims := [1, 2]
  insertedWindowDims := [0]
  scatterDimsToOperandDims := [0]
  indexVectorDim := 1
  wf := wf

section Scatter
variable {N E C D w : Nat}
  (wf : ScatterDims.WF ⟨3, ![N, C, D]⟩ ⟨2, ![E, 1]⟩ ⟨3, ![E, C, D]⟩ [1, 2] [0] [0] 1)
  (idx : IVec ⟨2, ![E, 1]⟩ w) (e : Fin E) (c : Fin C) (k : Fin D)

/-- On axis 0 the window of update (e, c, k) starts at the e-th word read signed (not clamped). -/
theorem scatter3_start0 :
    (scatterDims3 N E C D wf).start (ix3 e c k) idx (0 : Fin 3) = (idx (ix2 e 0)).toInt := by
  unfold ScatterDims.start
  rw [dif_pos (show (0 : Fin 3) ∈ (scatterDims3 N E C D wf).scatterDimsToOperandDims from List.mem_singleton.mpr rfl)]
  have hsi : (scatterDims3 N E C D wf).siIdx (ix3 e c k)
      ⟨List.idxOf (0 : Fin 3) (scatterDims3 N E C D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 the window of every update starts at 0. -/
theorem scatter3_start1 : (scatterDims3 N E C D wf).start (ix3 e c k) idx (1 : Fin 3) = 0 := by
  unfold ScatterDims.start
  rw [dif_neg (show (1 : Fin 3) ∉ ([0] : List (Fin 3)) by decide)]

/-- On axis 2 the window of every update starts at 0. -/
theorem scatter3_start2 : (scatterDims3 N E C D wf).start (ix3 e c k) idx (2 : Fin 3) = 0 := by
  unfold ScatterDims.start
  rw [dif_neg (show (2 : Fin 3) ∉ ([0] : List (Fin 3)) by decide)]

/-- On axis 0 the window coordinate of every update is 0. -/
theorem scatter3_window0 : (scatterDims3 N E C D wf).window (ix3 e c k) (0 : Fin 3) = 0 := by
  rfl

/-- On axis 1 the window coordinate of update (e, c, k) is c. -/
theorem scatter3_window1 : (scatterDims3 N E C D wf).window (ix3 e c k) (1 : Fin 3) = c.val := by
  rfl

/-- On axis 2 the window coordinate of update (e, c, k) is k. -/
theorem scatter3_window2 : (scatterDims3 N E C D wf).window (ix3 e c k) (2 : Fin 3) = k.val := by
  rfl

end Scatter

/-- Update (e, c, k) lands on (n, c', k') exactly when the e-th word read signed is n, c = c' and k = k'. -/
theorem resultIdx3 {N E C D w : Nat}
    (wf : ScatterDims.WF ⟨3, ![N, C, D]⟩ ⟨2, ![E, 1]⟩ ⟨3, ![E, C, D]⟩ [1, 2] [0] [0] 1)
    (idx : IVec ⟨2, ![E, 1]⟩ w) (e : Fin E) (c : Fin C) (k : Fin D) (n : Fin N) (c' : Fin C) (k' : Fin D) :
    (scatterDims3 N E C D wf).resultIdx? (ix3 e c k) idx = some (ix3 n c' k')
      ↔ (idx (ix2 e 0)).toInt = (n.val : Int) ∧ c = c' ∧ k = k' := by
  rw [resultIdx?_eq_some_iff]
  constructor
  · intro h
    have a0 : (scatterDims3 N E C D wf).start (ix3 e c k) idx (0 : Fin 3)
        + ((scatterDims3 N E C D wf).window (ix3 e c k) (0 : Fin 3) : Int) = (n.val : Int) := h (0 : Fin 3)
    have a1 : (scatterDims3 N E C D wf).start (ix3 e c k) idx (1 : Fin 3)
        + ((scatterDims3 N E C D wf).window (ix3 e c k) (1 : Fin 3) : Int) = (c'.val : Int) := h (1 : Fin 3)
    have a2 : (scatterDims3 N E C D wf).start (ix3 e c k) idx (2 : Fin 3)
        + ((scatterDims3 N E C D wf).window (ix3 e c k) (2 : Fin 3) : Int) = (k'.val : Int) := h (2 : Fin 3)
    rw [scatter3_start0, scatter3_window0] at a0
    rw [scatter3_start1, scatter3_window1] at a1
    rw [scatter3_start2, scatter3_window2] at a2
    exact ⟨by omega, Fin.ext (by omega), Fin.ext (by omega)⟩
  · rintro ⟨h0, rfl, rfl⟩ a
    match a with
    | ⟨0, _⟩ =>
      show (scatterDims3 N E C D wf).start (ix3 e c k) idx (0 : Fin 3)
        + ((scatterDims3 N E C D wf).window (ix3 e c k) (0 : Fin 3) : Int) = (n.val : Int)
      rw [scatter3_start0, scatter3_window0]
      omega
    | ⟨1, _⟩ =>
      show (scatterDims3 N E C D wf).start (ix3 e c k) idx (1 : Fin 3)
        + ((scatterDims3 N E C D wf).window (ix3 e c k) (1 : Fin 3) : Int) = (c.val : Int)
      rw [scatter3_start1, scatter3_window1]
      omega
    | ⟨2, _⟩ =>
      show (scatterDims3 N E C D wf).start (ix3 e c k) idx (2 : Fin 3)
        + ((scatterDims3 N E C D wf).window (ix3 e c k) (2 : Fin 3) : Int) = (k.val : Int)
      rw [scatter3_start2, scatter3_window2]
      omega

/-- The scatter-add at (n, c, k): the array's element plus the sum, over the update slabs whose word read signed is n,
    of their element at (c, k). -/
theorem scatterAdd3_apply {N E C D w : Nat}
    (wf : ScatterDims.WF ⟨3, ![N, C, D]⟩ ⟨2, ![E, 1]⟩ ⟨3, ![E, C, D]⟩ [1, 2] [0] [0] 1)
    (x : (⟨3, ![N, C, D]⟩ : Shape).Idx → EReal) (idx : IVec ⟨2, ![E, 1]⟩ w)
    (upd : (⟨3, ![E, C, D]⟩ : Shape).Idx → EReal) (n : Fin N) (c : Fin C) (k : Fin D) :
    Ideal.hostScatterAdd (scatterDims3 N E C D wf) x idx upd (ix3 n c k)
      = x (ix3 n c k) + ∑ e ∈ Finset.univ.filter (fun e : Fin E => (idx (ix2 e 0)).toInt = (n.val : Int)),
          upd (ix3 e c k) := by
  unfold Ideal.hostScatterAdd
  congr 1
  rw [Finset.sum_filter, Finset.sum_filter, sum_idx3]
  refine Finset.sum_congr rfl fun e _ => ?_
  simp only [resultIdx3]
  by_cases h : (idx (ix2 e 0)).toInt = (n.val : Int)
  · simp only [h, true_and, if_true]
    rw [Finset.sum_eq_single c]
    · rw [Finset.sum_eq_single k]
      · simp
      · intro k' _ hk
        rw [if_neg]
        rintro ⟨-, hk'⟩
        exact hk hk'
      · intro hk; exact absurd (Finset.mem_univ k) hk
    · intro c' _ hc
      refine Finset.sum_eq_zero fun k' _ => ?_
      rw [if_neg]
      rintro ⟨hc', -⟩
      exact hc hc'
    · intro hc; exact absurd (Finset.mem_univ c) hc
  · simp [h]

/-! ## Scatter-add of a vector -/

/-- The dimension numbers: operand [N], scatter indices [E, 1], updates [E]; axis 0 is the inserted and indexed axis,
    there is no window axis. -/
abbrev scatterDims1 (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter1
variable {N E w : Nat}
  (wf : ScatterDims.WF ⟨1, ![N]⟩ ⟨2, ![E, 1]⟩ ⟨1, ![E]⟩ [] [0] [0] 1)
  (idx : IVec ⟨2, ![E, 1]⟩ w) (e : Fin E)

/-- The window of update e starts at the e-th word read signed (not clamped). -/
theorem scatter1_start0 :
    (scatterDims1 N E wf).start (ix1 e) idx (0 : Fin 1) = (idx (ix2 e 0)).toInt := by
  unfold ScatterDims.start
  rw [dif_pos (show (0 : Fin 1) ∈ (scatterDims1 N E wf).scatterDimsToOperandDims from List.mem_singleton.mpr rfl)]
  have hsi : (scatterDims1 N E wf).siIdx (ix1 e)
      ⟨List.idxOf (0 : Fin 1) (scatterDims1 N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The window coordinate of every update is 0. -/
theorem scatter1_window0 : (scatterDims1 N E wf).window (ix1 e) (0 : Fin 1) = 0 := by
  rfl

end Scatter1

/-- Update e lands on n exactly when the e-th word read signed is n. -/
theorem resultIdx1 {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (scatterDims1 N E wf).resultIdx? (ix1 e) idx = some (ix1 n) ↔ (idx (ix2 e 0)).toInt = (n.val : Int) := by
  rw [resultIdx?_eq_some_iff]
  constructor
  · intro h
    have a0 : (scatterDims1 N E wf).start (ix1 e) idx (0 : Fin 1)
        + ((scatterDims1 N E wf).window (ix1 e) (0 : Fin 1) : Int) = (n.val : Int) := h (0 : Fin 1)
    rw [scatter1_start0, scatter1_window0] at a0
    omega
  · intro h0 a
    match a with
    | ⟨0, _⟩ =>
      show (scatterDims1 N E wf).start (ix1 e) idx (0 : Fin 1)
        + ((scatterDims1 N E wf).window (ix1 e) (0 : Fin 1) : Int) = (n.val : Int)
      rw [scatter1_start0, scatter1_window0]
      omega

/-- The scatter-add of a vector at n: the vector's entry plus the sum of the updates whose word read signed is n. -/
theorem scatterAdd1_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (scatterDims1 N E wf) x idx upd (ix1 n)
      = x (ix1 n) + ∑ e ∈ Finset.univ.filter (fun e : Fin E => (idx (ix2 e 0)).toInt = (n.val : Int)),
          upd (ix1 e) := by
  unfold Ideal.hostScatterAdd
  congr 1
  rw [Finset.sum_filter, Finset.sum_filter, sum_idx1]
  refine Finset.sum_congr rfl fun e _ => ?_
  simp only [resultIdx1]

end RowOps3

end
-- ==== Proof.Ref.Layer.lean ====
/-
  ONE LAYER OF THE NETWORK, AS ARRAY OPERATIONS, READ AT AN INDEX.

  X is a 5000 x 32 x D array (node, configuration, feature); src and dst are two columns of 16000 index words, and G is
  the graph they describe (slot e reads node min (src e read signed) 4999 and adds into the node whose number is dst e
  read signed). Then

   * the product of X with a D x H matrix, at (n, c, h), is the sum over d of X (n, c, d) times the matrix at (d, h);
   * ones scatter-added into zeros by dst, then raised to at least one, is at n the larger of deg G n and one;
   * X gathered by src and scatter-added into zeros by dst, divided by that array spread over configurations and
     features, is at (n, c, d) the neighbour mean of X (., c, d) at n;
   * the layer -- product with the self weights, plus the product of the neighbour means with the neighbour weights,
     plus the bias spread over nodes and configurations, then the larger of that and zero -- is Gnn.sage at (n, c, h).
-/
import proofs.«142801_j13228499272260_2_alg».proof.Proof.Spec
import proofs.«142801_j13228499272260_2_alg».proof.Proof.SpecArgs
import proofs.«142801_j13228499272260_2_alg».proof.Proof.LibHostRead
import proofs.«142801_j13228499272260_2_alg».proof.Proof.Ref.LibRowOps3

noncomputable section

open scoped BigOperators

namespace Cert.ReferenceIdeal.RefValue

open Idealize.ShloMosaic Idealize.ShloMosaic.ValueIdx RowOps3 Cert.LibHR

/-! ## The product of a three-axis array with a matrix -/

/-- The dimension numbers: the array's last axis contracted with the matrix's rows, no batch axes. -/
abbrev dotDims3 (N C D H : Nat)
    (wf : DotDims.WF ⟨3, ![N, C, D]⟩ ⟨2, ![D, H]⟩ ⟨3, ![N, C, H]⟩ [2] [0] [0, 1] [1] [] []) :
    DotDims ⟨3, ![N, C, D]⟩ ⟨2, ![D, H]⟩ ⟨3, ![N, C, H]⟩ where
  lhsContracting := [2]
  rhsContracting := [0]
  lhsNonContracting := [0, 1]
  rhsNonContracting := [1]
  lhsBatch := []
  rhsBatch := []
  wf := wf

section Dot
variable {N C D H : Nat}
  (wf : DotDims.WF ⟨3, ![N, C, D]⟩ ⟨2, ![D, H]⟩ ⟨3, ![N, C, H]⟩ [2] [0] [0, 1] [1] [] [])
  (i : (⟨3, ![N, C, H]⟩ : Shape).Idx) (q : (dotDims3 N C D H wf).contr.Idx)

theorem dot3_lhs0 : ((dotDims3 N C D H wf).lhsIdx i q 0).val = (i 0).val := by
  unfold DotDims.lhsIdx
  rw [dif_neg (show (0 : Fin 3) ∉ ([] : List (Fin 3)) by decide),
    dif_pos (show (0 : Fin 3) ∈ ([0, 1] : List (Fin 3)) by decide)]
  rfl
theorem dot3_lhs1 : ((dotDims3 N C D H wf).lhsIdx i q 1).val = (i 1).val := by
  unfold DotDims.lhsIdx
  rw [dif_neg (show (1 : Fin 3) ∉ ([] : List (Fin 3)) by decide),
    dif_pos (show (1 : Fin 3) ∈ ([0, 1] : List (Fin 3)) by decide)]
  rfl
theorem dot3_lhs2 : ((dotDims3 N C D H wf).lhsIdx i q 2).val = (q ⟨0, Nat.one_pos⟩).val :=
  (dotDims3 N C D H wf).lhsIdx_val_of_single rfl i q
theorem dot3_rhs0 : ((dotDims3 N C D H wf).rhsIdx i q 0).val = (q ⟨0, Nat.one_pos⟩).val :=
  (dotDims3 N C D H wf).rhsIdx_val_of_single rfl i q
theorem dot3_rhs1 : ((dotDims3 N C D H wf).rhsIdx i q 1).val = (i 2).val := by
  unfold DotDims.rhsIdx
  rw [dif_neg (show (1 : Fin 2) ∉ ([] : List (Fin 2)) by decide),
    dif_pos (show (1 : Fin 2) ∈ ([1] : List (Fin 2)) by decide)]
  rfl

end Dot

/-- The product at (n, c, h): the sum over the contracted coordinate of the products of the entries. -/
theorem dot3_apply {φ₁ φ₂ : FTy} {N C D H : Nat}
    (wf : DotDims.WF ⟨3, ![N, C, D]⟩ ⟨2, ![D, H]⟩ ⟨3, ![N, C, H]⟩ [2] [0] [0, 1] [1] [] [])
    (l : (⟨3, ![N, C, D]⟩ : Shape).Idx → EReal) (r : (⟨2, ![D, H]⟩ : Shape).Idx → EReal)
    (n : Fin N) (c : Fin C) (h : Fin H) :
    Host.dotGeneral (F := Ideal) (φ₁ := φ₁) (φ₂ := φ₂) (dotDims3 N C D H wf) none l r (ix3 n c h)
      = ∑ k : Fin D, l (ix3 n c k) * r (ix2 k h) := by
  simp only [Host.dotGeneral]
  rw [Ideal.dotGeneral_apply, ← Equiv.sum_comp (contrEquiv1 (dotDims3 N C D H wf) D rfl rfl).symm]
  refine Finset.sum_congr rfl fun k _ => ?_
  have hk := contrEquiv1_symm_val (dotDims3 N C D H wf) D rfl rfl k
  have el : (dotDims3 N C D H wf).lhsIdx (ix3 n c h) ((contrEquiv1 (dotDims3 N C D H wf) D rfl rfl).symm k)
      = ix3 n c k := funext fun a => Fin.ext (by
    match a with
    | ⟨0, _⟩ => exact dot3_lhs0 wf _ _
    | ⟨1, _⟩ => exact dot3_lhs1 wf _ _
    | ⟨2, _⟩ => exact (dot3_lhs2 wf _ _).trans hk)
  have er : (dotDims3 N C D H wf).rhsIdx (ix3 n c h) ((contrEquiv1 (dotDims3 N C D H wf) D rfl rfl).symm k)
      = ix2 k h := funext fun a => Fin.ext (by
    match a with
    | ⟨0, _⟩ => exact (dot3_rhs0 wf _ _).trans hk
    | ⟨1, _⟩ => exact dot3_rhs1 wf _ _)
  rw [el, er]

/-! ## Spreading a vector over the other two axes -/

/-- A vector over the nodes, laid out as 5000 x 1 x 1 and spread over C configurations and D features, reads the
    vector at the node. -/
theorem spreadNode_apply {α : Type} {C D : Nat}
    (h1 : (⟨1, ![5000]⟩ : Shape).BroadcastsInDim ⟨3, ![5000, 1, 1]⟩ ![0])
    (h2 : (⟨3, ![5000, 1, 1]⟩ : Shape).BroadcastsInDim ⟨3, ![5000, C, D]⟩ ![0, 1, 2])
    (v : (⟨1, ![5000]⟩ : Shape).Idx → α) (n : Fin 5000) (c : Fin C) (d : Fin D) :
    broadcastInDim ⟨3, ![5000, C, D]⟩ ![0, 1, 2] h2 (broadcastInDim ⟨3, ![5000, 1, 1]⟩ ![0] h1 v) (ix3 n c d)
      = v (ix1 n) := by
  refine (broadcastInDim_apply _ h2 _ (ix3 n c d) (ix3 n (0 : Fin 1) (0 : Fin 1)) (fun a => match a with
    | ⟨0, _⟩ => by
      show n.val = if (5000 : Nat) = 1 then 0 else n.val
      rw [if_neg (by decide)]
    | ⟨1, _⟩ => by
      show 0 = if (1 : Nat) = 1 then 0 else c.val
      rw [if_pos rfl]
    | ⟨2, _⟩ => by
      show 0 = if (1 : Nat) = 1 then 0 else d.val
      rw [if_pos rfl])).trans ?_
  exact broadcastInDim_apply _ h1 v (ix3 n (0 : Fin 1) (0 : Fin 1)) (ix1 n) (fun a => match a with
    | ⟨0, _⟩ => by
      show n.val = if (5000 : Nat) = 1 then 0 else n.val
      rw [if_neg (by decide)])

/-- A vector over H features, laid out as 1 x 1 x H and spread over N nodes and C configurations, reads the vector at
    the feature. -/
theorem spreadFeat_apply {α : Type} {N C H : Nat}
    (h1 : (⟨1, ![H]⟩ : Shape).BroadcastsInDim ⟨3, ![1, 1, H]⟩ ![2])
    (h2 : (⟨3, ![1, 1, H]⟩ : Shape).BroadcastsInDim ⟨3, ![N, C, H]⟩ ![0, 1, 2])
    (v : (⟨1, ![H]⟩ : Shape).Idx → α) (n : Fin N) (c : Fin C) (h : Fin H) :
    broadcastInDim ⟨3, ![N, C, H]⟩ ![0, 1, 2] h2 (broadcastInDim ⟨3, ![1, 1, H]⟩ ![2] h1 v) (ix3 n c h)
      = v (ix1 h) := by
  refine (broadcastInDim_apply _ h2 _ (ix3 n c h) (ix3 (0 : Fin 1) (0 : Fin 1) h) (fun a => match a with
    | ⟨0, _⟩ => by
      show 0 = if (1 : Nat) = 1 then 0 else n.val
      rw [if_pos rfl]
    | ⟨1, _⟩ => by
      show 0 = if (1 : Nat) = 1 then 0 else c.val
      rw [if_pos rfl]
    | ⟨2, _⟩ => by
      show h.val = if H = 1 then 0 else h.val
      split
      · have := h.isLt; omega
      · rfl)).trans ?_
  exact broadcastInDim_apply _ h1 v (ix3 (0 : Fin 1) (0 : Fin 1) h) (ix1 h) (fun a => match a with
    | ⟨0, _⟩ => by
      show h.val = if H = 1 then 0 else h.val
      split
      · have := h.isLt; omega
      · rfl)

/-! ## The degree -/

/-- Ones scatter-added into zeros by dst, raised to at least one: at n, the larger of deg G n and one. -/
theorem degMax_apply
    (wf1 : ScatterDims.WF ⟨1, ![5000]⟩ ⟨2, ![16000, 1]⟩ ⟨1, ![16000]⟩ [] [0] [0] 1)
    (hzN : (⟨0, ![]⟩ : Shape).BroadcastsInDim ⟨1, ![5000]⟩ ![])
    (hzE : (⟨0, ![]⟩ : Shape).BroadcastsInDim ⟨1, ![16000]⟩ ![])
    (src dst : IVec ⟨2, ![16000, 1]⟩ 32) (n : Fin 5000) :
    maximumf (F := Ideal)
        (Host.scatterAdd (F := Ideal) (φ := .f32) (scatterDims1 5000 16000 wf1)
          (broadcastInDim ⟨1, ![5000]⟩ ![] hzN (constant (F := Ideal) ⟨0, ![]⟩ .f32 0x00000000#32)) dst
          (broadcastInDim ⟨1, ![16000]⟩ ![] hzE (constant (F := Ideal) ⟨0, ![]⟩ .f32 0x3F800000#32)))
        (broadcastInDim ⟨1, ![5000]⟩ ![] hzN (constant (F := Ideal) ⟨0, ![]⟩ .f32 0x3F800000#32)) (ix1 n)
      = max (Gnn.deg (Gnn.graphOfCols src dst) n) Gnn.one := by
  rw [maximumf_apply]
  congr 1
  · show Ideal.hostScatterAdd (scatterDims1 5000 16000 wf1) _ dst _ (ix1 n) = _
    rw [scatterAdd1_apply, bcastScalar_apply]
    unfold Gnn.deg Gnn.Graph.into Gnn.graphOfCols
    congr 1

/-! ## The neighbour mean -/

/-- X gathered by src, scatter-added into zeros by dst, divided by a node vector v spread over configurations and
    features: at (n, c, d), the sum of X (., c, d) over the sources of the slots landing on n, over v at n. -/
theorem meanArr_apply {D : Nat}
    (gwf : GatherDims.WF ⟨3, ![5000, 32, D]⟩ ⟨2, ![16000, 1]⟩ ⟨3, ![16000, 32, D]⟩ [1, 2] [0] [] [0] [] 1 ![1, 32, D])
    (swf : ScatterDims.WF ⟨3, ![5000, 32, D]⟩ ⟨2, ![16000, 1]⟩ ⟨3, ![16000, 32, D]⟩ [1, 2] [0] [0] 1)
    (hz : (⟨0, ![]⟩ : Shape).BroadcastsInDim ⟨3, ![5000, 32, D]⟩ ![])
    (h1 : (⟨1, ![5000]⟩ : Shape).BroadcastsInDim ⟨3, ![5000, 1, 1]⟩ ![0])
    (h2 : (⟨3, ![5000, 1, 1]⟩ : Shape).BroadcastsInDim ⟨3, ![5000, 32, D]⟩ ![0, 1, 2])
    (X : (⟨3, ![5000, 32, D]⟩ : Shape).Idx → EReal) (src dst : IVec ⟨2, ![16000, 1]⟩ 32)
    (v : (⟨1, ![5000]⟩ : Shape).Idx → EReal) (n : Fin 5000) (c : Fin 32) (d : Fin D) :
    Host.divf (F := Ideal) (φ := .f32)
        (Host.scatterAdd (F := Ideal) (φ := .f32) (scatterDims3 5000 16000 32 D swf)
          (broadcastInDim ⟨3, ![5000, 32, D]⟩ ![] hz (constant (F := Ideal) ⟨0, ![]⟩ .f32 0x00000000#32)) dst
          (Host.gather (gatherDims3 5000 16000 32 D gwf) X src))
        (broadcastInDim ⟨3, ![5000, 32, D]⟩ ![0, 1, 2] h2 (broadcastInDim ⟨3, ![5000, 1, 1]⟩ ![0] h1 v)) (ix3 n c d)
      = Ideal.div (Gnn.nsum (Gnn.graphOfCols src dst) (fun n' => X (ix3 n' c d)) n) (v (ix1 n)) := by
  show Ideal.div (Ideal.hostScatterAdd (scatterDims3 5000 16000 32 D swf) _ dst _ (ix3 n c d)) _ = _
  rw [spreadNode_apply, scatterAdd3_apply, bcastScalar_apply]
  congr 1
  unfold Gnn.nsum Gnn.Graph.into Gnn.graphOfCols
  congr 1
  refine Finset.sum_congr rfl fun e _ => ?_
  rw [gather3_apply (by decide)]

/-! ## One layer -/

/-- The layer on the array X with self weights ws, neighbour weights wn and bias b, at (n, c, h). -/
theorem sageArr_apply {D : Nat}
    (dwf : DotDims.WF ⟨3, ![5000, 32, D]⟩ ⟨2, ![D, 64]⟩ ⟨3, ![5000, 32, 64]⟩ [2] [0] [0, 1] [1] [] [])
    (gwf : GatherDims.WF ⟨3, ![5000, 32, D]⟩ ⟨2, ![16000, 1]⟩ ⟨3, ![16000, 32, D]⟩ [1, 2] [0] [] [0] [] 1 ![1, 32, D])
    (swf : ScatterDims.WF ⟨3, ![5000, 32, D]⟩ ⟨2, ![16000, 1]⟩ ⟨3, ![16000, 32, D]⟩ [1, 2] [0] [0] 1)
    (wf1 : ScatterDims.WF ⟨1, ![5000]⟩ ⟨2, ![16000, 1]⟩ ⟨1, ![16000]⟩ [] [0] [0] 1)
    (hz : (⟨0, ![]⟩ : Shape).BroadcastsInDim ⟨3, ![5000, 32, D]⟩ ![])
    (hzN : (⟨0, ![]⟩ : Shape).BroadcastsInDim ⟨1, ![5000]⟩ ![])
    (hzE : (⟨0, ![]⟩ : Shape).BroadcastsInDim ⟨1, ![16000]⟩ ![])
    (hzY : (⟨0, ![]⟩ : Shape).BroadcastsInDim ⟨3, ![5000, 32, 64]⟩ ![])
    (h1 : (⟨1, ![5000]⟩ : Shape).BroadcastsInDim ⟨3, ![5000, 1, 1]⟩ ![0])
    (h2 : (⟨3, ![5000, 1, 1]⟩ : Shape).BroadcastsInDim ⟨3, ![5000, 32, D]⟩ ![0, 1, 2])
    (hb1 : (⟨1, ![64]⟩ : Shape).BroadcastsInDim ⟨3, ![1, 1, 64]⟩ ![2])
    (hb2 : (⟨3, ![1, 1, 64]⟩ : Shape).BroadcastsInDim ⟨3, ![5000, 32, 64]⟩ ![0, 1, 2])
    (X : (⟨3, ![5000, 32, D]⟩ : Shape).Idx → EReal) (src dst : IVec ⟨2, ![16000, 1]⟩ 32)
    (ws wn : (⟨2, ![D, 64]⟩ : Shape).Idx → EReal) (b : (⟨1, ![64]⟩ : Shape).Idx → EReal)
    (n : Fin 5000) (c : Fin 32) (h : Fin 64) :
    maximumf (F := Ideal) (φ := .f32)
        (addf (F := Ideal)
          (addf (F := Ideal)
            (Host.dotGeneral (F := Ideal) (φ₁ := .f32) (φ₂ := .f32) (dotDims3 5000 32 D 64 dwf) none X ws)
            (Host.dotGeneral (F := Ideal) (φ₁ := .f32) (φ₂ := .f32) (dotDims3 5000 32 D 64 dwf) none
              (Host.divf (F := Ideal) (φ := .f32)
                (Host.scatterAdd (F := Ideal) (φ := .f32) (scatterDims3 5000 16000 32 D swf)
                  (broadcastInDim ⟨3, ![5000, 32, D]⟩ ![] hz (constant (F := Ideal) ⟨0, ![]⟩ .f32 0x00000000#32)) dst
                  (Host.gather (gatherDims3 5000 16000 32 D gwf) X src))
                (broadcastInDim ⟨3, ![5000, 32, D]⟩ ![0, 1, 2] h2 (broadcastInDim ⟨3, ![5000, 1, 1]⟩ ![0] h1
                  (maximumf (F := Ideal)
                    (Host.scatterAdd (F := Ideal) (φ := .f32) (scatterDims1 5000 16000 wf1)
                      (broadcastInDim ⟨1, ![5000]⟩ ![] hzN (constant (F := Ideal) ⟨0, ![]⟩ .f32 0x00000000#32)) dst
                      (broadcastInDim ⟨1, ![16000]⟩ ![] hzE (constant (F := Ideal) ⟨0, ![]⟩ .f32 0x3F800000#32)))
                    (broadcastInDim ⟨1, ![5000]⟩ ![] hzN (constant (F := Ideal) ⟨0, ![]⟩ .f32 0x3F800000#32))))))
              wn))
          (broadcastInDim ⟨3, ![5000, 32, 64]⟩ ![0, 1, 2] hb2 (broadcastInDim ⟨3, ![1, 1, 64]⟩ ![2] hb1 b)))
        (broadcastInDim ⟨3, ![5000, 32, 64]⟩ ![] hzY (constant (F := Ideal) ⟨0, ![]⟩ .f32 0x00000000#32)) (ix3 n c h)
      = Gnn.sage (Gnn.graphOfCols src dst) (fun n' c' d' => X (ix3 n' c' d')) (fun d' h' => ws (ix2 d' h'))
          (fun d' h' => wn (ix2 d' h')) (fun h' => b (ix1 h')) n c h := by
  rw [maximumf_apply, addf_apply, addf_apply, dot3_apply, dot3_apply, spreadFeat_apply, bcastScalar_apply]
  unfold Gnn.sage Gnn.relu Gnn.meanDiv
  congr 1
  congr 1
  congr 1
  refine Finset.sum_congr rfl fun d _ => ?_
  rw [meanArr_apply, degMax_apply wf1 hzN hzE src dst n]

end Cert.ReferenceIdeal.RefValue

end
-- ==== Proof.Ref.Skip.lean ====
/-
  THE FIRST LAYER'S INPUT, THE WEIGHT SLICES AND THE SKIP MAP, AS ARRAY OPERATIONS, READ AT AN INDEX.

   * The 5000 x 148 node features spread over the 32 configurations, beside the 32 x 24 configuration features spread
     over the 5000 nodes, is at (n, c, d) the node feature d of n when d < 148 and the configuration feature d - 148
     of c otherwise.
   * Slab l of an L x 64 x 64 array, cut out and laid out as a 64 x 64 matrix, reads the array at (l, h, k); row l of an
     L x 64 array, cut out and laid out as a vector, reads the array at (l, k).
   * The skip map on the array Y -- its product with a 64 x 64 matrix, plus a bias spread over nodes and
     configurations, then the larger of that and zero -- is Gnn.skip at (n, c, k).
-/
import proofs.«142801_j13228499272260_2_alg».proof.Proof.Ref.Layer

noncomputable section

open scoped BigOperators

namespace Cert.ReferenceIdeal.RefValue

open Idealize.ShloMosaic Idealize.ShloMosaic.ValueIdx RowOps3 Cert.LibHR

/-! ## The first layer's input -/

/-- Node features spread over configurations beside configuration features spread over nodes, at (n, c, d). -/
theorem x0Arr_apply
    (hc : Shape.Concatenates [(⟨3, ![5000, 32, 148]⟩ : Shape), (⟨3, ![5000, 32, 24]⟩ : Shape)] ⟨3, ![5000, 32, 172]⟩ 2)
    (hx1 : (⟨2, ![5000, 148]⟩ : Shape).BroadcastsInDim ⟨3, ![5000, 1, 148]⟩ ![0, 2])
    (hx2 : (⟨3, ![5000, 1, 148]⟩ : Shape).BroadcastsInDim ⟨3, ![5000, 32, 148]⟩ ![0, 1, 2])
    (hf1 : (⟨2, ![32, 24]⟩ : Shape).BroadcastsInDim ⟨3, ![1, 32, 24]⟩ ![1, 2])
    (hf2 : (⟨3, ![1, 32, 24]⟩ : Shape).BroadcastsInDim ⟨3, ![5000, 32, 24]⟩ ![0, 1, 2])
    (hs : (⟨3, ![1, 32, 24]⟩ : Shape).ShapeCasts ⟨2, ![32, 24]⟩)
    (xn : (⟨2, ![5000, 148]⟩ : Shape).Idx → EReal) (a3 : (⟨3, ![1, 32, 24]⟩ : Shape).Idx → EReal)
    (n : Fin 5000) (c : Fin 32) (d : Fin 172) :
    concatenate ⟨3, ![5000, 32, 172]⟩ 2
        [⟨⟨3, ![5000, 32, 148]⟩, broadcastInDim ⟨3, ![5000, 32, 148]⟩ ![0, 1, 2] hx2
            (broadcastInDim ⟨3, ![5000, 1, 148]⟩ ![0, 2] hx1 xn)⟩,
         ⟨⟨3, ![5000, 32, 24]⟩, broadcastInDim ⟨3, ![5000, 32, 24]⟩ ![0, 1, 2] hf2
            (broadcastInDim ⟨3, ![1, 32, 24]⟩ ![1, 2] hf1 (shapeCast ⟨2, ![32, 24]⟩ a3 hs))⟩] hc (ix3 n c d)
      = Gnn.x0 (Gnn.xnOfArr xn) (fun c' k => a3 (ix3 0 c' k)) n c d := by
  unfold Gnn.x0 Gnn.xnOfArr
  split
  · rename_i hd
    refine (concatenate_pair_apply_left (t := ⟨3, ![5000, 32, 172]⟩) (s₁ := ⟨3, ![5000, 32, 148]⟩)
      (s₂ := ⟨3, ![5000, 32, 24]⟩) (2 : Fin 3) _ _ hc (ix3 n c d) rfl (ix3 n c (⟨d.val, hd⟩ : Fin 148)) (fun b => match b with
      | ⟨0, _⟩ => rfl
      | ⟨1, _⟩ => rfl
      | ⟨2, _⟩ => rfl)).trans ?_
    refine (broadcastInDim_apply _ hx2 _ (ix3 n c ⟨d.val, hd⟩) (ix3 n (0 : Fin 1) ⟨d.val, hd⟩) (fun a => match a with
      | ⟨0, _⟩ => by
        show n.val = if (5000 : Nat) = 1 then 0 else n.val
        rw [if_neg (by decide)]
      | ⟨1, _⟩ => by
        show 0 = if (1 : Nat) = 1 then 0 else c.val
        rw [if_pos rfl]
      | ⟨2, _⟩ => by
        show d.val = if (148 : Nat) = 1 then 0 else d.val
        rw [if_neg (by decide)])).trans ?_
    exact broadcastInDim_apply _ hx1 xn (ix3 n (0 : Fin 1) ⟨d.val, hd⟩) (ix2 n ⟨d.val, hd⟩) (fun a => match a with
      | ⟨0, _⟩ => by
        show n.val = if (5000 : Nat) = 1 then 0 else n.val
        rw [if_neg (by decide)]
      | ⟨1, _⟩ => by
        show d.val = if (148 : Nat) = 1 then 0 else d.val
        rw [if_neg (by decide)])
  · rename_i hd
    have hd' : d.val - 148 < 24 := by have := d.isLt; omega
    refine (concatenate_pair_apply_right (t := ⟨3, ![5000, 32, 172]⟩) (s₁ := ⟨3, ![5000, 32, 148]⟩)
      (s₂ := ⟨3, ![5000, 32, 24]⟩) (2 : Fin 3) _ _ hc (ix3 n c d) rfl rfl (ix3 n c (⟨d.val - 148, hd'⟩ : Fin 24))
      (fun b => match b with
        | ⟨0, _⟩ => fun _ => rfl
        | ⟨1, _⟩ => fun _ => rfl
        | ⟨2, _⟩ => fun hb => absurd rfl hb)
      (by show d.val - 148 + 148 = d.val; omega)).trans ?_
    refine (broadcastInDim_apply _ hf2 _ (ix3 n c ⟨d.val - 148, hd'⟩) (ix3 (0 : Fin 1) c ⟨d.val - 148, hd'⟩)
      (fun a => match a with
      | ⟨0, _⟩ => by
        show 0 = if (1 : Nat) = 1 then 0 else n.val
        rw [if_pos rfl]
      | ⟨1, _⟩ => by
        show c.val = if (32 : Nat) = 1 then 0 else c.val
        rw [if_neg (by decide)]
      | ⟨2, _⟩ => by
        show d.val - 148 = if (24 : Nat) = 1 then 0 else d.val - 148
        rw [if_neg (by decide)])).trans ?_
    refine (broadcastInDim_apply _ hf1 _ (ix3 (0 : Fin 1) c ⟨d.val - 148, hd'⟩) (ix2 c ⟨d.val - 148, hd'⟩)
      (fun a => match a with
      | ⟨0, _⟩ => by
        show c.val = if (32 : Nat) = 1 then 0 else c.val
        rw [if_neg (by decide)]
      | ⟨1, _⟩ => by
        show d.val - 148 = if (24 : Nat) = 1 then 0 else d.val - 148
        rw [if_neg (by decide)])).trans ?_
    exact shapeCast_apply a3 hs (ix2 c ⟨d.val - 148, hd'⟩) (ix3 (0 : Fin 1) c ⟨d.val - 148, hd'⟩) (by
      rw [Shape.rowMajor_val_three, Shape.rowMajor_val_two]
      show (0 * 32 + c.val) * 24 + (d.val - 148) = c.val * 24 + (d.val - 148)
      omega)

/-! ## Slices of the stacked weights -/

/-- Slab l of an L x 64 x 64 array, cut out and laid out as a matrix, reads the array at (l, h, k). -/
theorem matSlice_apply {α : Type} {L : Nat} (l : Fin L) (x : (⟨3, ![L, 64, 64]⟩ : Shape).Idx → α)
    (hs : (⟨3, ![L, 64, 64]⟩ : Shape).Slices ![l.val, 0, 0] ⟨3, ![1, 64, 64]⟩)
    (hc : (⟨3, ![1, 64, 64]⟩ : Shape).ShapeCasts ⟨2, ![64, 64]⟩) (h k : Fin 64) :
    shapeCast ⟨2, ![64, 64]⟩ (extractStridedSlice ⟨3, ![1, 64, 64]⟩ ![l.val, 0, 0] x hs) hc (ix2 h k)
      = x (ix3 l h k) := by
  refine (shapeCast_apply _ hc (ix2 h k) (ix3 (0 : Fin 1) h k) (by
    rw [Shape.rowMajor_val_three, Shape.rowMajor_val_two]
    show (0 * 64 + h.val) * 64 + k.val = h.val * 64 + k.val
    omega)).trans ?_
  exact extractStridedSlice_apply ![l.val, 0, 0] x hs (ix3 (0 : Fin 1) h k) (ix3 l h k) (fun c => match c with
    | ⟨0, _⟩ => by show l.val = l.val + 0; omega
    | ⟨1, _⟩ => by show h.val = 0 + h.val; omega
    | ⟨2, _⟩ => by show k.val = 0 + k.val; omega)

/-- Row l of an L x 64 array, cut out and laid out as a vector, reads the array at (l, k). -/
theorem vecSlice_apply {α : Type} {L : Nat} (l : Fin L) (x : (⟨2, ![L, 64]⟩ : Shape).Idx → α)
    (hs : (⟨2, ![L, 64]⟩ : Shape).Slices ![l.val, 0] ⟨2, ![1, 64]⟩)
    (hc : (⟨2, ![1, 64]⟩ : Shape).ShapeCasts ⟨1, ![64]⟩) (k : Fin 64) :
    shapeCast ⟨1, ![64]⟩ (extractStridedSlice ⟨2, ![1, 64]⟩ ![l.val, 0] x hs) hc (ix1 k) = x (ix2 l k) := by
  refine (shapeCast_apply _ hc (ix1 k) (ix2 (0 : Fin 1) k) (by
    rw [Shape.rowMajor_val_two, Shape.rowMajor_val_one]
    show 0 * 64 + k.val = k.val
    omega)).trans ?_
  exact extractStridedSlice_apply ![l.val, 0] x hs (ix2 (0 : Fin 1) k) (ix2 l k) (fun c => match c with
    | ⟨0, _⟩ => by show l.val = l.val + 0; omega
    | ⟨1, _⟩ => by show k.val = 0 + k.val; omega)

/-! ## The skip map -/

/-- The skip map on the array Y with matrix sw and bias sb, at (n, c, k). -/
theorem skipArr_apply
    (dwf : DotDims.WF ⟨3, ![5000, 32, 64]⟩ ⟨2, ![64, 64]⟩ ⟨3, ![5000, 32, 64]⟩ [2] [0] [0, 1] [1] [] [])
    (hzY : (⟨0, ![]⟩ : Shape).BroadcastsInDim ⟨3, ![5000, 32, 64]⟩ ![])
    (hb1 : (⟨1, ![64]⟩ : Shape).BroadcastsInDim ⟨3, ![1, 1, 64]⟩ ![2])
    (hb2 : (⟨3, ![1, 1, 64]⟩ : Shape).BroadcastsInDim ⟨3, ![5000, 32, 64]⟩ ![0, 1, 2])
    (Y : (⟨3, ![5000, 32, 64]⟩ : Shape).Idx → EReal) (sw : (⟨2, ![64, 64]⟩ : Shape).Idx → EReal)
    (sb : (⟨1, ![64]⟩ : Shape).Idx → EReal) (n : Fin 5000) (c : Fin 32) (k : Fin 64) :
    maximumf (F := Ideal) (φ := .f32)
        (addf (F := Ideal)
          (Host.dotGeneral (F := Ideal) (φ₁ := .f32) (φ₂ := .f32) (dotDims3 5000 32 64 64 dwf) none Y sw)
          (broadcastInDim ⟨3, ![5000, 32, 64]⟩ ![0, 1, 2] hb2 (broadcastInDim ⟨3, ![1, 1, 64]⟩ ![2] hb1 sb)))
        (broadcastInDim ⟨3, ![5000, 32, 64]⟩ ![] hzY (constant (F := Ideal) ⟨0, ![]⟩ .f32 0x00000000#32)) (ix3 n c k)
      = Gnn.skip (fun n' c' h' => Y (ix3 n' c' h')) (fun h' k' => sw (ix2 h' k')) (fun k' => sb (ix1 k')) n c k := by
  rw [maximumf_apply, addf_apply, dot3_apply, spreadFeat_apply, bcastScalar_apply]
  rfl

end Cert.ReferenceIdeal.RefValue

end
-- ==== Proof.KI.Host1.lean ====
/-
  A HOST STRETCH OF THE KERNEL PROGRAM BETWEEN TWO LAYERS: THE NEIGHBOUR SUMS OF THE FIRST LAYER'S ACTIVATIONS, SCALED, AND THE
  NEXT LAYER'S WEIGHTS.

  The stretch reads the two columns of 16000 slot words, the first layer's 5000 x 2048 activations (a node's row holds its 32
  configurations of 64 features) and a vector of one scale per node. It raises negative source words by 5000, gathers the
  activation rows at the source words, scatter-adds them into zeros at the target words, and multiplies each node's row by
  the node's scale. It also cuts the next layer's matrices and biases out of the stacked parameter arrays.
-/
import proofs.«142801_j13228499272260_2_alg».proof.Proof.KI.HostLines
import proofs.«142801_j13228499272260_2_alg».proof.Proof.LibRowOps
import proofs.«142801_j13228499272260_2_alg».proof.Proof.LibHostRead
import proofs.«142801_j13228499272260_2_alg».proof.Proof.Spec
import proofs.«142801_j13228499272260_2_alg».proof.Proof.Ref.Skip

set_option maxRecDepth 16384

noncomputable section

open scoped BigOperators

namespace Cert.KernelIdeal.HostTail

open Cert.KernelIdeal Cert.KernelIdeal.Gen
open Idealize.ShloMosaic Idealize.ShloMosaic.TcCoe Idealize.ShloMosaic.StableHlo Idealize.ShloMosaic.ValueIdx
open Cert.CubePad Cert.LibHR

/-! ## The two index columns, and a column spread over the row -/

/-- The column the gathers index by: a vector of 16000 words, a negative word raised by 5000, laid out as a column. -/
def srcColOf (s : (⟨S16000, .i32⟩ : BufTy).Contents (Elt Ideal)) : (⟨S16000x1, .i32⟩ : BufTy).Contents (Elt Ideal) :=
  broadcastInDim S16000x1 ![0] bcast_S16000_S16000x1_0 (select (cmpi .slt s (broadcastInDim S16000 ![] bcast_S_S16000 (constantI S_ 32 0#32))) (addi s (broadcastInDim S16000 ![] bcast_S_S16000 (constantI S_ 32 5000#32))) s)

/-- The column the scatter-adds index by: a vector of 16000 words laid out as a column, no word changed. -/
def dstColOf (d : (⟨S16000, .i32⟩ : BufTy).Contents (Elt Ideal)) : (⟨S16000x1, .i32⟩ : BufTy).Contents (Elt Ideal) :=
  broadcastInDim S16000x1 ![0] bcast_S16000_S16000x1_0 d

/-- A vector laid out as a column and spread over b columns reads the vector at the row. -/
theorem spreadCol_apply {α : Type} {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (x : (⟨1, ![a]⟩ : Shape).Idx → α)
    (i : Fin a) (j : Fin b) :
    broadcastInDim ⟨2, ![a, b]⟩ ![0, 1] h2 (broadcastInDim ⟨2, ![a, 1]⟩ ![0] h1 x) (ix2 i j) = x (ix1 i) := by
  refine (broadcastInDim_apply _ h2 _ (ix2 i j) (ix2 i (0 : Fin 1)) (fun c => match c with
    | ⟨0, _⟩ => by
      show i.val = if a = 1 then 0 else i.val
      split
      · have := i.isLt; omega
      · rfl
    | ⟨1, _⟩ => by
      show 0 = if (1 : Nat) = 1 then 0 else j.val
      rw [if_pos rfl])).trans ?_
  exact bcastCol_apply h1 x i (0 : Fin 1)

/-- The slot words, the node scales, as typed arrays. -/
abbrev srcWords (V : Valuation τ sig (Elt Ideal)) : (⟨S16000, .i32⟩ : BufTy).Contents (Elt Ideal) := V (Proc.devRef .tc main_v16)
@[inherit_doc srcWords]
abbrev dstWords (V : Valuation τ sig (Elt Ideal)) : (⟨S16000, .i32⟩ : BufTy).Contents (Elt Ideal) := V (Proc.devRef .tc main_v21)
@[inherit_doc srcWords]
abbrev nodeScale (V : Valuation τ sig (Elt Ideal)) : (⟨S5000, .f32⟩ : BufTy).Contents (Elt Ideal) := V (Proc.devRef .tc main_v29)

/-- The first layer's activations, as a typed array. -/
abbrev acts1 (V : Valuation τ sig (Elt Ideal)) : (⟨S5000x2048, .bf16⟩ : BufTy).Contents (Elt Ideal) := V (Proc.devRef .tc main_v59_0)

section
variable (V : Valuation τ sig (Elt Ideal))

/-! ## The scaled neighbour sums -/

/-- The stretch's aggregate buffer as one array expression. -/
theorem agg1_whole :
    after (hostOps1 (F := Ideal)) V (Proc.devRef .tc main_v74)
      = truncf .bf16 (mulf (F := Ideal) (φ := .f32)
          (Host.scatterAdd (F := Ideal) (φ := .f32) scatter_S5000x2048_S16000x1_S16000x2048_1_0_0_1
            (broadcastInDim S5000x2048 ![] bcast_S_S5000x2048 (constant (F := Ideal) S_ .f32 0x00000000#32))
            (dstColOf (dstWords V))
            (extf .f32 (Host.gather gather_S5000x2048_S16000x1_S16000x2048_1_0_n_n_0_1_12048 (acts1 V) (srcColOf (srcWords V))) bitsLt_bf16_f32))
          (broadcastInDim S5000x2048 ![0, 1] bcast_S5000x1_S5000x2048_0_1
            (broadcastInDim S5000x1 ![0] bcast_S5000_S5000x1_0 (nodeScale V)))) bitsLt_bf16_f32 := by
  have L := Host.hostOps1_line (F := Ideal)
  rw [L.unary_at V 17 main_v73 main_v74 _ _ _ rfl (by decide) (by decide),
    L.binary_at V 16 main_v70 main_v72 main_v73 _ _ _ _ rfl (by decide) (by decide) (by decide),
    L.ternary_at V 13 main_v68 main_v69 main_v67 main_v70 _ _ _ _ _ rfl (by decide) (by decide) (by decide) (by decide),
    L.unary_at V 11 main_cst_10 main_v68 _ _ _ rfl (by decide) (by decide),
    L.nullary_at V 10 main_cst_10 _ _ rfl (by decide),
    L.unary_at V 12 main_v21 main_v69 _ _ _ rfl (by decide) (by decide),
    L.unary_at V 9 main_v66 main_v67 _ _ _ rfl (by decide) (by decide),
    L.binary_at V 8 main_v59_0 main_v65 main_v66 _ _ _ _ rfl (by decide) (by decide) (by decide),
    L.unary_at V 7 main_v64 main_v65 _ _ _ rfl (by decide) (by decide),
    L.ternary_at V 6 main_v61 main_v63 main_v16 main_v64 _ _ _ _ _ rfl (by decide) (by decide) (by decide) (by decide),
    L.binary_at V 2 main_v16 main_v60 main_v61 _ _ _ _ rfl (by decide) (by decide) (by decide),
    L.unary_at V 1 main_c_8 main_v60 _ _ _ rfl (by decide) (by decide),
    L.nullary_at V 0 main_c_8 _ _ rfl (by decide),
    L.binary_at V 5 main_v16 main_v62 main_v63 _ _ _ _ rfl (by decide) (by decide) (by decide),
    L.unary_at V 4 main_c_9 main_v62 _ _ _ rfl (by decide) (by decide),
    L.nullary_at V 3 main_c_9 _ _ rfl (by decide),
    L.unary_at V 15 main_v71 main_v72 _ _ _ rfl (by decide) (by decide),
    L.unary_at V 14 main_v29 main_v71 _ _ _ rfl (by decide) (by decide),
    L.arg V (r := main_v21) (by decide), L.arg V (r := main_v16) (by decide), L.arg V (r := main_v59_0) (by decide),
    L.arg V (r := main_v29) (by decide)]
  rfl

/-- The scaled neighbour sum at node n, position q of the row. -/
theorem agg1_apply (n : Fin 5000) (q : Fin 2048) :
    after (hostOps1 (F := Ideal)) V (Proc.devRef .tc main_v74) (ix2 n q)
      = (Gnn.zero + ∑ e ∈ Finset.univ.filter (fun e : Fin 16000 => (dstColOf (dstWords V) (ix2 e 0)).toInt = (n.val : Int)),
          acts1 V (ix2 ⟨min (srcColOf (srcWords V) (ix2 e 0)).toInt.toNat (5000 - 1), by omega⟩ q)) * nodeScale V (ix1 n) := by
  rw [agg1_whole]
  show Ideal.hostScatterAdd (RowOps.rowScatterDims 5000 16000 2048 scatter_S5000x2048_S16000x1_S16000x2048_1_0_0_1_wf) _
      (dstColOf (dstWords V)) _ (ix2 n q) * _ = _
  rw [RowOps.scatterAdd_rows_apply, bcastScalar_apply, spreadCol_apply]
  refine congrArg₂ (· * ·) (congrArg₂ (· + ·) rfl (Finset.sum_congr rfl fun e _ => ?_)) rfl
  show Host.gather (RowOps.rowGatherDims 5000 16000 2048 gather_S5000x2048_S16000x1_S16000x2048_1_0_n_n_0_1_12048_wf)
      (acts1 V) (srcColOf (srcWords V)) (ix2 e q) = _
  rw [RowOps.gather_rows_apply (by decide)]

/-! ## The next layer's weights -/

/-- The next layer's self matrix: row 0 of the stacked self matrices. -/
theorem wSelf1_apply (k h : Fin 64) : after (hostOps1 (F := Ideal)) V (Proc.devRef .tc main_v85) (ix2 k h) = V (Proc.devRef .tc main_arg8) (ix3 0 k h) := by
  have L := Host.hostOps1_line (F := Ideal)
  rw [L.unary_at V 28 main_v76 main_v85 _ _ _ rfl (by decide) (by decide),
    L.reshape_at V 19 main_v75 main_v76 rfl shapeCasts_S1x64x64_S64x64 _ _ rfl (by decide) (by decide),
    L.unary_at V 18 main_arg8 main_v75 _ _ _ rfl (by decide) (by decide), L.arg V (r := main_arg8) (by decide)]
  exact Cert.ReferenceIdeal.RefValue.matSlice_apply (0 : Fin 2) (V (Proc.devRef .tc main_arg8)) slices_S2x64x64_S1x64x64_0_0_0
    shapeCasts_S1x64x64_S64x64 k h

/-- The next layer's neighbour matrix: row 0 of the stacked neighbour matrices. -/
theorem wNeigh1_apply (k h : Fin 64) : after (hostOps1 (F := Ideal)) V (Proc.devRef .tc main_v86) (ix2 k h) = V (Proc.devRef .tc main_arg9) (ix3 0 k h) := by
  have L := Host.hostOps1_line (F := Ideal)
  rw [L.unary_at V 29 main_v78 main_v86 _ _ _ rfl (by decide) (by decide),
    L.reshape_at V 21 main_v77 main_v78 rfl shapeCasts_S1x64x64_S64x64 _ _ rfl (by decide) (by decide),
    L.unary_at V 20 main_arg9 main_v77 _ _ _ rfl (by decide) (by decide), L.arg V (r := main_arg9) (by decide)]
  exact Cert.ReferenceIdeal.RefValue.matSlice_apply (0 : Fin 2) (V (Proc.devRef .tc main_arg9)) slices_S2x64x64_S1x64x64_0_0_0
    shapeCasts_S1x64x64_S64x64 k h

/-- The next layer's bias: row 0 of the stacked biases. -/
theorem bias1_apply (h : Fin 64) : after (hostOps1 (F := Ideal)) V (Proc.devRef .tc main_v80) (ix1 h) = V (Proc.devRef .tc main_arg10) (ix2 0 h) := by
  have L := Host.hostOps1_line (F := Ideal)
  rw [L.reshape_at V 23 main_v79 main_v80 rfl shapeCasts_S1x64_S64 _ _ rfl (by decide) (by decide),
    L.unary_at V 22 main_arg10 main_v79 _ _ _ rfl (by decide) (by decide), L.arg V (r := main_arg10) (by decide)]
  exact Cert.ReferenceIdeal.RefValue.vecSlice_apply (0 : Fin 2) (V (Proc.devRef .tc main_arg10)) slices_S2x64_S1x64_0_0
    shapeCasts_S1x64_S64 h

/-- The next layer's skip matrix: row 1 of the stacked skip matrices. -/
theorem wSkip1_apply (h k : Fin 64) : after (hostOps1 (F := Ideal)) V (Proc.devRef .tc main_v87) (ix2 h k) = V (Proc.devRef .tc main_arg11) (ix3 1 h k) := by
  have L := Host.hostOps1_line (F := Ideal)
  rw [L.unary_at V 30 main_v82 main_v87 _ _ _ rfl (by decide) (by decide),
    L.reshape_at V 25 main_v81 main_v82 rfl shapeCasts_S1x64x64_S64x64 _ _ rfl (by decide) (by decide),
    L.unary_at V 24 main_arg11 main_v81 _ _ _ rfl (by decide) (by decide), L.arg V (r := main_arg11) (by decide)]
  exact Cert.ReferenceIdeal.RefValue.matSlice_apply (1 : Fin 3) (V (Proc.devRef .tc main_arg11)) slices_S3x64x64_S1x64x64_1_0_0
    shapeCasts_S1x64x64_S64x64 h k

/-- The next layer's skip bias: row 1 of the stacked skip biases. -/
theorem bSkip1_apply (k : Fin 64) : after (hostOps1 (F := Ideal)) V (Proc.devRef .tc main_v84) (ix1 k) = V (Proc.devRef .tc main_arg12) (ix2 1 k) := by
  have L := Host.hostOps1_line (F := Ideal)
  rw [L.reshape_at V 27 main_v83 main_v84 rfl shapeCasts_S1x64_S64 _ _ rfl (by decide) (by decide),
    L.unary_at V 26 main_arg12 main_v83 _ _ _ rfl (by decide) (by decide), L.arg V (r := main_arg12) (by decide)]
  exact Cert.ReferenceIdeal.RefValue.vecSlice_apply (1 : Fin 3) (V (Proc.devRef .tc main_arg12)) slices_S3x64_S1x64_1_0
    shapeCasts_S1x64_S64 k

end

end Cert.KernelIdeal.HostTail

end
-- ==== Proof.KI.Host2.lean ====
/-
  A HOST STRETCH OF THE KERNEL PROGRAM BETWEEN TWO LAYERS: THE NEIGHBOUR SUMS OF THE SECOND LAYER'S ACTIVATIONS, SCALED, AND THE
  NEXT LAYER'S WEIGHTS.

  The stretch reads the two columns of 16000 slot words, the second layer's 5000 x 2048 activations (a node's row holds its 32
  configurations of 64 features) and a vector of one scale per node. It raises negative source words by 5000, gathers the
  activation rows at the source words, scatter-adds them into zeros at the target words, and multiplies each node's row by
  the node's scale. It also cuts the next layer's matrices and biases out of the stacked parameter arrays.
-/
import proofs.«142801_j13228499272260_2_alg».proof.Proof.KI.HostLines
import proofs.«142801_j13228499272260_2_alg».proof.Proof.LibRowOps
import proofs.«142801_j13228499272260_2_alg».proof.Proof.LibHostRead
import proofs.«142801_j13228499272260_2_alg».proof.Proof.Spec
import proofs.«142801_j13228499272260_2_alg».proof.Proof.Ref.Skip
import proofs.«142801_j13228499272260_2_alg».proof.Proof.KI.Host1

set_option maxRecDepth 16384

noncomputable section

open scoped BigOperators

namespace Cert.KernelIdeal.HostTail

open Cert.KernelIdeal Cert.KernelIdeal.Gen
open Idealize.ShloMosaic Idealize.ShloMosaic.TcCoe Idealize.ShloMosaic.StableHlo Idealize.ShloMosaic.ValueIdx
open Cert.CubePad Cert.LibHR

/-- The second layer's activations, as a typed array. -/
abbrev acts2 (V : Valuation τ sig (Elt Ideal)) : (⟨S5000x2048, .bf16⟩ : BufTy).Contents (Elt Ideal) := V (Proc.devRef .tc main_v88_0)

section
variable (V : Valuation τ sig (Elt Ideal))

/-! ## The scaled neighbour sums -/

/-- The stretch's aggregate buffer as one array expression. -/
theorem agg2_whole :
    after (hostOps2 (F := Ideal)) V (Proc.devRef .tc main_v103)
      = truncf .bf16 (mulf (F := Ideal) (φ := .f32)
          (Host.scatterAdd (F := Ideal) (φ := .f32) scatter_S5000x2048_S16000x1_S16000x2048_1_0_0_1
            (broadcastInDim S5000x2048 ![] bcast_S_S5000x2048 (constant (F := Ideal) S_ .f32 0x00000000#32))
            (dstColOf (dstWords V))
            (extf .f32 (Host.gather gather_S5000x2048_S16000x1_S16000x2048_1_0_n_n_0_1_12048 (acts2 V) (srcColOf (srcWords V))) bitsLt_bf16_f32))
          (broadcastInDim S5000x2048 ![0, 1] bcast_S5000x1_S5000x2048_0_1
            (broadcastInDim S5000x1 ![0] bcast_S5000_S5000x1_0 (nodeScale V)))) bitsLt_bf16_f32 := by
  have L := Host.hostOps2_line (F := Ideal)
  rw [L.unary_at V 17 main_v102 main_v103 _ _ _ rfl (by decide) (by decide),
    L.binary_at V 16 main_v99 main_v101 main_v102 _ _ _ _ rfl (by decide) (by decide) (by decide),
    L.ternary_at V 13 main_v97 main_v98 main_v96 main_v99 _ _ _ _ _ rfl (by decide) (by decide) (by decide) (by decide),
    L.unary_at V 11 main_cst_13 main_v97 _ _ _ rfl (by decide) (by decide),
    L.nullary_at V 10 main_cst_13 _ _ rfl (by decide),
    L.unary_at V 12 main_v21 main_v98 _ _ _ rfl (by decide) (by decide),
    L.unary_at V 9 main_v95 main_v96 _ _ _ rfl (by decide) (by decide),
    L.binary_at V 8 main_v88_0 main_v94 main_v95 _ _ _ _ rfl (by decide) (by decide) (by decide),
    L.unary_at V 7 main_v93 main_v94 _ _ _ rfl (by decide) (by decide),
    L.ternary_at V 6 main_v90 main_v92 main_v16 main_v93 _ _ _ _ _ rfl (by decide) (by decide) (by decide) (by decide),
    L.binary_at V 2 main_v16 main_v89 main_v90 _ _ _ _ rfl (by decide) (by decide) (by decide),
    L.unary_at V 1 main_c_11 main_v89 _ _ _ rfl (by decide) (by decide),
    L.nullary_at V 0 main_c_11 _ _ rfl (by decide),
    L.binary_at V 5 main_v16 main_v91 main_v92 _ _ _ _ rfl (by decide) (by decide) (by decide),
    L.unary_at V 4 main_c_12 main_v91 _ _ _ rfl (by decide) (by decide),
    L.nullary_at V 3 main_c_12 _ _ rfl (by decide),
    L.unary_at V 15 main_v100 main_v101 _ _ _ rfl (by decide) (by decide),
    L.unary_at V 14 main_v29 main_v100 _ _ _ rfl (by decide) (by decide),
    L.arg V (r := main_v21) (by decide), L.arg V (r := main_v16) (by decide), L.arg V (r := main_v88_0) (by decide),
    L.arg V (r := main_v29) (by decide)]
  rfl

/-- The scaled neighbour sum at node n, position q of the row. -/
theorem agg2_apply (n : Fin 5000) (q : Fin 2048) :
    after (hostOps2 (F := Ideal)) V (Proc.devRef .tc main_v103) (ix2 n q)
      = (Gnn.zero + ∑ e ∈ Finset.univ.filter (fun e : Fin 16000 => (dstColOf (dstWords V) (ix2 e 0)).toInt = (n.val : Int)),
          acts2 V (ix2 ⟨min (srcColOf (srcWords V) (ix2 e 0)).toInt.toNat (5000 - 1), by omega⟩ q)) * nodeScale V (ix1 n) := by
  rw [agg2_whole]
  show Ideal.hostScatterAdd (RowOps.rowScatterDims 5000 16000 2048 scatter_S5000x2048_S16000x1_S16000x2048_1_0_0_1_wf) _
      (dstColOf (dstWords V)) _ (ix2 n q) * _ = _
  rw [RowOps.scatterAdd_rows_apply, bcastScalar_apply, spreadCol_apply]
  refine congrArg₂ (· * ·) (congrArg₂ (· + ·) rfl (Finset.sum_congr rfl fun e _ => ?_)) rfl
  show Host.gather (RowOps.rowGatherDims 5000 16000 2048 gather_S5000x2048_S16000x1_S16000x2048_1_0_n_n_0_1_12048_wf)
      (acts2 V) (srcColOf (srcWords V)) (ix2 e q) = _
  rw [RowOps.gather_rows_apply (by decide)]

/-! ## The next layer's weights -/

/-- The next layer's self matrix: row 1 of the stacked self matrices. -/
theorem wSelf2_apply (k h : Fin 64) : after (hostOps2 (F := Ideal)) V (Proc.devRef .tc main_v114) (ix2 k h) = V (Proc.devRef .tc main_arg8) (ix3 1 k h) := by
  have L := Host.hostOps2_line (F := Ideal)
  rw [L.unary_at V 28 main_v105 main_v114 _ _ _ rfl (by decide) (by decide),
    L.reshape_at V 19 main_v104 main_v105 rfl shapeCasts_S1x64x64_S64x64 _ _ rfl (by decide) (by decide),
    L.unary_at V 18 main_arg8 main_v104 _ _ _ rfl (by decide) (by decide), L.arg V (r := main_arg8) (by decide)]
  exact Cert.ReferenceIdeal.RefValue.matSlice_apply (1 : Fin 2) (V (Proc.devRef .tc main_arg8)) slices_S2x64x64_S1x64x64_1_0_0
    shapeCasts_S1x64x64_S64x64 k h

/-- The next layer's neighbour matrix: row 1 of the stacked neighbour matrices. -/
theorem wNeigh2_apply (k h : Fin 64) : after (hostOps2 (F := Ideal)) V (Proc.devRef .tc main_v115) (ix2 k h) = V (Proc.devRef .tc main_arg9) (ix3 1 k h) := by
  have L := Host.hostOps2_line (F := Ideal)
  rw [L.unary_at V 29 main_v107 main_v115 _ _ _ rfl (by decide) (by decide),
    L.reshape_at V 21 main_v106 main_v107 rfl shapeCasts_S1x64x64_S64x64 _ _ rfl (by decide) (by decide),
    L.unary_at V 20 main_arg9 main_v106 _ _ _ rfl (by decide) (by decide), L.arg V (r := main_arg9) (by decide)]
  exact Cert.ReferenceIdeal.RefValue.matSlice_apply (1 : Fin 2) (V (Proc.devRef .tc main_arg9)) slices_S2x64x64_S1x64x64_1_0_0
    shapeCasts_S1x64x64_S64x64 k h

/-- The next layer's bias: row 1 of the stacked biases. -/
theorem bias2_apply (h : Fin 64) : after (hostOps2 (F := Ideal)) V (Proc.devRef .tc main_v109) (ix1 h) = V (Proc.devRef .tc main_arg10) (ix2 1 h) := by
  have L := Host.hostOps2_line (F := Ideal)
  rw [L.reshape_at V 23 main_v108 main_v109 rfl shapeCasts_S1x64_S64 _ _ rfl (by decide) (by decide),
    L.unary_at V 22 main_arg10 main_v108 _ _ _ rfl (by decide) (by decide), L.arg V (r := main_arg10) (by decide)]
  exact Cert.ReferenceIdeal.RefValue.vecSlice_apply (1 : Fin 2) (V (Proc.devRef .tc main_arg10)) slices_S2x64_S1x64_1_0
    shapeCasts_S1x64_S64 h

/-- The next layer's skip matrix: row 2 of the stacked skip matrices. -/
theorem wSkip2_apply (h k : Fin 64) : after (hostOps2 (F := Ideal)) V (Proc.devRef .tc main_v116) (ix2 h k) = V (Proc.devRef .tc main_arg11) (ix3 2 h k) := by
  have L := Host.hostOps2_line (F := Ideal)
  rw [L.unary_at V 30 main_v111 main_v116 _ _ _ rfl (by decide) (by decide),
    L.reshape_at V 25 main_v110 main_v111 rfl shapeCasts_S1x64x64_S64x64 _ _ rfl (by decide) (by decide),
    L.unary_at V 24 main_arg11 main_v110 _ _ _ rfl (by decide) (by decide), L.arg V (r := main_arg11) (by decide)]
  exact Cert.ReferenceIdeal.RefValue.matSlice_apply (2 : Fin 3) (V (Proc.devRef .tc main_arg11)) slices_S3x64x64_S1x64x64_2_0_0
    shapeCasts_S1x64x64_S64x64 h k

/-- The next layer's skip bias: row 2 of the stacked skip biases. -/
theorem bSkip2_apply (k : Fin 64) : after (hostOps2 (F := Ideal)) V (Proc.devRef .tc main_v113) (ix1 k) = V (Proc.devRef .tc main_arg12) (ix2 2 k) := by
  have L := Host.hostOps2_line (F := Ideal)
  rw [L.reshape_at V 27 main_v112 main_v113 rfl shapeCasts_S1x64_S64 _ _ rfl (by decide) (by decide),
    L.unary_at V 26 main_arg12 main_v112 _ _ _ rfl (by decide) (by decide), L.arg V (r := main_arg12) (by decide)]
  exact Cert.ReferenceIdeal.RefValue.vecSlice_apply (2 : Fin 3) (V (Proc.devRef .tc main_arg12)) slices_S3x64_S1x64_2_0
    shapeCasts_S1x64_S64 k

end

end Cert.KernelIdeal.HostTail

end
-- ==== Proof.Ref.Head.lean ====
/-
  THE CONCATENATION, THE POOLED SUM AND THE HEAD, AS ARRAY OPERATIONS, READ AT AN INDEX.

   * Three 5000 x 32 x 64 arrays side by side along the last axis are, at (n, c, j), Gnn.cat3 of the three rows at (n, c).
   * The sum over the nodes of a 5000 x 32 x 192 array, from the zero literal, is at (c, j) zero plus the sum over n of
     the array at (n, c, j).
   * The head on a 32 x 192 array Z -- three plain products with the head's matrices, each plus its bias spread down the
     rows, the first two raised to at least zero, the last laid out as a vector -- is at c Gnn.head of Z's row c.
-/
import proofs.«142801_j13228499272260_2_alg».proof.Proof.Spec
import proofs.«142801_j13228499272260_2_alg».proof.Proof.SpecArgs
import proofs.«142801_j13228499272260_2_alg».proof.Proof.LibHostRead

noncomputable section

open scoped BigOperators

namespace Cert.ReferenceIdeal.RefValue

open Idealize.ShloMosaic Idealize.ShloMosaic.ValueIdx Cert.LibHR

/-! ## Three arrays side by side -/

/-- Three 5000 x 32 x 64 arrays joined along the last axis, at (n, c, j). -/
theorem catArr_apply
    (hc : Shape.Concatenates [(⟨3, ![5000, 32, 64]⟩ : Shape), (⟨3, ![5000, 32, 64]⟩ : Shape), (⟨3, ![5000, 32, 64]⟩ : Shape)]
      ⟨3, ![5000, 32, 192]⟩ 2)
    (A B C : (⟨3, ![5000, 32, 64]⟩ : Shape).Idx → EReal) (n : Fin 5000) (c : Fin 32) (j : Fin 192) :
    concatenate ⟨3, ![5000, 32, 192]⟩ 2
        [⟨⟨3, ![5000, 32, 64]⟩, A⟩, ⟨⟨3, ![5000, 32, 64]⟩, B⟩, ⟨⟨3, ![5000, 32, 64]⟩, C⟩] hc (ix3 n c j)
      = Gnn.cat3 (fun k => A (ix3 n c k)) (fun k => B (ix3 n c k)) (fun k => C (ix3 n c k)) j := by
  unfold Gnn.cat3
  split
  · rename_i h1
    exact concatenate_apply_piece (t := ⟨3, ![5000, 32, 192]⟩) (2 : Fin 3)
      [⟨⟨3, ![5000, 32, 64]⟩, A⟩, ⟨⟨3, ![5000, 32, 64]⟩, B⟩, ⟨⟨3, ![5000, 32, 64]⟩, C⟩] hc (ix3 n c j) 0 (by show (0 : Nat) < 3; decide)
      ⟨3, ![5000, 32, 64]⟩ A rfl rfl 0 rfl (ix3 n c (⟨j.val, h1⟩ : Fin 64))
      (fun b => match b with
        | ⟨0, _⟩ => fun _ => rfl
        | ⟨1, _⟩ => fun _ => rfl
        | ⟨2, _⟩ => fun hb => absurd rfl hb)
      (by show 0 + j.val = j.val; omega)
  · rename_i h1
    split
    · rename_i h2
      have h2' : j.val - 64 < 64 := by omega
      exact concatenate_apply_piece (t := ⟨3, ![5000, 32, 192]⟩) (2 : Fin 3)
        [⟨⟨3, ![5000, 32, 64]⟩, A⟩, ⟨⟨3, ![5000, 32, 64]⟩, B⟩, ⟨⟨3, ![5000, 32, 64]⟩, C⟩] hc (ix3 n c j) 1 (by show (1 : Nat) < 3; decide)
        ⟨3, ![5000, 32, 64]⟩ B rfl rfl 64 rfl (ix3 n c (⟨j.val - 64, h2'⟩ : Fin 64))
        (fun b => match b with
          | ⟨0, _⟩ => fun _ => rfl
          | ⟨1, _⟩ => fun _ => rfl
          | ⟨2, _⟩ => fun hb => absurd rfl hb)
        (by show 64 + (j.val - 64) = j.val; omega)
    · rename_i h2
      have h2' : j.val - 128 < 64 := by have := j.isLt; omega
      exact concatenate_apply_piece (t := ⟨3, ![5000, 32, 192]⟩) (2 : Fin 3)
        [⟨⟨3, ![5000, 32, 64]⟩, A⟩, ⟨⟨3, ![5000, 32, 64]⟩, B⟩, ⟨⟨3, ![5000, 32, 64]⟩, C⟩] hc (ix3 n c j) 2 (by show (2 : Nat) < 3; decide)
        ⟨3, ![5000, 32, 64]⟩ C rfl rfl 128 rfl (ix3 n c (⟨j.val - 128, h2'⟩ : Fin 64))
        (fun b => match b with
          | ⟨0, _⟩ => fun _ => rfl
          | ⟨1, _⟩ => fun _ => rfl
          | ⟨2, _⟩ => fun hb => absurd rfl hb)
        (by show 128 + (j.val - 128) = j.val; omega)

/-! ## The sum over the nodes -/

/-- The sum over the first axis of a 5000 x 32 x 192 array, from the zero literal, at (c, j). -/
theorem poolArr_apply
    (h' : (⟨3, ![5000, 32, 192]⟩ : Shape).ReducesTo [0] ⟨2, ![32, 192]⟩) (hu : 0 < (⟨0, ![]⟩ : Shape).numel)
    (X : (⟨3, ![5000, 32, 192]⟩ : Shape).Idx → EReal) (c : Fin 32) (j : Fin 192) :
    Host.reduceAdd (F := Ideal) (φ := .f32) X (constant (F := Ideal) ⟨0, ![]⟩ .f32 0x00000000#32) h' hu (ix2 c j)
      = Gnn.zero + ∑ n : Fin 5000, X (ix3 n c j) := by
  show Ideal.hostReduceAdd h' X _ (ix2 c j) = _
  rw [Ideal.hostReduceAdd_single h' (by decide)]
  refine congrArg₂ (· + ·) rfl (Finset.sum_congr rfl fun n _ => ?_)
  exact congrArg X (funext fun a => Fin.ext (by
    match a with
    | ⟨0, _⟩ => rfl
    | ⟨1, _⟩ => rfl
    | ⟨2, _⟩ => rfl))

/-! ## The head -/

/-- The head on the array Z, at configuration c. -/
theorem headArr_apply
    (d1 : DotDims.WF ⟨2, ![32, 192]⟩ ⟨2, ![192, 128]⟩ ⟨2, ![32, 128]⟩ [1] [0] [0] [1] [] [])
    (d2 : DotDims.WF ⟨2, ![32, 128]⟩ ⟨2, ![128, 64]⟩ ⟨2, ![32, 64]⟩ [1] [0] [0] [1] [] [])
    (d3 : DotDims.WF ⟨2, ![32, 64]⟩ ⟨2, ![64, 1]⟩ ⟨2, ![32, 1]⟩ [1] [0] [0] [1] [] [])
    (hb1a : (⟨1, ![128]⟩ : Shape).BroadcastsInDim ⟨2, ![1, 128]⟩ ![1])
    (hb1b : (⟨2, ![1, 128]⟩ : Shape).BroadcastsInDim ⟨2, ![32, 128]⟩ ![0, 1])
    (hz1 : (⟨0, ![]⟩ : Shape).BroadcastsInDim ⟨2, ![32, 128]⟩ ![])
    (hb2a : (⟨1, ![64]⟩ : Shape).BroadcastsInDim ⟨2, ![1, 64]⟩ ![1])
    (hb2b : (⟨2, ![1, 64]⟩ : Shape).BroadcastsInDim ⟨2, ![32, 64]⟩ ![0, 1])
    (hz2 : (⟨0, ![]⟩ : Shape).BroadcastsInDim ⟨2, ![32, 64]⟩ ![])
    (hb3a : (⟨1, ![1]⟩ : Shape).BroadcastsInDim ⟨2, ![1, 1]⟩ ![1])
    (hb3b : (⟨2, ![1, 1]⟩ : Shape).BroadcastsInDim ⟨2, ![32, 1]⟩ ![0, 1])
    (hc : (⟨2, ![32, 1]⟩ : Shape).ShapeCasts ⟨1, ![32]⟩)
    (Z : (⟨2, ![32, 192]⟩ : Shape).Idx → EReal) (a13 : (⟨2, ![192, 128]⟩ : Shape).Idx → EReal)
    (a14 : (⟨1, ![128]⟩ : Shape).Idx → EReal) (a15 : (⟨2, ![128, 64]⟩ : Shape).Idx → EReal)
    (a16 : (⟨1, ![64]⟩ : Shape).Idx → EReal) (a17 : (⟨2, ![64, 1]⟩ : Shape).Idx → EReal)
    (a18 : (⟨1, ![1]⟩ : Shape).Idx → EReal) (c : Fin 32) :
    shapeCast ⟨1, ![32]⟩
        (addf (F := Ideal) (φ := .f32)
          (Host.dotGeneral (F := Ideal) (φ₁ := .f32) (φ₂ := .f32) (plainDotDims 32 64 1 d3) none
            (maximumf (F := Ideal) (φ := .f32)
              (addf (F := Ideal)
                (Host.dotGeneral (F := Ideal) (φ₁ := .f32) (φ₂ := .f32) (plainDotDims 32 128 64 d2) none
                  (maximumf (F := Ideal) (φ := .f32)
                    (addf (F := Ideal)
                      (Host.dotGeneral (F := Ideal) (φ₁ := .f32) (φ₂ := .f32) (plainDotDims 32 192 128 d1) none Z a13)
                      (broadcastInDim ⟨2, ![32, 128]⟩ ![0, 1] hb1b (broadcastInDim ⟨2, ![1, 128]⟩ ![1] hb1a a14)))
                    (broadcastInDim ⟨2, ![32, 128]⟩ ![] hz1 (constant (F := Ideal) ⟨0, ![]⟩ .f32 0x00000000#32)))
                  a15)
                (broadcastInDim ⟨2, ![32, 64]⟩ ![0, 1] hb2b (broadcastInDim ⟨2, ![1, 64]⟩ ![1] hb2a a16)))
              (broadcastInDim ⟨2, ![32, 64]⟩ ![] hz2 (constant (F := Ideal) ⟨0, ![]⟩ .f32 0x00000000#32)))
            a17)
          (broadcastInDim ⟨2, ![32, 1]⟩ ![0, 1] hb3b (broadcastInDim ⟨2, ![1, 1]⟩ ![1] hb3a a18))) hc (ix1 c)
      = Gnn.head (fun i j => a13 (ix2 i j)) (fun j => a14 (ix1 j)) (fun j k => a15 (ix2 j k)) (fun k => a16 (ix1 k))
          (fun k => a17 (ix2 k 0)) (a18 (ix1 0)) (fun i => Z (ix2 c i)) := by
  refine (shapeCast_apply _ hc (ix1 c) (ix2 c (0 : Fin 1)) (by
    rw [Shape.rowMajor_val_two, Shape.rowMajor_val_one]
    show c.val * 1 + 0 = c.val
    omega)).trans ?_
  rw [addf_apply, plainDot_apply, bcastRow_apply]
  unfold Gnn.head
  refine congrArg₂ (· + ·) (Finset.sum_congr rfl fun k _ => ?_) rfl
  rw [maximumf_apply, addf_apply, plainDot_apply, bcastRow_apply, bcastScalar_apply]
  unfold Gnn.relu
  refine congrArg₂ (· * ·) (congrArg₂ max (congrArg₂ (· + ·) (Finset.sum_congr rfl fun j _ => ?_) rfl) rfl) rfl
  rw [maximumf_apply, addf_apply, plainDot_apply, bcastRow_apply, bcastScalar_apply]
  rfl

end Cert.ReferenceIdeal.RefValue

end
-- ==== Proof.KI.Host3.lean ====
/-
  THE LAST HOST STRETCHES OF THE KERNEL PROGRAM: THE POOLED SUMS AND THE HEAD.

  Five straight lines run one after the other. The first sums each of three 25 x 32 x 64 arrays of per-tile partial sums
  over the tiles, from the zero literal, lays the three 32 x 64 sums side by side, multiplies by the head's first matrix
  and adds its bias spread down the rows; the second raises that to at least zero; the third multiplies by the second
  matrix and adds the second bias; the fourth raises to at least zero; the fifth multiplies by the last matrix, adds the
  last bias and lays the 32 x 1 result out as a vector. Read at configuration c, the result is the head on the three
  tile sums side by side.
-/
import proofs.«142801_j13228499272260_2_alg».proof.Proof.KI.HostLines
import proofs.«142801_j13228499272260_2_alg».proof.Proof.Ref.Head

set_option maxRecDepth 16384

noncomputable section

open scoped BigOperators

namespace Cert.KernelIdeal.HostTail

open Cert.KernelIdeal Cert.KernelIdeal.Gen
open Idealize.ShloMosaic Idealize.ShloMosaic.TcCoe Idealize.ShloMosaic.StableHlo Idealize.ShloMosaic.ValueIdx
open Cert.CubePad Cert.LibHR

/-! ## Two array facts -/

/-- Three 32 x 64 arrays joined along the columns, at (c, j). -/
theorem catRow_apply
    (hc : Shape.Concatenates [(⟨2, ![32, 64]⟩ : Shape), (⟨2, ![32, 64]⟩ : Shape), (⟨2, ![32, 64]⟩ : Shape)] ⟨2, ![32, 192]⟩ 1)
    (A B C : (⟨2, ![32, 64]⟩ : Shape).Idx → EReal) (c : Fin 32) (j : Fin 192) :
    concatenate ⟨2, ![32, 192]⟩ 1 [⟨⟨2, ![32, 64]⟩, A⟩, ⟨⟨2, ![32, 64]⟩, B⟩, ⟨⟨2, ![32, 64]⟩, C⟩] hc (ix2 c j)
      = Gnn.cat3 (fun k => A (ix2 c k)) (fun k => B (ix2 c k)) (fun k => C (ix2 c k)) j := by
  unfold Gnn.cat3
  split
  · rename_i h1
    exact concatenate_apply_piece (t := ⟨2, ![32, 192]⟩) (1 : Fin 2)
      [⟨⟨2, ![32, 64]⟩, A⟩, ⟨⟨2, ![32, 64]⟩, B⟩, ⟨⟨2, ![32, 64]⟩, C⟩] hc (ix2 c j) 0 (by show (0 : Nat) < 3; decide)
      ⟨2, ![32, 64]⟩ A rfl rfl 0 rfl (ix2 c (⟨j.val, h1⟩ : Fin 64))
      (fun b => match b with
        | ⟨0, _⟩ => fun _ => rfl
        | ⟨1, _⟩ => fun hb => absurd rfl hb)
      (by show 0 + j.val = j.val; omega)
  · rename_i h1
    split
    · rename_i h2
      have h2' : j.val - 64 < 64 := by omega
      exact concatenate_apply_piece (t := ⟨2, ![32, 192]⟩) (1 : Fin 2)
        [⟨⟨2, ![32, 64]⟩, A⟩, ⟨⟨2, ![32, 64]⟩, B⟩, ⟨⟨2, ![32, 64]⟩, C⟩] hc (ix2 c j) 1 (by show (1 : Nat) < 3; decide)
        ⟨2, ![32, 64]⟩ B rfl rfl 64 rfl (ix2 c (⟨j.val - 64, h2'⟩ : Fin 64))
        (fun b => match b with
          | ⟨0, _⟩ => fun _ => rfl
          | ⟨1, _⟩ => fun hb => absurd rfl hb)
        (by show 64 + (j.val - 64) = j.val; omega)
    · rename_i h2
      have h2' : j.val - 128 < 64 := by have := j.isLt; omega
      exact concatenate_apply_piece (t := ⟨2, ![32, 192]⟩) (1 : Fin 2)
        [⟨⟨2, ![32, 64]⟩, A⟩, ⟨⟨2, ![32, 64]⟩, B⟩, ⟨⟨2, ![32, 64]⟩, C⟩] hc (ix2 c j) 2 (by show (2 : Nat) < 3; decide)
        ⟨2, ![32, 64]⟩ C rfl rfl 128 rfl (ix2 c (⟨j.val - 128, h2'⟩ : Fin 64))
        (fun b => match b with
          | ⟨0, _⟩ => fun _ => rfl
          | ⟨1, _⟩ => fun hb => absurd rfl hb)
        (by show 128 + (j.val - 128) = j.val; omega)

/-- The sum over the 25 tiles of a 25 x 32 x 64 array, from the zero literal, at (c, k). -/
theorem tileSum_apply
    (h' : (⟨3, ![25, 32, 64]⟩ : Shape).ReducesTo [0] ⟨2, ![32, 64]⟩) (hu : 0 < (⟨0, ![]⟩ : Shape).numel)
    (X : (⟨3, ![25, 32, 64]⟩ : Shape).Idx → EReal) (c : Fin 32) (k : Fin 64) :
    Host.reduceAdd (F := Ideal) (φ := .f32) X (constant (F := Ideal) ⟨0, ![]⟩ .f32 0x00000000#32) h' hu (ix2 c k)
      = Gnn.zero + ∑ t : Fin 25, X (ix3 t c k) := by
  show Ideal.hostReduceAdd h' X _ (ix2 c k) = _
  rw [Ideal.hostReduceAdd_single h' (by decide)]
  refine congrArg₂ (· + ·) rfl (Finset.sum_congr rfl fun t _ => ?_)
  exact congrArg X (funext fun a => Fin.ext (by
    match a with
    | ⟨0, _⟩ => rfl
    | ⟨1, _⟩ => rfl
    | ⟨2, _⟩ => rfl))

/-! ## The five lines, each at its last buffer -/

section Lines
variable (W : Valuation τ sig (Elt Ideal))

/-- The first line: the three tile sums side by side, times the first matrix, plus the first bias. -/
theorem line0 :
    after (hostOps3 (F := Ideal)) W (Proc.devRef .tc main_v125)
      = addf (F := Ideal) (φ := .f32)
          (Host.dotGeneral (F := Ideal) (φ₁ := .f32) (φ₂ := .f32) dot_S32x192_S192x128_S32x128_1_0_0_1_n_n none
            (concatenate S32x192 1
              [⟨S32x64, Host.reduceAdd (F := Ideal) (φ := .f32) (W (Proc.devRef .tc main_v59_1)) (constant (F := Ideal) S_ .f32 0x00000000#32) reducesTo_S25x32x64_S32x64_d0 h_S_⟩,
               ⟨S32x64, Host.reduceAdd (F := Ideal) (φ := .f32) (W (Proc.devRef .tc main_v88_1)) (constant (F := Ideal) S_ .f32 0x00000000#32) reducesTo_S25x32x64_S32x64_d0 h_S_⟩,
               ⟨S32x64, Host.reduceAdd (F := Ideal) (φ := .f32) (W (Proc.devRef .tc main_v117_1)) (constant (F := Ideal) S_ .f32 0x00000000#32) reducesTo_S25x32x64_S32x64_d0 h_S_⟩]
              concatenates_S32x64_S32x64_S32x64_S32x192_d1)
            (W (Proc.devRef .tc main_arg13)))
          (broadcastInDim S32x128 ![0, 1] bcast_S1x128_S32x128_0_1
            (broadcastInDim S1x128 ![1] bcast_S128_S1x128_1 (W (Proc.devRef .tc main_arg14)))) := by
  have L := Host.hostOps3_line (F := Ideal)
  have h118 : after (hostOps3 (F := Ideal)) W (Proc.devRef .tc main_v118) = Host.reduceAdd (F := Ideal) (φ := .f32) (W (Proc.devRef .tc main_v59_1)) (constant (F := Ideal) S_ .f32 0x00000000#32) reducesTo_S25x32x64_S32x64_d0 h_S_ := by
    rw [L.binary_at W 1 main_v59_1 main_cst_14 main_v118 _ _ _ _ rfl (by decide) (by decide) (by decide),
      L.nullary_at W 0 main_cst_14 _ _ rfl (by decide), L.arg W (r := main_v59_1) (by decide)]
  have h119 : after (hostOps3 (F := Ideal)) W (Proc.devRef .tc main_v119) = Host.reduceAdd (F := Ideal) (φ := .f32) (W (Proc.devRef .tc main_v88_1)) (constant (F := Ideal) S_ .f32 0x00000000#32) reducesTo_S25x32x64_S32x64_d0 h_S_ := by
    rw [L.binary_at W 3 main_v88_1 main_cst_15 main_v119 _ _ _ _ rfl (by decide) (by decide) (by decide),
      L.nullary_at W 2 main_cst_15 _ _ rfl (by decide), L.arg W (r := main_v88_1) (by decide)]
  have h120 : after (hostOps3 (F := Ideal)) W (Proc.devRef .tc main_v120) = Host.reduceAdd (F := Ideal) (φ := .f32) (W (Proc.devRef .tc main_v117_1)) (constant (F := Ideal) S_ .f32 0x00000000#32) reducesTo_S25x32x64_S32x64_d0 h_S_ := by
    rw [L.binary_at W 5 main_v117_1 main_cst_16 main_v120 _ _ _ _ rfl (by decide) (by decide) (by decide),
      L.nullary_at W 4 main_cst_16 _ _ rfl (by decide), L.arg W (r := main_v117_1) (by decide)]
  rw [L.binary_at W 10 main_v122 main_v124 main_v125 _ _ _ _ rfl (by decide) (by decide) (by decide),
    L.binary_at W 7 main_v121 main_arg13 main_v122 _ _ _ _ rfl (by decide) (by decide) (by decide),
    L.unary_at W 9 main_v123 main_v124 _ _ _ rfl (by decide) (by decide),
    L.unary_at W 8 main_arg14 main_v123 _ _ _ rfl (by decide) (by decide),
    L.nary_at W 6 ![main_v118, main_v119, main_v120] main_v121 _ _ _ rfl (by decide) (by decide),
    L.arg W (r := main_arg13) (by decide), L.arg W (r := main_arg14) (by decide)]
  show addf (F := Ideal) (φ := .f32)
      (Host.dotGeneral (F := Ideal) (φ₁ := .f32) (φ₂ := .f32) dot_S32x192_S192x128_S32x128_1_0_0_1_n_n none
        (concatenate S32x192 1
          [⟨S32x64, after (hostOps3 (F := Ideal)) W (Proc.devRef .tc main_v118)⟩,
           ⟨S32x64, after (hostOps3 (F := Ideal)) W (Proc.devRef .tc main_v119)⟩,
           ⟨S32x64, after (hostOps3 (F := Ideal)) W (Proc.devRef .tc main_v120)⟩]
          concatenates_S32x64_S32x64_S32x64_S32x192_d1)
        (W (Proc.devRef .tc main_arg13)))
      (broadcastInDim S32x128 ![0, 1] bcast_S1x128_S32x128_0_1
        (broadcastInDim S1x128 ![1] bcast_S128_S1x128_1 (W (Proc.devRef .tc main_arg14)))) = _
  rw [h118, h119, h120]

/-- The second line: raised to at least zero. -/
theorem line1 :
    after (hostOps3_1 (F := Ideal)) W (Proc.devRef .tc main_v126)
      = maximumf (F := Ideal) (φ := .f32) (W (Proc.devRef .tc main_v125))
          (broadcastInDim S32x128 ![] bcast_S_S32x128 (constant (F := Ideal) S_ .f32 0x00000000#32)) := by
  have L := Host.hostOps3_1_line (F := Ideal)
  rw [L.binary_at W 2 main_v125 main_call0_v0 main_v126 _ _ _ _ rfl (by decide) (by decide) (by decide),
    L.unary_at W 1 main_call0_cst main_call0_v0 _ _ _ rfl (by decide) (by decide),
    L.nullary_at W 0 main_call0_cst _ _ rfl (by decide), L.arg W (r := main_v125) (by decide)]
  rfl

/-- The third line: times the second matrix, plus the second bias. -/
theorem line2 :
    after (hostOps3_2 (F := Ideal)) W (Proc.devRef .tc main_v130)
      = addf (F := Ideal) (φ := .f32)
          (Host.dotGeneral (F := Ideal) (φ₁ := .f32) (φ₂ := .f32) dot_S32x128_S128x64_S32x64_1_0_0_1_n_n none
            (W (Proc.devRef .tc main_v126)) (W (Proc.devRef .tc main_arg15)))
          (broadcastInDim S32x64 ![0, 1] bcast_S1x64_S32x64_0_1
            (broadcastInDim S1x64 ![1] bcast_S64_S1x64_1 (W (Proc.devRef .tc main_arg16)))) := by
  have L := Host.hostOps3_2_line (F := Ideal)
  rw [L.binary_at W 3 main_v127 main_v129 main_v130 _ _ _ _ rfl (by decide) (by decide) (by decide),
    L.binary_at W 0 main_v126 main_arg15 main_v127 _ _ _ _ rfl (by decide) (by decide) (by decide),
    L.unary_at W 2 main_v128 main_v129 _ _ _ rfl (by decide) (by decide),
    L.unary_at W 1 main_arg16 main_v128 _ _ _ rfl (by decide) (by decide),
    L.arg W (r := main_v126) (by decide), L.arg W (r := main_arg15) (by decide), L.arg W (r := main_arg16) (by decide)]

/-- The fourth line: raised to at least zero. -/
theorem line3 :
    after (hostOps3_3 (F := Ideal)) W (Proc.devRef .tc main_v131)
      = maximumf (F := Ideal) (φ := .f32) (W (Proc.devRef .tc main_v130))
          (broadcastInDim S32x64 ![] bcast_S_S32x64 (constant (F := Ideal) S_ .f32 0x00000000#32)) := by
  have L := Host.hostOps3_3_line (F := Ideal)
  rw [L.binary_at W 2 main_v130 main_call1_v0 main_v131 _ _ _ _ rfl (by decide) (by decide) (by decide),
    L.unary_at W 1 main_call1_cst main_call1_v0 _ _ _ rfl (by decide) (by decide),
    L.nullary_at W 0 main_call1_cst _ _ rfl (by decide), L.arg W (r := main_v130) (by decide)]
  rfl

/-- The fifth line: times the last matrix, plus the last bias, laid out as a vector. -/
theorem line4 :
    after (hostOps3_4 (F := Ideal)) W (Proc.devRef .tc main_v136)
      = shapeCast S32
          (addf (F := Ideal) (φ := .f32)
            (Host.dotGeneral (F := Ideal) (φ₁ := .f32) (φ₂ := .f32) dot_S32x64_S64x1_S32x1_1_0_0_1_n_n none
              (W (Proc.devRef .tc main_v131)) (W (Proc.devRef .tc main_arg17)))
            (broadcastInDim S32x1 ![0, 1] bcast_S1x1_S32x1_0_1
              (broadcastInDim S1x1 ![1] bcast_S1_S1x1_1 (W (Proc.devRef .tc main_arg18))))) shapeCasts_S32x1_S32 := by
  have L := Host.hostOps3_4_line (F := Ideal)
  rw [L.reshape_at W 4 main_v135 main_v136 rfl shapeCasts_S32x1_S32 _ _ rfl (by decide) (by decide),
    L.binary_at W 3 main_v132 main_v134 main_v135 _ _ _ _ rfl (by decide) (by decide) (by decide),
    L.binary_at W 0 main_v131 main_arg17 main_v132 _ _ _ _ rfl (by decide) (by decide) (by decide),
    L.unary_at W 2 main_v133 main_v134 _ _ _ rfl (by decide) (by decide),
    L.unary_at W 1 main_arg18 main_v133 _ _ _ rfl (by decide) (by decide),
    L.arg W (r := main_v131) (by decide), L.arg W (r := main_arg17) (by decide), L.arg W (r := main_arg18) (by decide)]
  rfl

end Lines

/-! ## The five lines together -/

/-- The three arrays of per-tile partial sums (25 tiles, 32 configurations, 64 features each), as arrays of extended reals. -/
abbrev tiles1 (V : Valuation τ sig (Elt Ideal)) : (⟨S25x32x64, .f32⟩ : BufTy).Contents (Elt Ideal) := V (Proc.devRef .tc main_v59_1)
@[inherit_doc tiles1]
abbrev tiles2 (V : Valuation τ sig (Elt Ideal)) : (⟨S25x32x64, .f32⟩ : BufTy).Contents (Elt Ideal) := V (Proc.devRef .tc main_v88_1)
@[inherit_doc tiles1]
abbrev tiles3 (V : Valuation τ sig (Elt Ideal)) : (⟨S25x32x64, .f32⟩ : BufTy).Contents (Elt Ideal) := V (Proc.devRef .tc main_v117_1)

/-- The kernel program's result at configuration c: the head on the three tile sums side by side. -/
theorem result_apply (V : Valuation τ sig (Elt Ideal)) (c : Fin 32) :
    after (hostOps3_4 (F := Ideal)) (after (hostOps3_3 (F := Ideal)) (after (hostOps3_2 (F := Ideal))
        (after (hostOps3_1 (F := Ideal)) (after (hostOps3 (F := Ideal)) V)))) (Proc.devRef .tc main_v136) (ix1 c)
      = Gnn.head (fun i j => V (Proc.devRef .tc main_arg13) (ix2 i j)) (fun j => V (Proc.devRef .tc main_arg14) (ix1 j))
          (fun j k => V (Proc.devRef .tc main_arg15) (ix2 j k)) (fun k => V (Proc.devRef .tc main_arg16) (ix1 k))
          (fun k => V (Proc.devRef .tc main_arg17) (ix2 k 0)) (V (Proc.devRef .tc main_arg18) (ix1 0))
          (Gnn.cat3 (fun k => Gnn.zero + ∑ t : Fin 25, tiles1 V (ix3 t c k))
            (fun k => Gnn.zero + ∑ t : Fin 25, tiles2 V (ix3 t c k))
            (fun k => Gnn.zero + ∑ t : Fin 25, tiles3 V (ix3 t c k))) := by
  have L0 := Host.hostOps3_line (F := Ideal)
  have L1 := Host.hostOps3_1_line (F := Ideal)
  have L2 := Host.hostOps3_2_line (F := Ideal)
  have L3 := Host.hostOps3_3_line (F := Ideal)
  rw [line4, line3, L3.arg _ (r := main_arg17) (by decide), L3.arg _ (r := main_arg18) (by decide),
    line2, L2.arg _ (r := main_arg17) (by decide), L2.arg _ (r := main_arg18) (by decide),
    line1, L1.arg _ (r := main_arg15) (by decide), L1.arg _ (r := main_arg16) (by decide),
    L1.arg _ (r := main_arg17) (by decide), L1.arg _ (r := main_arg18) (by decide),
    line0, L0.arg _ (r := main_arg15) (by decide), L0.arg _ (r := main_arg16) (by decide),
    L0.arg _ (r := main_arg17) (by decide), L0.arg _ (r := main_arg18) (by decide)]
  refine (Cert.ReferenceIdeal.RefValue.headArr_apply dot_S32x192_S192x128_S32x128_1_0_0_1_n_n_wf
    dot_S32x128_S128x64_S32x64_1_0_0_1_n_n_wf dot_S32x64_S64x1_S32x1_1_0_0_1_n_n_wf bcast_S128_S1x128_1
    bcast_S1x128_S32x128_0_1 bcast_S_S32x128 bcast_S64_S1x64_1 bcast_S1x64_S32x64_0_1 bcast_S_S32x64 bcast_S1_S1x1_1
    bcast_S1x1_S32x1_0_1 shapeCasts_S32x1_S32 _ (V (Proc.devRef .tc main_arg13)) (V (Proc.devRef .tc main_arg14))
    (V (Proc.devRef .tc main_arg15)) (V (Proc.devRef .tc main_arg16)) (V (Proc.devRef .tc main_arg17))
    (V (Proc.devRef .tc main_arg18)) c).trans ?_
  congr 1
  funext i
  rw [catRow_apply]
  congr 1 <;> funext k <;> exact tileSum_apply _ _ _ c k

end Cert.KernelIdeal.HostTail

end
-- ==== Proof.KI.KValue.lean ====
/-
  The kernel program's result, read through the whole run: the fold's last contents at the result buffer is the tiled formulation of
  the network. Layer 0's region leaves the split first layer in its activation array and the tiles' skip sums in its pooled array; the
  next host stretch forms the neighbour means of those activations and hands hidden layer 1 its weights; hidden layer 1's region
  leaves the next layer; the same once more; the last stretches add the 25 tiles' sums, set the three layers side by side and apply
  the head.
-/
import proofs.«142801_j13228499272260_2_alg».proof.Proof.KI.Run
import proofs.«142801_j13228499272260_2_alg».proof.Proof.KI.Layer0Val
import proofs.«142801_j13228499272260_2_alg».proof.Proof.KI.Sage1Val
import proofs.«142801_j13228499272260_2_alg».proof.Proof.KI.Sage2Val
import proofs.«142801_j13228499272260_2_alg».proof.Proof.KI.Host0
import proofs.«142801_j13228499272260_2_alg».proof.Proof.KI.Host1
import proofs.«142801_j13228499272260_2_alg».proof.Proof.KI.Host2
import proofs.«142801_j13228499272260_2_alg».proof.Proof.KI.Host3

set_option maxRecDepth 16384

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx
open Idealize.SL Idealize.SL.Sem
open Cert.CubePad Cert.KernelIdeal.HostTail
open Cert.KernelIdeal.Host0 (rd)

variable (m : (ℓ : Loc nD τ sig) → Buf (Elt Ideal) ℓ) (ρ : Dev nD → PrngReg) (c : Dev nD)

/-- The launch contents on core c. -/
abbrev U0 : Valuation τ sig (Elt Ideal) := Run.W0 m ρ c
/-- The two index columns, the node features, the graph and the parameters, from the launch contents. -/
abbrev Sx : Vec Ideal S16000x1 .i32 := Host0.srcColK (F := Ideal) (U0 m ρ c (Proc.devRef .tc main_arg2))
abbrev Dx : Vec Ideal S16000x1 .i32 := Host0.dstColK (F := Ideal) (U0 m ρ c (Proc.devRef .tc main_arg2))
abbrev Xn : Vec Ideal S5000x148 .f32 :=
  Host0.xnArrK (F := Ideal) (U0 m ρ c (Proc.devRef .tc main_arg0)) (U0 m ρ c (Proc.devRef .tc main_arg1)) (U0 m ρ c (Proc.devRef .tc main_arg4))
abbrev G : Gnn.Graph := Gnn.graphOfCols (Sx m ρ c) (Dx m ρ c)
abbrev P : Gnn.Params := Host0.Pof (U0 m ρ c)
abbrev xn : Fin 5000 → Fin 148 → EReal := Gnn.xnOfArr (Xn m ρ c)

/-! ## After the first stretch and layer 0's region -/

theorem hS0 : rd S16000x1 .i32 (Host0.A (U0 m ρ c) main_v38) = Sx m ρ c := Host0.closed_v38 _
theorem hD0 : rd S16000x1 .i32 (Host0.A (U0 m ρ c) main_v24) = Dx m ρ c := Host0.closed_v24 _
theorem hX0 : rd S5000x148 .f32 (Host0.A (U0 m ρ c) main_v11) = Xn m ρ c := Host0.closed_v11 _

/-- Layer 0's activation array after its region. -/
theorem x1_apply (n : Fin 5000) (cc : Fin 32) (h : Fin 64) :
    rd S5000x2048 .bf16 (Run.W2 m ρ c (Proc.devRef .tc main_v59_0)) (ix2 n ⟨cc.val * 64 + h.val, by omega⟩)
      = Gnn.x1K (G m ρ c) (xn m ρ c) (P m ρ c) n cc h := by
  have e : Run.W2 m ρ c (Proc.devRef .tc main_v59_0) = Layer0Val.X1 (Run.V1 m ρ) c :=
    (Run.W2_arr m ρ c 10).trans (Layer0Val.final10 (Run.V1 m ρ) c)
  rw [e]
  refine (Layer0Val.X1at_flat (Run.V1 m ρ) c n cc h).trans ?_
  exact Host0.act0_eq (U0 m ρ c) (Sx m ρ c) (Dx m ρ c) (Xn m ρ c) (hS0 m ρ c) (hD0 m ρ c) (hX0 m ρ c) n cc h

/-- Layer 0's pooled array after its region. -/
theorem p0_apply (t : Fin 25) (cc : Fin 32) (k : Fin 64) :
    rd S25x32x64 .f32 (Run.W2 m ρ c (Proc.devRef .tc main_v59_1)) (ix3 t cc k)
      = Gnn.poolK (Gnn.x1K (G m ρ c) (xn m ρ c) (P m ρ c)) ((P m ρ c).sw 0) ((P m ρ c).sb 0) t cc k := by
  have e : Run.W2 m ρ c (Proc.devRef .tc main_v59_1) = Layer0Val.P0 (Run.V1 m ρ) c :=
    (Run.W2_arr m ρ c 11).trans (Layer0Val.final11 (Run.V1 m ρ) c)
  rw [e]
  unfold Layer0Val.P0 Layer0Val.P0at Gnn.poolK
  refine Finset.sum_congr rfl fun r _ => ?_
  refine congrArg Gnn.relu (congrArg₂ (· + ·) (Finset.sum_congr rfl fun h _ => congrArg₂ (· * ·) ?_ ?_) ?_)
  · exact Host0.act0_eq (U0 m ρ c) (Sx m ρ c) (Dx m ρ c) (Xn m ρ c) (hS0 m ρ c) (hD0 m ρ c) (hX0 m ρ c) _ cc h
  · exact Host0.sw0_apply (U0 m ρ c) h k
  · exact Host0.sb0_apply (U0 m ρ c) k

/-! ## Hidden layer 1: the stretch before it and its body, over any contents V entered with -/

section Layer1
variable (V : Valuation τ sig (Elt Ideal)) (S D : Vec Ideal S16000x1 .i32)
  (hs : srcColOf (srcWords V) = S) (hd : dstColOf (dstWords V) = D)
  (hsc : ∀ n : Fin 5000, nodeScale V (ix1 n) = Gnn.dinv (Gnn.graphOfCols S D) n)
  (Y : Fin 5000 → Fin 32 → Fin 64 → EReal)
  (hY : ∀ (n : Fin 5000) (cc : Fin 32) (k : Fin 64), acts1 V (ix2 n ⟨cc.val * 64 + k.val, by omega⟩) = Y n cc k)
  (Q : Gnn.Params)
  (h8 : ∀ k h : Fin 64, rd S2x64x64 .f32 (V (Proc.devRef .tc main_arg8)) (ix3 0 k h) = Q.ws 0 k h)
  (h9 : ∀ k h : Fin 64, rd S2x64x64 .f32 (V (Proc.devRef .tc main_arg9)) (ix3 0 k h) = Q.wn 0 k h)
  (h10 : ∀ h : Fin 64, rd S2x64 .f32 (V (Proc.devRef .tc main_arg10)) (ix2 0 h) = Q.b 0 h)
  (h11 : ∀ h k : Fin 64, rd S3x64x64 .f32 (V (Proc.devRef .tc main_arg11)) (ix3 1 h k) = Q.sw 1 h k)
  (h12 : ∀ k : Fin 64, rd S3x64 .f32 (V (Proc.devRef .tc main_arg12)) (ix2 1 k) = Q.sb 1 k)

include hs hd hsc hY in
/-- The neighbour mean of the activations the stretch forms. -/
theorem agg1_eq (n : Fin 5000) (cc : Fin 32) (k : Fin 64) :
    rd S5000x2048 .bf16 (after (hostOps1 (F := Ideal)) V (Proc.devRef .tc main_v74)) (ix2 n ⟨cc.val * 64 + k.val, by omega⟩)
      = Gnn.meanMul (Gnn.graphOfCols S D) (fun n' => Y n' cc k) n := by
  refine (agg1_apply V n ⟨cc.val * 64 + k.val, by omega⟩).trans ?_
  subst hs hd
  rw [hsc n]
  refine congrArg₂ (· * ·) (congrArg₂ (· + ·) rfl (Finset.sum_congr rfl fun e _ => ?_)) rfl
  exact hY _ cc k

include hs hd hsc hY h8 h9 h10 in
/-- The layer's activation from the arrays its body reads. -/
theorem act1_eq (n : Fin 5000) (cc : Fin 32) (h : Fin 64) :
    Sage1Pay.act (rd S5000x2048 .bf16 (after (hostOps1 (F := Ideal)) V (Proc.devRef .tc main_v59_0))) (rd S5000x2048 .bf16 (after (hostOps1 (F := Ideal)) V (Proc.devRef .tc main_v74)))
        (rd S64x64 .bf16 (after (hostOps1 (F := Ideal)) V (Proc.devRef .tc main_v85))) (rd S64x64 .bf16 (after (hostOps1 (F := Ideal)) V (Proc.devRef .tc main_v86))) (rd S64 .f32 (after (hostOps1 (F := Ideal)) V (Proc.devRef .tc main_v80))) n cc h
      = Gnn.sageK (Gnn.graphOfCols S D) Y (Q.ws 0) (Q.wn 0) (Q.b 0) n cc h := by
  unfold Sage1Pay.act Gnn.sageK
  have e0 : (after (hostOps1 (F := Ideal)) V (Proc.devRef .tc main_v59_0)) = V (Proc.devRef .tc main_v59_0) := (Host.hostOps1_line (F := Ideal)).arg V (by decide)
  have h1 : ∀ k : Fin 64, rd S5000x2048 .bf16 (after (hostOps1 (F := Ideal)) V (Proc.devRef .tc main_v59_0)) (ix2 n ⟨cc.val * 64 + k.val, by omega⟩) * rd S64x64 .bf16 (after (hostOps1 (F := Ideal)) V (Proc.devRef .tc main_v85)) (ix2 k h)
      = Y n cc k * Q.ws 0 k h := fun k => by
    rw [e0]
    exact congrArg₂ (· * ·) (hY n cc k) ((wSelf1_apply V k h).trans (h8 k h))
  have h2 : ∀ k : Fin 64, rd S5000x2048 .bf16 (after (hostOps1 (F := Ideal)) V (Proc.devRef .tc main_v74)) (ix2 n ⟨cc.val * 64 + k.val, by omega⟩) * rd S64x64 .bf16 (after (hostOps1 (F := Ideal)) V (Proc.devRef .tc main_v86)) (ix2 k h)
      = Gnn.meanMul (Gnn.graphOfCols S D) (fun n' => Y n' cc k) n * Q.wn 0 k h := fun k =>
    congrArg₂ (· * ·) (agg1_eq V S D hs hd hsc Y hY n cc k) ((wNeigh1_apply V k h).trans (h9 k h))
  rw [Finset.sum_congr rfl (fun k _ => h1 k), Finset.sum_congr rfl (fun k _ => h2 k)]
  exact congrArg Gnn.relu (congrArg₂ (· + ·) rfl ((bias1_apply V h).trans (h10 h)))

include h11 in
theorem sw1_eq (h k : Fin 64) : rd S64x64 .bf16 (after (hostOps1 (F := Ideal)) V (Proc.devRef .tc main_v87)) (ix2 h k) = Q.sw 1 h k := (wSkip1_apply V h k).trans (h11 h k)
include h12 in
theorem sb1_eq (k : Fin 64) : rd S64 .f32 (after (hostOps1 (F := Ideal)) V (Proc.devRef .tc main_v84)) (ix1 k) = Q.sb 1 k := (bSkip1_apply V k).trans (h12 k)

end Layer1

/-! ## Hidden layer 2: the stretch before it and its body, over any contents V entered with -/

section Layer2
variable (V : Valuation τ sig (Elt Ideal)) (S D : Vec Ideal S16000x1 .i32)
  (hs : srcColOf (srcWords V) = S) (hd : dstColOf (dstWords V) = D)
  (hsc : ∀ n : Fin 5000, nodeScale V (ix1 n) = Gnn.dinv (Gnn.graphOfCols S D) n)
  (Y : Fin 5000 → Fin 32 → Fin 64 → EReal)
  (hY : ∀ (n : Fin 5000) (cc : Fin 32) (k : Fin 64), acts2 V (ix2 n ⟨cc.val * 64 + k.val, by omega⟩) = Y n cc k)
  (Q : Gnn.Params)
  (h8 : ∀ k h : Fin 64, rd S2x64x64 .f32 (V (Proc.devRef .tc main_arg8)) (ix3 1 k h) = Q.ws 1 k h)
  (h9 : ∀ k h : Fin 64, rd S2x64x64 .f32 (V (Proc.devRef .tc main_arg9)) (ix3 1 k h) = Q.wn 1 k h)
  (h10 : ∀ h : Fin 64, rd S2x64 .f32 (V (Proc.devRef .tc main_arg10)) (ix2 1 h) = Q.b 1 h)
  (h11 : ∀ h k : Fin 64, rd S3x64x64 .f32 (V (Proc.devRef .tc main_arg11)) (ix3 2 h k) = Q.sw 2 h k)
  (h12 : ∀ k : Fin 64, rd S3x64 .f32 (V (Proc.devRef .tc main_arg12)) (ix2 2 k) = Q.sb 2 k)

include hs hd hsc hY in
/-- The neighbour mean of the activations the stretch forms. -/
theorem agg2_eq (n : Fin 5000) (cc : Fin 32) (k : Fin 64) :
    rd S5000x2048 .bf16 (after (hostOps2 (F := Ideal)) V (Proc.devRef .tc main_v103)) (ix2 n ⟨cc.val * 64 + k.val, by omega⟩)
      = Gnn.meanMul (Gnn.graphOfCols S D) (fun n' => Y n' cc k) n := by
  refine (agg2_apply V n ⟨cc.val * 64 + k.val, by omega⟩).trans ?_
  subst hs hd
  rw [hsc n]
  refine congrArg₂ (· * ·) (congrArg₂ (· + ·) rfl (Finset.sum_congr rfl fun e _ => ?_)) rfl
  exact hY _ cc k

include hs hd hsc hY h8 h9 h10 in
/-- The layer's activation from the arrays its body reads. -/
theorem act2_eq (n : Fin 5000) (cc : Fin 32) (h : Fin 64) :
    Sage2Pay.act (rd S5000x2048 .bf16 (after (hostOps2 (F := Ideal)) V (Proc.devRef .tc main_v88_0))) (rd S5000x2048 .bf16 (after (hostOps2 (F := Ideal)) V (Proc.devRef .tc main_v103)))
        (rd S64x64 .bf16 (after (hostOps2 (F := Ideal)) V (Proc.devRef .tc main_v114))) (rd S64x64 .bf16 (after (hostOps2 (F := Ideal)) V (Proc.devRef .tc main_v115))) (rd S64 .f32 (after (hostOps2 (F := Ideal)) V (Proc.devRef .tc main_v109))) n cc h
      = Gnn.sageK (Gnn.graphOfCols S D) Y (Q.ws 1) (Q.wn 1) (Q.b 1) n cc h := by
  unfold Sage2Pay.act Gnn.sageK
  have e0 : (after (hostOps2 (F := Ideal)) V (Proc.devRef .tc main_v88_0)) = V (Proc.devRef .tc main_v88_0) := (Host.hostOps2_line (F := Ideal)).arg V (by decide)
  have h1 : ∀ k : Fin 64, rd S5000x2048 .bf16 (after (hostOps2 (F := Ideal)) V (Proc.devRef .tc main_v88_0)) (ix2 n ⟨cc.val * 64 + k.val, by omega⟩) * rd S64x64 .bf16 (after (hostOps2 (F := Ideal)) V (Proc.devRef .tc main_v114)) (ix2 k h)
      = Y n cc k * Q.ws 1 k h := fun k => by
    rw [e0]
    exact congrArg₂ (· * ·) (hY n cc k) ((wSelf2_apply V k h).trans (h8 k h))
  have h2 : ∀ k : Fin 64, rd S5000x2048 .bf16 (after (hostOps2 (F := Ideal)) V (Proc.devRef .tc main_v103)) (ix2 n ⟨cc.val * 64 + k.val, by omega⟩) * rd S64x64 .bf16 (after (hostOps2 (F := Ideal)) V (Proc.devRef .tc main_v115)) (ix2 k h)
      = Gnn.meanMul (Gnn.graphOfCols S D) (fun n' => Y n' cc k) n * Q.wn 1 k h := fun k =>
    congrArg₂ (· * ·) (agg2_eq V S D hs hd hsc Y hY n cc k) ((wNeigh2_apply V k h).trans (h9 k h))
  rw [Finset.sum_congr rfl (fun k _ => h1 k), Finset.sum_congr rfl (fun k _ => h2 k)]
  exact congrArg Gnn.relu (congrArg₂ (· + ·) rfl ((bias2_apply V h).trans (h10 h)))

include h11 in
theorem sw2_eq (h k : Fin 64) : rd S64x64 .bf16 (after (hostOps2 (F := Ideal)) V (Proc.devRef .tc main_v116)) (ix2 h k) = Q.sw 2 h k := (wSkip2_apply V h k).trans (h11 h k)
include h12 in
theorem sb2_eq (k : Fin 64) : rd S64 .f32 (after (hostOps2 (F := Ideal)) V (Proc.devRef .tc main_v113)) (ix1 k) = Q.sb 2 k := (bSkip2_apply V k).trans (h12 k)

end Layer2

/-! ## Through the run -/

/-- A buffer the first stretch wrote and layer 0's region does not hold. -/
theorem W2_keep (r : Ref sig .tc) (h : ∀ w, Pipeline.arrRef spec0 w ≠ r) :
    Run.W2 m ρ c (Proc.devRef .tc r) = Host0.A (U0 m ρ c) r :=
  (Run.W2_of_ne m ρ c r h).trans (Host0.A_def _ r).symm

/-- An argument buffer, after the first stretch and layer 0's region (the bias, which that region reads, aside). -/
theorem W2_arg (r : Ref sig .tc) (h0 : r ∉ Run.hostOps0_W) (hs0 : ∀ w, Pipeline.arrRef spec0 w ≠ r) :
    Run.W2 m ρ c (Proc.devRef .tc r) = U0 m ρ c (Proc.devRef .tc r) :=
  (Run.W2_of_ne m ρ c r hs0).trans (StableHlo.after_of_writes_sub hostOps0 _ Run.hostOps0_writes h0)

/-- A buffer the second stretch does not write and hidden layer 1's region does not hold. -/
theorem W4_keep (r : Ref sig .tc) (h1 : r ∉ Host.hostOps1_W) (hs1 : ∀ w, Pipeline.arrRef spec1 w ≠ r) :
    Run.W4 m ρ c (Proc.devRef .tc r) = Run.W2 m ρ c (Proc.devRef .tc r) :=
  (Run.W4_of_ne m ρ c r hs1).trans ((Host.hostOps1_line (F := Ideal)).arg (Run.W2 m ρ c) h1)

theorem W4_arg (r : Ref sig .tc) (h0 : r ∉ Run.hostOps0_W) (hs0 : ∀ w, Pipeline.arrRef spec0 w ≠ r)
    (h1 : r ∉ Host.hostOps1_W) (hs1 : ∀ w, Pipeline.arrRef spec1 w ≠ r) :
    Run.W4 m ρ c (Proc.devRef .tc r) = U0 m ρ c (Proc.devRef .tc r) :=
  (W4_keep m ρ c r h1 hs1).trans (W2_arg m ρ c r h0 hs0)

/-- A buffer the third stretch does not write and hidden layer 2's region does not hold. -/
theorem W6_keep (r : Ref sig .tc) (h2 : r ∉ Host.hostOps2_W) (hs2 : ∀ w, Pipeline.arrRef spec2 w ≠ r) :
    Run.W6 m ρ c (Proc.devRef .tc r) = Run.W4 m ρ c (Proc.devRef .tc r) :=
  (Run.W6_of_ne m ρ c r hs2).trans ((Host.hostOps2_line (F := Ideal)).arg (Run.W4 m ρ c) h2)

theorem hs1 : srcColOf (srcWords (Run.W2 m ρ c)) = Sx m ρ c := by
  have e : srcWords (Run.W2 m ρ c) = Host0.A (U0 m ρ c) main_v16 := W2_keep m ρ c main_v16 (by decide)
  rw [e, ← hS0 m ρ c]
  show _ = Host0.A (U0 m ρ c) main_v38
  rw [Host0.e_v38, Host0.e_v37, Host0.e_v34, Host0.e_v33, Host0.e_c_5, Host0.e_v36, Host0.e_v35, Host0.e_c_6]
  rfl

theorem hd1 : dstColOf (dstWords (Run.W2 m ρ c)) = Dx m ρ c := by
  have e : dstWords (Run.W2 m ρ c) = Host0.A (U0 m ρ c) main_v21 := W2_keep m ρ c main_v21 (by decide)
  rw [e, ← hD0 m ρ c]
  show _ = Host0.A (U0 m ρ c) main_v24
  rw [Host0.e_v24]
  rfl

theorem hsc1 (n : Fin 5000) : nodeScale (Run.W2 m ρ c) (ix1 n) = Gnn.dinv (Gnn.graphOfCols (Sx m ρ c) (Dx m ρ c)) n := by
  have e : nodeScale (Run.W2 m ρ c) = Host0.A (U0 m ρ c) main_v29 := W2_keep m ρ c main_v29 (by decide)
  rw [e]
  exact Host0.dinv_apply (U0 m ρ c) (Sx m ρ c) (Dx m ρ c) (hD0 m ρ c) n

theorem hs2 : srcColOf (srcWords (Run.W4 m ρ c)) = Sx m ρ c := by
  rw [show srcWords (Run.W4 m ρ c) = srcWords (Run.W2 m ρ c) from W4_keep m ρ c main_v16 (by decide) (by decide)]
  exact hs1 m ρ c
theorem hd2 : dstColOf (dstWords (Run.W4 m ρ c)) = Dx m ρ c := by
  rw [show dstWords (Run.W4 m ρ c) = dstWords (Run.W2 m ρ c) from W4_keep m ρ c main_v21 (by decide) (by decide)]
  exact hd1 m ρ c
theorem hsc2 (n : Fin 5000) : nodeScale (Run.W4 m ρ c) (ix1 n) = Gnn.dinv (Gnn.graphOfCols (Sx m ρ c) (Dx m ρ c)) n := by
  rw [show nodeScale (Run.W4 m ρ c) = nodeScale (Run.W2 m ρ c) from W4_keep m ρ c main_v29 (by decide) (by decide)]
  exact hsc1 m ρ c n

/-- Hidden layer 1's activation array after its region. -/
theorem x2_apply (n : Fin 5000) (cc : Fin 32) (h : Fin 64) :
    rd S5000x2048 .bf16 (Run.W4 m ρ c (Proc.devRef .tc main_v88_0)) (ix2 n ⟨cc.val * 64 + h.val, by omega⟩)
      = Gnn.x2K (G m ρ c) (xn m ρ c) (P m ρ c) n cc h := by
  have e : Run.W4 m ρ c (Proc.devRef .tc main_v88_0) = Sage1Val.X (Run.V3 m ρ) c :=
    (Run.W4_arr m ρ c 7).trans (Sage1Val.final7 (Run.V3 m ρ) c)
  rw [e]
  refine (Sage1Val.Xat_flat (Run.V3 m ρ) c n cc h).trans ?_
  exact act1_eq (Run.W2 m ρ c) (Sx m ρ c) (Dx m ρ c) (hs1 m ρ c) (hd1 m ρ c) (hsc1 m ρ c)
      (Gnn.x1K (G m ρ c) (xn m ρ c) (P m ρ c)) (fun n cc k => x1_apply m ρ c n cc k) (P m ρ c)
      (fun k h => by rw [W2_arg m ρ c main_arg8 (by decide) (by decide)]; rfl)
      (fun k h => by rw [W2_arg m ρ c main_arg9 (by decide) (by decide)]; rfl)
      (fun h => by rw [W2_arg m ρ c main_arg10 (by decide) (by decide)]; rfl) n cc h

/-- Hidden layer 1's pooled array after its region. -/
theorem p1_apply (t : Fin 25) (cc : Fin 32) (k : Fin 64) :
    rd S25x32x64 .f32 (Run.W4 m ρ c (Proc.devRef .tc main_v88_1)) (ix3 t cc k)
      = Gnn.poolK (Gnn.x2K (G m ρ c) (xn m ρ c) (P m ρ c)) ((P m ρ c).sw 1) ((P m ρ c).sb 1) t cc k := by
  have e : Run.W4 m ρ c (Proc.devRef .tc main_v88_1) = Sage1Val.Pl (Run.V3 m ρ) c :=
    (Run.W4_arr m ρ c 8).trans (Sage1Val.final8 (Run.V3 m ρ) c)
  rw [e]
  unfold Sage1Val.Pl Sage1Val.Pat Gnn.poolK
  refine Finset.sum_congr rfl fun r _ => ?_
  refine congrArg Gnn.relu (congrArg₂ (· + ·) (Finset.sum_congr rfl fun h _ => congrArg₂ (· * ·) ?_ ?_) ?_)
  · exact act1_eq (Run.W2 m ρ c) (Sx m ρ c) (Dx m ρ c) (hs1 m ρ c) (hd1 m ρ c) (hsc1 m ρ c)
      (Gnn.x1K (G m ρ c) (xn m ρ c) (P m ρ c)) (fun n cc k => x1_apply m ρ c n cc k) (P m ρ c)
      (fun k h => by rw [W2_arg m ρ c main_arg8 (by decide) (by decide)]; rfl)
      (fun k h => by rw [W2_arg m ρ c main_arg9 (by decide) (by decide)]; rfl)
      (fun h => by rw [W2_arg m ρ c main_arg10 (by decide) (by decide)]; rfl) _ cc h
  · exact sw1_eq (Run.W2 m ρ c) (P m ρ c) (fun h k => by rw [W2_arg m ρ c main_arg11 (by decide) (by decide)]; rfl) h k
  · exact sb1_eq (Run.W2 m ρ c) (P m ρ c) (fun k => by rw [W2_arg m ρ c main_arg12 (by decide) (by decide)]; rfl) k

/-- Hidden layer 2's pooled array after its region. -/
theorem p2_apply (t : Fin 25) (cc : Fin 32) (k : Fin 64) :
    rd S25x32x64 .f32 (Run.W6 m ρ c (Proc.devRef .tc main_v117_1)) (ix3 t cc k)
      = Gnn.poolK (Gnn.x3K (G m ρ c) (xn m ρ c) (P m ρ c)) ((P m ρ c).sw 2) ((P m ρ c).sb 2) t cc k := by
  have e : Run.W6 m ρ c (Proc.devRef .tc main_v117_1) = Sage2Val.Pl (Run.V5 m ρ) c :=
    (Run.W6_arr m ρ c 8).trans (Sage2Val.final8 (Run.V5 m ρ) c)
  rw [e]
  unfold Sage2Val.Pl Sage2Val.Pat Gnn.poolK
  refine Finset.sum_congr rfl fun r _ => ?_
  refine congrArg Gnn.relu (congrArg₂ (· + ·) (Finset.sum_congr rfl fun h _ => congrArg₂ (· * ·) ?_ ?_) ?_)
  · exact act2_eq (Run.W4 m ρ c) (Sx m ρ c) (Dx m ρ c) (hs2 m ρ c) (hd2 m ρ c) (hsc2 m ρ c)
      (Gnn.x2K (G m ρ c) (xn m ρ c) (P m ρ c)) (fun n cc k => x2_apply m ρ c n cc k) (P m ρ c)
      (fun k h => by rw [W4_arg m ρ c main_arg8 (by decide) (by decide) (by decide) (by decide)]; rfl)
      (fun k h => by rw [W4_arg m ρ c main_arg9 (by decide) (by decide) (by decide) (by decide)]; rfl)
      (fun h => by rw [W4_arg m ρ c main_arg10 (by decide) (by decide) (by decide) (by decide)]; rfl) _ cc h
  · exact sw2_eq (Run.W4 m ρ c) (P m ρ c) (fun h k => by rw [W4_arg m ρ c main_arg11 (by decide) (by decide) (by decide) (by decide)]; rfl) h k
  · exact sb2_eq (Run.W4 m ρ c) (P m ρ c) (fun k => by rw [W4_arg m ρ c main_arg12 (by decide) (by decide) (by decide) (by decide)]; rfl) k

/-! ## The result -/

theorem W6_arg (r : Ref sig .tc) (h0 : r ∉ Run.hostOps0_W) (hs0 : ∀ w, Pipeline.arrRef spec0 w ≠ r)
    (h1 : r ∉ Host.hostOps1_W) (hs1 : ∀ w, Pipeline.arrRef spec1 w ≠ r) (h2 : r ∉ Host.hostOps2_W) (hs2 : ∀ w, Pipeline.arrRef spec2 w ≠ r) :
    Run.W6 m ρ c (Proc.devRef .tc r) = U0 m ρ c (Proc.devRef .tc r) :=
  (W6_keep m ρ c r h2 hs2).trans (W4_arg m ρ c r h0 hs0 h1 hs1)

/-- THE KERNEL'S RESULT: what the run leaves in the result buffer is the tiled formulation of the network. -/
theorem result : rd S32 .f32 (Run.W11 m ρ c (Proc.devRef .tc main_v136)) = fun i => Gnn.kerForm (G m ρ c) (xn m ρ c) (P m ρ c) (i 0) := by
  funext i
  obtain ⟨cc, rfl⟩ : ∃ cc : Fin 32, i = ix1 cc := ⟨i 0, eq_ix1 i⟩
  refine (result_apply (Run.W6 m ρ c) cc).trans ?_
  rw [W6_arg m ρ c main_arg13 (by decide) (by decide) (by decide) (by decide) (by decide) (by decide),
    W6_arg m ρ c main_arg14 (by decide) (by decide) (by decide) (by decide) (by decide) (by decide),
    W6_arg m ρ c main_arg15 (by decide) (by decide) (by decide) (by decide) (by decide) (by decide),
    W6_arg m ρ c main_arg16 (by decide) (by decide) (by decide) (by decide) (by decide) (by decide),
    W6_arg m ρ c main_arg17 (by decide) (by decide) (by decide) (by decide) (by decide) (by decide),
    W6_arg m ρ c main_arg18 (by decide) (by decide) (by decide) (by decide) (by decide) (by decide)]
  have ea : (fun k : Fin 64 => Gnn.zero + ∑ t : Fin 25, tiles1 (Run.W6 m ρ c) (ix3 t cc k))
      = fun k => Gnn.zero + ∑ t : Fin 25, Gnn.poolK (Gnn.x1K (G m ρ c) (xn m ρ c) (P m ρ c)) ((P m ρ c).sw 0) ((P m ρ c).sb 0) t cc k :=
    funext fun k => congrArg (Gnn.zero + ·) (Finset.sum_congr rfl fun t _ => by
      rw [show tiles1 (Run.W6 m ρ c) = Run.W2 m ρ c (Proc.devRef .tc main_v59_1) from
        (W6_keep m ρ c main_v59_1 (by decide) (by decide)).trans (W4_keep m ρ c main_v59_1 (by decide) (by decide))]
      exact p0_apply m ρ c t cc k)
  have eb : (fun k : Fin 64 => Gnn.zero + ∑ t : Fin 25, tiles2 (Run.W6 m ρ c) (ix3 t cc k))
      = fun k => Gnn.zero + ∑ t : Fin 25, Gnn.poolK (Gnn.x2K (G m ρ c) (xn m ρ c) (P m ρ c)) ((P m ρ c).sw 1) ((P m ρ c).sb 1) t cc k :=
    funext fun k => congrArg (Gnn.zero + ·) (Finset.sum_congr rfl fun t _ => by
      rw [show tiles2 (Run.W6 m ρ c) = Run.W4 m ρ c (Proc.devRef .tc main_v88_1) from W6_keep m ρ c main_v88_1 (by decide) (by decide)]
      exact p1_apply m ρ c t cc k)
  have ec : (fun k : Fin 64 => Gnn.zero + ∑ t : Fin 25, tiles3 (Run.W6 m ρ c) (ix3 t cc k))
      = fun k => Gnn.zero + ∑ t : Fin 25, Gnn.poolK (Gnn.x3K (G m ρ c) (xn m ρ c) (P m ρ c)) ((P m ρ c).sw 2) ((P m ρ c).sb 2) t cc k :=
    funext fun k => congrArg (Gnn.zero + ·) (Finset.sum_congr rfl fun t _ => p2_apply m ρ c t cc k)
  rw [ea, eb, ec]
  rfl

end Cert.KernelIdeal.KValue

end
-- ==== Proof.Ref.RefLink.lean ====
/-
  WHAT THE REFERENCE PROGRAM'S OPERATIONS LEAVE IN EACH BUFFER.

  The program's @main is a straight line of 198 operations, each writing one buffer of its own. What the line leaves in the
  buffer the k-th operation writes is that operation's function of what the line leaves in its operands; taken in program order,
  this gives every buffer's final contents as its value definition at the argument arrays' launch contents, and leaves the
  argument arrays as they were. The statements follow the operation list entry by entry.
-/
import proofs.«142801_j13228499272260_2_alg».proof.Proof.Ref.RefRun
import proofs.«142801_j13228499272260_2_alg».proof.Proof.Ref.RefDefs
import proofs.«142801_j13228499272260_2_alg».proof.Proof.LibHostLine2

set_option maxRecDepth 65536

noncomputable section

namespace Cert.ReferenceIdeal.RefLink

open Cert.ReferenceIdeal Cert.ReferenceIdeal.Gen Idealize.ShloMosaic Idealize.ShloMosaic.TcCoe Idealize.SL.Sem Idealize.ShloMosaic.StableHlo
open Cert.CubePad

variable {F : FTy → Type} [FloatOps F]

/-- The buffers the operations write, one per operation, in order. -/
abbrev W : List (Ref sig .tc) := [main_v0, main_v1, main_v2, main_v3, main_c, main_v4, main_v5, main_c_0, main_v6, main_v7, main_v8, main_v9, main_v10, main_v11, main_v12, main_v13, main_v14, main_v15, main_v16, main_v17, main_v18, main_v19, main_v20, main_v21, main_v22, main_v23, main_v24, main_v25, main_v26, main_c_1, main_v27, main_v28, main_c_2, main_v29, main_v30, main_v31, main_v32, main_v33, main_cst, main_v34, main_v35, main_v36, main_cst_3, main_v37, main_cst_4, main_v38, main_v39, main_v40, main_cst_5, main_v41, main_v42, main_v43, main_v44, main_v45, main_v46, main_v47, main_v48, main_v49, main_v50, main_v51, main_call0_cst, main_call0_v0, main_v52, main_v53, main_v54, main_v55, main_v56, main_v57, main_v58, main_v59, main_v60, main_call1_cst, main_call1_v0, main_v61, main_v62, main_v63, main_v64, main_v65, main_v66, main_v67, main_c_6, main_v68, main_v69, main_c_7, main_v70, main_v71, main_v72, main_v73, main_v74, main_cst_8, main_v75, main_v76, main_v77, main_cst_9, main_v78, main_cst_10, main_v79, main_v80, main_v81, main_cst_11, main_v82, main_v83, main_v84, main_v85, main_v86, main_v87, main_v88, main_v89, main_v90, main_v91, main_v92, main_call2_cst, main_call2_v0, main_v93, main_v94, main_v95, main_v96, main_v97, main_v98, main_v99, main_v100, main_v101, main_call3_cst, main_call3_v0, main_v102, main_v103, main_v104, main_v105, main_v106, main_v107, main_v108, main_c_12, main_v109, main_v110, main_c_13, main_v111, main_v112, main_v113, main_v114, main_v115, main_cst_14, main_v116, main_v117, main_v118, main_cst_15, main_v119, main_cst_16, main_v120, main_v121, main_v122, main_cst_17, main_v123, main_v124, main_v125, main_v126, main_v127, main_v128, main_v129, main_v130, main_v131, main_v132, main_v133, main_call4_cst, main_call4_v0, main_v134, main_v135, main_v136, main_v137, main_v138, main_v139, main_v140, main_v141, main_v142, main_call5_cst, main_call5_v0, main_v143, main_v144, main_cst_18, main_v145, main_v146, main_v147, main_v148, main_v149, main_call6_cst, main_call6_v0, main_v150, main_v151, main_v152, main_v153, main_v154, main_call7_cst, main_call7_v0, main_v155, main_v156, main_v157, main_v158, main_v159, main_v160]

set_option maxHeartbeats 4000000 in
/-- The operations write exactly those buffers, one each, in order. -/
theorem ops_line : Line.Writes (ValueP.ops (F := F)) W :=
  .cons (StableHlo.reshape_writes ..) (.cons (StableHlo.reshape_writes ..) (.cons (StableHlo.reshape_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.binary_writes ..) (.cons (StableHlo.unary_writes ..) (.cons (StableHlo.unary_writes ..) (.cons (StableHlo.unary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.reshape_writes ..) (.cons (StableHlo.binary_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.unary_writes ..) (.cons (StableHlo.reshape_writes ..) (.cons (StableHlo.unary_writes ..) (.cons (StableHlo.reshape_writes ..) (.cons (StableHlo.unary_writes ..) (.cons (StableHlo.reshape_writes ..) (.cons (StableHlo.nullary_writes ..) (.cons (StableHlo.unary_writes ..) (.cons (StableHlo.binary_writes ..) (.cons (StableHlo.nullary_writes ..) (.cons (StableHlo.unary_writes ..) (.cons (StableHlo.binary_writes ..) (.cons (StableHlo.ternary_writes ..) (.cons (StableHlo.unary_writes ..) (.cons (StableHlo.binary_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.nullary_writes ..) (.cons (StableHlo.unary_writes ..) (.cons (StableHlo.unary_writes ..) (.cons (StableHlo.ternary_writes ..) (.cons (StableHlo.nullary_writes ..) (.cons (StableHlo.unary_writes ..) (.cons (StableHlo.binary_writes ..) (.cons (StableHlo.unary_writes ..) (.cons (StableHlo.unary_writes ..) (.cons (StableHlo.binary_writes ..) (.cons (StableHlo.binary_writes ..) (.cons (StableHlo.binary_writes ..) (.cons (StableHlo.binary_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.unary_writes ..) (.cons (StableHlo.reshape_writes ..) (.cons (StableHlo.binary_writes ..) (.cons (StableHlo.unary_writes ..) (.cons (StableHlo.reshape_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.nary_writes ..) (.cons (StableHlo.nullary_writes ..) (.cons (StableHlo.binary_writes ..) (.cons (StableHlo.binary_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.nullary_writes ..) (.cons (StableHlo.unary_writes ..) (.cons (StableHlo.binary_writes ..) (.cons (StableHlo.binary_writes ..) (.cons (StableHlo.unary_writes ..) (.cons (StableHlo.unary_writes ..) (.cons (StableHlo.binary_writes ..) (.cons (StableHlo.reshape_writes ..) (.nil))))))))))))))))))))))))))))))))))))))))))))))))))))))))))))))))))))))))))))))))))))))))))))))))))))))))))))))))))))))))))))))))))))))))))))))))))))))))))))))))))))))))))))))))))))))))))))))))))))))

/-- The nineteen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- No operation writes an argument array. -/
theorem argRefs_not_written : ∀ r ∈ argRefs, r ∉ W := by decide

/-- An argument array is left as it was. -/
theorem arg_kept (V : Valuation τ sig (Elt F)) {r : Ref sig .tc} (hr : r ∈ argRefs) :
    after (ValueP.ops (F := F)) V (Proc.devRef .tc r) = V (Proc.devRef .tc r) :=
  (ops_line (F := F)).arg V (argRefs_not_written r hr)

/-! ## Each buffer, in program order -/

theorem L_main_v0 (V : Valuation τ sig (Elt F)) :
    after (ValueP.ops (F := F)) V (Proc.devRef .tc main_v0) = ReadP.val_main_v0 (F := F) (V (Proc.devRef .tc main_arg0)) := by
  rw [(ops_line (F := F)).reshape_at V 0 main_arg0 main_v0 rfl shapeCasts_S1x5000x140_S5000x140 _ _ rfl (by decide) (by decide),
    (ops_line (F := F)).arg V (r := main_arg0) (by decide)]
  first | done | rfl

theorem L_main_v1 (V : Valuation τ sig (Elt F)) :
    after (ValueP.ops (F := F)) V (Proc.devRef .tc main_v1) = ReadP.val_main_v1 (F := F) (V (Proc.devRef .tc main_arg1)) := by
  rw [(ops_line (F := F)).reshape_at V 1 main_arg1 main_v1 rfl shapeCasts_S1x5000_S5000 _ _ rfl (by decide) (by decide),
    (ops_line (F := F)).arg V (r := main_arg1) (by decide)]
  first | done | rfl

theorem L_main_v2 (V : Valuation τ sig (Elt F)) :
    after (ValueP.ops (F := F)) V (Proc.devRef .tc main_v2) = ReadP.val_main_v2 (F := F) (V (Proc.devRef .tc main_arg2)) := by
  rw [(ops_line (F := F)).reshape_at V 2 main_arg2 main_v2 rfl shapeCasts_S1x8000x2_S8000x2 _ _ rfl (by decide) (by decide),
    (ops_line (F := F)).arg V (r := main_arg2) (by decide)]
  first | done | rfl

theorem L_main_v3 (V : Valuation τ sig (Elt F)) :
    after (ValueP.ops (F := F)) V (Proc.devRef .tc main_v3) = ReadP.val_main_v3 (F := F) (V (Proc.devRef .tc main_arg3)) := by
  rw [(ops_line (F := F)).reshape_at V 3 main_arg3 main_v3 rfl shapeCasts_S1x32x24_S32x24 _ _ rfl (by decide) (by decide),
    (ops_line (F := F)).arg V (r := main_arg3) (by decide)]
  first | done | rfl

theorem L_main_c (V : Valuation τ sig (Elt F)) :
    after (ValueP.ops (F := F)) V (Proc.devRef .tc main_c) = ReadP.val_main_c (F := F) := by
  rw [(ops_line (F := F)).nullary_at V 4 main_c _ _ rfl (by decide)]
  first | done | rfl

theorem L_main_v4 (V : Valuation τ sig (Elt F)) :
    after (ValueP.ops (F := F)) V (Proc.devRef .tc main_v4) = ReadP.val_main_v4 (F := F) := by
  rw [(ops_line (F := F)).unary_at V 5 main_c main_v4 _ _ _ rfl (by decide) (by decide),
    L_main_c V]
  first | done | rfl

theorem L_main_v5 (V : Valuation τ sig (Elt F)) :
    after (ValueP.ops (F := F)) V (Proc.devRef .tc main_v5) = ReadP.val_main_v5 (F := F) (V (Proc.devRef .tc main_arg1)) := by
  rw [(ops_line (F := F)).binary_at V 6 main_v1 main_v4 main_v5 _ _ _ _ rfl (by decide) (by decide) (by decide),
    L_main_v1 V,
    L_main_v4 V]
  first | done | rfl

theorem L_main_c_0 (V : Valuation τ sig (Elt F)) :
    after (ValueP.ops (F := F)) V (Proc.devRef .tc main_c_0) = ReadP.val_main_c_0 (F := F) := by
  rw [(ops_line (F := F)).nullary_at V 7 main_c_0 _ _ rfl (by decide)]
  first | done | rfl

theorem L_main_v6 (V : Valuation τ sig (Elt F)) :
    after (ValueP.ops (F := F)) V (Proc.devRef .tc main_v6) = ReadP.val_main_v6 (F := F) := by
  rw [(ops_line (F := F)).unary_at V 8 main_c_0 main_v6 _ _ _ rfl (by decide) (by decide),
    L_main_c_0 V]
  first | done | rfl

theorem L_main_v7 (V : Valuation τ sig (Elt F)) :
    after (ValueP.ops (F := F)) V (Proc.devRef .tc main_v7) = ReadP.val_main_v7 (F := F) (V (Proc.devRef .tc main_arg1)) := by
  rw [(ops_line (F := F)).binary_at V 9 main_v1 main_v6 main_v7 _ _ _ _ rfl (by decide) (by decide) (by decide),
    L_main_v1 V,
    L_main_v6 V]
  first | done | rfl

theorem L_main_v8 (V : Valuation τ sig (Elt F)) :
    after (ValueP.ops (F := F)) V (Proc.devRef .tc main_v8) = ReadP.val_main_v8 (F := F) (V (Proc.devRef .tc main_arg1)) := by
  rw [(ops_line (F := F)).ternary_at V 10 main_v5 main_v7 main_v1 main_v8 _ _ _ _ _ rfl (by decide) (by decide) (by decide) (by decide),
    L_main_v5 V,
    L_main_v7 V,
    L_main_v1 V]
  first | done | rfl

theorem L_main_v9 (V : Valuation τ sig (Elt F)) :
    after (ValueP.ops (F := F)) V (Proc.devRef .tc main_v9) = ReadP.val_main_v9 (F := F) (V (Proc.devRef .tc main_arg1)) := by
  rw [(ops_line (F := F)).unary_at V 11 main_v8 main_v9 _ _ _ rfl (by decide) (by decide),
    L_main_v8 V]
  first | done | rfl

theorem L_main_v10 (V : Valuation τ sig (Elt F)) :
    after (ValueP.ops (F := F)) V (Proc.devRef .tc main_v10) = ReadP.val_main_v10 (F := F) (V (Proc.devRef .tc main_arg1)) (V (Proc.devRef .tc main_arg4)) := by
  rw [(ops_line (F := F)).binary_at V 12 main_arg4 main_v9 main_v10 _ _ _ _ rfl (by decide) (by decide) (by decide),
    (ops_line (F := F)).arg V (r := main_arg4) (by decide),
    L_main_v9 V]
  first | done | rfl

theorem L_main_v11 (V : Valuation τ sig (Elt F)) :
    after (ValueP.ops (F := F)) V (Proc.devRef .tc main_v11) = ReadP.val_main_v11 (F := F) (V (Proc.devRef .tc main_arg0)) (V (Proc.devRef .tc main_arg1)) (V (Proc.devRef .tc main_arg4)) := by
  rw [(ops_line (F := F)).binary_at V 13 main_v0 main_v10 main_v11 _ _ _ _ rfl (by decide) (by decide) (by decide),
    L_main_v0 V,
    L_main_v10 V]
  first | done | rfl

theorem L_main_v12 (V : Valuation τ sig (Elt F)) :
    after (ValueP.ops (F := F)) V (Proc.devRef .tc main_v12) = ReadP.val_main_v12 (F := F) (V (Proc.devRef .tc main_arg0)) (V (Proc.devRef .tc main_arg1)) (V (Proc.devRef .tc main_arg4)) := by
  rw [(ops_line (F := F)).unary_at V 14 main_v11 main_v12 _ _ _ rfl (by decide) (by decide),
    L_main_v11 V]
  first | done | rfl

theorem L_main_v13 (V : Valuation τ sig (Elt F)) :
    after (ValueP.ops (F := F)) V (Proc.devRef .tc main_v13) = ReadP.val_main_v13 (F := F) (V (Proc.devRef .tc main_arg0)) (V (Proc.devRef .tc main_arg1)) (V (Proc.devRef .tc main_arg4)) := by
  rw [(ops_line (F := F)).unary_at V 15 main_v12 main_v13 _ _ _ rfl (by decide) (by decide),
    L_main_v12 V]
  first | done | rfl

theorem L_main_v14 (V : Valuation τ sig (Elt F)) :
    after (ValueP.ops (F := F)) V (Proc.devRef .tc main_v14) = ReadP.val_main_v14 (F := F) (V (Proc.devRef .tc main_arg3)) := by
  rw [(ops_line (F := F)).unary_at V 16 main_v3 main_v14 _ _ _ rfl (by decide) (by decide),
    L_main_v3 V]
  first | done | rfl

theorem L_main_v15 (V : Valuation τ sig (Elt F)) :
    after (ValueP.ops (F := F)) V (Proc.devRef .tc main_v15) = ReadP.val_main_v15 (F := F) (V (Proc.devRef .tc main_arg3)) := by
  rw [(ops_line (F := F)).unary_at V 17 main_v14 main_v15 _ _ _ rfl (by decide) (by decide),
    L_main_v14 V]
  first | done | rfl

theorem L_main_v16 (V : Valuation τ sig (Elt F)) :
    after (ValueP.ops (F := F)) V (Proc.devRef .tc main_v16) = ReadP.val_main_v16 (F := F) (V (Proc.devRef .tc main_arg0)) (V (Proc.devRef .tc main_arg1)) (V (Proc.devRef .tc main_arg3)) (V (Proc.devRef .tc main_arg4)) := by
  rw [(ops_line (F := F)).binary_at V 18 main_v13 main_v15 main_v16 _ _ _ _ rfl (by decide) (by decide) (by decide),
    L_main_v13 V,
    L_main_v15 V]
  first | done | rfl

theorem L_main_v17 (V : Valuation τ sig (Elt F)) :
    after (ValueP.ops (F := F)) V (Proc.devRef .tc main_v17) = ReadP.val_main_v17 (F := F) (V (Proc.devRef .tc main_arg2)) := by
  rw [(ops_line (F := F)).unary_at V 19 main_v2 main_v17 _ _ _ rfl (by decide) (by decide),
    L_main_v2 V]
  first | done | rfl

theorem L_main_v18 (V : Valuation τ sig (Elt F)) :
    after (ValueP.ops (F := F)) V (Proc.devRef .tc main_v18) = ReadP.val_main_v18 (F := F) (V (Proc.devRef .tc main_arg2)) := by
  rw [(ops_line (F := F)).reshape_at V 20 main_v17 main_v18 rfl shapeCasts_S8000x1_S8000 _ _ rfl (by decide) (by decide),
    L_main_v17 V]
  first | done | rfl

theorem L_main_v19 (V : Valuation τ sig (Elt F)) :
    after (ValueP.ops (F := F)) V (Proc.devRef .tc main_v19) = ReadP.val_main_v19 (F := F) (V (Proc.devRef .tc main_arg2)) := by
  rw [(ops_line (F := F)).unary_at V 21 main_v2 main_v19 _ _ _ rfl (by decide) (by decide),
    L_main_v2 V]
  first | done | rfl

theorem L_main_v20 (V : Valuation τ sig (Elt F)) :
    after (ValueP.ops (F := F)) V (Proc.devRef .tc main_v20) = ReadP.val_main_v20 (F := F) (V (Proc.devRef .tc main_arg2)) := by
  rw [(ops_line (F := F)).reshape_at V 22 main_v19 main_v20 rfl shapeCasts_S8000x1_S8000 _ _ rfl (by decide) (by decide),
    L_main_v19 V]
  first | done | rfl

theorem L_main_v21 (V : Valuation τ sig (Elt F)) :
    after (ValueP.ops (F := F)) V (Proc.devRef .tc main_v21) = ReadP.val_main_v21 (F := F) (V (Proc.devRef .tc main_arg2)) := by
  rw [(ops_line (F := F)).binary_at V 23 main_v18 main_v20 main_v21 _ _ _ _ rfl (by decide) (by decide) (by decide),
    L_main_v18 V,
    L_main_v20 V]
  first | done | rfl

theorem L_main_v22 (V : Valuation τ sig (Elt F)) :
    after (ValueP.ops (F := F)) V (Proc.devRef .tc main_v22) = ReadP.val_main_v22 (F := F) (V (Proc.devRef .tc main_arg2)) := by
  rw [(ops_line (F := F)).unary_at V 24 main_v2 main_v22 _ _ _ rfl (by decide) (by decide),
    L_main_v2 V]
  first | done | rfl

theorem L_main_v23 (V : Valuation τ sig (Elt F)) :
    after (ValueP.ops (F := F)) V (Proc.devRef .tc main_v23) = ReadP.val_main_v23 (F := F) (V (Proc.devRef .tc main_arg2)) := by
  rw [(ops_line (F := F)).reshape_at V 25 main_v22 main_v23 rfl shapeCasts_S8000x1_S8000 _ _ rfl (by decide) (by decide),
    L_main_v22 V]
  first | done | rfl

theorem L_main_v24 (V : Valuation τ sig (Elt F)) :
    after (ValueP.ops (F := F)) V (Proc.devRef .tc main_v24) = ReadP.val_main_v24 (F := F) (V (Proc.devRef .tc main_arg2)) := by
  rw [(ops_line (F := F)).unary_at V 26 main_v2 main_v24 _ _ _ rfl (by decide) (by decide),
    L_main_v2 V]
  first | done | rfl

theorem L_main_v25 (V : Valuation τ sig (Elt F)) :
    after (ValueP.ops (F := F)) V (Proc.devRef .tc main_v25) = ReadP.val_main_v25 (F := F) (V (Proc.devRef .tc main_arg2)) := by
  rw [(ops_line (F := F)).reshape_at V 27 main_v24 main_v25 rfl shapeCasts_S8000x1_S8000 _ _ rfl (by decide) (by decide),
    L_main_v24 V]
  first | done | rfl

theorem L_main_v26 (V : Valuation τ sig (Elt F)) :
    after (ValueP.ops (F := F)) V (Proc.devRef .tc main_v26) = ReadP.val_main_v26 (F := F) (V (Proc.devRef .tc main_arg2)) := by
  rw [(ops_line (F := F)).binary_at V 28 main_v23 main_v25 main_v26 _ _ _ _ rfl (by decide) (by decide) (by decide),
    L_main_v23 V,
    L_main_v25 V]
  first | done | rfl

theorem L_main_c_1 (V : Valuation τ sig (Elt F)) :
    after (ValueP.ops (F := F)) V (Proc.devRef .tc main_c_1) = ReadP.val_main_c_1 (F := F) := by
  rw [(ops_line (F := F)).nullary_at V 29 main_c_1 _ _ rfl (by decide)]
  first | done | rfl

theorem L_main_v27 (V : Valuation τ sig (Elt F)) :
    after (ValueP.ops (F := F)) V (Proc.devRef .tc main_v27) = ReadP.val_main_v27 (F := F) := by
  rw [(ops_line (F := F)).unary_at V 30 main_c_1 main_v27 _ _ _ rfl (by decide) (by decide),
    L_main_c_1 V]
  first | done | rfl

theorem L_main_v28 (V : Valuation τ sig (Elt F)) :
    after (ValueP.ops (F := F)) V (Proc.devRef .tc main_v28) = ReadP.val_main_v28 (F := F) (V (Proc.devRef .tc main_arg2)) := by
  rw [(ops_line (F := F)).binary_at V 31 main_v21 main_v27 main_v28 _ _ _ _ rfl (by decide) (by decide) (by decide),
    L_main_v21 V,
    L_main_v27 V]
  first | done | rfl

theorem L_main_c_2 (V : Valuation τ sig (Elt F)) :
    after (ValueP.ops (F := F)) V (Proc.devRef .tc main_c_2) = ReadP.val_main_c_2 (F := F) := by
  rw [(ops_line (F := F)).nullary_at V 32 main_c_2 _ _ rfl (by decide)]
  first | done | rfl

theorem L_main_v29 (V : Valuation τ sig (Elt F)) :
    after (ValueP.ops (F := F)) V (Proc.devRef .tc main_v29) = ReadP.val_main_v29 (F := F) := by
  rw [(ops_line (F := F)).unary_at V 33 main_c_2 main_v29 _ _ _ rfl (by decide) (by decide),
    L_main_c_2 V]
  first | done | rfl

theorem L_main_v30 (V : Valuation τ sig (Elt F)) :
    after (ValueP.ops (F := F)) V (Proc.devRef .tc main_v30) = ReadP.val_main_v30 (F := F) (V (Proc.devRef .tc main_arg2)) := by
  rw [(ops_line (F := F)).binary_at V 34 main_v21 main_v29 main_v30 _ _ _ _ rfl (by decide) (by decide) (by decide),
    L_main_v21 V,
    L_main_v29 V]
  first | done | rfl

theorem L_main_v31 (V : Valuation τ sig (Elt F)) :
    after (ValueP.ops (F := F)) V (Proc.devRef .tc main_v31) = ReadP.val_main_v31 (F := F) (V (Proc.devRef .tc main_arg2)) := by
  rw [(ops_line (F := F)).ternary_at V 35 main_v28 main_v30 main_v21 main_v31 _ _ _ _ _ rfl (by decide) (by decide) (by decide) (by decide),
    L_main_v28 V,
    L_main_v30 V,
    L_main_v21 V]
  first | done | rfl

theorem L_main_v32 (V : Valuation τ sig (Elt F)) :
    after (ValueP.ops (F := F)) V (Proc.devRef .tc main_v32) = ReadP.val_main_v32 (F := F) (V (Proc.devRef .tc main_arg2)) := by
  rw [(ops_line (F := F)).unary_at V 36 main_v31 main_v32 _ _ _ rfl (by decide) (by decide),
    L_main_v31 V]
  first | done | rfl

theorem L_main_v33 (V : Valuation τ sig (Elt F)) :
    after (ValueP.ops (F := F)) V (Proc.devRef .tc main_v33) = ReadP.val_main_v33 (F := F) (V (Proc.devRef .tc main_arg0)) (V (Proc.devRef .tc main_arg1)) (V (Proc.devRef .tc main_arg2)) (V (Proc.devRef .tc main_arg3)) (V (Proc.devRef .tc main_arg4)) := by
  rw [(ops_line (F := F)).binary_at V 37 main_v16 main_v32 main_v33 _ _ _ _ rfl (by decide) (by decide) (by decide),
    L_main_v16 V,
    L_main_v32 V]
  first | done | rfl

theorem L_main_cst (V : Valuation τ sig (Elt F)) :
    after (ValueP.ops (F := F)) V (Proc.devRef .tc main_cst) = ReadP.val_main_cst (F := F) := by
  rw [(ops_line (F := F)).nullary_at V 38 main_cst _ _ rfl (by decide)]
  first | done | rfl

theorem L_main_v34 (V : Valuation τ sig (Elt F)) :
    after (ValueP.ops (F := F)) V (Proc.devRef .tc main_v34) = ReadP.val_main_v34 (F := F) := by
  rw [(ops_line (F := F)).unary_at V 39 main_cst main_v34 _ _ _ rfl (by decide) (by decide),
    L_main_cst V]
  first | done | rfl

theorem L_main_v35 (V : Valuation τ sig (Elt F)) :
    after (ValueP.ops (F := F)) V (Proc.devRef .tc main_v35) = ReadP.val_main_v35 (F := F) (V (Proc.devRef .tc main_arg2)) := by
  rw [(ops_line (F := F)).unary_at V 40 main_v26 main_v35 _ _ _ rfl (by decide) (by decide),
    L_main_v26 V]
  first | done | rfl

theorem L_main_v36 (V : Valuation τ sig (Elt F)) :
    after (ValueP.ops (F := F)) V (Proc.devRef .tc main_v36) = ReadP.val_main_v36 (F := F) (V (Proc.devRef .tc main_arg0)) (V (Proc.devRef .tc main_arg1)) (V (Proc.devRef .tc main_arg2)) (V (Proc.devRef .tc main_arg3)) (V (Proc.devRef .tc main_arg4)) := by
  rw [(ops_line (F := F)).ternary_at V 41 main_v34 main_v35 main_v33 main_v36 _ _ _ _ _ rfl (by decide) (by decide) (by decide) (by decide),
    L_main_v34 V,
    L_main_v35 V,
    L_main_v33 V]
  first | done | rfl

theorem L_main_cst_3 (V : Valuation τ sig (Elt F)) :
    after (ValueP.ops (F := F)) V (Proc.devRef .tc main_cst_3) = ReadP.val_main_cst_3 (F := F) := by
  rw [(ops_line (F := F)).nullary_at V 42 main_cst_3 _ _ rfl (by decide)]
  first | done | rfl

theorem L_main_v37 (V : Valuation τ sig (Elt F)) :
    after (ValueP.ops (F := F)) V (Proc.devRef .tc main_v37) = ReadP.val_main_v37 (F := F) := by
  rw [(ops_line (F := F)).unary_at V 43 main_cst_3 main_v37 _ _ _ rfl (by decide) (by decide),
    L_main_cst_3 V]
  first | done | rfl

theorem L_main_cst_4 (V : Valuation τ sig (Elt F)) :
    after (ValueP.ops (F := F)) V (Proc.devRef .tc main_cst_4) = ReadP.val_main_cst_4 (F := F) := by
  rw [(ops_line (F := F)).nullary_at V 44 main_cst_4 _ _ rfl (by decide)]
  first | done | rfl

theorem L_main_v38 (V : Valuation τ sig (Elt F)) :
    after (ValueP.ops (F := F)) V (Proc.devRef .tc main_v38) = ReadP.val_main_v38 (F := F) := by
  rw [(ops_line (F := F)).unary_at V 45 main_cst_4 main_v38 _ _ _ rfl (by decide) (by decide),
    L_main_cst_4 V]
  first | done | rfl

theorem L_main_v39 (V : Valuation τ sig (Elt F)) :
    after (ValueP.ops (F := F)) V (Proc.devRef .tc main_v39) = ReadP.val_main_v39 (F := F) (V (Proc.devRef .tc main_arg2)) := by
  rw [(ops_line (F := F)).unary_at V 46 main_v26 main_v39 _ _ _ rfl (by decide) (by decide),
    L_main_v26 V]
  first | done | rfl

theorem L_main_v40 (V : Valuation τ sig (Elt F)) :
    after (ValueP.ops (F := F)) V (Proc.devRef .tc main_v40) = ReadP.val_main_v40 (F := F) (V (Proc.devRef .tc main_arg2)) := by
  rw [(ops_line (F := F)).ternary_at V 47 main_v38 main_v39 main_v37 main_v40 _ _ _ _ _ rfl (by decide) (by decide) (by decide) (by decide),
    L_main_v38 V,
    L_main_v39 V,
    L_main_v37 V]
  first | done | rfl

theorem L_main_cst_5 (V : Valuation τ sig (Elt F)) :
    after (ValueP.ops (F := F)) V (Proc.devRef .tc main_cst_5) = ReadP.val_main_cst_5 (F := F) := by
  rw [(ops_line (F := F)).nullary_at V 48 main_cst_5 _ _ rfl (by decide)]
  first | done | rfl

theorem L_main_v41 (V : Valuation τ sig (Elt F)) :
    after (ValueP.ops (F := F)) V (Proc.devRef .tc main_v41) = ReadP.val_main_v41 (F := F) := by
  rw [(ops_line (F := F)).unary_at V 49 main_cst_5 main_v41 _ _ _ rfl (by decide) (by decide),
    L_main_cst_5 V]
  first | done | rfl

theorem L_main_v42 (V : Valuation τ sig (Elt F)) :
    after (ValueP.ops (F := F)) V (Proc.devRef .tc main_v42) = ReadP.val_main_v42 (F := F) (V (Proc.devRef .tc main_arg2)) := by
  rw [(ops_line (F := F)).binary_at V 50 main_v40 main_v41 main_v42 _ _ _ _ rfl (by decide) (by decide) (by decide),
    L_main_v40 V,
    L_main_v41 V]
  first | done | rfl

theorem L_main_v43 (V : Valuation τ sig (Elt F)) :
    after (ValueP.ops (F := F)) V (Proc.devRef .tc main_v43) = ReadP.val_main_v43 (F := F) (V (Proc.devRef .tc main_arg2)) := by
  rw [(ops_line (F := F)).unary_at V 51 main_v42 main_v43 _ _ _ rfl (by decide) (by decide),
    L_main_v42 V]
  first | done | rfl

theorem L_main_v44 (V : Valuation τ sig (Elt F)) :
    after (ValueP.ops (F := F)) V (Proc.devRef .tc main_v44) = ReadP.val_main_v44 (F := F) (V (Proc.devRef .tc main_arg2)) := by
  rw [(ops_line (F := F)).unary_at V 52 main_v43 main_v44 _ _ _ rfl (by decide) (by decide),
    L_main_v43 V]
  first | done | rfl

theorem L_main_v45 (V : Valuation τ sig (Elt F)) :
    after (ValueP.ops (F := F)) V (Proc.devRef .tc main_v45) = ReadP.val_main_v45 (F := F) (V (Proc.devRef .tc main_arg0)) (V (Proc.devRef .tc main_arg1)) (V (Proc.devRef .tc main_arg2)) (V (Proc.devRef .tc main_arg3)) (V (Proc.devRef .tc main_arg4)) := by
  rw [(ops_line (F := F)).binary_at V 53 main_v36 main_v44 main_v45 _ _ _ _ rfl (by decide) (by decide) (by decide),
    L_main_v36 V,
    L_main_v44 V]
  first | done | rfl

theorem L_main_v46 (V : Valuation τ sig (Elt F)) :
    after (ValueP.ops (F := F)) V (Proc.devRef .tc main_v46) = ReadP.val_main_v46 (F := F) (V (Proc.devRef .tc main_arg0)) (V (Proc.devRef .tc main_arg1)) (V (Proc.devRef .tc main_arg3)) (V (Proc.devRef .tc main_arg4)) (V (Proc.devRef .tc main_arg5)) := by
  rw [(ops_line (F := F)).binary_at V 54 main_v16 main_arg5 main_v46 _ _ _ _ rfl (by decide) (by decide) (by decide),
    L_main_v16 V,
    (ops_line (F := F)).arg V (r := main_arg5) (by decide)]
  first | done | rfl

theorem L_main_v47 (V : Valuation τ sig (Elt F)) :
    after (ValueP.ops (F := F)) V (Proc.devRef .tc main_v47) = ReadP.val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) := by
  rw [(ops_line (F := F)).binary_at V 55 main_v45 main_arg6 main_v47 _ _ _ _ rfl (by decide) (by decide) (by decide),
    L_main_v45 V,
    (ops_line (F := F)).arg V (r := main_arg6) (by decide)]
  first | done | rfl

theorem L_main_v48 (V : Valuation τ sig (Elt F)) :
    after (ValueP.ops (F := F)) V (Proc.devRef .tc main_v48) = ReadP.val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [(ops_line (F := F)).binary_at V 56 main_v46 main_v47 main_v48 _ _ _ _ rfl (by decide) (by decide) (by decide),
    L_main_v46 V,
    L_main_v47 V]
  first | done | rfl

theorem L_main_v49 (V : Valuation τ sig (Elt F)) :
    after (ValueP.ops (F := F)) V (Proc.devRef .tc main_v49) = ReadP.val_main_v49 (F := F) (V (Proc.devRef .tc main_arg7)) := by
  rw [(ops_line (F := F)).unary_at V 57 main_arg7 main_v49 _ _ _ rfl (by decide) (by decide),
    (ops_line (F := F)).arg V (r := main_arg7) (by decide)]
  first | done | rfl

theorem L_main_v50 (V : Valuation τ sig (Elt F)) :
    after (ValueP.ops (F := F)) V (Proc.devRef .tc main_v50) = ReadP.val_main_v50 (F := F) (V (Proc.devRef .tc main_arg7)) := by
  rw [(ops_line (F := F)).unary_at V 58 main_v49 main_v50 _ _ _ rfl (by decide) (by decide),
    L_main_v49 V]
  first | done | rfl

theorem L_main_v51 (V : Valuation τ sig (Elt F)) :
    after (ValueP.ops (F := F)) V (Proc.devRef .tc main_v51) = ReadP.val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [(ops_line (F := F)).binary_at V 59 main_v48 main_v50 main_v51 _ _ _ _ rfl (by decide) (by decide) (by decide),
    L_main_v48 V,
    L_main_v50 V]
  first | done | rfl

theorem L_main_call0_cst (V : Valuation τ sig (Elt F)) :
    after (ValueP.ops (F := F)) V (Proc.devRef .tc main_call0_cst) = ReadP.val_main_call0_cst (F := F) := by
  rw [(ops_line (F := F)).nullary_at V 60 main_call0_cst _ _ rfl (by decide)]
  first | done | rfl

theorem L_main_call0_v0 (V : Valuation τ sig (Elt F)) :
    after (ValueP.ops (F := F)) V (Proc.devRef .tc main_call0_v0) = ReadP.val_main_call0_v0 (F := F) := by
  rw [(ops_line (F := F)).unary_at V 61 main_call0_cst main_call0_v0 _ _ _ rfl (by decide) (by decide),
    L_main_call0_cst V]
  first | done | rfl

theorem L_main_v52 (V : Valuation τ sig (Elt F)) :
    after (ValueP.ops (F := F)) V (Proc.devRef .tc main_v52) = ReadP.val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [(ops_line (F := F)).binary_at V 62 main_v51 main_call0_v0 main_v52 _ _ _ _ rfl (by decide) (by decide) (by decide),
    L_main_v51 V,
    L_main_call0_v0 V]
  first | done | rfl

theorem L_main_v53 (V : Valuation τ sig (Elt F)) :
    after (ValueP.ops (F := F)) V (Proc.devRef .tc main_v53) = ReadP.val_main_v53 (F := F) (V (Proc.devRef .tc main_arg11)) := by
  rw [(ops_line (F := F)).unary_at V 63 main_arg11 main_v53 _ _ _ rfl (by decide) (by decide),
    (ops_line (F := F)).arg V (r := main_arg11) (by decide)]
  first | done | rfl

theorem L_main_v54 (V : Valuation τ sig (Elt F)) :
    after (ValueP.ops (F := F)) V (Proc.devRef .tc main_v54) = ReadP.val_main_v54 (F := F) (V (Proc.devRef .tc main_arg11)) := by
  rw [(ops_line (F := F)).reshape_at V 64 main_v53 main_v54 rfl shapeCasts_S1x64x64_S64x64 _ _ rfl (by decide) (by decide),
    L_main_v53 V]
  first | done | rfl

theorem L_main_v55 (V : Valuation τ sig (Elt F)) :
    after (ValueP.ops (F := F)) V (Proc.devRef .tc main_v55) = ReadP.val_main_v55 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg11)) := by
  rw [(ops_line (F := F)).binary_at V 65 main_v52 main_v54 main_v55 _ _ _ _ rfl (by decide) (by decide) (by decide),
    L_main_v52 V,
    L_main_v54 V]
  first | done | rfl

theorem L_main_v56 (V : Valuation τ sig (Elt F)) :
    after (ValueP.ops (F := F)) V (Proc.devRef .tc main_v56) = ReadP.val_main_v56 (F := F) (V (Proc.devRef .tc main_arg12)) := by
  rw [(ops_line (F := F)).unary_at V 66 main_arg12 main_v56 _ _ _ rfl (by decide) (by decide),
    (ops_line (F := F)).arg V (r := main_arg12) (by decide)]
  first | done | rfl

theorem L_main_v57 (V : Valuation τ sig (Elt F)) :
    after (ValueP.ops (F := F)) V (Proc.devRef .tc main_v57) = ReadP.val_main_v57 (F := F) (V (Proc.devRef .tc main_arg12)) := by
  rw [(ops_line (F := F)).reshape_at V 67 main_v56 main_v57 rfl shapeCasts_S1x64_S64 _ _ rfl (by decide) (by decide),
    L_main_v56 V]
  first | done | rfl

theorem L_main_v58 (V : Valuation τ sig (Elt F)) :
    after (ValueP.ops (F := F)) V (Proc.devRef .tc main_v58) = ReadP.val_main_v58 (F := F) (V (Proc.devRef .tc main_arg12)) := by
  rw [(ops_line (F := F)).unary_at V 68 main_v57 main_v58 _ _ _ rfl (by decide) (by decide),
    L_main_v57 V]
  first | done | rfl

theorem L_main_v59 (V : Valuation τ sig (Elt F)) :
    after (ValueP.ops (F := F)) V (Proc.devRef .tc main_v59) = ReadP.val_main_v59 (F := F) (V (Proc.devRef .tc main_arg12)) := by
  rw [(ops_line (F := F)).unary_at V 69 main_v58 main_v59 _ _ _ rfl (by decide) (by decide),
    L_main_v58 V]
  first | done | rfl

theorem L_main_v60 (V : Valuation τ sig (Elt F)) :
    after (ValueP.ops (F := F)) V (Proc.devRef .tc main_v60) = ReadP.val_main_v60 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg11)) (V (Proc.devRef .tc main_arg12)) := by
  rw [(ops_line (F := F)).binary_at V 70 main_v55 main_v59 main_v60 _ _ _ _ rfl (by decide) (by decide) (by decide),
    L_main_v55 V,
    L_main_v59 V]
  first | done | rfl

theorem L_main_call1_cst (V : Valuation τ sig (Elt F)) :
    after (ValueP.ops (F := F)) V (Proc.devRef .tc main_call1_cst) = ReadP.val_main_call1_cst (F := F) := by
  rw [(ops_line (F := F)).nullary_at V 71 main_call1_cst _ _ rfl (by decide)]
  first | done | rfl

theorem L_main_call1_v0 (V : Valuation τ sig (Elt F)) :
    after (ValueP.ops (F := F)) V (Proc.devRef .tc main_call1_v0) = ReadP.val_main_call1_v0 (F := F) := by
  rw [(ops_line (F := F)).unary_at V 72 main_call1_cst main_call1_v0 _ _ _ rfl (by decide) (by decide),
    L_main_call1_cst V]
  first | done | rfl

theorem L_main_v61 (V : Valuation τ sig (Elt F)) :
    after (ValueP.ops (F := F)) V (Proc.devRef .tc main_v61) = ReadP.val_main_v61 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg11)) (V (Proc.devRef .tc main_arg12)) := by
  rw [(ops_line (F := F)).binary_at V 73 main_v60 main_call1_v0 main_v61 _ _ _ _ rfl (by decide) (by decide) (by decide),
    L_main_v60 V,
    L_main_call1_v0 V]
  first | done | rfl

theorem L_main_v62 (V : Valuation τ sig (Elt F)) :
    after (ValueP.ops (F := F)) V (Proc.devRef .tc main_v62) = ReadP.val_main_v62 (F := F) (V (Proc.devRef .tc main_arg8)) := by
  rw [(ops_line (F := F)).unary_at V 74 main_arg8 main_v62 _ _ _ rfl (by decide) (by decide),
    (ops_line (F := F)).arg V (r := main_arg8) (by decide)]
  first | done | rfl

theorem L_main_v63 (V : Valuation τ sig (Elt F)) :
    after (ValueP.ops (F := F)) V (Proc.devRef .tc main_v63) = ReadP.val_main_v63 (F := F) (V (Proc.devRef .tc main_arg8)) := by
  rw [(ops_line (F := F)).reshape_at V 75 main_v62 main_v63 rfl shapeCasts_S1x64x64_S64x64 _ _ rfl (by decide) (by decide),
    L_main_v62 V]
  first | done | rfl

theorem L_main_v64 (V : Valuation τ sig (Elt F)) :
    after (ValueP.ops (F := F)) V (Proc.devRef .tc main_v64) = ReadP.val_main_v64 (F := F) (V (Proc.devRef .tc main_arg9)) := by
  rw [(ops_line (F := F)).unary_at V 76 main_arg9 main_v64 _ _ _ rfl (by decide) (by decide),
    (ops_line (F := F)).arg V (r := main_arg9) (by decide)]
  first | done | rfl

theorem L_main_v65 (V : Valuation τ sig (Elt F)) :
    after (ValueP.ops (F := F)) V (Proc.devRef .tc main_v65) = ReadP.val_main_v65 (F := F) (V (Proc.devRef .tc main_arg9)) := by
  rw [(ops_line (F := F)).reshape_at V 77 main_v64 main_v65 rfl shapeCasts_S1x64x64_S64x64 _ _ rfl (by decide) (by decide),
    L_main_v64 V]
  first | done | rfl

theorem L_main_v66 (V : Valuation τ sig (Elt F)) :
    after (ValueP.ops (F := F)) V (Proc.devRef .tc main_v66) = ReadP.val_main_v66 (F := F) (V (Proc.devRef .tc main_arg10)) := by
  rw [(ops_line (F := F)).unary_at V 78 main_arg10 main_v66 _ _ _ rfl (by decide) (by decide),
    (ops_line (F := F)).arg V (r := main_arg10) (by decide)]
  first | done | rfl

theorem L_main_v67 (V : Valuation τ sig (Elt F)) :
    after (ValueP.ops (F := F)) V (Proc.devRef .tc main_v67) = ReadP.val_main_v67 (F := F) (V (Proc.devRef .tc main_arg10)) := by
  rw [(ops_line (F := F)).reshape_at V 79 main_v66 main_v67 rfl shapeCasts_S1x64_S64 _ _ rfl (by decide) (by decide),
    L_main_v66 V]
  first | done | rfl

theorem L_main_c_6 (V : Valuation τ sig (Elt F)) :
    after (ValueP.ops (F := F)) V (Proc.devRef .tc main_c_6) = ReadP.val_main_c_6 (F := F) := by
  rw [(ops_line (F := F)).nullary_at V 80 main_c_6 _ _ rfl (by decide)]
  first | done | rfl

theorem L_main_v68 (V : Valuation τ sig (Elt F)) :
    after (ValueP.ops (F := F)) V (Proc.devRef .tc main_v68) = ReadP.val_main_v68 (F := F) := by
  rw [(ops_line (F := F)).unary_at V 81 main_c_6 main_v68 _ _ _ rfl (by decide) (by decide),
    L_main_c_6 V]
  first | done | rfl

theorem L_main_v69 (V : Valuation τ sig (Elt F)) :
    after (ValueP.ops (F := F)) V (Proc.devRef .tc main_v69) = ReadP.val_main_v69 (F := F) (V (Proc.devRef .tc main_arg2)) := by
  rw [(ops_line (F := F)).binary_at V 82 main_v21 main_v68 main_v69 _ _ _ _ rfl (by decide) (by decide) (by decide),
    L_main_v21 V,
    L_main_v68 V]
  first | done | rfl

theorem L_main_c_7 (V : Valuation τ sig (Elt F)) :
    after (ValueP.ops (F := F)) V (Proc.devRef .tc main_c_7) = ReadP.val_main_c_7 (F := F) := by
  rw [(ops_line (F := F)).nullary_at V 83 main_c_7 _ _ rfl (by decide)]
  first | done | rfl

theorem L_main_v70 (V : Valuation τ sig (Elt F)) :
    after (ValueP.ops (F := F)) V (Proc.devRef .tc main_v70) = ReadP.val_main_v70 (F := F) := by
  rw [(ops_line (F := F)).unary_at V 84 main_c_7 main_v70 _ _ _ rfl (by decide) (by decide),
    L_main_c_7 V]
  first | done | rfl

theorem L_main_v71 (V : Valuation τ sig (Elt F)) :
    after (ValueP.ops (F := F)) V (Proc.devRef .tc main_v71) = ReadP.val_main_v71 (F := F) (V (Proc.devRef .tc main_arg2)) := by
  rw [(ops_line (F := F)).binary_at V 85 main_v21 main_v70 main_v71 _ _ _ _ rfl (by decide) (by decide) (by decide),
    L_main_v21 V,
    L_main_v70 V]
  first | done | rfl

theorem L_main_v72 (V : Valuation τ sig (Elt F)) :
    after (ValueP.ops (F := F)) V (Proc.devRef .tc main_v72) = ReadP.val_main_v72 (F := F) (V (Proc.devRef .tc main_arg2)) := by
  rw [(ops_line (F := F)).ternary_at V 86 main_v69 main_v71 main_v21 main_v72 _ _ _ _ _ rfl (by decide) (by decide) (by decide) (by decide),
    L_main_v69 V,
    L_main_v71 V,
    L_main_v21 V]
  first | done | rfl

theorem L_main_v73 (V : Valuation τ sig (Elt F)) :
    after (ValueP.ops (F := F)) V (Proc.devRef .tc main_v73) = ReadP.val_main_v73 (F := F) (V (Proc.devRef .tc main_arg2)) := by
  rw [(ops_line (F := F)).unary_at V 87 main_v72 main_v73 _ _ _ rfl (by decide) (by decide),
    L_main_v72 V]
  first | done | rfl

theorem L_main_v74 (V : Valuation τ sig (Elt F)) :
    after (ValueP.ops (F := F)) V (Proc.devRef .tc main_v74) = ReadP.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [(ops_line (F := F)).binary_at V 88 main_v52 main_v73 main_v74 _ _ _ _ rfl (by decide) (by decide) (by decide),
    L_main_v52 V,
    L_main_v73 V]
  first | done | rfl

theorem L_main_cst_8 (V : Valuation τ sig (Elt F)) :
    after (ValueP.ops (F := F)) V (Proc.devRef .tc main_cst_8) = ReadP.val_main_cst_8 (F := F) := by
  rw [(ops_line (F := F)).nullary_at V 89 main_cst_8 _ _ rfl (by decide)]
  first | done | rfl

theorem L_main_v75 (V : Valuation τ sig (Elt F)) :
    after (ValueP.ops (F := F)) V (Proc.devRef .tc main_v75) = ReadP.val_main_v75 (F := F) := by
  rw [(ops_line (F := F)).unary_at V 90 main_cst_8 main_v75 _ _ _ rfl (by decide) (by decide),
    L_main_cst_8 V]
  first | done | rfl

theorem L_main_v76 (V : Valuation τ sig (Elt F)) :
    after (ValueP.ops (F := F)) V (Proc.devRef .tc main_v76) = ReadP.val_main_v76 (F := F) (V (Proc.devRef .tc main_arg2)) := by
  rw [(ops_line (F := F)).unary_at V 91 main_v26 main_v76 _ _ _ rfl (by decide) (by decide),
    L_main_v26 V]
  first | done | rfl

theorem L_main_v77 (V : Valuation τ sig (Elt F)) :
    after (ValueP.ops (F := F)) V (Proc.devRef .tc main_v77) = ReadP.val_main_v77 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [(ops_line (F := F)).ternary_at V 92 main_v75 main_v76 main_v74 main_v77 _ _ _ _ _ rfl (by decide) (by decide) (by decide) (by decide),
    L_main_v75 V,
    L_main_v76 V,
    L_main_v74 V]
  first | done | rfl

theorem L_main_cst_9 (V : Valuation τ sig (Elt F)) :
    after (ValueP.ops (F := F)) V (Proc.devRef .tc main_cst_9) = ReadP.val_main_cst_9 (F := F) := by
  rw [(ops_line (F := F)).nullary_at V 93 main_cst_9 _ _ rfl (by decide)]
  first | done | rfl

theorem L_main_v78 (V : Valuation τ sig (Elt F)) :
    after (ValueP.ops (F := F)) V (Proc.devRef .tc main_v78) = ReadP.val_main_v78 (F := F) := by
  rw [(ops_line (F := F)).unary_at V 94 main_cst_9 main_v78 _ _ _ rfl (by decide) (by decide),
    L_main_cst_9 V]
  first | done | rfl

theorem L_main_cst_10 (V : Valuation τ sig (Elt F)) :
    after (ValueP.ops (F := F)) V (Proc.devRef .tc main_cst_10) = ReadP.val_main_cst_10 (F := F) := by
  rw [(ops_line (F := F)).nullary_at V 95 main_cst_10 _ _ rfl (by decide)]
  first | done | rfl

theorem L_main_v79 (V : Valuation τ sig (Elt F)) :
    after (ValueP.ops (F := F)) V (Proc.devRef .tc main_v79) = ReadP.val_main_v79 (F := F) := by
  rw [(ops_line (F := F)).unary_at V 96 main_cst_10 main_v79 _ _ _ rfl (by decide) (by decide),
    L_main_cst_10 V]
  first | done | rfl

theorem L_main_v80 (V : Valuation τ sig (Elt F)) :
    after (ValueP.ops (F := F)) V (Proc.devRef .tc main_v80) = ReadP.val_main_v80 (F := F) (V (Proc.devRef .tc main_arg2)) := by
  rw [(ops_line (F := F)).unary_at V 97 main_v26 main_v80 _ _ _ rfl (by decide) (by decide),
    L_main_v26 V]
  first | done | rfl

theorem L_main_v81 (V : Valuation τ sig (Elt F)) :
    after (ValueP.ops (F := F)) V (Proc.devRef .tc main_v81) = ReadP.val_main_v81 (F := F) (V (Proc.devRef .tc main_arg2)) := by
  rw [(ops_line (F := F)).ternary_at V 98 main_v79 main_v80 main_v78 main_v81 _ _ _ _ _ rfl (by decide) (by decide) (by decide) (by decide),
    L_main_v79 V,
    L_main_v80 V,
    L_main_v78 V]
  first | done | rfl

theorem L_main_cst_11 (V : Valuation τ sig (Elt F)) :
    after (ValueP.ops (F := F)) V (Proc.devRef .tc main_cst_11) = ReadP.val_main_cst_11 (F := F) := by
  rw [(ops_line (F := F)).nullary_at V 99 main_cst_11 _ _ rfl (by decide)]
  first | done | rfl

theorem L_main_v82 (V : Valuation τ sig (Elt F)) :
    after (ValueP.ops (F := F)) V (Proc.devRef .tc main_v82) = ReadP.val_main_v82 (F := F) := by
  rw [(ops_line (F := F)).unary_at V 100 main_cst_11 main_v82 _ _ _ rfl (by decide) (by decide),
    L_main_cst_11 V]
  first | done | rfl

theorem L_main_v83 (V : Valuation τ sig (Elt F)) :
    after (ValueP.ops (F := F)) V (Proc.devRef .tc main_v83) = ReadP.val_main_v83 (F := F) (V (Proc.devRef .tc main_arg2)) := by
  rw [(ops_line (F := F)).binary_at V 101 main_v81 main_v82 main_v83 _ _ _ _ rfl (by decide) (by decide) (by decide),
    L_main_v81 V,
    L_main_v82 V]
  first | done | rfl

theorem L_main_v84 (V : Valuation τ sig (Elt F)) :
    after (ValueP.ops (F := F)) V (Proc.devRef .tc main_v84) = ReadP.val_main_v84 (F := F) (V (Proc.devRef .tc main_arg2)) := by
  rw [(ops_line (F := F)).unary_at V 102 main_v83 main_v84 _ _ _ rfl (by decide) (by decide),
    L_main_v83 V]
  first | done | rfl

theorem L_main_v85 (V : Valuation τ sig (Elt F)) :
    after (ValueP.ops (F := F)) V (Proc.devRef .tc main_v85) = ReadP.val_main_v85 (F := F) (V (Proc.devRef .tc main_arg2)) := by
  rw [(ops_line (F := F)).unary_at V 103 main_v84 main_v85 _ _ _ rfl (by decide) (by decide),
    L_main_v84 V]
  first | done | rfl

theorem L_main_v86 (V : Valuation τ sig (Elt F)) :
    after (ValueP.ops (F := F)) V (Proc.devRef .tc main_v86) = ReadP.val_main_v86 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [(ops_line (F := F)).binary_at V 104 main_v77 main_v85 main_v86 _ _ _ _ rfl (by decide) (by decide) (by decide),
    L_main_v77 V,
    L_main_v85 V]
  first | done | rfl

theorem L_main_v87 (V : Valuation τ sig (Elt F)) :
    after (ValueP.ops (F := F)) V (Proc.devRef .tc main_v87) = ReadP.val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [(ops_line (F := F)).binary_at V 105 main_v52 main_v63 main_v87 _ _ _ _ rfl (by decide) (by decide) (by decide),
    L_main_v52 V,
    L_main_v63 V]
  first | done | rfl

theorem L_main_v88 (V : Valuation τ sig (Elt F)) :
    after (ValueP.ops (F := F)) V (Proc.devRef .tc main_v88) = ReadP.val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) := by
  rw [(ops_line (F := F)).binary_at V 106 main_v86 main_v65 main_v88 _ _ _ _ rfl (by decide) (by decide) (by decide),
    L_main_v86 V,
    L_main_v65 V]
  first | done | rfl

theorem L_main_v89 (V : Valuation τ sig (Elt F)) :
    after (ValueP.ops (F := F)) V (Proc.devRef .tc main_v89) = ReadP.val_main_v89 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [(ops_line (F := F)).binary_at V 107 main_v87 main_v88 main_v89 _ _ _ _ rfl (by decide) (by decide) (by decide),
    L_main_v87 V,
    L_main_v88 V]
  first | done | rfl

theorem L_main_v90 (V : Valuation τ sig (Elt F)) :
    after (ValueP.ops (F := F)) V (Proc.devRef .tc main_v90) = ReadP.val_main_v90 (F := F) (V (Proc.devRef .tc main_arg10)) := by
  rw [(ops_line (F := F)).unary_at V 108 main_v67 main_v90 _ _ _ rfl (by decide) (by decide),
    L_main_v67 V]
  first | done | rfl

theorem L_main_v91 (V : Valuation τ sig (Elt F)) :
    after (ValueP.ops (F := F)) V (Proc.devRef .tc main_v91) = ReadP.val_main_v91 (F := F) (V (Proc.devRef .tc main_arg10)) := by
  rw [(ops_line (F := F)).unary_at V 109 main_v90 main_v91 _ _ _ rfl (by decide) (by decide),
    L_main_v90 V]
  first | done | rfl

theorem L_main_v92 (V : Valuation τ sig (Elt F)) :
    after (ValueP.ops (F := F)) V (Proc.devRef .tc main_v92) = ReadP.val_main_v92 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 110 main_v89 main_v91 main_v92 _ _ _ _ rfl (by decide) (by decide) (by decide),
    L_main_v89 V,
    L_main_v91 V]
  first | done | rfl

theorem L_main_call2_cst (V : Valuation τ sig (Elt F)) :
    after (ValueP.ops (F := F)) V (Proc.devRef .tc main_call2_cst) = ReadP.val_main_call2_cst (F := F) := by
  rw [(ops_line (F := F)).nullary_at V 111 main_call2_cst _ _ rfl (by decide)]
  first | done | rfl

theorem L_main_call2_v0 (V : Valuation τ sig (Elt F)) :
    after (ValueP.ops (F := F)) V (Proc.devRef .tc main_call2_v0) = ReadP.val_main_call2_v0 (F := F) := by
  rw [(ops_line (F := F)).unary_at V 112 main_call2_cst main_call2_v0 _ _ _ rfl (by decide) (by decide),
    L_main_call2_cst V]
  first | done | rfl

theorem L_main_v93 (V : Valuation τ sig (Elt F)) :
    after (ValueP.ops (F := F)) V (Proc.devRef .tc main_v93) = ReadP.val_main_v93 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 113 main_v92 main_call2_v0 main_v93 _ _ _ _ rfl (by decide) (by decide) (by decide),
    L_main_v92 V,
    L_main_call2_v0 V]
  first | done | rfl

theorem L_main_v94 (V : Valuation τ sig (Elt F)) :
    after (ValueP.ops (F := F)) V (Proc.devRef .tc main_v94) = ReadP.val_main_v94 (F := F) (V (Proc.devRef .tc main_arg11)) := by
  rw [(ops_line (F := F)).unary_at V 114 main_arg11 main_v94 _ _ _ rfl (by decide) (by decide),
    (ops_line (F := F)).arg V (r := main_arg11) (by decide)]
  first | done | rfl

theorem L_main_v95 (V : Valuation τ sig (Elt F)) :
    after (ValueP.ops (F := F)) V (Proc.devRef .tc main_v95) = ReadP.val_main_v95 (F := F) (V (Proc.devRef .tc main_arg11)) := by
  rw [(ops_line (F := F)).reshape_at V 115 main_v94 main_v95 rfl shapeCasts_S1x64x64_S64x64 _ _ rfl (by decide) (by decide),
    L_main_v94 V]
  first | done | rfl

theorem L_main_v96 (V : Valuation τ sig (Elt F)) :
    after (ValueP.ops (F := F)) V (Proc.devRef .tc main_v96) = ReadP.val_main_v96 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [(ops_line (F := F)).binary_at V 116 main_v93 main_v95 main_v96 _ _ _ _ rfl (by decide) (by decide) (by decide),
    L_main_v93 V,
    L_main_v95 V]
  first | done | rfl

theorem L_main_v97 (V : Valuation τ sig (Elt F)) :
    after (ValueP.ops (F := F)) V (Proc.devRef .tc main_v97) = ReadP.val_main_v97 (F := F) (V (Proc.devRef .tc main_arg12)) := by
  rw [(ops_line (F := F)).unary_at V 117 main_arg12 main_v97 _ _ _ rfl (by decide) (by decide),
    (ops_line (F := F)).arg V (r := main_arg12) (by decide)]
  first | done | rfl

theorem L_main_v98 (V : Valuation τ sig (Elt F)) :
    after (ValueP.ops (F := F)) V (Proc.devRef .tc main_v98) = ReadP.val_main_v98 (F := F) (V (Proc.devRef .tc main_arg12)) := by
  rw [(ops_line (F := F)).reshape_at V 118 main_v97 main_v98 rfl shapeCasts_S1x64_S64 _ _ rfl (by decide) (by decide),
    L_main_v97 V]
  first | done | rfl

theorem L_main_v99 (V : Valuation τ sig (Elt F)) :
    after (ValueP.ops (F := F)) V (Proc.devRef .tc main_v99) = ReadP.val_main_v99 (F := F) (V (Proc.devRef .tc main_arg12)) := by
  rw [(ops_line (F := F)).unary_at V 119 main_v98 main_v99 _ _ _ rfl (by decide) (by decide),
    L_main_v98 V]
  first | done | rfl

theorem L_main_v100 (V : Valuation τ sig (Elt F)) :
    after (ValueP.ops (F := F)) V (Proc.devRef .tc main_v100) = ReadP.val_main_v100 (F := F) (V (Proc.devRef .tc main_arg12)) := by
  rw [(ops_line (F := F)).unary_at V 120 main_v99 main_v100 _ _ _ rfl (by decide) (by decide),
    L_main_v99 V]
  first | done | rfl

theorem L_main_v101 (V : Valuation τ sig (Elt F)) :
    after (ValueP.ops (F := F)) V (Proc.devRef .tc main_v101) = ReadP.val_main_v101 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [(ops_line (F := F)).binary_at V 121 main_v96 main_v100 main_v101 _ _ _ _ rfl (by decide) (by decide) (by decide),
    L_main_v96 V,
    L_main_v100 V]
  first | done | rfl

theorem L_main_call3_cst (V : Valuation τ sig (Elt F)) :
    after (ValueP.ops (F := F)) V (Proc.devRef .tc main_call3_cst) = ReadP.val_main_call3_cst (F := F) := by
  rw [(ops_line (F := F)).nullary_at V 122 main_call3_cst _ _ rfl (by decide)]
  first | done | rfl

theorem L_main_call3_v0 (V : Valuation τ sig (Elt F)) :
    after (ValueP.ops (F := F)) V (Proc.devRef .tc main_call3_v0) = ReadP.val_main_call3_v0 (F := F) := by
  rw [(ops_line (F := F)).unary_at V 123 main_call3_cst main_call3_v0 _ _ _ rfl (by decide) (by decide),
    L_main_call3_cst V]
  first | done | rfl

theorem L_main_v102 (V : Valuation τ sig (Elt F)) :
    after (ValueP.ops (F := F)) V (Proc.devRef .tc main_v102) = ReadP.val_main_v102 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [(ops_line (F := F)).binary_at V 124 main_v101 main_call3_v0 main_v102 _ _ _ _ rfl (by decide) (by decide) (by decide),
    L_main_v101 V,
    L_main_call3_v0 V]
  first | done | rfl

theorem L_main_v103 (V : Valuation τ sig (Elt F)) :
    after (ValueP.ops (F := F)) V (Proc.devRef .tc main_v103) = ReadP.val_main_v103 (F := F) (V (Proc.devRef .tc main_arg8)) := by
  rw [(ops_line (F := F)).unary_at V 125 main_arg8 main_v103 _ _ _ rfl (by decide) (by decide),
    (ops_line (F := F)).arg V (r := main_arg8) (by decide)]
  first | done | rfl

theorem L_main_v104 (V : Valuation τ sig (Elt F)) :
    after (ValueP.ops (F := F)) V (Proc.devRef .tc main_v104) = ReadP.val_main_v104 (F := F) (V (Proc.devRef .tc main_arg8)) := by
  rw [(ops_line (F := F)).reshape_at V 126 main_v103 main_v104 rfl shapeCasts_S1x64x64_S64x64 _ _ rfl (by decide) (by decide),
    L_main_v103 V]
  first | done | rfl

theorem L_main_v105 (V : Valuation τ sig (Elt F)) :
    after (ValueP.ops (F := F)) V (Proc.devRef .tc main_v105) = ReadP.val_main_v105 (F := F) (V (Proc.devRef .tc main_arg9)) := by
  rw [(ops_line (F := F)).unary_at V 127 main_arg9 main_v105 _ _ _ rfl (by decide) (by decide),
    (ops_line (F := F)).arg V (r := main_arg9) (by decide)]
  first | done | rfl

theorem L_main_v106 (V : Valuation τ sig (Elt F)) :
    after (ValueP.ops (F := F)) V (Proc.devRef .tc main_v106) = ReadP.val_main_v106 (F := F) (V (Proc.devRef .tc main_arg9)) := by
  rw [(ops_line (F := F)).reshape_at V 128 main_v105 main_v106 rfl shapeCasts_S1x64x64_S64x64 _ _ rfl (by decide) (by decide),
    L_main_v105 V]
  first | done | rfl

theorem L_main_v107 (V : Valuation τ sig (Elt F)) :
    after (ValueP.ops (F := F)) V (Proc.devRef .tc main_v107) = ReadP.val_main_v107 (F := F) (V (Proc.devRef .tc main_arg10)) := by
  rw [(ops_line (F := F)).unary_at V 129 main_arg10 main_v107 _ _ _ rfl (by decide) (by decide),
    (ops_line (F := F)).arg V (r := main_arg10) (by decide)]
  first | done | rfl

theorem L_main_v108 (V : Valuation τ sig (Elt F)) :
    after (ValueP.ops (F := F)) V (Proc.devRef .tc main_v108) = ReadP.val_main_v108 (F := F) (V (Proc.devRef .tc main_arg10)) := by
  rw [(ops_line (F := F)).reshape_at V 130 main_v107 main_v108 rfl shapeCasts_S1x64_S64 _ _ rfl (by decide) (by decide),
    L_main_v107 V]
  first | done | rfl

theorem L_main_c_12 (V : Valuation τ sig (Elt F)) :
    after (ValueP.ops (F := F)) V (Proc.devRef .tc main_c_12) = ReadP.val_main_c_12 (F := F) := by
  rw [(ops_line (F := F)).nullary_at V 131 main_c_12 _ _ rfl (by decide)]
  first | done | rfl

theorem L_main_v109 (V : Valuation τ sig (Elt F)) :
    after (ValueP.ops (F := F)) V (Proc.devRef .tc main_v109) = ReadP.val_main_v109 (F := F) := by
  rw [(ops_line (F := F)).unary_at V 132 main_c_12 main_v109 _ _ _ rfl (by decide) (by decide),
    L_main_c_12 V]
  first | done | rfl

theorem L_main_v110 (V : Valuation τ sig (Elt F)) :
    after (ValueP.ops (F := F)) V (Proc.devRef .tc main_v110) = ReadP.val_main_v110 (F := F) (V (Proc.devRef .tc main_arg2)) := by
  rw [(ops_line (F := F)).binary_at V 133 main_v21 main_v109 main_v110 _ _ _ _ rfl (by decide) (by decide) (by decide),
    L_main_v21 V,
    L_main_v109 V]
  first | done | rfl

theorem L_main_c_13 (V : Valuation τ sig (Elt F)) :
    after (ValueP.ops (F := F)) V (Proc.devRef .tc main_c_13) = ReadP.val_main_c_13 (F := F) := by
  rw [(ops_line (F := F)).nullary_at V 134 main_c_13 _ _ rfl (by decide)]
  first | done | rfl

theorem L_main_v111 (V : Valuation τ sig (Elt F)) :
    after (ValueP.ops (F := F)) V (Proc.devRef .tc main_v111) = ReadP.val_main_v111 (F := F) := by
  rw [(ops_line (F := F)).unary_at V 135 main_c_13 main_v111 _ _ _ rfl (by decide) (by decide),
    L_main_c_13 V]
  first | done | rfl

theorem L_main_v112 (V : Valuation τ sig (Elt F)) :
    after (ValueP.ops (F := F)) V (Proc.devRef .tc main_v112) = ReadP.val_main_v112 (F := F) (V (Proc.devRef .tc main_arg2)) := by
  rw [(ops_line (F := F)).binary_at V 136 main_v21 main_v111 main_v112 _ _ _ _ rfl (by decide) (by decide) (by decide),
    L_main_v21 V,
    L_main_v111 V]
  first | done | rfl

theorem L_main_v113 (V : Valuation τ sig (Elt F)) :
    after (ValueP.ops (F := F)) V (Proc.devRef .tc main_v113) = ReadP.val_main_v113 (F := F) (V (Proc.devRef .tc main_arg2)) := by
  rw [(ops_line (F := F)).ternary_at V 137 main_v110 main_v112 main_v21 main_v113 _ _ _ _ _ rfl (by decide) (by decide) (by decide) (by decide),
    L_main_v110 V,
    L_main_v112 V,
    L_main_v21 V]
  first | done | rfl

theorem L_main_v114 (V : Valuation τ sig (Elt F)) :
    after (ValueP.ops (F := F)) V (Proc.devRef .tc main_v114) = ReadP.val_main_v114 (F := F) (V (Proc.devRef .tc main_arg2)) := by
  rw [(ops_line (F := F)).unary_at V 138 main_v113 main_v114 _ _ _ rfl (by decide) (by decide),
    L_main_v113 V]
  first | done | rfl

theorem L_main_v115 (V : Valuation τ sig (Elt F)) :
    after (ValueP.ops (F := F)) V (Proc.devRef .tc main_v115) = ReadP.val_main_v115 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 139 main_v93 main_v114 main_v115 _ _ _ _ rfl (by decide) (by decide) (by decide),
    L_main_v93 V,
    L_main_v114 V]
  first | done | rfl

theorem L_main_cst_14 (V : Valuation τ sig (Elt F)) :
    after (ValueP.ops (F := F)) V (Proc.devRef .tc main_cst_14) = ReadP.val_main_cst_14 (F := F) := by
  rw [(ops_line (F := F)).nullary_at V 140 main_cst_14 _ _ rfl (by decide)]
  first | done | rfl

theorem L_main_v116 (V : Valuation τ sig (Elt F)) :
    after (ValueP.ops (F := F)) V (Proc.devRef .tc main_v116) = ReadP.val_main_v116 (F := F) := by
  rw [(ops_line (F := F)).unary_at V 141 main_cst_14 main_v116 _ _ _ rfl (by decide) (by decide),
    L_main_cst_14 V]
  first | done | rfl

theorem L_main_v117 (V : Valuation τ sig (Elt F)) :
    after (ValueP.ops (F := F)) V (Proc.devRef .tc main_v117) = ReadP.val_main_v117 (F := F) (V (Proc.devRef .tc main_arg2)) := by
  rw [(ops_line (F := F)).unary_at V 142 main_v26 main_v117 _ _ _ rfl (by decide) (by decide),
    L_main_v26 V]
  first | done | rfl

theorem L_main_v118 (V : Valuation τ sig (Elt F)) :
    after (ValueP.ops (F := F)) V (Proc.devRef .tc main_v118) = ReadP.val_main_v118 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).ternary_at V 143 main_v116 main_v117 main_v115 main_v118 _ _ _ _ _ rfl (by decide) (by decide) (by decide) (by decide),
    L_main_v116 V,
    L_main_v117 V,
    L_main_v115 V]
  first | done | rfl

theorem L_main_cst_15 (V : Valuation τ sig (Elt F)) :
    after (ValueP.ops (F := F)) V (Proc.devRef .tc main_cst_15) = ReadP.val_main_cst_15 (F := F) := by
  rw [(ops_line (F := F)).nullary_at V 144 main_cst_15 _ _ rfl (by decide)]
  first | done | rfl

theorem L_main_v119 (V : Valuation τ sig (Elt F)) :
    after (ValueP.ops (F := F)) V (Proc.devRef .tc main_v119) = ReadP.val_main_v119 (F := F) := by
  rw [(ops_line (F := F)).unary_at V 145 main_cst_15 main_v119 _ _ _ rfl (by decide) (by decide),
    L_main_cst_15 V]
  first | done | rfl

theorem L_main_cst_16 (V : Valuation τ sig (Elt F)) :
    after (ValueP.ops (F := F)) V (Proc.devRef .tc main_cst_16) = ReadP.val_main_cst_16 (F := F) := by
  rw [(ops_line (F := F)).nullary_at V 146 main_cst_16 _ _ rfl (by decide)]
  first | done | rfl

theorem L_main_v120 (V : Valuation τ sig (Elt F)) :
    after (ValueP.ops (F := F)) V (Proc.devRef .tc main_v120) = ReadP.val_main_v120 (F := F) := by
  rw [(ops_line (F := F)).unary_at V 147 main_cst_16 main_v120 _ _ _ rfl (by decide) (by decide),
    L_main_cst_16 V]
  first | done | rfl

theorem L_main_v121 (V : Valuation τ sig (Elt F)) :
    after (ValueP.ops (F := F)) V (Proc.devRef .tc main_v121) = ReadP.val_main_v121 (F := F) (V (Proc.devRef .tc main_arg2)) := by
  rw [(ops_line (F := F)).unary_at V 148 main_v26 main_v121 _ _ _ rfl (by decide) (by decide),
    L_main_v26 V]
  first | done | rfl

theorem L_main_v122 (V : Valuation τ sig (Elt F)) :
    after (ValueP.ops (F := F)) V (Proc.devRef .tc main_v122) = ReadP.val_main_v122 (F := F) (V (Proc.devRef .tc main_arg2)) := by
  rw [(ops_line (F := F)).ternary_at V 149 main_v120 main_v121 main_v119 main_v122 _ _ _ _ _ rfl (by decide) (by decide) (by decide) (by decide),
    L_main_v120 V,
    L_main_v121 V,
    L_main_v119 V]
  first | done | rfl

theorem L_main_cst_17 (V : Valuation τ sig (Elt F)) :
    after (ValueP.ops (F := F)) V (Proc.devRef .tc main_cst_17) = ReadP.val_main_cst_17 (F := F) := by
  rw [(ops_line (F := F)).nullary_at V 150 main_cst_17 _ _ rfl (by decide)]
  first | done | rfl

theorem L_main_v123 (V : Valuation τ sig (Elt F)) :
    after (ValueP.ops (F := F)) V (Proc.devRef .tc main_v123) = ReadP.val_main_v123 (F := F) := by
  rw [(ops_line (F := F)).unary_at V 151 main_cst_17 main_v123 _ _ _ rfl (by decide) (by decide),
    L_main_cst_17 V]
  first | done | rfl

theorem L_main_v124 (V : Valuation τ sig (Elt F)) :
    after (ValueP.ops (F := F)) V (Proc.devRef .tc main_v124) = ReadP.val_main_v124 (F := F) (V (Proc.devRef .tc main_arg2)) := by
  rw [(ops_line (F := F)).binary_at V 152 main_v122 main_v123 main_v124 _ _ _ _ rfl (by decide) (by decide) (by decide),
    L_main_v122 V,
    L_main_v123 V]
  first | done | rfl

theorem L_main_v125 (V : Valuation τ sig (Elt F)) :
    after (ValueP.ops (F := F)) V (Proc.devRef .tc main_v125) = ReadP.val_main_v125 (F := F) (V (Proc.devRef .tc main_arg2)) := by
  rw [(ops_line (F := F)).unary_at V 153 main_v124 main_v125 _ _ _ rfl (by decide) (by decide),
    L_main_v124 V]
  first | done | rfl

theorem L_main_v126 (V : Valuation τ sig (Elt F)) :
    after (ValueP.ops (F := F)) V (Proc.devRef .tc main_v126) = ReadP.val_main_v126 (F := F) (V (Proc.devRef .tc main_arg2)) := by
  rw [(ops_line (F := F)).unary_at V 154 main_v125 main_v126 _ _ _ rfl (by decide) (by decide),
    L_main_v125 V]
  first | done | rfl

theorem L_main_v127 (V : Valuation τ sig (Elt F)) :
    after (ValueP.ops (F := F)) V (Proc.devRef .tc main_v127) = ReadP.val_main_v127 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 155 main_v118 main_v126 main_v127 _ _ _ _ rfl (by decide) (by decide) (by decide),
    L_main_v118 V,
    L_main_v126 V]
  first | done | rfl

theorem L_main_v128 (V : Valuation τ sig (Elt F)) :
    after (ValueP.ops (F := F)) V (Proc.devRef .tc main_v128) = ReadP.val_main_v128 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 156 main_v93 main_v104 main_v128 _ _ _ _ rfl (by decide) (by decide) (by decide),
    L_main_v93 V,
    L_main_v104 V]
  first | done | rfl

theorem L_main_v129 (V : Valuation τ sig (Elt F)) :
    after (ValueP.ops (F := F)) V (Proc.devRef .tc main_v129) = ReadP.val_main_v129 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 157 main_v127 main_v106 main_v129 _ _ _ _ rfl (by decide) (by decide) (by decide),
    L_main_v127 V,
    L_main_v106 V]
  first | done | rfl

theorem L_main_v130 (V : Valuation τ sig (Elt F)) :
    after (ValueP.ops (F := F)) V (Proc.devRef .tc main_v130) = ReadP.val_main_v130 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 158 main_v128 main_v129 main_v130 _ _ _ _ rfl (by decide) (by decide) (by decide),
    L_main_v128 V,
    L_main_v129 V]
  first | done | rfl

theorem L_main_v131 (V : Valuation τ sig (Elt F)) :
    after (ValueP.ops (F := F)) V (Proc.devRef .tc main_v131) = ReadP.val_main_v131 (F := F) (V (Proc.devRef .tc main_arg10)) := by
  rw [(ops_line (F := F)).unary_at V 159 main_v108 main_v131 _ _ _ rfl (by decide) (by decide),
    L_main_v108 V]
  first | done | rfl

theorem L_main_v132 (V : Valuation τ sig (Elt F)) :
    after (ValueP.ops (F := F)) V (Proc.devRef .tc main_v132) = ReadP.val_main_v132 (F := F) (V (Proc.devRef .tc main_arg10)) := by
  rw [(ops_line (F := F)).unary_at V 160 main_v131 main_v132 _ _ _ rfl (by decide) (by decide),
    L_main_v131 V]
  first | done | rfl

theorem L_main_v133 (V : Valuation τ sig (Elt F)) :
    after (ValueP.ops (F := F)) V (Proc.devRef .tc main_v133) = ReadP.val_main_v133 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 161 main_v130 main_v132 main_v133 _ _ _ _ rfl (by decide) (by decide) (by decide),
    L_main_v130 V,
    L_main_v132 V]
  first | done | rfl

theorem L_main_call4_cst (V : Valuation τ sig (Elt F)) :
    after (ValueP.ops (F := F)) V (Proc.devRef .tc main_call4_cst) = ReadP.val_main_call4_cst (F := F) := by
  rw [(ops_line (F := F)).nullary_at V 162 main_call4_cst _ _ rfl (by decide)]
  first | done | rfl

theorem L_main_call4_v0 (V : Valuation τ sig (Elt F)) :
    after (ValueP.ops (F := F)) V (Proc.devRef .tc main_call4_v0) = ReadP.val_main_call4_v0 (F := F) := by
  rw [(ops_line (F := F)).unary_at V 163 main_call4_cst main_call4_v0 _ _ _ rfl (by decide) (by decide),
    L_main_call4_cst V]
  first | done | rfl

theorem L_main_v134 (V : Valuation τ sig (Elt F)) :
    after (ValueP.ops (F := F)) V (Proc.devRef .tc main_v134) = ReadP.val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [(ops_line (F := F)).binary_at V 164 main_v133 main_call4_v0 main_v134 _ _ _ _ rfl (by decide) (by decide) (by decide),
    L_main_v133 V,
    L_main_call4_v0 V]
  first | done | rfl

theorem L_main_v135 (V : Valuation τ sig (Elt F)) :
    after (ValueP.ops (F := F)) V (Proc.devRef .tc main_v135) = ReadP.val_main_v135 (F := F) (V (Proc.devRef .tc main_arg11)) := by
  rw [(ops_line (F := F)).unary_at V 165 main_arg11 main_v135 _ _ _ rfl (by decide) (by decide),
    (ops_line (F := F)).arg V (r := main_arg11) (by decide)]
  first | done | rfl

theorem L_main_v136 (V : Valuation τ sig (Elt F)) :
    after (ValueP.ops (F := F)) V (Proc.devRef .tc main_v136) = ReadP.val_main_v136 (F := F) (V (Proc.devRef .tc main_arg11)) := by
  rw [(ops_line (F := F)).reshape_at V 166 main_v135 main_v136 rfl shapeCasts_S1x64x64_S64x64 _ _ rfl (by decide) (by decide),
    L_main_v135 V]
  first | done | rfl

theorem L_main_v137 (V : Valuation τ sig (Elt F)) :
    after (ValueP.ops (F := F)) V (Proc.devRef .tc main_v137) = ReadP.val_main_v137 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [(ops_line (F := F)).binary_at V 167 main_v134 main_v136 main_v137 _ _ _ _ rfl (by decide) (by decide) (by decide),
    L_main_v134 V,
    L_main_v136 V]
  first | done | rfl

theorem L_main_v138 (V : Valuation τ sig (Elt F)) :
    after (ValueP.ops (F := F)) V (Proc.devRef .tc main_v138) = ReadP.val_main_v138 (F := F) (V (Proc.devRef .tc main_arg12)) := by
  rw [(ops_line (F := F)).unary_at V 168 main_arg12 main_v138 _ _ _ rfl (by decide) (by decide),
    (ops_line (F := F)).arg V (r := main_arg12) (by decide)]
  first | done | rfl

theorem L_main_v139 (V : Valuation τ sig (Elt F)) :
    after (ValueP.ops (F := F)) V (Proc.devRef .tc main_v139) = ReadP.val_main_v139 (F := F) (V (Proc.devRef .tc main_arg12)) := by
  rw [(ops_line (F := F)).reshape_at V 169 main_v138 main_v139 rfl shapeCasts_S1x64_S64 _ _ rfl (by decide) (by decide),
    L_main_v138 V]
  first | done | rfl

theorem L_main_v140 (V : Valuation τ sig (Elt F)) :
    after (ValueP.ops (F := F)) V (Proc.devRef .tc main_v140) = ReadP.val_main_v140 (F := F) (V (Proc.devRef .tc main_arg12)) := by
  rw [(ops_line (F := F)).unary_at V 170 main_v139 main_v140 _ _ _ rfl (by decide) (by decide),
    L_main_v139 V]
  first | done | rfl

theorem L_main_v141 (V : Valuation τ sig (Elt F)) :
    after (ValueP.ops (F := F)) V (Proc.devRef .tc main_v141) = ReadP.val_main_v141 (F := F) (V (Proc.devRef .tc main_arg12)) := by
  rw [(ops_line (F := F)).unary_at V 171 main_v140 main_v141 _ _ _ rfl (by decide) (by decide),
    L_main_v140 V]
  first | done | rfl

theorem L_main_v142 (V : Valuation τ sig (Elt F)) :
    after (ValueP.ops (F := F)) V (Proc.devRef .tc main_v142) = ReadP.val_main_v142 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [(ops_line (F := F)).binary_at V 172 main_v137 main_v141 main_v142 _ _ _ _ rfl (by decide) (by decide) (by decide),
    L_main_v137 V,
    L_main_v141 V]
  first | done | rfl

theorem L_main_call5_cst (V : Valuation τ sig (Elt F)) :
    after (ValueP.ops (F := F)) V (Proc.devRef .tc main_call5_cst) = ReadP.val_main_call5_cst (F := F) := by
  rw [(ops_line (F := F)).nullary_at V 173 main_call5_cst _ _ rfl (by decide)]
  first | done | rfl

theorem L_main_call5_v0 (V : Valuation τ sig (Elt F)) :
    after (ValueP.ops (F := F)) V (Proc.devRef .tc main_call5_v0) = ReadP.val_main_call5_v0 (F := F) := by
  rw [(ops_line (F := F)).unary_at V 174 main_call5_cst main_call5_v0 _ _ _ rfl (by decide) (by decide),
    L_main_call5_cst V]
  first | done | rfl

theorem L_main_v143 (V : Valuation τ sig (Elt F)) :
    after (ValueP.ops (F := F)) V (Proc.devRef .tc main_v143) = ReadP.val_main_v143 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [(ops_line (F := F)).binary_at V 175 main_v142 main_call5_v0 main_v143 _ _ _ _ rfl (by decide) (by decide) (by decide),
    L_main_v142 V,
    L_main_call5_v0 V]
  first | done | rfl

theorem L_main_v144 (V : Valuation τ sig (Elt F)) :
    after (ValueP.ops (F := F)) V (Proc.devRef .tc main_v144) = ReadP.val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [(ops_line (F := F)).nary_at V 176 ![main_v61, main_v102, main_v143] main_v144 _ _ _ rfl (by decide) (by decide)]
  show concatenate S5000x32x192 2 [⟨S5000x32x64, after (ValueP.ops (F := F)) V (Proc.devRef .tc main_v61)⟩, ⟨S5000x32x64, after (ValueP.ops (F := F)) V (Proc.devRef .tc main_v102)⟩, ⟨S5000x32x64, after (ValueP.ops (F := F)) V (Proc.devRef .tc main_v143)⟩] concatenates_S5000x32x64_S5000x32x64_S5000x32x64_S5000x32x192_d2 = _
  rw [L_main_v61 V, L_main_v102 V, L_main_v143 V]
  first | done | rfl

theorem L_main_cst_18 (V : Valuation τ sig (Elt F)) :
    after (ValueP.ops (F := F)) V (Proc.devRef .tc main_cst_18) = ReadP.val_main_cst_18 (F := F) := by
  rw [(ops_line (F := F)).nullary_at V 177 main_cst_18 _ _ rfl (by decide)]
  first | done | rfl

theorem L_main_v145 (V : Valuation τ sig (Elt F)) :
    after (ValueP.ops (F := F)) V (Proc.devRef .tc main_v145) = ReadP.val_main_v145 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [(ops_line (F := F)).binary_at V 178 main_v144 main_cst_18 main_v145 _ _ _ _ rfl (by decide) (by decide) (by decide),
    L_main_v144 V,
    L_main_cst_18 V]
  first | done | rfl

theorem L_main_v146 (V : Valuation τ sig (Elt F)) :
    after (ValueP.ops (F := F)) V (Proc.devRef .tc main_v146) = ReadP.val_main_v146 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [(ops_line (F := F)).binary_at V 179 main_v145 main_arg13 main_v146 _ _ _ _ rfl (by decide) (by decide) (by decide),
    L_main_v145 V,
    (ops_line (F := F)).arg V (r := main_arg13) (by decide)]
  first | done | rfl

theorem L_main_v147 (V : Valuation τ sig (Elt F)) :
    after (ValueP.ops (F := F)) V (Proc.devRef .tc main_v147) = ReadP.val_main_v147 (F := F) (V (Proc.devRef .tc main_arg14)) := by
  rw [(ops_line (F := F)).unary_at V 180 main_arg14 main_v147 _ _ _ rfl (by decide) (by decide),
    (ops_line (F := F)).arg V (r := main_arg14) (by decide)]
  first | done | rfl

theorem L_main_v148 (V : Valuation τ sig (Elt F)) :
    after (ValueP.ops (F := F)) V (Proc.devRef .tc main_v148) = ReadP.val_main_v148 (F := F) (V (Proc.devRef .tc main_arg14)) := by
  rw [(ops_line (F := F)).unary_at V 181 main_v147 main_v148 _ _ _ rfl (by decide) (by decide),
    L_main_v147 V]
  first | done | rfl

theorem L_main_v149 (V : Valuation τ sig (Elt F)) :
    after (ValueP.ops (F := F)) V (Proc.devRef .tc main_v149) = ReadP.val_main_v149 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [(ops_line (F := F)).binary_at V 182 main_v146 main_v148 main_v149 _ _ _ _ rfl (by decide) (by decide) (by decide),
    L_main_v146 V,
    L_main_v148 V]
  first | done | rfl

theorem L_main_call6_cst (V : Valuation τ sig (Elt F)) :
    after (ValueP.ops (F := F)) V (Proc.devRef .tc main_call6_cst) = ReadP.val_main_call6_cst (F := F) := by
  rw [(ops_line (F := F)).nullary_at V 183 main_call6_cst _ _ rfl (by decide)]
  first | done | rfl

theorem L_main_call6_v0 (V : Valuation τ sig (Elt F)) :
    after (ValueP.ops (F := F)) V (Proc.devRef .tc main_call6_v0) = ReadP.val_main_call6_v0 (F := F) := by
  rw [(ops_line (F := F)).unary_at V 184 main_call6_cst main_call6_v0 _ _ _ rfl (by decide) (by decide),
    L_main_call6_cst V]
  first | done | rfl

theorem L_main_v150 (V : Valuation τ sig (Elt F)) :
    after (ValueP.ops (F := F)) V (Proc.devRef .tc main_v150) = ReadP.val_main_v150 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [(ops_line (F := F)).binary_at V 185 main_v149 main_call6_v0 main_v150 _ _ _ _ rfl (by decide) (by decide) (by decide),
    L_main_v149 V,
    L_main_call6_v0 V]
  first | done | rfl

theorem L_main_v151 (V : Valuation τ sig (Elt F)) :
    after (ValueP.ops (F := F)) V (Proc.devRef .tc main_v151) = ReadP.val_main_v151 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [(ops_line (F := F)).binary_at V 186 main_v150 main_arg15 main_v151 _ _ _ _ rfl (by decide) (by decide) (by decide),
    L_main_v150 V,
    (ops_line (F := F)).arg V (r := main_arg15) (by decide)]
  first | done | rfl

theorem L_main_v152 (V : Valuation τ sig (Elt F)) :
    after (ValueP.ops (F := F)) V (Proc.devRef .tc main_v152) = ReadP.val_main_v152 (F := F) (V (Proc.devRef .tc main_arg16)) := by
  rw [(ops_line (F := F)).unary_at V 187 main_arg16 main_v152 _ _ _ rfl (by decide) (by decide),
    (ops_line (F := F)).arg V (r := main_arg16) (by decide)]
  first | done | rfl

theorem L_main_v153 (V : Valuation τ sig (Elt F)) :
    after (ValueP.ops (F := F)) V (Proc.devRef .tc main_v153) = ReadP.val_main_v153 (F := F) (V (Proc.devRef .tc main_arg16)) := by
  rw [(ops_line (F := F)).unary_at V 188 main_v152 main_v153 _ _ _ rfl (by decide) (by decide),
    L_main_v152 V]
  first | done | rfl

theorem L_main_v154 (V : Valuation τ sig (Elt F)) :
    after (ValueP.ops (F := F)) V (Proc.devRef .tc main_v154) = ReadP.val_main_v154 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [(ops_line (F := F)).binary_at V 189 main_v151 main_v153 main_v154 _ _ _ _ rfl (by decide) (by decide) (by decide),
    L_main_v151 V,
    L_main_v153 V]
  first | done | rfl

theorem L_main_call7_cst (V : Valuation τ sig (Elt F)) :
    after (ValueP.ops (F := F)) V (Proc.devRef .tc main_call7_cst) = ReadP.val_main_call7_cst (F := F) := by
  rw [(ops_line (F := F)).nullary_at V 190 main_call7_cst _ _ rfl (by decide)]
  first | done | rfl

theorem L_main_call7_v0 (V : Valuation τ sig (Elt F)) :
    after (ValueP.ops (F := F)) V (Proc.devRef .tc main_call7_v0) = ReadP.val_main_call7_v0 (F := F) := by
  rw [(ops_line (F := F)).unary_at V 191 main_call7_cst main_call7_v0 _ _ _ rfl (by decide) (by decide),
    L_main_call7_cst V]
  first | done | rfl

theorem L_main_v155 (V : Valuation τ sig (Elt F)) :
    after (ValueP.ops (F := F)) V (Proc.devRef .tc main_v155) = ReadP.val_main_v155 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [(ops_line (F := F)).binary_at V 192 main_v154 main_call7_v0 main_v155 _ _ _ _ rfl (by decide) (by decide) (by decide),
    L_main_v154 V,
    L_main_call7_v0 V]
  first | done | rfl

theorem L_main_v156 (V : Valuation τ sig (Elt F)) :
    after (ValueP.ops (F := F)) V (Proc.devRef .tc main_v156) = ReadP.val_main_v156 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [(ops_line (F := F)).binary_at V 193 main_v155 main_arg17 main_v156 _ _ _ _ rfl (by decide) (by decide) (by decide),
    L_main_v155 V,
    (ops_line (F := F)).arg V (r := main_arg17) (by decide)]
  first | done | rfl

theorem L_main_v157 (V : Valuation τ sig (Elt F)) :
    after (ValueP.ops (F := F)) V (Proc.devRef .tc main_v157) = ReadP.val_main_v157 (F := F) (V (Proc.devRef .tc main_arg18)) := by
  rw [(ops_line (F := F)).unary_at V 194 main_arg18 main_v157 _ _ _ rfl (by decide) (by decide),
    (ops_line (F := F)).arg V (r := main_arg18) (by decide)]
  first | done | rfl

theorem L_main_v158 (V : Valuation τ sig (Elt F)) :
    after (ValueP.ops (F := F)) V (Proc.devRef .tc main_v158) = ReadP.val_main_v158 (F := F) (V (Proc.devRef .tc main_arg18)) := by
  rw [(ops_line (F := F)).unary_at V 195 main_v157 main_v158 _ _ _ rfl (by decide) (by decide),
    L_main_v157 V]
  first | done | rfl

theorem L_main_v159 (V : Valuation τ sig (Elt F)) :
    after (ValueP.ops (F := F)) V (Proc.devRef .tc main_v159) = ReadP.val_main_v159 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [(ops_line (F := F)).binary_at V 196 main_v156 main_v158 main_v159 _ _ _ _ rfl (by decide) (by decide) (by decide),
    L_main_v156 V,
    L_main_v158 V]
  first | done | rfl

theorem L_main_v160 (V : Valuation τ sig (Elt F)) :
    after (ValueP.ops (F := F)) V (Proc.devRef .tc main_v160) = ReadP.val_main_v160 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [(ops_line (F := F)).reshape_at V 197 main_v159 main_v160 rfl shapeCasts_S32x1_S32 _ _ rfl (by decide) (by decide),
    L_main_v159 V]
  first | done | rfl

/-- The result buffer ends at its value definition at the argument arrays. -/
theorem link (V : Valuation τ sig (Elt F)) :
    after (ValueP.ops (F := F)) V (Proc.devRef .tc main_v160) = ReadP.val_main_v160 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) :=
  L_main_v160 V

end Cert.ReferenceIdeal.RefLink

end
-- ==== Proof.Ref.Args.lean ====
/-
  THE THREE WHOLE ARRAYS THE NETWORK'S DATA IS READ OFF.

  The edge list is an 8000 x 2 array of words. Its two columns one after the other are the 16000 slot words; read in the
  order (column 0, column 1), with 5000 added to a negative word, and laid out as a 16000 x 1 column, they are the column
  the neighbour gathers index by; read in the order (column 1, column 0), laid out the same way with no word changed, they
  are the column the scatter-adds index by. The node features are the 5000 x 140 given features beside the 8 embedding
  entries of each node's operation code, the code read with 120 added when it is negative.
-/
import proofs.«142801_j13228499272260_2_alg».proof.Proof.Gen.ReferenceIdeal
import proofs.«142801_j13228499272260_2_alg».proof.Proof.Spec
import proofs.«142801_j13228499272260_2_alg».proof.Proof.SpecArgs

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The column the neighbour gathers index by: the edge list's columns 0 then 1, a negative word raised by 5000. -/
def srcCol (a2 : (⟨S1x8000x2, .i32⟩ : BufTy).Contents (Elt Ideal)) : (⟨S16000x1, .i32⟩ : BufTy).Contents (Elt Ideal) :=
  broadcastInDim S16000x1 ![0] bcast_S16000_S16000x1_0 (select (cmpi .slt (concatenate S16000 0 [⟨S8000, (shapeCast _ (extractStridedSlice S8000x1 ![0, 0] (shapeCast _ a2 shapeCasts_S1x8000x2_S8000x2) slices_S8000x2_S8000x1_0_0) shapeCasts_S8000x1_S8000)⟩, ⟨S8000, (shapeCast _ (extractStridedSlice S8000x1 ![0, 1] (shapeCast _ a2 shapeCasts_S1x8000x2_S8000x2) slices_S8000x2_S8000x1_0_1) shapeCasts_S8000x1_S8000)⟩] concatenates_S8000_S8000_S16000_d0) (broadcastInDim S16000 ![] bcast_S_S16000 (constantI S_ 32 0#32))) (addi (concatenate S16000 0 [⟨S8000, (shapeCast _ (extractStridedSlice S8000x1 ![0, 0] (shapeCast _ a2 shapeCasts_S1x8000x2_S8000x2) slices_S8000x2_S8000x1_0_0) shapeCasts_S8000x1_S8000)⟩, ⟨S8000, (shapeCast _ (extractStridedSlice S8000x1 ![0, 1] (shapeCast _ a2 shapeCasts_S1x8000x2_S8000x2) slices_S8000x2_S8000x1_0_1) shapeCasts_S8000x1_S8000)⟩] concatenates_S8000_S8000_S16000_d0) (broadcastInDim S16000 ![] bcast_S_S16000 (constantI S_ 32 5000#32))) (concatenate S16000 0 [⟨S8000, (shapeCast _ (extractStridedSlice S8000x1 ![0, 0] (shapeCast _ a2 shapeCasts_S1x8000x2_S8000x2) slices_S8000x2_S8000x1_0_0) shapeCasts_S8000x1_S8000)⟩, ⟨S8000, (shapeCast _ (extractStridedSlice S8000x1 ![0, 1] (shapeCast _ a2 shapeCasts_S1x8000x2_S8000x2) slices_S8000x2_S8000x1_0_1) shapeCasts_S8000x1_S8000)⟩] concatenates_S8000_S8000_S16000_d0))

/-- The column the scatter-adds index by: the edge list's columns 1 then 0, no word changed. -/
def dstCol (a2 : (⟨S1x8000x2, .i32⟩ : BufTy).Contents (Elt Ideal)) : (⟨S16000x1, .i32⟩ : BufTy).Contents (Elt Ideal) :=
  broadcastInDim S16000x1 ![0] bcast_S16000_S16000x1_0 (concatenate S16000 0 [⟨S8000, (shapeCast _ (extractStridedSlice S8000x1 ![0, 1] (shapeCast _ a2 shapeCasts_S1x8000x2_S8000x2) slices_S8000x2_S8000x1_0_1) shapeCasts_S8000x1_S8000)⟩, ⟨S8000, (shapeCast _ (extractStridedSlice S8000x1 ![0, 0] (shapeCast _ a2 shapeCasts_S1x8000x2_S8000x2) slices_S8000x2_S8000x1_0_0) shapeCasts_S8000x1_S8000)⟩] concatenates_S8000_S8000_S16000_d0)

/-- The node features: the given 140 beside the 8 embedding entries of the node's operation code. -/
def xnArr (a0 : (⟨S1x5000x140, .f32⟩ : BufTy).Contents (Elt Ideal)) (a1 : (⟨S1x5000, .i32⟩ : BufTy).Contents (Elt Ideal))
    (a4 : (⟨S120x8, .f32⟩ : BufTy).Contents (Elt Ideal)) : (⟨S5000x148, .f32⟩ : BufTy).Contents (Elt Ideal) :=
  concatenate S5000x148 1 [⟨S5000x140, (shapeCast _ a0 shapeCasts_S1x5000x140_S5000x140)⟩, ⟨S5000x8, (Host.gather gather_S120x8_S5000x1_S5000x8_1_0_n_n_0_1_18 a4 (broadcastInDim S5000x1 ![0] bcast_S5000_S5000x1_0 (select (cmpi .slt (shapeCast _ a1 shapeCasts_S1x5000_S5000) (broadcastInDim S5000 ![] bcast_S_S5000 (constantI S_ 32 0#32))) (addi (shapeCast _ a1 shapeCasts_S1x5000_S5000) (broadcastInDim S5000 ![] bcast_S_S5000 (constantI S_ 32 120#32))) (shapeCast _ a1 shapeCasts_S1x5000_S5000))))⟩] concatenates_S5000x140_S5000x8_S5000x148_d1

end Cert.ReferenceIdeal.RefValue

end
-- ==== Proof.Ref.Net.lean ====
/-
  THE REFERENCE PROGRAM'S RESULT IS THE NETWORK IN ITS PLAIN FORMULATION.

  Layer by layer: the first layer's input array is Gnn.x0 of the node features and the configuration features; each
  layer's activation array is Gnn.sage of the previous one (Gnn.y1, Gnn.y2, Gnn.y3); each skip array is Gnn.skip of its
  layer; the three skip arrays side by side are Gnn.cat3; their sum over the nodes, from zero, is Gnn.pooled; and the
  three products with the head's weights, each with its bias and the first two raised to at least zero, are Gnn.head.
  Every step is the array lemma of that operation at the program's own arrays.
-/
import proofs.«142801_j13228499272260_2_alg».proof.Proof.Ref.RefDefs
import proofs.«142801_j13228499272260_2_alg».proof.Proof.Ref.Args
import proofs.«142801_j13228499272260_2_alg».proof.Proof.Ref.Skip
import proofs.«142801_j13228499272260_2_alg».proof.Proof.Ref.Head

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx RowOps3 Cert.LibHR

section
variable (a0 : (⟨S1x5000x140, .f32⟩ : BufTy).Contents (Elt Ideal))
  (a1 : (⟨S1x5000, .i32⟩ : BufTy).Contents (Elt Ideal))
  (a2 : (⟨S1x8000x2, .i32⟩ : BufTy).Contents (Elt Ideal))
  (a3 : (⟨S1x32x24, .f32⟩ : BufTy).Contents (Elt Ideal))
  (a4 : (⟨S120x8, .f32⟩ : BufTy).Contents (Elt Ideal))
  (a5 : (⟨S172x64, .f32⟩ : BufTy).Contents (Elt Ideal))
  (a6 : (⟨S172x64, .f32⟩ : BufTy).Contents (Elt Ideal))
  (a7 : (⟨S64, .f32⟩ : BufTy).Contents (Elt Ideal))
  (a8 : (⟨S2x64x64, .f32⟩ : BufTy).Contents (Elt Ideal))
  (a9 : (⟨S2x64x64, .f32⟩ : BufTy).Contents (Elt Ideal))
  (a10 : (⟨S2x64, .f32⟩ : BufTy).Contents (Elt Ideal))
  (a11 : (⟨S3x64x64, .f32⟩ : BufTy).Contents (Elt Ideal))
  (a12 : (⟨S3x64, .f32⟩ : BufTy).Contents (Elt Ideal))
  (a13 : (⟨S192x128, .f32⟩ : BufTy).Contents (Elt Ideal))
  (a14 : (⟨S128, .f32⟩ : BufTy).Contents (Elt Ideal))
  (a15 : (⟨S128x64, .f32⟩ : BufTy).Contents (Elt Ideal))
  (a16 : (⟨S64, .f32⟩ : BufTy).Contents (Elt Ideal))
  (a17 : (⟨S64x1, .f32⟩ : BufTy).Contents (Elt Ideal))
  (a18 : (⟨S1, .f32⟩ : BufTy).Contents (Elt Ideal))

/-- The graph the two index columns describe. -/
abbrev netG : Gnn.Graph := Gnn.graphOfCols (srcCol a2) (dstCol a2)
/-- The node features. -/
abbrev netX : Fin 5000 → Fin 148 → EReal := Gnn.xnOfArr (xnArr a0 a1 a4)
/-- The parameters. -/
abbrev netP : Gnn.Params := Gnn.paramsOf a3 a5 a6 a7 a8 a9 a10 a11 a12 a13 a14 a15 a16 a17 a18

/-! ## The layers -/

/-- The first layer's input. -/
theorem x0_at (n : Fin 5000) (c : Fin 32) (d : Fin 172) :
    val_main_v16 (F := Ideal) a0 a1 a3 a4 (ix3 n c d) = Gnn.x0 (netX a0 a1 a4) (netP a3 a5 a6 a7 a8 a9 a10 a11 a12 a13 a14 a15 a16 a17 a18).cf n c d :=
  x0Arr_apply concatenates_S5000x32x148_S5000x32x24_S5000x32x172_d2 bcast_S5000x148_S5000x1x148_0_2
    bcast_S5000x1x148_S5000x32x148_0_1_2 bcast_S32x24_S1x32x24_1_2 bcast_S1x32x24_S5000x32x24_0_1_2
    shapeCasts_S1x32x24_S32x24 (xnArr a0 a1 a4) a3 n c d

/-- The first layer's activations. -/
theorem y1_at (n : Fin 5000) (c : Fin 32) (h : Fin 64) :
    val_main_v52 (F := Ideal) a0 a1 a2 a3 a4 a5 a6 a7 (ix3 n c h) = Gnn.y1 (netG a2) (netX a0 a1 a4) (netP a3 a5 a6 a7 a8 a9 a10 a11 a12 a13 a14 a15 a16 a17 a18) n c h := by
  refine (sageArr_apply (D := 172) dot_S5000x32x172_S172x64_S5000x32x64_2_0_01_1_n_n_wf gather_S5000x32x172_S16000x1_S16000x32x172_12_0_n_n_0_1_132172_wf scatter_S5000x32x172_S16000x1_S16000x32x172_12_0_0_1_wf scatter_S5000_S16000x1_S16000_n_0_0_1_wf bcast_S_S5000x32x172 bcast_S_S5000 bcast_S_S16000 bcast_S_S5000x32x64 bcast_S5000_S5000x1x1_0 bcast_S5000x1x1_S5000x32x172_0_1_2 bcast_S64_S1x1x64_2 bcast_S1x1x64_S5000x32x64_0_1_2
    (val_main_v16 (F := Ideal) a0 a1 a3 a4) (srcCol a2) (dstCol a2) a5 a6 a7 n c h).trans ?_
  unfold Gnn.y1
  have hX : (fun n' c' d' => val_main_v16 (F := Ideal) a0 a1 a3 a4 (ix3 n' c' d')) = Gnn.x0 (netX a0 a1 a4) (netP a3 a5 a6 a7 a8 a9 a10 a11 a12 a13 a14 a15 a16 a17 a18).cf := by
    funext n' c' d'
    exact x0_at a0 a1 a3 a4 a5 a6 a7 a8 a9 a10 a11 a12 a13 a14 a15 a16 a17 a18 n' c' d'
  rw [hX]
  rfl

/-- The second layer's activations. -/
theorem y2_at (n : Fin 5000) (c : Fin 32) (h : Fin 64) :
    val_main_v93 (F := Ideal) a0 a1 a2 a3 a4 a5 a6 a7 a8 a9 a10 (ix3 n c h) = Gnn.y2 (netG a2) (netX a0 a1 a4) (netP a3 a5 a6 a7 a8 a9 a10 a11 a12 a13 a14 a15 a16 a17 a18) n c h := by
  refine (sageArr_apply (D := 64) dot_S5000x32x64_S64x64_S5000x32x64_2_0_01_1_n_n_wf gather_S5000x32x64_S16000x1_S16000x32x64_12_0_n_n_0_1_13264_wf scatter_S5000x32x64_S16000x1_S16000x32x64_12_0_0_1_wf scatter_S5000_S16000x1_S16000_n_0_0_1_wf bcast_S_S5000x32x64 bcast_S_S5000 bcast_S_S16000 bcast_S_S5000x32x64 bcast_S5000_S5000x1x1_0 bcast_S5000x1x1_S5000x32x64_0_1_2 bcast_S64_S1x1x64_2 bcast_S1x1x64_S5000x32x64_0_1_2
    (val_main_v52 (F := Ideal) a0 a1 a2 a3 a4 a5 a6 a7) (srcCol a2) (dstCol a2) (val_main_v63 (F := Ideal) a8) (val_main_v65 (F := Ideal) a9)
    (val_main_v67 (F := Ideal) a10) n c h).trans ?_
  unfold Gnn.y2
  have hX : (fun n' c' d' => val_main_v52 (F := Ideal) a0 a1 a2 a3 a4 a5 a6 a7 (ix3 n' c' d')) = Gnn.y1 (netG a2) (netX a0 a1 a4) (netP a3 a5 a6 a7 a8 a9 a10 a11 a12 a13 a14 a15 a16 a17 a18) := by
    funext n' c' d'
    exact y1_at a0 a1 a2 a3 a4 a5 a6 a7 a8 a9 a10 a11 a12 a13 a14 a15 a16 a17 a18 n' c' d'
  have hws : (fun d' h' => val_main_v63 (F := Ideal) a8 (ix2 d' h')) = (netP a3 a5 a6 a7 a8 a9 a10 a11 a12 a13 a14 a15 a16 a17 a18).ws 0 := by
    funext d' h'
    exact matSlice_apply (0 : Fin 2) a8 slices_S2x64x64_S1x64x64_0_0_0 shapeCasts_S1x64x64_S64x64 d' h'
  have hwn : (fun d' h' => val_main_v65 (F := Ideal) a9 (ix2 d' h')) = (netP a3 a5 a6 a7 a8 a9 a10 a11 a12 a13 a14 a15 a16 a17 a18).wn 0 := by
    funext d' h'
    exact matSlice_apply (0 : Fin 2) a9 slices_S2x64x64_S1x64x64_0_0_0 shapeCasts_S1x64x64_S64x64 d' h'
  have hb : (fun h' => val_main_v67 (F := Ideal) a10 (ix1 h')) = (netP a3 a5 a6 a7 a8 a9 a10 a11 a12 a13 a14 a15 a16 a17 a18).b 0 := by
    funext h'
    exact vecSlice_apply (0 : Fin 2) a10 slices_S2x64_S1x64_0_0 shapeCasts_S1x64_S64 h'
  rw [hX, hws, hwn, hb]

/-- The third layer's activations. -/
theorem y3_at (n : Fin 5000) (c : Fin 32) (h : Fin 64) :
    val_main_v134 (F := Ideal) a0 a1 a2 a3 a4 a5 a6 a7 a8 a9 a10 (ix3 n c h) = Gnn.y3 (netG a2) (netX a0 a1 a4) (netP a3 a5 a6 a7 a8 a9 a10 a11 a12 a13 a14 a15 a16 a17 a18) n c h := by
  refine (sageArr_apply (D := 64) dot_S5000x32x64_S64x64_S5000x32x64_2_0_01_1_n_n_wf gather_S5000x32x64_S16000x1_S16000x32x64_12_0_n_n_0_1_13264_wf scatter_S5000x32x64_S16000x1_S16000x32x64_12_0_0_1_wf scatter_S5000_S16000x1_S16000_n_0_0_1_wf bcast_S_S5000x32x64 bcast_S_S5000 bcast_S_S16000 bcast_S_S5000x32x64 bcast_S5000_S5000x1x1_0 bcast_S5000x1x1_S5000x32x64_0_1_2 bcast_S64_S1x1x64_2 bcast_S1x1x64_S5000x32x64_0_1_2
    (val_main_v93 (F := Ideal) a0 a1 a2 a3 a4 a5 a6 a7 a8 a9 a10) (srcCol a2) (dstCol a2) (val_main_v104 (F := Ideal) a8) (val_main_v106 (F := Ideal) a9)
    (val_main_v108 (F := Ideal) a10) n c h).trans ?_
  unfold Gnn.y3
  have hX : (fun n' c' d' => val_main_v93 (F := Ideal) a0 a1 a2 a3 a4 a5 a6 a7 a8 a9 a10 (ix3 n' c' d')) = Gnn.y2 (netG a2) (netX a0 a1 a4) (netP a3 a5 a6 a7 a8 a9 a10 a11 a12 a13 a14 a15 a16 a17 a18) := by
    funext n' c' d'
    exact y2_at a0 a1 a2 a3 a4 a5 a6 a7 a8 a9 a10 a11 a12 a13 a14 a15 a16 a17 a18 n' c' d'
  have hws : (fun d' h' => val_main_v104 (F := Ideal) a8 (ix2 d' h')) = (netP a3 a5 a6 a7 a8 a9 a10 a11 a12 a13 a14 a15 a16 a17 a18).ws 1 := by
    funext d' h'
    exact matSlice_apply (1 : Fin 2) a8 slices_S2x64x64_S1x64x64_1_0_0 shapeCasts_S1x64x64_S64x64 d' h'
  have hwn : (fun d' h' => val_main_v106 (F := Ideal) a9 (ix2 d' h')) = (netP a3 a5 a6 a7 a8 a9 a10 a11 a12 a13 a14 a15 a16 a17 a18).wn 1 := by
    funext d' h'
    exact matSlice_apply (1 : Fin 2) a9 slices_S2x64x64_S1x64x64_1_0_0 shapeCasts_S1x64x64_S64x64 d' h'
  have hb : (fun h' => val_main_v108 (F := Ideal) a10 (ix1 h')) = (netP a3 a5 a6 a7 a8 a9 a10 a11 a12 a13 a14 a15 a16 a17 a18).b 1 := by
    funext h'
    exact vecSlice_apply (1 : Fin 2) a10 slices_S2x64_S1x64_1_0 shapeCasts_S1x64_S64 h'
  rw [hX, hws, hwn, hb]

/-! ## The skip maps -/

/-- The skip output of layer 1. -/
theorem s1_at (n : Fin 5000) (c : Fin 32) (k : Fin 64) :
    val_main_v61 (F := Ideal) a0 a1 a2 a3 a4 a5 a6 a7 a11 a12 (ix3 n c k) = Gnn.skip (Gnn.y1 (netG a2) (netX a0 a1 a4) (netP a3 a5 a6 a7 a8 a9 a10 a11 a12 a13 a14 a15 a16 a17 a18)) ((netP a3 a5 a6 a7 a8 a9 a10 a11 a12 a13 a14 a15 a16 a17 a18).sw 0) ((netP a3 a5 a6 a7 a8 a9 a10 a11 a12 a13 a14 a15 a16 a17 a18).sb 0) n c k := by
  refine (skipArr_apply dot_S5000x32x64_S64x64_S5000x32x64_2_0_01_1_n_n_wf bcast_S_S5000x32x64 bcast_S64_S1x1x64_2 bcast_S1x1x64_S5000x32x64_0_1_2
    (val_main_v52 (F := Ideal) a0 a1 a2 a3 a4 a5 a6 a7) (val_main_v54 (F := Ideal) a11) (val_main_v57 (F := Ideal) a12) n c k).trans ?_
  have hY : (fun n' c' h' => val_main_v52 (F := Ideal) a0 a1 a2 a3 a4 a5 a6 a7 (ix3 n' c' h')) = Gnn.y1 (netG a2) (netX a0 a1 a4) (netP a3 a5 a6 a7 a8 a9 a10 a11 a12 a13 a14 a15 a16 a17 a18) := by
    funext n' c' h'
    exact y1_at a0 a1 a2 a3 a4 a5 a6 a7 a8 a9 a10 a11 a12 a13 a14 a15 a16 a17 a18 n' c' h'
  have hsw : (fun h' k' => val_main_v54 (F := Ideal) a11 (ix2 h' k')) = (netP a3 a5 a6 a7 a8 a9 a10 a11 a12 a13 a14 a15 a16 a17 a18).sw 0 := by
    funext h' k'
    exact matSlice_apply (0 : Fin 3) a11 slices_S3x64x64_S1x64x64_0_0_0 shapeCasts_S1x64x64_S64x64 h' k'
  have hsb : (fun k' => val_main_v57 (F := Ideal) a12 (ix1 k')) = (netP a3 a5 a6 a7 a8 a9 a10 a11 a12 a13 a14 a15 a16 a17 a18).sb 0 := by
    funext k'
    exact vecSlice_apply (0 : Fin 3) a12 slices_S3x64_S1x64_0_0 shapeCasts_S1x64_S64 k'
  rw [hY, hsw, hsb]

/-- The skip output of layer 2. -/
theorem s2_at (n : Fin 5000) (c : Fin 32) (k : Fin 64) :
    val_main_v102 (F := Ideal) a0 a1 a2 a3 a4 a5 a6 a7 a8 a9 a10 a11 a12 (ix3 n c k) = Gnn.skip (Gnn.y2 (netG a2) (netX a0 a1 a4) (netP a3 a5 a6 a7 a8 a9 a10 a11 a12 a13 a14 a15 a16 a17 a18)) ((netP a3 a5 a6 a7 a8 a9 a10 a11 a12 a13 a14 a15 a16 a17 a18).sw 1) ((netP a3 a5 a6 a7 a8 a9 a10 a11 a12 a13 a14 a15 a16 a17 a18).sb 1) n c k := by
  refine (skipArr_apply dot_S5000x32x64_S64x64_S5000x32x64_2_0_01_1_n_n_wf bcast_S_S5000x32x64 bcast_S64_S1x1x64_2 bcast_S1x1x64_S5000x32x64_0_1_2
    (val_main_v93 (F := Ideal) a0 a1 a2 a3 a4 a5 a6 a7 a8 a9 a10) (val_main_v95 (F := Ideal) a11) (val_main_v98 (F := Ideal) a12) n c k).trans ?_
  have hY : (fun n' c' h' => val_main_v93 (F := Ideal) a0 a1 a2 a3 a4 a5 a6 a7 a8 a9 a10 (ix3 n' c' h')) = Gnn.y2 (netG a2) (netX a0 a1 a4) (netP a3 a5 a6 a7 a8 a9 a10 a11 a12 a13 a14 a15 a16 a17 a18) := by
    funext n' c' h'
    exact y2_at a0 a1 a2 a3 a4 a5 a6 a7 a8 a9 a10 a11 a12 a13 a14 a15 a16 a17 a18 n' c' h'
  have hsw : (fun h' k' => val_main_v95 (F := Ideal) a11 (ix2 h' k')) = (netP a3 a5 a6 a7 a8 a9 a10 a11 a12 a13 a14 a15 a16 a17 a18).sw 1 := by
    funext h' k'
    exact matSlice_apply (1 : Fin 3) a11 slices_S3x64x64_S1x64x64_1_0_0 shapeCasts_S1x64x64_S64x64 h' k'
  have hsb : (fun k' => val_main_v98 (F := Ideal) a12 (ix1 k')) = (netP a3 a5 a6 a7 a8 a9 a10 a11 a12 a13 a14 a15 a16 a17 a18).sb 1 := by
    funext k'
    exact vecSlice_apply (1 : Fin 3) a12 slices_S3x64_S1x64_1_0 shapeCasts_S1x64_S64 k'
  rw [hY, hsw, hsb]

/-- The skip output of layer 3. -/
theorem s3_at (n : Fin 5000) (c : Fin 32) (k : Fin 64) :
    val_main_v143 (F := Ideal) a0 a1 a2 a3 a4 a5 a6 a7 a8 a9 a10 a11 a12 (ix3 n c k) = Gnn.skip (Gnn.y3 (netG a2) (netX a0 a1 a4) (netP a3 a5 a6 a7 a8 a9 a10 a11 a12 a13 a14 a15 a16 a17 a18)) ((netP a3 a5 a6 a7 a8 a9 a10 a11 a12 a13 a14 a15 a16 a17 a18).sw 2) ((netP a3 a5 a6 a7 a8 a9 a10 a11 a12 a13 a14 a15 a16 a17 a18).sb 2) n c k := by
  refine (skipArr_apply dot_S5000x32x64_S64x64_S5000x32x64_2_0_01_1_n_n_wf bcast_S_S5000x32x64 bcast_S64_S1x1x64_2 bcast_S1x1x64_S5000x32x64_0_1_2
    (val_main_v134 (F := Ideal) a0 a1 a2 a3 a4 a5 a6 a7 a8 a9 a10) (val_main_v136 (F := Ideal) a11) (val_main_v139 (F := Ideal) a12) n c k).trans ?_
  have hY : (fun n' c' h' => val_main_v134 (F := Ideal) a0 a1 a2 a3 a4 a5 a6 a7 a8 a9 a10 (ix3 n' c' h')) = Gnn.y3 (netG a2) (netX a0 a1 a4) (netP a3 a5 a6 a7 a8 a9 a10 a11 a12 a13 a14 a15 a16 a17 a18) := by
    funext n' c' h'
    exact y3_at a0 a1 a2 a3 a4 a5 a6 a7 a8 a9 a10 a11 a12 a13 a14 a15 a16 a17 a18 n' c' h'
  have hsw : (fun h' k' => val_main_v136 (F := Ideal) a11 (ix2 h' k')) = (netP a3 a5 a6 a7 a8 a9 a10 a11 a12 a13 a14 a15 a16 a17 a18).sw 2 := by
    funext h' k'
    exact matSlice_apply (2 : Fin 3) a11 slices_S3x64x64_S1x64x64_2_0_0 shapeCasts_S1x64x64_S64x64 h' k'
  have hsb : (fun k' => val_main_v139 (F := Ideal) a12 (ix1 k')) = (netP a3 a5 a6 a7 a8 a9 a10 a11 a12 a13 a14 a15 a16 a17 a18).sb 2 := by
    funext k'
    exact vecSlice_apply (2 : Fin 3) a12 slices_S3x64_S1x64_2_0 shapeCasts_S1x64_S64 k'
  rw [hY, hsw, hsb]

/-! ## The concatenation and the pooled sum -/

/-- The three skip arrays side by side. -/
theorem cat_at (n : Fin 5000) (c : Fin 32) (j : Fin 192) :
    val_main_v144 (F := Ideal) a0 a1 a2 a3 a4 a5 a6 a7 a8 a9 a10 a11 a12 (ix3 n c j)
      = Gnn.cat3 (Gnn.skip (Gnn.y1 (netG a2) (netX a0 a1 a4) (netP a3 a5 a6 a7 a8 a9 a10 a11 a12 a13 a14 a15 a16 a17 a18)) ((netP a3 a5 a6 a7 a8 a9 a10 a11 a12 a13 a14 a15 a16 a17 a18).sw 0) ((netP a3 a5 a6 a7 a8 a9 a10 a11 a12 a13 a14 a15 a16 a17 a18).sb 0) n c)
          (Gnn.skip (Gnn.y2 (netG a2) (netX a0 a1 a4) (netP a3 a5 a6 a7 a8 a9 a10 a11 a12 a13 a14 a15 a16 a17 a18)) ((netP a3 a5 a6 a7 a8 a9 a10 a11 a12 a13 a14 a15 a16 a17 a18).sw 1) ((netP a3 a5 a6 a7 a8 a9 a10 a11 a12 a13 a14 a15 a16 a17 a18).sb 1) n c)
          (Gnn.skip (Gnn.y3 (netG a2) (netX a0 a1 a4) (netP a3 a5 a6 a7 a8 a9 a10 a11 a12 a13 a14 a15 a16 a17 a18)) ((netP a3 a5 a6 a7 a8 a9 a10 a11 a12 a13 a14 a15 a16 a17 a18).sw 2) ((netP a3 a5 a6 a7 a8 a9 a10 a11 a12 a13 a14 a15 a16 a17 a18).sb 2) n c) j := by
  refine (catArr_apply concatenates_S5000x32x64_S5000x32x64_S5000x32x64_S5000x32x192_d2
    (val_main_v61 (F := Ideal) a0 a1 a2 a3 a4 a5 a6 a7 a11 a12) (val_main_v102 (F := Ideal) a0 a1 a2 a3 a4 a5 a6 a7 a8 a9 a10 a11 a12)
    (val_main_v143 (F := Ideal) a0 a1 a2 a3 a4 a5 a6 a7 a8 a9 a10 a11 a12) n c j).trans ?_
  have h1 : (fun k => val_main_v61 (F := Ideal) a0 a1 a2 a3 a4 a5 a6 a7 a11 a12 (ix3 n c k)) = Gnn.skip (Gnn.y1 (netG a2) (netX a0 a1 a4) (netP a3 a5 a6 a7 a8 a9 a10 a11 a12 a13 a14 a15 a16 a17 a18)) ((netP a3 a5 a6 a7 a8 a9 a10 a11 a12 a13 a14 a15 a16 a17 a18).sw 0) ((netP a3 a5 a6 a7 a8 a9 a10 a11 a12 a13 a14 a15 a16 a17 a18).sb 0) n c :=
    funext fun k => s1_at a0 a1 a2 a3 a4 a5 a6 a7 a8 a9 a10 a11 a12 a13 a14 a15 a16 a17 a18 n c k
  have h2 : (fun k => val_main_v102 (F := Ideal) a0 a1 a2 a3 a4 a5 a6 a7 a8 a9 a10 a11 a12 (ix3 n c k)) = Gnn.skip (Gnn.y2 (netG a2) (netX a0 a1 a4) (netP a3 a5 a6 a7 a8 a9 a10 a11 a12 a13 a14 a15 a16 a17 a18)) ((netP a3 a5 a6 a7 a8 a9 a10 a11 a12 a13 a14 a15 a16 a17 a18).sw 1) ((netP a3 a5 a6 a7 a8 a9 a10 a11 a12 a13 a14 a15 a16 a17 a18).sb 1) n c :=
    funext fun k => s2_at a0 a1 a2 a3 a4 a5 a6 a7 a8 a9 a10 a11 a12 a13 a14 a15 a16 a17 a18 n c k
  have h3 : (fun k => val_main_v143 (F := Ideal) a0 a1 a2 a3 a4 a5 a6 a7 a8 a9 a10 a11 a12 (ix3 n c k)) = Gnn.skip (Gnn.y3 (netG a2) (netX a0 a1 a4) (netP a3 a5 a6 a7 a8 a9 a10 a11 a12 a13 a14 a15 a16 a17 a18)) ((netP a3 a5 a6 a7 a8 a9 a10 a11 a12 a13 a14 a15 a16 a17 a18).sw 2) ((netP a3 a5 a6 a7 a8 a9 a10 a11 a12 a13 a14 a15 a16 a17 a18).sb 2) n c :=
    funext fun k => s3_at a0 a1 a2 a3 a4 a5 a6 a7 a8 a9 a10 a11 a12 a13 a14 a15 a16 a17 a18 n c k
  rw [h1, h2, h3]

/-- The pooled skip features. -/
theorem pooled_at (c : Fin 32) (j : Fin 192) :
    val_main_v145 (F := Ideal) a0 a1 a2 a3 a4 a5 a6 a7 a8 a9 a10 a11 a12 (ix2 c j) = Gnn.pooled (netG a2) (netX a0 a1 a4) (netP a3 a5 a6 a7 a8 a9 a10 a11 a12 a13 a14 a15 a16 a17 a18) c j := by
  refine (poolArr_apply reducesTo_S5000x32x192_S32x192_d0 h_S_ (val_main_v144 (F := Ideal) a0 a1 a2 a3 a4 a5 a6 a7 a8 a9 a10 a11 a12) c j).trans ?_
  unfold Gnn.pooled
  refine congrArg₂ (· + ·) rfl (Finset.sum_congr rfl fun n _ => ?_)
  exact cat_at a0 a1 a2 a3 a4 a5 a6 a7 a8 a9 a10 a11 a12 a13 a14 a15 a16 a17 a18 n c j

/-! ## The head -/

/-- The program's result at configuration c. -/
theorem out_at (c : Fin 32) :
    val_main_v160 (F := Ideal) a0 a1 a2 a3 a4 a5 a6 a7 a8 a9 a10 a11 a12 a13 a14 a15 a16 a17 a18 (ix1 c) = Gnn.refForm (netG a2) (netX a0 a1 a4) (netP a3 a5 a6 a7 a8 a9 a10 a11 a12 a13 a14 a15 a16 a17 a18) c := by
  refine (headArr_apply dot_S32x192_S192x128_S32x128_1_0_0_1_n_n_wf dot_S32x128_S128x64_S32x64_1_0_0_1_n_n_wf
    dot_S32x64_S64x1_S32x1_1_0_0_1_n_n_wf bcast_S128_S1x128_1 bcast_S1x128_S32x128_0_1 bcast_S_S32x128 bcast_S64_S1x64_1
    bcast_S1x64_S32x64_0_1 bcast_S_S32x64 bcast_S1_S1x1_1 bcast_S1x1_S32x1_0_1 shapeCasts_S32x1_S32
    (val_main_v145 (F := Ideal) a0 a1 a2 a3 a4 a5 a6 a7 a8 a9 a10 a11 a12) a13 a14 a15 a16 a17 a18 c).trans ?_
  unfold Gnn.refForm
  have hZ : (fun i => val_main_v145 (F := Ideal) a0 a1 a2 a3 a4 a5 a6 a7 a8 a9 a10 a11 a12 (ix2 c i)) = Gnn.pooled (netG a2) (netX a0 a1 a4) (netP a3 a5 a6 a7 a8 a9 a10 a11 a12 a13 a14 a15 a16 a17 a18) c :=
    funext fun i => pooled_at a0 a1 a2 a3 a4 a5 a6 a7 a8 a9 a10 a11 a12 a13 a14 a15 a16 a17 a18 c i
  rw [hZ]
  rfl

end

/-- THE REFERENCE PROGRAM'S RESULT: at every configuration, the network in its plain formulation on the graph, node
    features and parameters read off the argument arrays. -/
theorem result_eq (a0 : (⟨S1x5000x140, .f32⟩ : BufTy).Contents (Elt Ideal))
  (a1 : (⟨S1x5000, .i32⟩ : BufTy).Contents (Elt Ideal))
  (a2 : (⟨S1x8000x2, .i32⟩ : BufTy).Contents (Elt Ideal))
  (a3 : (⟨S1x32x24, .f32⟩ : BufTy).Contents (Elt Ideal))
  (a4 : (⟨S120x8, .f32⟩ : BufTy).Contents (Elt Ideal))
  (a5 : (⟨S172x64, .f32⟩ : BufTy).Contents (Elt Ideal))
  (a6 : (⟨S172x64, .f32⟩ : BufTy).Contents (Elt Ideal))
  (a7 : (⟨S64, .f32⟩ : BufTy).Contents (Elt Ideal))
  (a8 : (⟨S2x64x64, .f32⟩ : BufTy).Contents (Elt Ideal))
  (a9 : (⟨S2x64x64, .f32⟩ : BufTy).Contents (Elt Ideal))
  (a10 : (⟨S2x64, .f32⟩ : BufTy).Contents (Elt Ideal))
  (a11 : (⟨S3x64x64, .f32⟩ : BufTy).Contents (Elt Ideal))
  (a12 : (⟨S3x64, .f32⟩ : BufTy).Contents (Elt Ideal))
  (a13 : (⟨S192x128, .f32⟩ : BufTy).Contents (Elt Ideal))
  (a14 : (⟨S128, .f32⟩ : BufTy).Contents (Elt Ideal))
  (a15 : (⟨S128x64, .f32⟩ : BufTy).Contents (Elt Ideal))
  (a16 : (⟨S64, .f32⟩ : BufTy).Contents (Elt Ideal))
  (a17 : (⟨S64x1, .f32⟩ : BufTy).Contents (Elt Ideal))
  (a18 : (⟨S1, .f32⟩ : BufTy).Contents (Elt Ideal)) :
    val_main_v160 (F := Ideal) a0 a1 a2 a3 a4 a5 a6 a7 a8 a9 a10 a11 a12 a13 a14 a15 a16 a17 a18
      = fun i => Gnn.refForm (Gnn.graphOfCols (srcCol a2) (dstCol a2)) (Gnn.xnOfArr (xnArr a0 a1 a4))
          (Gnn.paramsOf a3 a5 a6 a7 a8 a9 a10 a11 a12 a13 a14 a15 a16 a17 a18) (i 0) := by
  funext i
  obtain ⟨c, rfl⟩ : ∃ c : Fin 32, i = ix1 c := ⟨i 0, eq_ix1 i⟩
  exact out_at a0 a1 a2 a3 a4 a5 a6 a7 a8 a9 a10 a11 a12 a13 a14 a15 a16 a17 a18 c

end Cert.ReferenceIdeal.RefValue

end
-- ==== Proof.Ref.Final.lean ====
/-
  EVERY EXECUTION OF THE REFERENCE PROGRAM ENDS AT THE NETWORK IN ITS PLAIN FORMULATION.

  From any memory with zero counters, every weakly fair execution of the reference program terminates with its result buffer
  holding, at every configuration, the network's output on the graph, node features and parameters read off the argument
  arrays as they were at the start, and with the nineteen argument arrays unchanged. This puts together: the run of the
  operation list; what the list leaves in the result buffer, as the result's value definition at the argument arrays; and
  that value definition as the plain formulation.
-/
import proofs.«142801_j13228499272260_2_alg».proof.Proof.Ref.RefLink
import proofs.«142801_j13228499272260_2_alg».proof.Proof.Ref.Net

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference program's run: the result is the plain formulation, the arguments are unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v160)
        = (fun i => Gnn.refForm (Gnn.graphOfCols (srcCol (m' ((c.tc : Thread nD τ).loc main_arg2))) (dstCol (m' ((c.tc : Thread nD τ).loc main_arg2))))
            (Gnn.xnOfArr (xnArr (m' ((c.tc : Thread nD τ).loc main_arg0)) (m' ((c.tc : Thread nD τ).loc main_arg1)) (m' ((c.tc : Thread nD τ).loc main_arg4))))
            (Gnn.paramsOf (m' ((c.tc : Thread nD τ).loc main_arg3)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18))) (i 0))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18) :=
  (θ_run defs _ _).mono (fun _ h c =>
    ⟨(h c main_v160).trans ((RefLink.link _).trans
        (result_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)))),
      (h c main_arg0).trans (RefLink.arg_kept _ (by decide)),
      (h c main_arg1).trans (RefLink.arg_kept _ (by decide)),
      (h c main_arg2).trans (RefLink.arg_kept _ (by decide)),
      (h c main_arg3).trans (RefLink.arg_kept _ (by decide)),
      (h c main_arg4).trans (RefLink.arg_kept _ (by decide)),
      (h c main_arg5).trans (RefLink.arg_kept _ (by decide)),
      (h c main_arg6).trans (RefLink.arg_kept _ (by decide)),
      (h c main_arg7).trans (RefLink.arg_kept _ (by decide)),
      (h c main_arg8).trans (RefLink.arg_kept _ (by decide)),
      (h c main_arg9).trans (RefLink.arg_kept _ (by decide)),
      (h c main_arg10).trans (RefLink.arg_kept _ (by decide)),
      (h c main_arg11).trans (RefLink.arg_kept _ (by decide)),
      (h c main_arg12).trans (RefLink.arg_kept _ (by decide)),
      (h c main_arg13).trans (RefLink.arg_kept _ (by decide)),
      (h c main_arg14).trans (RefLink.arg_kept _ (by decide)),
      (h c main_arg15).trans (RefLink.arg_kept _ (by decide)),
      (h c main_arg16).trans (RefLink.arg_kept _ (by decide)),
      (h c main_arg17).trans (RefLink.arg_kept _ (by decide)),
      (h c main_arg18).trans (RefLink.arg_kept _ (by decide))⟩)
    (ValueP.run_after m' ρ')

end Cert.ReferenceIdeal.RefValue

end
-- ==== Proof.Math.Lit.lean ====
/-
  Elementary facts about the network's ingredients over the extended reals: the two float literals are the numbers 0 and 1,
  a node's degree is the number of edge slots landing on it, the quotient defining a neighbour mean is a product with a
  real reciprocal, the neighbour sum of a constant, the split of a 172-term sum into its first 148 and last 24 terms, and
  how the three-block concatenation reads in each block.
-/
import proofs.«142801_j13228499272260_2_alg».proof.Proof.Spec
import Idealize.ShloMosaic.PureOps.Ideal.Laws

noncomputable section

open scoped BigOperators

namespace Gnn

open Idealize.ShloMosaic

/-- The literal 0.0 is the extended real 0. -/
theorem zero_eq : (zero : EReal) = 0 := Ideal.ofBits_zero_f32

/-- The literal 1.0 is the extended real 1. -/
theorem one_eq : (one : EReal) = 1 := by
  show Ideal.ofBits .f32 0x3F800000#32 = 1
  simp [Ideal.ofBits, Ideal.ieee, -EReal.coe_mul]; norm_num

/-- relu is max with 0. -/
theorem relu_eq (x : EReal) : relu x = max x 0 := by
  unfold relu; rw [zero_eq]

/-- The number of slots landing on n, as a real. -/
def cnt (G : Graph) (n : Fin 5000) : ℝ := ((G.into n).card : ℝ)

/-- max (number of slots landing on n) 1, as a real. -/
def dmax (G : Graph) (n : Fin 5000) : ℝ := max (cnt G n) 1

theorem dmax_pos (G : Graph) (n : Fin 5000) : 0 < dmax G n :=
  lt_of_lt_of_le one_pos (le_max_right _ _)

theorem dmax_ne_zero (G : Graph) (n : Fin 5000) : dmax G n ≠ 0 := (dmax_pos G n).ne'

/-- The degree is the number of slots landing on the node. -/
theorem deg_eq (G : Graph) (n : Fin 5000) : deg G n = ((cnt G n : ℝ) : EReal) := by
  unfold deg cnt
  rw [zero_eq, one_eq, zero_add, Finset.sum_const, EReal.nsmul_eq_mul, mul_one]
  rfl

/-- The denominator of a neighbour mean is the real max (degree) 1. -/
theorem maxdeg_eq (G : Graph) (n : Fin 5000) : max (deg G n) one = ((dmax G n : ℝ) : EReal) := by
  rw [deg_eq, one_eq, ← EReal.coe_one]
  exact (EReal.coe_strictMono.monotone.map_max (a := cnt G n) (b := 1)).symm

/-- The neighbour mean is the neighbour sum times the real reciprocal of max (degree) 1, at every extended real. -/
theorem meanDiv_eq (G : Graph) (X : Fin 5000 → EReal) (n : Fin 5000) :
    meanDiv G X n = nsum G X n * ((1 / dmax G n : ℝ) : EReal) := by
  unfold meanDiv
  rw [maxdeg_eq, Ideal.div_coe (dmax_ne_zero G n)]

/-- The neighbour sum of a constant is the number of slots times the constant. -/
theorem nsum_const (G : Graph) (v : EReal) (n : Fin 5000) :
    nsum G (fun _ => v) n = ((cnt G n : ℝ) : EReal) * v := by
  unfold nsum cnt
  rw [zero_eq, zero_add, Finset.sum_const, EReal.nsmul_eq_mul]
  rfl

/-- A sum over 172 indices is the sum over the first 148 plus the sum over the last 24. -/
theorem sum_split (f : Fin 172 → EReal) :
    (∑ d : Fin 172, f d)
      = (∑ d : Fin 148, f ⟨d.val, by omega⟩) + ∑ k : Fin 24, f ⟨148 + k.val, by omega⟩ :=
  Fin.sum_univ_add (a := 148) (b := 24) (M := EReal) f

/-- The first layer's input at one of the first 148 features is the node feature. -/
theorem x0_lo (xn : Fin 5000 → Fin 148 → EReal) (cf : Fin 32 → Fin 24 → EReal) (n : Fin 5000) (c : Fin 32)
    (d : Fin 148) : x0 xn cf n c ⟨d.val, by omega⟩ = xn n d := by
  unfold x0
  rw [dif_pos (show (⟨d.val, by omega⟩ : Fin 172).val < 148 from d.isLt)]

/-- The first layer's input at one of the last 24 features is the configuration feature. -/
theorem x0_hi (xn : Fin 5000 → Fin 148 → EReal) (cf : Fin 32 → Fin 24 → EReal) (n : Fin 5000) (c : Fin 32)
    (k : Fin 24) : x0 xn cf n c ⟨148 + k.val, by omega⟩ = cf c k := by
  unfold x0
  rw [dif_neg (show ¬ (⟨148 + k.val, by omega⟩ : Fin 172).val < 148 from by simp)]
  congr 1
  apply Fin.ext
  simp

/-- The concatenation read in its first block. -/
theorem cat3_fst (a b c : Fin 64 → EReal) (j : Fin 192) (h1 : j.val < 64) : cat3 a b c j = a ⟨j.val, h1⟩ := by
  unfold cat3; rw [dif_pos h1]

/-- The concatenation read in its second block. -/
theorem cat3_snd (a b c : Fin 64 → EReal) (j : Fin 192) (h1 : ¬ j.val < 64) (h2 : j.val < 128) :
    cat3 a b c j = b ⟨j.val - 64, by omega⟩ := by
  unfold cat3; rw [dif_neg h1, dif_pos h2]

/-- The concatenation read in its third block. -/
theorem cat3_trd (a b c : Fin 64 → EReal) (j : Fin 192) (h1 : ¬ j.val < 64) (h2 : ¬ j.val < 128) :
    cat3 a b c j = c ⟨j.val - 128, by omega⟩ := by
  unfold cat3; rw [dif_neg h1, dif_neg h2]

end Gnn

end
-- ==== Proof.Math.Mean.lean ====
/-
  The neighbour mean as a product equals the neighbour mean as a quotient, at every extended real; the has-a-neighbour flag
  min (degree) 1 is 0 or 1; the neighbour mean of a constant is the flag times the constant; and a layer with the mean as a
  product is the layer with the mean as a quotient.
-/
import proofs.«142801_j13228499272260_2_alg».proof.Proof.SpecK
import proofs.«142801_j13228499272260_2_alg».proof.Proof.Math.Lit

noncomputable section

open scoped BigOperators

namespace Gnn

open Idealize.ShloMosaic

/-- 1 / max (degree) 1 is the real reciprocal. -/
theorem dinv_eq (G : Graph) (n : Fin 5000) : dinv G n = ((1 / dmax G n : ℝ) : EReal) := by
  unfold dinv
  rw [maxdeg_eq, Ideal.div_coe (dmax_ne_zero G n), one_eq, one_mul]

/-- The two spellings of the neighbour mean agree. -/
theorem meanMul_eq_meanDiv (G : Graph) (X : Fin 5000 → EReal) (n : Fin 5000) : meanMul G X n = meanDiv G X n := by
  unfold meanMul
  rw [dinv_eq, meanDiv_eq]

/-- No slot lands on n: the flag is 0. -/
theorem mask_of_cnt_zero (G : Graph) (n : Fin 5000) (h : cnt G n = 0) : mask G n = 0 := by
  unfold mask
  rw [deg_eq, h, one_eq, EReal.coe_zero]
  exact min_eq_left zero_le_one

/-- Some slot lands on n: the flag is 1. -/
theorem mask_of_one_le_cnt (G : Graph) (n : Fin 5000) (h : 1 ≤ cnt G n) : mask G n = 1 := by
  unfold mask
  rw [deg_eq, one_eq]
  apply min_eq_right
  rw [← EReal.coe_one]
  exact EReal.coe_le_coe_iff.mpr h

/-- The number of slots landing on a node is 0 or at least 1. -/
theorem cnt_zero_or_one_le (G : Graph) (n : Fin 5000) : cnt G n = 0 ∨ 1 ≤ cnt G n := by
  unfold cnt
  rcases Nat.eq_zero_or_pos (G.into n).card with h | h
  · left; rw [h]; simp
  · right; exact_mod_cast h

/-- The flag is 0 or 1. -/
theorem mask_zero_or_one (G : Graph) (n : Fin 5000) : mask G n = 0 ∨ mask G n = 1 := by
  rcases cnt_zero_or_one_le G n with h | h
  · exact Or.inl (mask_of_cnt_zero G n h)
  · exact Or.inr (mask_of_one_le_cnt G n h)

/-- The neighbour mean of a constant is the flag times the constant, also at the infinities. -/
theorem meanDiv_const (G : Graph) (v : EReal) (n : Fin 5000) : meanDiv G (fun _ => v) n = mask G n * v := by
  rw [meanDiv_eq, nsum_const]
  rcases cnt_zero_or_one_le G n with h | h
  · rw [mask_of_cnt_zero G n h, h, EReal.coe_zero, zero_mul, zero_mul]
  · rw [mask_of_one_le_cnt G n h, one_mul]
    have hd : dmax G n = cnt G n := max_eq_left h
    have hc : cnt G n ≠ 0 := (lt_of_lt_of_le one_pos h).ne'
    rw [hd, mul_comm ((cnt G n : ℝ) : EReal) v, mul_assoc, ← EReal.coe_mul, mul_one_div_cancel hc, EReal.coe_one, mul_one]

/-- A factor that is 0 or 1 moves out of a sum of products. -/
theorem flag_mul_sum {ι : Type} [Fintype ι] (m : EReal) (hm : m = 0 ∨ m = 1) (a w : ι → EReal) :
    (∑ k : ι, (m * a k) * w k) = m * ∑ k : ι, a k * w k := by
  rcases hm with h | h
  · subst h; simp
  · subst h; simp

/-- A layer on 64 features with the mean as a product is the layer with the mean as a quotient. -/
theorem sageK_eq_sage (G : Graph) (X : Fin 5000 → Fin 32 → Fin 64 → EReal) (ws wn : Fin 64 → Fin 64 → EReal)
    (b : Fin 64 → EReal) : sageK G X ws wn b = sage G X ws wn b := by
  funext n c h
  unfold sageK sage
  simp only [meanMul_eq_meanDiv]

end Gnn

end
-- ==== Proof.Math.Layer.lean ====
/-
  The three layers of the tiled formulation are the three layers of the plain one. In the first layer the 172-long sums
  split into the 148 node terms and the 24 configuration terms; a configuration term does not depend on the node, so its
  neighbour mean is the has-a-neighbour flag times the term, and the flag (0 or 1) moves out of the 24-term sum. The next
  two layers agree once their inputs do.
-/
import proofs.«142801_j13228499272260_2_alg».proof.Proof.SpecK
import proofs.«142801_j13228499272260_2_alg».proof.Proof.Math.Mean

noncomputable section

open scoped BigOperators

namespace Gnn

open Idealize.ShloMosaic

variable (G : Graph) (xn : Fin 5000 → Fin 148 → EReal) (P : Params)

/-- The first layer. -/
theorem x1K_eq_y1 : x1K G xn P = y1 G xn P := by
  funext n c h
  unfold x1K y1 sage
  rw [sum_split (fun d => x0 xn P.cf n c d * P.ws0 d h),
    sum_split (fun d => meanDiv G (fun n' => x0 xn P.cf n' c d) n * P.wn0 d h)]
  simp only [x0_lo, x0_hi, meanDiv_const, meanMul_eq_meanDiv]
  rw [flag_mul_sum (mask G n) (mask_zero_or_one G n)]

/-- The second layer. -/
theorem x2K_eq_y2 : x2K G xn P = y2 G xn P := by
  unfold x2K y2
  rw [sageK_eq_sage, x1K_eq_y1]

/-- The third layer. -/
theorem x3K_eq_y3 : x3K G xn P = y3 G xn P := by
  unfold x3K y3
  rw [sageK_eq_sage, x2K_eq_y2]

end Gnn

end
-- ==== Proof.Math.Pool.lean ====
/-
  Pooling. The 5000 nodes are the 25 tiles of 200 nodes, node r of tile t being t * 200 + r, so a sum over all nodes is the
  sum over the tiles of the sums over each tile; and the concatenation of three sums is the sum of the concatenations, block
  by block. Hence the pooled features of the two formulations agree, and so do the outputs.
-/
import proofs.«142801_j13228499272260_2_alg».proof.Proof.SpecK
import proofs.«142801_j13228499272260_2_alg».proof.Proof.Math.Layer

noncomputable section

open scoped BigOperators

namespace Gnn

open Idealize.ShloMosaic

/-- The nodes, as tile and place in the tile. -/
def tileEquiv : Fin 25 × Fin 200 ≃ Fin 5000 where
  toFun p := tileNode p.1 p.2
  invFun n := (⟨n.val / 200, by omega⟩, ⟨n.val % 200, by omega⟩)
  left_inv p := by
    rcases p with ⟨t, r⟩
    have ht := t.isLt
    have hr := r.isLt
    apply Prod.ext
    · apply Fin.ext
      show (t.val * 200 + r.val) / 200 = t.val
      omega
    · apply Fin.ext
      show (t.val * 200 + r.val) % 200 = r.val
      omega
  right_inv n := by
    apply Fin.ext
    show n.val / 200 * 200 + n.val % 200 = n.val
    omega

/-- A sum over all nodes is the sum over the tiles of the sums over each tile. -/
theorem sum_tiles (f : Fin 5000 → EReal) :
    (∑ n : Fin 5000, f n) = ∑ t : Fin 25, ∑ r : Fin 200, f (tileNode t r) := by
  rw [← Fintype.sum_prod_type' (f := fun t r => f (tileNode t r))]
  exact (Fintype.sum_equiv tileEquiv (fun p => f (tileNode p.1 p.2)) f (fun _ => rfl)).symm

/-- A tile's pooled sum is the sum of the skip map over the tile's nodes. -/
theorem poolK_eq (Y : Fin 5000 → Fin 32 → Fin 64 → EReal) (sw : Fin 64 → Fin 64 → EReal) (sb : Fin 64 → EReal)
    (t : Fin 25) (c : Fin 32) (k : Fin 64) :
    poolK Y sw sb t c k = ∑ r : Fin 200, skip Y sw sb (tileNode t r) c k := rfl

/-- zero plus the sum over the tiles of a layer's tile sums is zero plus the sum over all nodes of its skip map. -/
theorem pool_layer (Y : Fin 5000 → Fin 32 → Fin 64 → EReal) (sw : Fin 64 → Fin 64 → EReal) (sb : Fin 64 → EReal)
    (c : Fin 32) (k : Fin 64) :
    (zero + ∑ t : Fin 25, poolK Y sw sb t c k) = zero + ∑ n : Fin 5000, skip Y sw sb n c k := by
  rw [sum_tiles (fun n => skip Y sw sb n c k)]
  rfl

variable (G : Graph) (xn : Fin 5000 → Fin 148 → EReal) (P : Params)

/-- The pooled features agree. -/
theorem pooledK_eq_pooled (c : Fin 32) : pooledK G xn P c = pooled G xn P c := by
  funext j
  unfold pooledK pooled
  rw [x1K_eq_y1, x2K_eq_y2, x3K_eq_y3]
  by_cases h1 : j.val < 64
  · simp only [cat3_fst _ _ _ j h1]
    exact pool_layer _ _ _ c _
  · by_cases h2 : j.val < 128
    · simp only [cat3_snd _ _ _ j h1 h2]
      exact pool_layer _ _ _ c _
    · simp only [cat3_trd _ _ _ j h1 h2]
      exact pool_layer _ _ _ c _

/-- The tiled formulation computes the plain formulation's function, at all extended-real inputs. -/
theorem kerForm_eq_refForm (G : Gnn.Graph) (xn : Fin 5000 → Fin 148 → EReal) (P : Gnn.Params) (c : Fin 32) :
    Gnn.kerForm G xn P c = Gnn.refForm G xn P c := by
  unfold kerForm refForm
  rw [pooledK_eq_pooled]

end Gnn

end
-- ==== Proof.lean ====
/-
  A three-layer graph network on 5000 nodes and 32 configurations, as a tiled kernel program (three kernel regions between host
  stretches that gather and scatter-add along the edges) and as a plain host program.

  The frames: each kernel region's body is run symbolically on its tile's blocks, the host stretches are straight lines, and no
  stretch or region writes an argument array (the proofs are generic in the float instance and serve the word-level program and its
  idealization alike); the plain program is one straight line. The idealization rewrote nothing.

  The values, over the extended reals. The kernel's result is read through its run: each region leaves in its arrays what its body
  computes from the tile's rows, the stretches between form the neighbour means and the last ones pool the 25 tiles and apply the
  head: the tiled formulation `Gnn.kerForm`. The plain program's result is read one operation at a time: the plain formulation
  `Gnn.refForm`. The two formulations are one function: the first layer's 172-long contraction splits into the node part and the
  configuration part, whose neighbour mean is the part itself times min (deg, 1) because the degree is a natural number; a quotient
  by max (deg, 1) is a product with its reciprocal; a sum over the nodes is the sum over the tiles of the tiles' sums. The graph and
  the node features are formed by both programs from the arguments in the same way.
-/
import proofs.«142801_j13228499272260_2_alg».proof.Defs
import proofs.«142801_j13228499272260_2_alg».proof.Proof.Gen.Kernel
import proofs.«142801_j13228499272260_2_alg».proof.Proof.Gen.KernelIdeal
import proofs.«142801_j13228499272260_2_alg».proof.Proof.Gen.ReferenceIdeal
import proofs.«142801_j13228499272260_2_alg».proof.Proof.Gen.Pre_finite_inputs
import proofs.«142801_j13228499272260_2_alg».proof.Proof.KB.Run
import proofs.«142801_j13228499272260_2_alg».proof.Proof.KI.KValue
import proofs.«142801_j13228499272260_2_alg».proof.Proof.Ref.Final
import proofs.«142801_j13228499272260_2_alg».proof.Proof.Math.Pool

set_option maxRecDepth 16384

noncomputable section

namespace Cert.Proof

open Idealize.ShloMosaic Idealize.SL.Sem

/-- Both programs form the column of source words in the same way. -/
theorem src_eq (a2 : (⟨Cert.KernelIdeal.S1x8000x2, .i32⟩ : BufTy).Contents (Elt Ideal)) :
    Cert.ReferenceIdeal.RefValue.srcCol a2 = Cert.KernelIdeal.Host0.srcColK (F := Ideal) a2 := rfl
/-- ... and the column of target words, -/
theorem dst_eq (a2 : (⟨Cert.KernelIdeal.S1x8000x2, .i32⟩ : BufTy).Contents (Elt Ideal)) :
    Cert.ReferenceIdeal.RefValue.dstCol a2 = Cert.KernelIdeal.Host0.dstColK (F := Ideal) a2 := rfl
/-- ... and the node features. -/
theorem xn_eq (a0 : (⟨Cert.KernelIdeal.S1x5000x140, .f32⟩ : BufTy).Contents (Elt Ideal))
    (a1 : (⟨Cert.KernelIdeal.S1x5000, .i32⟩ : BufTy).Contents (Elt Ideal)) (a4 : (⟨Cert.KernelIdeal.S120x8, .f32⟩ : BufTy).Contents (Elt Ideal)) :
    Cert.ReferenceIdeal.RefValue.xnArr a0 a1 a4 = Cert.KernelIdeal.Host0.xnArrK (F := Ideal) a0 a1 a4 := rfl

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.RefValue.ref_run m ρ)

/-- The idealization rewrote nothing. -/
theorem preserves : Cert.preserves_Kernel_KernelIdeal := trivial

/-- From memories agreeing on the arguments both programs end with the network's output: the tiled formulation on the kernel's
    side, the plain one on the reference's, one function. -/
theorem algebraic : Cert.algebraic_KernelIdeal_ReferenceIdeal := by
  intro m ρ m' ρ' _ hagree
  refine ⟨fun c => fun i => Gnn.kerForm (Cert.KernelIdeal.KValue.G m ρ c) (Cert.KernelIdeal.KValue.xn m ρ c) (Cert.KernelIdeal.KValue.P m ρ c) (i 0), ?_, ?_⟩
  · refine (θ_run Cert.KernelIdeal.defs _ _).mono (fun r h c => ⟨?_, (h c _ (Cert.KernelIdeal.Run.mem_uc Cert.KernelIdeal.main_arg0 (by decide))).trans (Cert.KernelIdeal.Run.W11_main_arg0 m ρ c),
      (h c _ (Cert.KernelIdeal.Run.mem_uc Cert.KernelIdeal.main_arg1 (by decide))).trans (Cert.KernelIdeal.Run.W11_main_arg1 m ρ c),
      (h c _ (Cert.KernelIdeal.Run.mem_uc Cert.KernelIdeal.main_arg2 (by decide))).trans (Cert.KernelIdeal.Run.W11_main_arg2 m ρ c),
      (h c _ (Cert.KernelIdeal.Run.mem_uc Cert.KernelIdeal.main_arg3 (by decide))).trans (Cert.KernelIdeal.Run.W11_main_arg3 m ρ c),
      (h c _ (Cert.KernelIdeal.Run.mem_uc Cert.KernelIdeal.main_arg4 (by decide))).trans (Cert.KernelIdeal.Run.W11_main_arg4 m ρ c),
      (h c _ (Cert.KernelIdeal.Run.mem_uc Cert.KernelIdeal.main_arg5 (by decide))).trans (Cert.KernelIdeal.Run.W11_main_arg5 m ρ c),
      (h c _ (Cert.KernelIdeal.Run.mem_uc Cert.KernelIdeal.main_arg6 (by decide))).trans (Cert.KernelIdeal.Run.W11_main_arg6 m ρ c),
      (h c _ (Cert.KernelIdeal.Run.mem_uc Cert.KernelIdeal.main_arg7 (by decide))).trans (Cert.KernelIdeal.Run.W11_main_arg7 m ρ c),
      (h c _ (Cert.KernelIdeal.Run.mem_uc Cert.KernelIdeal.main_arg8 (by decide))).trans (Cert.KernelIdeal.Run.W11_main_arg8 m ρ c),
      (h c _ (Cert.KernelIdeal.Run.mem_uc Cert.KernelIdeal.main_arg9 (by decide))).trans (Cert.KernelIdeal.Run.W11_main_arg9 m ρ c),
      (h c _ (Cert.KernelIdeal.Run.mem_uc Cert.KernelIdeal.main_arg10 (by decide))).trans (Cert.KernelIdeal.Run.W11_main_arg10 m ρ c),
      (h c _ (Cert.KernelIdeal.Run.mem_uc Cert.KernelIdeal.main_arg11 (by decide))).trans (Cert.KernelIdeal.Run.W11_main_arg11 m ρ c),
      (h c _ (Cert.KernelIdeal.Run.mem_uc Cert.KernelIdeal.main_arg12 (by decide))).trans (Cert.KernelIdeal.Run.W11_main_arg12 m ρ c),
      (h c _ (Cert.KernelIdeal.Run.mem_uc Cert.KernelIdeal.main_arg13 (by decide))).trans (Cert.KernelIdeal.Run.W11_main_arg13 m ρ c),
      (h c _ (Cert.KernelIdeal.Run.mem_uc Cert.KernelIdeal.main_arg14 (by decide))).trans (Cert.KernelIdeal.Run.W11_main_arg14 m ρ c),
      (h c _ (Cert.KernelIdeal.Run.mem_uc Cert.KernelIdeal.main_arg15 (by decide))).trans (Cert.KernelIdeal.Run.W11_main_arg15 m ρ c),
      (h c _ (Cert.KernelIdeal.Run.mem_uc Cert.KernelIdeal.main_arg16 (by decide))).trans (Cert.KernelIdeal.Run.W11_main_arg16 m ρ c),
      (h c _ (Cert.KernelIdeal.Run.mem_uc Cert.KernelIdeal.main_arg17 (by decide))).trans (Cert.KernelIdeal.Run.W11_main_arg17 m ρ c),
      (h c _ (Cert.KernelIdeal.Run.mem_uc Cert.KernelIdeal.main_arg18 (by decide))).trans (Cert.KernelIdeal.Run.W11_main_arg18 m ρ c)⟩) (Cert.KernelIdeal.Run.run (F := Ideal) m ρ)
    exact (h c _ (Cert.KernelIdeal.Run.mem_uc Cert.KernelIdeal.main_v136 (by decide))).trans (Cert.KernelIdeal.KValue.result m ρ c)
  · refine (θ_run Cert.ReferenceIdeal.defs _ _).mono (fun r h c => ⟨(h c).1.trans ?_, (h c).2⟩) (Cert.ReferenceIdeal.RefValue.ref_run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    funext i
    rw [src_eq, dst_eq, xn_eq]
    exact (Gnn.kerForm_eq_refForm _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
